-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S50000x16 : Shape := ⟨2, ![50000, 16]⟩
abbrev S144x128 : Shape := ⟨2, ![144, 128]⟩
abbrev S128 : Shape := ⟨1, ![128]⟩
abbrev S128x128 : Shape := ⟨2, ![128, 128]⟩
abbrev S256x128 : Shape := ⟨2, ![256, 128]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S256x64 .f32) (main_arg15 : FVec F S64 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x64 .f32 := Host.absf main_arg14
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128 .f32) (main_arg10 : FVec F S256x128 .f32) (main_arg11 : FVec F S128 .f32) (main_arg12 : FVec F S256x128 .f32) (main_arg13 : FVec F S128 .f32) (main_arg14 : FVec F S256x64 .f32) (main_arg15 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S256x128 .f32) (main_arg13 : FVec F S128 .f32) (main_arg14 : FVec F S256x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S50000x16 .f32) (main_arg4 : FVec F S144x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S256x128 .f32) (main_arg13 : FVec F S128 .f32) (main_arg14 : FVec F S256x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x16 .f32 := Host.absf main_arg3
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S144x128 .f32 := Host.absf main_arg4
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S50000x16 : Shape := ⟨2, ![50000, 16]⟩
abbrev S144x128 : Shape := ⟨2, ![144, 128]⟩
abbrev S128 : Shape := ⟨1, ![128]⟩
abbrev S128x128 : Shape := ⟨2, ![128, 128]⟩
abbrev S256x128 : Shape := ⟨2, ![256, 128]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x144 : Shape := ⟨2, ![50000, 144]⟩
abbrev S_ : Shape := ⟨0, ![]⟩
abbrev S800000x1 : Shape := ⟨2, ![800000, 1]⟩
abbrev S1x128 : Shape := ⟨2, ![1, 128]⟩
abbrev S2000x144 : Shape := ⟨2, ![2000, 144]⟩
abbrev S2000x128 : Shape := ⟨2, ![2000, 128]⟩
abbrev S800000x128 : Shape := ⟨2, ![800000, 128]⟩
abbrev S50000x1 : Shape := ⟨2, ![50000, 1]⟩
abbrev S128x64 : Shape := ⟨2, ![128, 64]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 150
  | .vmem => 48
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000x16, .f32⟩
  | 4 => ⟨S144x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S256x128, .f32⟩
  | 13 => ⟨S128, .f32⟩
  | 14 => ⟨S256x64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S50000x144, .f32⟩
  | 21 => ⟨S_, .f32⟩
  | 22 => ⟨S800000, .f32⟩
  | 23 => ⟨S_, .f32⟩
  | 24 => ⟨S50000, .f32⟩
  | 25 => ⟨S800000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S50000, .f32⟩
  | 51 => ⟨S_, .f32⟩
  | 52 => ⟨S1x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x1, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S128x128, .f32⟩
  | 79 => ⟨S128x128, .f32⟩
  | 80 => ⟨S1x128, .f32⟩
  | 81 => ⟨S1x128, .f32⟩
  | 82 => ⟨S1x128, .f32⟩
  | 83 => ⟨S50000x128, .f32⟩
  | 84 => ⟨S_, .f32⟩
  | 85 => ⟨S1x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S800000x1, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x1, .f32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S128x128, .f32⟩
  | 112 => ⟨S128x128, .f32⟩
  | 113 => ⟨S1x128, .f32⟩
  | 114 => ⟨S1x128, .f32⟩
  | 115 => ⟨S1x128, .f32⟩
  | 116 => ⟨S50000x128, .f32⟩
  | 117 => ⟨S_, .f32⟩
  | 118 => ⟨S1x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S800000x1, .f32⟩
  | 2 => ⟨S800000x128, .f32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S128x64, .f32⟩
  | 17 => ⟨S128x64, .f32⟩
  | 18 => ⟨S1x64, .f32⟩
  | 19 => ⟨S1x64, .f32⟩
  | 20 => ⟨S1x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x144, .f32⟩
  | .local _ .vmem, ⟨1, _⟩ => ⟨S2000x144, .f32⟩
  | .local _ .vmem, ⟨2, _⟩ => ⟨S144x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S128x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_13 : Ref sig .tc := ⟨.hbm, 117, rfl⟩
abbrev main_v86 : Ref sig .tc := ⟨.hbm, 118, rfl⟩
abbrev main_v87 : Ref sig .tc := ⟨.hbm, 119, rfl⟩
abbrev main_c_14 : Ref sig .tc := ⟨.hbm, 120, rfl⟩
abbrev main_v88 : Ref sig .tc := ⟨.hbm, 121, rfl⟩
abbrev main_v89 : Ref sig .tc := ⟨.hbm, 122, rfl⟩
abbrev main_c_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_scratch0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_scratch0 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg3_0 : Ref sig .tc := ⟨.vmem, 46, rfl⟩
abbrev cc8_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem3_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc8_sem0_0 : DmaSem sig := 39
abbrev cc8_sem0_1 : DmaSem sig := 40
abbrev cc8_sem1_0 : DmaSem sig := 41
abbrev cc8_sem2_0 : DmaSem sig := 42
abbrev cc8_sem3_0 : DmaSem sig := 43
abbrev cc8_sem3_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v12 : BitVec 1 := Scalar.cmpi .eq arg0 c24_i32
  let v13 : BitVec 32 := Scalar.extui v12
  let c0_i32_6 : BitVec 32 := 0#32
  let v14 : BitVec 1 := Scalar.cmpi .ne v13 c0_i32_6
  v14

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x128_S50000x16_S50000x144_d1 : Shape.Concatenates [S50000x128, S50000x16] S50000x144 1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S1x128 : S_.BroadcastsInDim S1x128 (![] : Fin 0 → Fin S1x128.rank)
  inb_S2000x144_S2000x144_0_0 : ∀ a, (![0, 0] : Fin 2 → Nat) a + S2000x144.size a ≤ S2000x144.size a
  h_S2000x144 : 0 < S2000x144.numel
  shapeCasts_S2000x144_S2000x144 : S2000x144.ShapeCasts S2000x144
  bitsLt_bf16_f32 : FTy.bits .bf16 < FTy.bits .f32
  inb_S144x128_S144x128_0_0 : ∀ a, (![0, 0] : Fin 2 → Nat) a + S144x128.size a ≤ S144x128.size a
  h_S144x128 : 0 < S144x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  reduces_S2000x128_S128 : S2000x128.Reduces [0] S128
  shapeCasts_S128_S1x128 : S128.ShapeCasts S1x128
  slices_S256x128_S128x128_0_0 : S256x128.Slices ![0, 0] S128x128
  slices_S256x128_S128x128_128_0 : S256x128.Slices ![128, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S256x64_S128x64_0_0 : S256x64.Slices ![0, 0] S128x64
  slices_S256x64_S128x64_128_0 : S256x64.Slices ![128, 0] S128x64
  bcast_S64_S1x64_1 : S64.BroadcastsInDim S1x64 (![1] : Fin 1 → Fin S1x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x144_S144x128_S2000x128_1_0_0_1_n_n_wf : DotDims.WF S2000x144 S144x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1x128_S128x128_S1x128_1_0_0_1_n_n_wf : DotDims.WF S1x128 S128x128 S1x128 [1] [0] [0] [1] [] []
  dot_S2000x128_S128x128_S2000x128_1_0_0_1_n_n_wf : DotDims.WF S2000x128 S128x128 S2000x128 [1] [0] [0] [1] [] []
  dot_S1x128_S128x64_S1x64_1_0_0_1_n_n_wf : DotDims.WF S1x128 S128x64 S1x64 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x144.size a ≤ S50000x144.size a
  hwx0_0 : ∀ i : grid0.Coords, EltTy.bits .f32 = 32 ∨ (Rect.block (s := S50000x144) S2000x144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S144x128.size a ≤ S144x128.size a
  hwx0_1 : ∀ i : grid0.Coords, EltTy.bits .f32 = 32 ∨ (Rect.block (s := S144x128) S144x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x64.size a ≤ S50000x64.size a
  hwx8_3 : ∀ i : grid8.Coords, EltTy.bits .f32 = 32 ∨ (Rect.block (s := S50000x64) S2000x64.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x144_S144x128_S2000x128_1_0_0_1_n_n : DotDims S2000x144 S144x128 S2000x128 where
  lhsContracting := [1]
  rhsContracting := [0]
  lhsNonContracting := [0]
  rhsNonContracting := [1]
  lhsBatch := []
  rhsBatch := []
  wf := dot_S2000x144_S144x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1x128_S128x64_S1x64_1_0_0_1_n_n : DotDims S1x128 S128x64 S1x64 where
  lhsContracting := [1]
  rhsContracting := [0]
  lhsNonContracting := [0]
  rhsNonContracting := [1]
  lhsBatch := []
  rhsBatch := []
  wf := dot_S1x128_S128x64_S1x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v4) S2000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S144x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v78) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S1x128.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

abbrev win5_0 : Pipeline.Window sig grid5 :=
  Pipeline.Window.ofSpec (Memref.whole main_v78) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v85) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v107) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x128.size cc7_transform_1 reads7_1 true true 1 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

abbrev idle7 : Fin 2 → grid7.Coords → Bool := fun | 0 => fun _ => false | 1 => fun i => !(k7_cond2 i == 1#1) | ⟨_ + 2, h⟩ => absurd h (Nat.not_lt.2 (Nat.le_add_left _ _))

abbrev win8_0 : Pipeline.Window sig grid8 :=
  Pipeline.Window.ofSpec (Memref.whole main_v107) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v109) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S2000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S50000x16 : Shape := ⟨2, ![50000, 16]⟩
abbrev S144x128 : Shape := ⟨2, ![144, 128]⟩
abbrev S128 : Shape := ⟨1, ![128]⟩
abbrev S128x128 : Shape := ⟨2, ![128, 128]⟩
abbrev S256x128 : Shape := ⟨2, ![256, 128]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x144 : Shape := ⟨2, ![50000, 144]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x256 : Shape := ⟨2, ![50000, 256]⟩
abbrev S50000x64 : Shape := ⟨2, ![50000, 64]⟩
abbrev S1x64 : Shape := ⟨2, ![1, 64]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S50000x16, .f32⟩
  | 4 => ⟨S144x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S256x128, .f32⟩
  | 13 => ⟨S128, .f32⟩
  | 14 => ⟨S256x64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S50000x144, .f32⟩
  | 21 => ⟨S50000x128, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S1x128, .f32⟩
  | 78 => ⟨S50000x128, .f32⟩
  | 79 => ⟨S50000x256, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S_, .f32⟩
  | 89 => ⟨S800000, .f32⟩
  | 90 => ⟨S_, .f32⟩
  | 91 => ⟨S50000, .f32⟩
  | 92 => ⟨S800000x1, .i32⟩
  | 93 => ⟨S50000, .f32⟩
  | 94 => ⟨S_, .f32⟩
  | 95 => ⟨S50000, .f32⟩
  | 96 => ⟨S50000, .f32⟩
  | 97 => ⟨S50000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x1, .f32⟩
  | 127 => ⟨S800000x128, .f32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S50000, .f32⟩
  | 6 => ⟨S50000x1, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S1x128, .f32⟩
  | 16 => ⟨S50000x128, .f32⟩
  | 17 => ⟨S50000x256, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x1, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S1x128, .f32⟩
  | 82 => ⟨S50000x128, .f32⟩
  | 83 => ⟨S50000x256, .f32⟩
  | 84 => ⟨S50000x64, .f32⟩
  | 85 => ⟨S1x64, .f32⟩
  | 86 => ⟨S50000x64, .f32⟩
  | 87 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call0_cst : Ref sig .tc := ⟨.hbm, 84, rfl⟩
abbrev main_call0_v0 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_c_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_19 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call1_cst : Ref sig .tc := ⟨.hbm, 150, rfl⟩
abbrev main_call1_v0 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_v112 : Ref sig .tc := ⟨.hbm, 155, rfl⟩
abbrev main_cst_21 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_22 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_c_23 : Ref sig .tc := ⟨.hbm, 164, rfl⟩
abbrev main_v119 : Ref sig .tc := ⟨.hbm, 165, rfl⟩
abbrev main_v120 : Ref sig .tc := ⟨.hbm, 166, rfl⟩
abbrev main_c_24 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_25 : Ref sig .tc := ⟨.hbm, 173, rfl⟩
abbrev main_v126 : Ref sig .tc := ⟨.hbm, 174, rfl⟩
abbrev main_v127 : Ref sig .tc := ⟨.hbm, 175, rfl⟩
abbrev main_c_26 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_c_27 : Ref sig .tc := ⟨.hbm, 183, rfl⟩
abbrev main_v134 : Ref sig .tc := ⟨.hbm, 184, rfl⟩
abbrev main_v135 : Ref sig .tc := ⟨.hbm, 185, rfl⟩
abbrev main_c_28 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_29 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_30 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x128_S50000x16_S50000x144_d1 : Shape.Concatenates [S50000x128, S50000x16] S50000x144 1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  concatenates_S50000x128_S50000x128_S50000x256_d1 : Shape.Concatenates [S50000x128, S50000x128] S50000x256 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x144_S144x128_S50000x128_1_0_0_1_n_n_wf : DotDims.WF S50000x144 S144x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S50000x256_S256x64_S50000x64_1_0_0_1_n_n_wf : DotDims.WF S50000x256 S256x64 S50000x64 [1] [0] [0] [1] [] []

variable [Facts₀]

def dot_S50000x144_S144x128_S50000x128_1_0_0_1_n_n : DotDims S50000x144 S144x128 S50000x128 where
  lhsContracting := [1]
  rhsContracting := [0]
  lhsNonContracting := [0]
  rhsNonContracting := [1]
  lhsBatch := []
  rhsBatch := []
  wf := dot_S50000x144_S144x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelLinear0.lean ====
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Ring
import Idealize.ShloMosaic.Lib.Tactic

/-!
# The first dense map, one row tile at a time

The first kernel region computes `a · W + b` for a 50000 × 144 matrix `a`, a 144 × 128 weight `W` and a
one-row bias `b`, in 25 steps of 2000 rows. At step `t` it sees four blocks: rows `2000 t … 2000 t + 1999`
of `a`, all of `W`, all of `b`, and the matching 2000 rows of the result. The weight and the bias do not depend
on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row tile of `a` is in its buffer at every step (it is brought in at every step). Stated for any proof data
    with `V`'s array that leaves the tile in place. -/
theorem held0_0_of {c : Dev nD} (dat : Dat τ (Elt F) Unit ℕ (UR sig nD τ) ℕ cfg0 c)
    (hA : dat.A 0 = V c (Pipeline.arrRef spec0 0)) (hafter : ∀ t, dat.after 0 t = tileBlock0 V c 0 t)
    (t : Fin cfg0.N) (d) : dat.before 0 t d = tileBlock0 V c 0 t :=
  (dat.before_in_eq_fetched 0 rfl (fun _ => rfl) (fun _ _ _ => rfl)
    (fun t => by rw [hafter]; unfold Dat.blockOf tileBlock0; rw [hA]; try rfl) t d).trans
    (by unfold Dat.fetched Dat.blockOf tileBlock0; rw [hA]; try rfl)

/-- The weight is in its buffer at every step although it is brought in only at the first: its index map is constant,
    so at a later step the block already there is still the block wanted. -/
theorem held0_1_of {c : Dev nD} (dat : Dat τ (Elt F) Unit ℕ (UR sig nD τ) ℕ cfg0 c)
    (hA : dat.A 1 = V c (Pipeline.arrRef spec0 1)) (hafter : ∀ t, dat.after 1 t = tileBlock0 V c 1 t)
    (t : Fin cfg0.N) (d) : dat.before 1 t d = tileBlock0 V c 1 t :=
  (dat.before_in_eq_fetched 1 rfl (fun _ => rfl) (fun _ _ _ => rfl)
    (fun t => by rw [hafter]; unfold Dat.blockOf tileBlock0; rw [hA]; try rfl) t d).trans
    (by unfold Dat.fetched Dat.blockOf tileBlock0; rw [hA]; try rfl)

/-- The same for the bias row. -/
theorem held0_2_of {c : Dev nD} (dat : Dat τ (Elt F) Unit ℕ (UR sig nD τ) ℕ cfg0 c)
    (hA : dat.A 2 = V c (Pipeline.arrRef spec0 2)) (hafter : ∀ t, dat.after 2 t = tileBlock0 V c 2 t)
    (t : Fin cfg0.N) (d) : dat.before 2 t d = tileBlock0 V c 2 t :=
  (dat.before_in_eq_fetched 2 rfl (fun _ => rfl) (fun _ _ _ => rfl)
    (fun t => by rw [hafter]; unfold Dat.blockOf tileBlock0; rw [hA]; try rfl) t d).trans
    (by unfold Dat.fetched Dat.blockOf tileBlock0; rw [hA]; try rfl)

/-! ## What one step writes -/

/-- The whole of a 2000 × 144 buffer, of the weight's, of the bias row's and of a 2000 × 128 buffer, as rectangles. -/
abbrev allA0 : Rect S2000x144 := Rect.unit (s := S2000x144) ![0, 0] S2000x144.size inb_S2000x144_S2000x144_0_0
abbrev allW0 : Rect S144x128 := Rect.unit (s := S144x128) ![0, 0] S144x128.size inb_S144x128_S144x128_0_0
abbrev allB0 : Rect S1x128 := Rect.unit (s := S1x128) ![0, 0] S1x128.size inb_S1x128_S1x128_0_0
abbrev allO0 : Rect S2000x128 := Rect.unit (s := S2000x128) ![0, 0] S2000x128.size inb_S2000x128_S2000x128_0_0

/-- The result block after one step, from the three input blocks: the step makes one store, of the whole block, of
    `a · W + b` computed from the whole input blocks. -/
def tileOut0 (a : Vec F S2000x144 .f32) (w : Vec F S144x128 .f32) (b : Vec F S1x128 .f32) : Vec F S2000x128 .f32 :=
  View.canon [⟨allO0, k0_pay1 (View.ld a allA0) (View.ld w allW0) (View.ld b allB0)⟩]

/-- That one store reaches every entry of the result block. -/
theorem covers0 (p : Vec F S2000x128 .f32) (y : S2000x128.Idx) :
    ∃ pc ∈ ([⟨allO0, p⟩] : List (View.Piece (Elt F) S2000x128 .f32)), y ∈ pc.1.set :=
  View.cover_of_tiled [⟨allO0, p⟩] S2000x128.size (by rfl) y

/-! ## One step of the kernel -/

set_option maxHeartbeats 1000000 in
/-- Run on four whole buffers, the first three holding `a`, `w`, `b` and the fourth anything, the kernel ends with the
    first three unchanged and the fourth holding `tileOut0 a w b`. (It reads the fourth once before overwriting it;
    what it reads there is not used.) -/
theorem kernel_triple0 (c : Dev nD) (E : Set ℕ) (i : grid0.Coords)
    (m1 : Memref sig .tc .vmem S2000x144 .f32) (h1 : m1.IsWhole) (m2 : Memref sig .tc .vmem S144x128 .f32) (h2 : m2.IsWhole)
    (m3 : Memref sig .tc .vmem S1x128 .f32) (h3 : m3.IsWhole) (m4 : Memref sig .tc .vmem S2000x128 .f32) (h4 : m4.IsWhole)
    (a : Vec F S2000x144 .f32) (w : Vec F S144x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut0 a w b)) -∗ K ⟨⟩))
      ⊢ wp frame (wpE (defs₀ (F := F)) Variants.none c none) E (cc0__linear_kernel i m1 h1 m2 h2 m3 h3 m4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers0 _)

/-! ## The proof data of the region -/

/-- The arrays are `V`'s; after step `t` the three input windows hold their blocks still and the result window holds
    `tileOut0` of them; the invariant is the rest of the core's memory, left alone; nothing is owed and every buffer
    is owned in full. -/
def dat0 (c : Dev nD) : Dat τ (Elt F) Unit ℕ (UR sig nD τ) ℕ cfg0 c where
  A w := V c (Pipeline.arrRef spec0 w)
  after w t := match w with
    | ⟨0, _⟩ => tileBlock0 V c 0 t
    | ⟨1, _⟩ => tileBlock0 V c 1 t
    | ⟨2, _⟩ => tileBlock0 V c 2 t
    | ⟨3, _⟩ => tileOut0 (tileBlock0 V c 0 t) (tileBlock0 V c 1 t) (tileBlock0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tileBlock0 V c 0 t := by dsimp only [dat0]
theorem after0_1 (c : Dev nD) (t : Fin cfg0.N) : (dat0 V c).after 1 t = tileBlock0 V c 1 t := by dsimp only [dat0]
theorem after0_2 (c : Dev nD) (t : Fin cfg0.N) : (dat0 V c).after 2 t = tileBlock0 V c 2 t := by dsimp only [dat0]
theorem after0_3 (c : Dev nD) (t : Fin cfg0.N) :
    (dat0 V c).after 3 t = tileOut0 (tileBlock0 V c 0 t) (tileBlock0 V c 1 t) (tileBlock0 V c 2 t) := by dsimp only [dat0]

/-- What each input buffer holds when the step starts: its block. -/
theorem held0_0 (c : Dev nD) (t : Fin cfg0.N) (d) : (dat0 V c).before 0 t d = tileBlock0 V c 0 t :=
  held0_0_of V (dat0 V c) (A_eq0 V c 0) (after0_0 V c) t d
theorem held0_1 (c : Dev nD) (t : Fin cfg0.N) (d) : (dat0 V c).before 1 t d = tileBlock0 V c 1 t :=
  held0_1_of V (dat0 V c) (A_eq0 V c 1) (after0_1 V c) t d
theorem held0_2 (c : Dev nD) (t : Fin cfg0.N) (d) : (dat0 V c).before 2 t d = tileBlock0 V c 2 t :=
  held0_2_of V (dat0 V c) (A_eq0 V c 2) (after0_2 V c) t d

/-! ## One step, as the pipeline asks for it -/

/-- What the step is given: the invariant, the debt, and the four current buffers, -/
def stepPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it gives back. -/
def stepPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The step at any point of the grid: the input buffers hold their blocks, so the kernel's triple applies; the invariant
    and the debt are not looked at. -/
theorem step_triple0 (c : Dev nD) (t : Fin cfg0.N) :
    stepPre0 V c t ⊢ wp frame (wpE (defs₀ (F := F)) Variants.none c none) Set.univ (bodyAt0 t) (fun _ => stepPost0 V c t) := by
  unfold stepPre0 stepPost0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (kernel_triple0 c Set.univ _ _ _ _ _ _ _ _ _ (tileBlock0 V c 0 t) (tileBlock0 V c 1 t) (tileBlock0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation0 (c : Dev nD) : BodyObligation (dat0 (F := F) V c) (defs₀ (F := F)) Variants.none () Set.univ := fun t => by
  rw [bigSep_W0, bigSep_W0]
  exact step_triple0 V c t

end Cert.Kernel.Regions
-- ==== Proof.KernelPool1.lean ====
/-
  The first row-maximum region.

  The region walks the 25 row tiles of a [50000,128] array, 2000 rows each, and leaves in a [1,128] row the
  columnwise maximum of all of them. A one-row scratch buffer carries the running maximum from point to point: at
  the first point it is reset to minus infinity, at every point the columnwise maximum of the current tile is joined
  into it, and at the last point it is copied to the output row, which is written back only there.

  So the output window's staging row is untouched at every point but the last, and the state that matters between
  points lives in the scratch row: the invariant before point n says that the scratch row holds the running maximum
  of tiles 0 … n-1 (anything, before the first point). The running maximum is the recursion

      runMax1 0 = -inf row,   runMax1 (n+1) = max (runMax1 n) (columnwise max of tile n),

  spelt through the body's own two payloads. The body is run once for each of its three control cases (first point,
  a middle point, last point) on symbolic whole memrefs, and the obligation at a point picks the case from the
  point's position, the two conditions being decided over the grid in closed form.
-/
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Tactic

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape loads and stores

A rectangle of the full sizes at offset zero is the whole shape: a load through it reads the contents, and a store
through it, made last, leaves exactly its payload whatever was stored before. -/

theorem zeros2 : (![0, 0] : Fin 2 → Nat) = fun _ => 0 := funext fun a => by fin_cases a <;> rfl

section Whole

variable {sg : RefSig} {κ : Kind} {sp : Space} {S : Shape} {e : EltTy} {Val : EltTy → Type}

/-- A load through the full rectangle reads what the view reads. -/
theorem readAt_full (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-- A store through the full rectangle, made last, leaves its payload. -/
theorem read_writes_full (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Whole

/-! ## The body's two conditions, over the grid -/

/-- The condition of the body's first branch (the reset of the scratch row), from the grid coordinates. -/
abbrev first1 (i : grid1.Coords) : Prop :=
  (Scalar.cmpi .ne (Scalar.extui (Scalar.cmpi .eq (BitVec.ofNat 32 (i 0).val) 0#32)) 0#32) = 1#1

/-- It holds at the first point only. -/
theorem first1_iff : ∀ t : Fin cfg1.N, first1 (grid1.coords t) ↔ t.val = 0 :=
  (by decide +kernel : ∀ t : Fin grid1.N, first1 (grid1.coords t) ↔ t.val = 0)

/-- The second branch (the copy to the output row) is taken at the last point only. -/
theorem last1_iff : ∀ t : Fin cfg1.N, k1_cond2 (grid1.coords t) = 1#1 ↔ t.val = 24 :=
  (by decide +kernel : ∀ t : Fin grid1.N, k1_cond2 (grid1.coords t) = 1#1 ↔ t.val = 24)

/-! ## The body, once per control case

Each on whole memrefs held at named contents: the tile's buffer at `x0`, the scratch row at `xs`, the output row
(where the case touches it) at `xo`. -/

/-- A middle point: neither branch is taken; the scratch row ends at the tile's columnwise maximum joined with what it
    held, and nothing else is written. -/
theorem poolRun1_mid (c : Dev nD) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first1 i) (h2 : ¬ k1_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k1_pay2 x0 xs)) -∗ K ⟨⟩))
      ⊢ wp frame (wpE (defs₀ (F := F)) Variants.none c none) Set.univ (cc1__max_pool_kernel i arg1 harg1 arg2 harg2 arg3 harg3) K := by
  simp only [cc1__max_pool_kernel_eq_skeleton]; unfold cc1__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  rw [read_writes_full _ _ zeros2, readAt_full _ _ zeros2, readAt_full _ _ zeros2, hf0, hf3]

/-- The first point: the scratch row is first reset to minus infinity, so it ends at the tile's columnwise maximum
    joined with minus infinity, whatever it held. -/
theorem poolRun1_first (c : Dev nD) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : first1 i) (h2 : ¬ k1_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k1_pay2 x0 (k1_pay1 (F := F)))) -∗ K ⟨⟩))
      ⊢ wp frame (wpE (defs₀ (F := F)) Variants.none c none) Set.univ (cc1__max_pool_kernel i arg1 harg1 arg2 harg2 arg3 harg3) K := by
  simp only [cc1__max_pool_kernel_eq_skeleton]; unfold cc1__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  unfold poolRun1_first.sl.v7 poolRun1_first.sl.H3_1
  rw [read_writes_full _ _ zeros2, readAt_full _ _ zeros2, hf0, View.readCov_cons_toLoadRect]

/-- The last point: as a middle point, and then the scratch row is copied to the output row. -/
theorem poolRun1_last (c : Dev nD) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first1 i) (h2 : k1_cond2 i = 1#1)
    (x0 : Vec F S2000x128 .f32) (xo : Vec F S1x128 .f32) (xs : Vec F S1x128 .f32) (K : PUnit → sProp 𝕄) :
    iprop(owns (c : Thread nD τ) arg1 fullShare x0 ∗ owns (c : Thread nD τ) arg2 fullShare xo ∗ owns (c : Thread nD τ) arg3 fullShare xs
        ∗ (iprop(owns (c : Thread nD τ) arg1 fullShare x0 ∗ owns (c : Thread nD τ) arg2 fullShare (k1_pay2 x0 xs)
            ∗ owns (c : Thread nD τ) arg3 fullShare (k1_pay2 x0 xs)) -∗ K ⟨⟩))
      ⊢ wp frame (wpE (defs₀ (F := F)) Variants.none c none) Set.univ (cc1__max_pool_kernel i arg1 harg1 arg2 harg2 arg3 harg3) K := by
  simp only [cc1__max_pool_kernel_eq_skeleton]; unfold cc1__max_pool_kernel_skel
  unfold owns
  iintro ⟨⟨%f0, %hf0, H0⟩, ⟨%f2, %hf2, H2⟩, ⟨%f3, %hf3, H3⟩, Hk⟩
  obtain rfl := harg1.eq_unread hf0; obtain rfl := harg2.eq_unread hf2; obtain rfl := harg3.eq_unread hf3
  sl_exec (disch := first | exact h1 | exact h2)
  sl_step
  iapply Hk
  isplitl [H0]
  · iexists _; isplitr; · ipureintro; exact hf0
    iexact H0
  isplitl [H2]
  · iexists _; isplitr; swap; · iexact H2
    ipureintro
    unfold poolRun1_last.sl.v15 poolRun1_last.sl.H3_1
    rw [read_writes_full _ _ zeros2, View.readCov_cons_toLoadRect, readAt_full _ _ zeros2, readAt_full _ _ zeros2, hf0, hf3]
  iexists _; isplitr; swap; · iexact H3
  ipureintro
  unfold poolRun1_last.sl.H3_1
  rw [read_writes_full _ _ zeros2, readAt_full _ _ zeros2, readAt_full _ _ zeros2, hf0, hf3]

/-! ## The proof data -/

section Data

variable (V : (c : Dev nD) → (b : Ref sig .tc) → Buf (Elt F) ((c : Thread nD τ).loc b))

/-- Window `w`'s block at point `t`, read off the arrays as the region finds them. -/
def poolBlock1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The running maximum after `n` points: minus infinity before any, then the columnwise maximum of the row tile
    of point `n` joined with what the points before left. -/
def runMax1 (c : Dev nD) : ℕ → Vec F S1x128 .f32
  | 0 => k1_pay1
  | n + 1 => if h : n < cfg1.N then k1_pay2 (poolBlock1 V c 0 ⟨n, h⟩) (runMax1 c n) else runMax1 c n

theorem runMax1_zero (c : Dev nD) : runMax1 V c 0 = k1_pay1 (F := F) := rfl

theorem runMax1_succ (c : Dev nD) (n : ℕ) (h : n < cfg1.N) :
    runMax1 V c (n + 1) = k1_pay2 (poolBlock1 V c 0 ⟨n, h⟩) (runMax1 V c n) := by
  rw [runMax1, dif_pos h]

/-- What of the scoped rest the region does not name, and the generator register. -/
abbrev poolRest1 (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

/-- The invariant before point `n`: the scratch row holds anything before the first point and the running maximum
    of the points so far afterwards. -/
def poolInv1 (c : Dev nD) : ℕ → sProp 𝕄
  | 0 => iprop((∃ f : Buf (Elt F) ((c : Thread nD τ).loc cc1_scratch0), ((c : Thread nD τ).loc cc1_scratch0) ↦{fullShare} f)
      ∗ poolRest1 c)
  | n + 1 => iprop((((c : Thread nD τ).loc cc1_scratch0) ↦{fullShare} (runMax1 V c (n + 1)))
      ∗ poolRest1 c)

/-- The proof data of the region on core `c`. -/
def dat1 (c : Dev nD) : Dat τ (Elt F) Unit ℕ (UR sig nD τ) ℕ cfg1 c where
  A w := V c (Pipeline.arrRef spec1 w)
  after w t := match w with
    | ⟨0, _⟩ => poolBlock1 V c 0 t
    | ⟨1, _⟩ => runMax1 V c (t.val + 1)
  Φ t := poolInv1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = poolBlock1 V c 0 t := by dsimp only [dat1]
theorem after1_1 (c : Dev nD) (t : Fin cfg1.N) : (dat1 V c).after 1 t = runMax1 V c (t.val + 1) := by dsimp only [dat1]

theorem Phi1_at (c : Dev nD) (t : Fin (cfg1.N + 1)) : (dat1 V c).Φ t = poolInv1 V c t.val := rfl

theorem Phi1_zero (c : Dev nD) : (dat1 V c).Φ 0 =
    iprop((∃ f : Buf (Elt F) ((c : Thread nD τ).loc cc1_scratch0), ((c : Thread nD τ).loc cc1_scratch0) ↦{fullShare} f)
      ∗ Pipeline.scopedRestBut (Ix := Unit) (Name := ℕ) (U := UR sig nD τ) (Lvl := ℕ) (Val := Elt F) spec1 c [cc1_scratch0]
      ∗ ∃ r, prngReg c r) := rfl

theorem Phi1_last (c : Dev nD) : (dat1 V c).Φ (Fin.last cfg1.N) =
    iprop((((c : Thread nD τ).loc cc1_scratch0) ↦{fullShare} (runMax1 V c 25))
      ∗ Pipeline.scopedRestBut (Ix := Unit) (Name := ℕ) (U := UR sig nD τ) (Lvl := ℕ) (Val := Elt F) spec1 c [cc1_scratch0]
      ∗ ∃ r, prngReg c r) := by
  rw [Phi1_at, Fin.val_last, show cfg1.N = 25 from N_1]; rfl

/-- The row tile's staging buffer holds the tile when the body runs: it is fetched at every point. -/
theorem before1_0 (c : Dev nD) (t : Fin cfg1.N) (d) : (dat1 V c).before 0 t d = poolBlock1 V c 0 t := by
  rw [Dat.before_fetched _ 0 t (fetch1_0 t)]
  unfold Dat.fetched Dat.blockOf poolBlock1; rw [A_eq1]; rfl

end Data

/-! ## The body obligation -/

section Obligation

variable (V : (c : Dev nD) → (b : Ref sig .tc) → Buf (Elt F) ((c : Thread nD τ).loc b))

/-- One step of the running maximum, at a point of the grid. -/
theorem runMax1_at (c : Dev nD) (t : Fin cfg1.N) :
    runMax1 V c (t.val + 1) = k1_pay2 (poolBlock1 V c 0 t) (runMax1 V c t.val) :=
  runMax1_succ V c t.val t.isLt

theorem poolInv1_zero (c : Dev nD) : poolInv1 V c 0 =
    iprop((∃ f : Buf (Elt F) ((c : Thread nD τ).loc cc1_scratch0), ((c : Thread nD τ).loc cc1_scratch0) ↦{fullShare} f)
      ∗ poolRest1 c) := rfl

theorem poolInv1_succ (c : Dev nD) (n : ℕ) : poolInv1 V c (n + 1) =
    iprop((((c : Thread nD τ).loc cc1_scratch0) ↦{fullShare} (runMax1 V c (n + 1))) ∗ poolRest1 c) := rfl

/-- Each window's current staging memref at point `t`, as the pipeline passes it to the body. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)

/-- At every point the body takes the invariant and the windows' buffers to the invariant at the next point and
    the buffers at what the proof data say: by the point's position, one of the three runs above. -/
theorem body_obligation1 (c : Dev nD) : BodyObligation (dat1 (F := F) V c) (defs₀ (F := F)) Variants.none () Set.univ := fun t => by
  have hN : t.val < 25 := lt_of_lt_of_eq t.isLt N_1
  rw [bigSep_W1, bigSep_W1]
  by_cases hlast : t.val = 24
  · -- the last point: the maximum is joined once more and copied to the output row
    have hk : k1_cond2 (grid1.coords t) = 1#1 := (last1_iff t).mpr hlast
    have hfirst : ¬ first1 (grid1.coords t) := fun h => by have := (first1_iff t).mp h; omega
    have hi1 : idle1 1 (grid1.coords t) = false := by
      show (!(k1_cond2 (grid1.coords t) == 1#1)) = false
      rw [hk]; rfl
    simp only []
    rw [hi1]
    simp only [before1_0]
    rw [Phi1_at, Phi1_at, after1_0, after1_1, runMax1_at,
      show (dat1 V c).owesAt () t.succ = (dat1 V c).owesAt () t.castSucc from rfl,
      show (t.succ : Fin (cfg1.N + 1)).val = t.val + 1 from rfl, show (t.castSucc : Fin (cfg1.N + 1)).val = t.val from rfl]
    obtain ⟨n, hn⟩ : ∃ n, t.val = n + 1 := ⟨23, hlast⟩
    rw [poolInv1_succ, runMax1_at]
    rw [hn, poolInv1_succ, ← owns_whole, ← owns_whole]
    iintro ⟨⟨Hs, Hrest⟩, Ho, ⟨%d0, H0⟩, ⟨%d1, H1⟩⟩
    iapply (poolRun1_last c (grid1.coords t) (ms1_0 t) (hs1_0 t) (ms1_1 t) (hs1_1 t) (Memref.whole cc1_scratch0)
      (Memref.isWhole_whole _) hfirst hk (poolBlock1 V c 0 t) _ (runMax1 V c (n + 1)) _)
    isplitl [H0]; · iexact H0
    isplitl [H1]; · iexact H1
    isplitl [Hs]; · iexact Hs
    iintro ⟨H0, H1, Hs⟩
    isplitl [Hs Hrest]
    · isplitl [Hs]; · iexact Hs
      iexact Hrest
    isplitl [Ho]; · iexact Ho
    isplitl [H0]; · iexact H0
    iexact H1
  · -- any other point: the output row is handed back as it was found
    have hk : ¬ k1_cond2 (grid1.coords t) = 1#1 := fun h => hlast ((last1_iff t).mp h)
    have hi1 : idle1 1 (grid1.coords t) = true := by
      show (!(k1_cond2 (grid1.coords t) == 1#1)) = true
      simp [hk]
    have hf1 : (cfg1.win 1).flush t = false :=
      Bool.eq_false_iff.mpr fun h => hlast (by have := (flush1_1 t).mp h; omega)
    simp only [hf1]
    rw [hi1]
    simp only [before1_0]
    rw [Phi1_at, Phi1_at, after1_0,
      show (dat1 V c).owesAt () t.succ = (dat1 V c).owesAt () t.castSucc from rfl,
      show (t.succ : Fin (cfg1.N + 1)).val = t.val + 1 from rfl, show (t.castSucc : Fin (cfg1.N + 1)).val = t.val from rfl]
    rw [poolInv1_succ, runMax1_at]
    by_cases h0 : t.val = 0
    · -- the first point: the scratch row is reset to minus infinity before the tile is joined
      have hfirst : first1 (grid1.coords t) := (first1_iff t).mpr h0
      rw [h0, poolInv1_zero, runMax1_zero, ← owns_whole]
      iintro ⟨⟨⟨%fs, Hs⟩, Hrest⟩, Ho, ⟨%d0, H0⟩, ⟨%d1, H1⟩⟩
      iapply (poolRun1_first c (grid1.coords t) (ms1_0 t) (hs1_0 t) (ms1_1 t) (hs1_1 t) (Memref.whole cc1_scratch0)
        (Memref.isWhole_whole _) hfirst hk (poolBlock1 V c 0 t) fs _)
      isplitl [H0]; · iexact H0
      isplitl [Hs]; · rw [owns_whole]; iexact Hs
      iintro ⟨H0, Hs⟩
      isplitl [Hs Hrest]
      · isplitl [Hs]; · iexact Hs
        iexact Hrest
      isplitl [Ho]; · iexact Ho
      isplitl [H0]; · iexact H0
      iexists d1; iexact H1
    · -- a middle point: the tile is joined into the running maximum
      have hfirst : ¬ first1 (grid1.coords t) := fun h => h0 ((first1_iff t).mp h)
      obtain ⟨n, hn⟩ : ∃ n, t.val = n + 1 := ⟨t.val - 1, by omega⟩
      rw [hn, poolInv1_succ, ← owns_whole, ← owns_whole]
      iintro ⟨⟨Hs, Hrest⟩, Ho, ⟨%d0, H0⟩, ⟨%d1, H1⟩⟩
      iapply (poolRun1_mid c (grid1.coords t) (ms1_0 t) (hs1_0 t) (ms1_1 t) (hs1_1 t) (Memref.whole cc1_scratch0)
        (Memref.isWhole_whole _) hfirst hk (poolBlock1 V c 0 t) (runMax1 V c (n + 1)) _)
      isplitl [H0]; · iexact H0
      isplitl [Hs]; · iexact Hs
      iintro ⟨H0, Hs⟩
      isplitl [Hs Hrest]
      · isplitl [Hs]; · iexact Hs
        iexact Hrest
      isplitl [Ho]; · iexact Ho
      isplitl [H0]; · iexact H0
      iexists d1; iexact H1

end Obligation

/-! ## The region's two ends -/

section Ends

variable (V : (c : Dev nD) → (b : Ref sig .tc) → Buf (Elt F) ((c : Thread nD τ).loc b))

/-- Entering: the scratch row is one of the scoped buffers the region does not stage; opened at whatever it holds,
    with the rest and the generator register, it is the invariant before the first point. Anything else is dropped. -/
theorem poolEnter1 (c : Dev nD) (P : sProp 𝕄) :
    iprop((∃ r, prngReg c r) ∗ P
        ∗ Pipeline.scopedRest (Ix := Unit) (Name := ℕ) (U := UR sig nD τ) (Lvl := ℕ) (Val := Elt F) spec1 c)
      ⊢ (dat1 V c).Φ 0 := by
  rw [Phi1_zero, scopedRest1_split]
  iintro ⟨Hr, -, Hs, Hrest⟩
  isplitl [Hs]; · iexact Hs
  isplitl [Hrest]; · iexact Hrest
  iexact Hr

/-- Leaving: the scratch row's contents are forgotten and it rejoins the scoped rest. -/
theorem poolLeave1 (c : Dev nD) :
    (dat1 V c).Φ (Fin.last cfg1.N)
      ⊢ iprop((∃ r, prngReg c r) ∗ (BI.emp : sProp 𝕄)
        ∗ Pipeline.scopedRest (Ix := Unit) (Name := ℕ) (U := UR sig nD τ) (Lvl := ℕ) (Val := Elt F) spec1 c) := by
  rw [Phi1_last, scopedRest1_split]
  iintro ⟨Hs, Hrest, Hr⟩
  isplitl [Hr]; · iexact Hr
  isplitr; · iempintro
  isplitl [Hs]; · iexists _; iexact Hs
  iexact Hrest

end Ends

end Cert.Kernel.Regions

end
-- ==== Proof.KernelLinear2.lean ====
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Ring
import Idealize.ShloMosaic.Lib.Tactic

/-!
# The first layer's update, one row tile at a time

This kernel region computes `max(h · M + b, 0)` entrywise for a 50000 × 128 matrix `h`, a 128 × 128 matrix `M` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row tile of the left factor is in its buffer at every step (it is brought in at every step). Stated for any proof data
    with `V`'s array that leaves the tile in place. -/
theorem held2_0_of {c : Dev nD} (dat : Dat τ (Elt F) Unit ℕ (UR sig nD τ) ℕ cfg2 c)
    (hA : dat.A 0 = V c (Pipeline.arrRef spec2 0)) (hafter : ∀ t, dat.after 0 t = tileBlock2 V c 0 t)
    (t : Fin cfg2.N) (d) : dat.before 0 t d = tileBlock2 V c 0 t :=
  (dat.before_in_eq_fetched 0 rfl (fun _ => rfl) (fun _ _ _ => rfl)
    (fun t => by rw [hafter]; unfold Dat.blockOf tileBlock2; rw [hA]; try rfl) t d).trans
    (by unfold Dat.fetched Dat.blockOf tileBlock2; rw [hA]; try rfl)

/-- The right factor is in its buffer at every step although it is brought in only at the first: its index map is constant,
    so at a later step the block already there is still the block wanted. -/
theorem held2_1_of {c : Dev nD} (dat : Dat τ (Elt F) Unit ℕ (UR sig nD τ) ℕ cfg2 c)
    (hA : dat.A 1 = V c (Pipeline.arrRef spec2 1)) (hafter : ∀ t, dat.after 1 t = tileBlock2 V c 1 t)
    (t : Fin cfg2.N) (d) : dat.before 1 t d = tileBlock2 V c 1 t :=
  (dat.before_in_eq_fetched 1 rfl (fun _ => rfl) (fun _ _ _ => rfl)
    (fun t => by rw [hafter]; unfold Dat.blockOf tileBlock2; rw [hA]; try rfl) t d).trans
    (by unfold Dat.fetched Dat.blockOf tileBlock2; rw [hA]; try rfl)

/-- The same for the bias row. -/
theorem held2_2_of {c : Dev nD} (dat : Dat τ (Elt F) Unit ℕ (UR sig nD τ) ℕ cfg2 c)
    (hA : dat.A 2 = V c (Pipeline.arrRef spec2 2)) (hafter : ∀ t, dat.after 2 t = tileBlock2 V c 2 t)
    (t : Fin cfg2.N) (d) : dat.before 2 t d = tileBlock2 V c 2 t :=
  (dat.before_in_eq_fetched 2 rfl (fun _ => rfl) (fun _ _ _ => rfl)
    (fun t => by rw [hafter]; unfold Dat.blockOf tileBlock2; rw [hA]; try rfl) t d).trans
    (by unfold Dat.fetched Dat.blockOf tileBlock2; rw [hA]; try rfl)

/-! ## What one step writes -/

/-- The whole of a 2000 × 128 buffer, of a 128 × 128 one, of a 1 × 128 one and of a 2000 × 128 one, as rectangles. -/
abbrev allA2 : Rect S2000x128 := Rect.unit (s := S2000x128) ![0, 0] S2000x128.size inb_S2000x128_S2000x128_0_0
abbrev allW2 : Rect S128x128 := Rect.unit (s := S128x128) ![0, 0] S128x128.size inb_S128x128_S128x128_0_0
abbrev allB2 : Rect S1x128 := Rect.unit (s := S1x128) ![0, 0] S1x128.size inb_S1x128_S1x128_0_0
abbrev allO2 : Rect S2000x128 := Rect.unit (s := S2000x128) ![0, 0] S2000x128.size inb_S2000x128_S2000x128_0_0

/-- The result block after one step, from the three input blocks: the step makes one store, of the whole block, of
    `max(a · W + b, 0)` computed from the whole input blocks. -/
def tileOut2 (a : Vec F S2000x128 .f32) (w : Vec F S128x128 .f32) (b : Vec F S1x128 .f32) : Vec F S2000x128 .f32 :=
  View.canon [⟨allO2, k2_pay1 (View.ld a allA2) (View.ld w allW2) (View.ld b allB2)⟩]

/-- That one store reaches every entry of the result block. -/
theorem covers2 (p : Vec F S2000x128 .f32) (y : S2000x128.Idx) :
    ∃ pc ∈ ([⟨allO2, p⟩] : List (View.Piece (Elt F) S2000x128 .f32)), y ∈ pc.1.set :=
  View.cover_of_tiled [⟨allO2, p⟩] S2000x128.size (by rfl) y

/-! ## One step of the kernel -/

set_option maxHeartbeats 1000000 in
/-- Run on four whole buffers, the first three holding `a`, `w`, `b` and the fourth anything, the kernel ends with the
    first three unchanged and the fourth holding `tileOut2 a w b`. (It reads the fourth once before overwriting it;
    what it reads there is not used.) -/
theorem kernel_triple2 (c : Dev nD) (E : Set ℕ) (i : grid2.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut2 a w b)) -∗ K ⟨⟩))
      ⊢ wp frame (wpE (defs₀ (F := F)) Variants.none c none) E (cc2__linear_kernel i m1 h1 m2 h2 m3 h3 m4 h4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers2 _)

/-! ## The proof data of the region -/

/-- The arrays are `V`'s; after step `t` the three input windows hold their blocks still and the result window holds
    `tileOut2` of them; the invariant is the rest of the core's memory, left alone; nothing is owed and every buffer
    is owned in full. -/
def dat2 (c : Dev nD) : Dat τ (Elt F) Unit ℕ (UR sig nD τ) ℕ cfg2 c where
  A w := V c (Pipeline.arrRef spec2 w)
  after w t := match w with
    | ⟨0, _⟩ => tileBlock2 V c 0 t
    | ⟨1, _⟩ => tileBlock2 V c 1 t
    | ⟨2, _⟩ => tileBlock2 V c 2 t
    | ⟨3, _⟩ => tileOut2 (tileBlock2 V c 0 t) (tileBlock2 V c 1 t) (tileBlock2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = tileBlock2 V c 0 t := by dsimp only [dat2]
theorem after2_1 (c : Dev nD) (t : Fin cfg2.N) : (dat2 V c).after 1 t = tileBlock2 V c 1 t := by dsimp only [dat2]
theorem after2_2 (c : Dev nD) (t : Fin cfg2.N) : (dat2 V c).after 2 t = tileBlock2 V c 2 t := by dsimp only [dat2]
theorem after2_3 (c : Dev nD) (t : Fin cfg2.N) :
    (dat2 V c).after 3 t = tileOut2 (tileBlock2 V c 0 t) (tileBlock2 V c 1 t) (tileBlock2 V c 2 t) := by dsimp only [dat2]

/-- What each input buffer holds when the step starts: its block. -/
theorem held2_0 (c : Dev nD) (t : Fin cfg2.N) (d) : (dat2 V c).before 0 t d = tileBlock2 V c 0 t :=
  held2_0_of V (dat2 V c) (A_eq2 V c 0) (after2_0 V c) t d
theorem held2_1 (c : Dev nD) (t : Fin cfg2.N) (d) : (dat2 V c).before 1 t d = tileBlock2 V c 1 t :=
  held2_1_of V (dat2 V c) (A_eq2 V c 1) (after2_1 V c) t d
theorem held2_2 (c : Dev nD) (t : Fin cfg2.N) (d) : (dat2 V c).before 2 t d = tileBlock2 V c 2 t :=
  held2_2_of V (dat2 V c) (A_eq2 V c 2) (after2_2 V c) t d

/-! ## One step, as the pipeline asks for it -/

/-- What the step is given: the invariant, the debt, and the four current buffers, -/
def stepPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it gives back. -/
def stepPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The step at any point of the grid: the input buffers hold their blocks, so the kernel's triple applies; the invariant
    and the debt are not looked at. -/
theorem step_triple2 (c : Dev nD) (t : Fin cfg2.N) :
    stepPre2 V c t ⊢ wp frame (wpE (defs₀ (F := F)) Variants.none c none) Set.univ (bodyAt2 t) (fun _ => stepPost2 V c t) := by
  unfold stepPre2 stepPost2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (kernel_triple2 c Set.univ _ _ _ _ _ _ _ _ _ (tileBlock2 V c 0 t) (tileBlock2 V c 1 t) (tileBlock2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation2 (c : Dev nD) : BodyObligation (dat2 (F := F) V c) (defs₀ (F := F)) Variants.none () Set.univ := fun t => by
  rw [bigSep_W2, bigSep_W2]
  exact step_triple2 V c t

end Cert.Kernel.Regions
-- ==== Proof.KernelLinear3.lean ====
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Ring
import Idealize.ShloMosaic.Lib.Tactic

/-!
# The second dense map, one row tile at a time

This kernel region computes `h · W + b` for a 50000 × 128 matrix `h`, a 128 × 128 weight `W` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The row tile of the left factor is in its buffer at every step (it is brought in at every step). Stated for any proof data
    with `V`'s array that leaves the tile in place. -/
theorem held3_0_of {c : Dev nD} (dat : Dat τ (Elt F) Unit ℕ (UR sig nD τ) ℕ cfg3 c)
    (hA : dat.A 0 = V c (Pipeline.arrRef spec3 0)) (hafter : ∀ t, dat.after 0 t = tileBlock3 V c 0 t)
    (t : Fin cfg3.N) (d) : dat.before 0 t d = tileBlock3 V c 0 t :=
  (dat.before_in_eq_fetched 0 rfl (fun _ => rfl) (fun _ _ _ => rfl)
    (fun t => by rw [hafter]; unfold Dat.blockOf tileBlock3; rw [hA]; try rfl) t d).trans
    (by unfold Dat.fetched Dat.blockOf tileBlock3; rw [hA]; try rfl)

/-- The right factor is in its buffer at every step although it is brought in only at the first: its index map is constant,
    so at a later step the block already there is still the block wanted. -/
theorem held3_1_of {c : Dev nD} (dat : Dat τ (Elt F) Unit ℕ (UR sig nD τ) ℕ cfg3 c)
    (hA : dat.A 1 = V c (Pipeline.arrRef spec3 1)) (hafter : ∀ t, dat.after 1 t = tileBlock3 V c 1 t)
    (t : Fin cfg3.N) (d) : dat.before 1 t d = tileBlock3 V c 1 t :=
  (dat.before_in_eq_fetched 1 rfl (fun _ => rfl) (fun _ _ _ => rfl)
    (fun t => by rw [hafter]; unfold Dat.blockOf tileBlock3; rw [hA]; try rfl) t d).trans
    (by unfold Dat.fetched Dat.blockOf tileBlock3; rw [hA]; try rfl)

/-- The same for the bias row. -/
theorem held3_2_of {c : Dev nD} (dat : Dat τ (Elt F) Unit ℕ (UR sig nD τ) ℕ cfg3 c)
    (hA : dat.A 2 = V c (Pipeline.arrRef spec3 2)) (hafter : ∀ t, dat.after 2 t = tileBlock3 V c 2 t)
    (t : Fin cfg3.N) (d) : dat.before 2 t d = tileBlock3 V c 2 t :=
  (dat.before_in_eq_fetched 2 rfl (fun _ => rfl) (fun _ _ _ => rfl)
    (fun t => by rw [hafter]; unfold Dat.blockOf tileBlock3; rw [hA]; try rfl) t d).trans
    (by unfold Dat.fetched Dat.blockOf tileBlock3; rw [hA]; try rfl)

/-! ## What one step writes -/

/-- The whole of a 2000 × 128 buffer, of a 128 × 128 one, of a 1 × 128 one and of a 2000 × 128 one, as rectangles. -/
abbrev allA3 : Rect S2000x128 := Rect.unit (s := S2000x128) ![0, 0] S2000x128.size inb_S2000x128_S2000x128_0_0
abbrev allW3 : Rect S128x128 := Rect.unit (s := S128x128) ![0, 0] S128x128.size inb_S128x128_S128x128_0_0
abbrev allB3 : Rect S1x128 := Rect.unit (s := S1x128) ![0, 0] S1x128.size inb_S1x128_S1x128_0_0
abbrev allO3 : Rect S2000x128 := Rect.unit (s := S2000x128) ![0, 0] S2000x128.size inb_S2000x128_S2000x128_0_0

/-- The result block after one step, from the three input blocks: the step makes one store, of the whole block, of
    `a · W + b` computed from the whole input blocks. -/
def tileOut3 (a : Vec F S2000x128 .f32) (w : Vec F S128x128 .f32) (b : Vec F S1x128 .f32) : Vec F S2000x128 .f32 :=
  View.canon [⟨allO3, k3_pay1 (View.ld a allA3) (View.ld w allW3) (View.ld b allB3)⟩]

/-- That one store reaches every entry of the result block. -/
theorem covers3 (p : Vec F S2000x128 .f32) (y : S2000x128.Idx) :
    ∃ pc ∈ ([⟨allO3, p⟩] : List (View.Piece (Elt F) S2000x128 .f32)), y ∈ pc.1.set :=
  View.cover_of_tiled [⟨allO3, p⟩] S2000x128.size (by rfl) y

/-! ## One step of the kernel -/

set_option maxHeartbeats 1000000 in
/-- Run on four whole buffers, the first three holding `a`, `w`, `b` and the fourth anything, the kernel ends with the
    first three unchanged and the fourth holding `tileOut3 a w b`. (It reads the fourth once before overwriting it;
    what it reads there is not used.) -/
theorem kernel_triple3 (c : Dev nD) (E : Set ℕ) (i : grid3.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut3 a w b)) -∗ K ⟨⟩))
      ⊢ wp frame (wpE (defs₀ (F := F)) Variants.none c none) E (cc3__linear_kernel i m1 h1 m2 h2 m3 h3 m4 h4) K := by
  simp only [cc3__linear_kernel_eq_skeleton]; unfold cc3__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers3 _)

/-! ## The proof data of the region -/

/-- The arrays are `V`'s; after step `t` the three input windows hold their blocks still and the result window holds
    `tileOut3` of them; the invariant is the rest of the core's memory, left alone; nothing is owed and every buffer
    is owned in full. -/
def dat3 (c : Dev nD) : Dat τ (Elt F) Unit ℕ (UR sig nD τ) ℕ cfg3 c where
  A w := V c (Pipeline.arrRef spec3 w)
  after w t := match w with
    | ⟨0, _⟩ => tileBlock3 V c 0 t
    | ⟨1, _⟩ => tileBlock3 V c 1 t
    | ⟨2, _⟩ => tileBlock3 V c 2 t
    | ⟨3, _⟩ => tileOut3 (tileBlock3 V c 0 t) (tileBlock3 V c 1 t) (tileBlock3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = tileBlock3 V c 0 t := by dsimp only [dat3]
theorem after3_1 (c : Dev nD) (t : Fin cfg3.N) : (dat3 V c).after 1 t = tileBlock3 V c 1 t := by dsimp only [dat3]
theorem after3_2 (c : Dev nD) (t : Fin cfg3.N) : (dat3 V c).after 2 t = tileBlock3 V c 2 t := by dsimp only [dat3]
theorem after3_3 (c : Dev nD) (t : Fin cfg3.N) :
    (dat3 V c).after 3 t = tileOut3 (tileBlock3 V c 0 t) (tileBlock3 V c 1 t) (tileBlock3 V c 2 t) := by dsimp only [dat3]

/-- What each input buffer holds when the step starts: its block. -/
theorem held3_0 (c : Dev nD) (t : Fin cfg3.N) (d) : (dat3 V c).before 0 t d = tileBlock3 V c 0 t :=
  held3_0_of V (dat3 V c) (A_eq3 V c 0) (after3_0 V c) t d
theorem held3_1 (c : Dev nD) (t : Fin cfg3.N) (d) : (dat3 V c).before 1 t d = tileBlock3 V c 1 t :=
  held3_1_of V (dat3 V c) (A_eq3 V c 1) (after3_1 V c) t d
theorem held3_2 (c : Dev nD) (t : Fin cfg3.N) (d) : (dat3 V c).before 2 t d = tileBlock3 V c 2 t :=
  held3_2_of V (dat3 V c) (A_eq3 V c 2) (after3_2 V c) t d

/-! ## One step, as the pipeline asks for it -/

/-- What the step is given: the invariant, the debt, and the four current buffers, -/
def stepPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it gives back. -/
def stepPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The step at any point of the grid: the input buffers hold their blocks, so the kernel's triple applies; the invariant
    and the debt are not looked at. -/
theorem step_triple3 (c : Dev nD) (t : Fin cfg3.N) :
    stepPre3 V c t ⊢ wp frame (wpE (defs₀ (F := F)) Variants.none c none) Set.univ (bodyAt3 t) (fun _ => stepPost3 V c t) := by
  unfold stepPre3 stepPost3 bodyAt3
  simp only [held3_0, held3_1, held3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernel_triple3 c Set.univ _ _ _ _ _ _ _ _ _ (tileBlock3 V c 0 t) (tileBlock3 V c 1 t) (tileBlock3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation3 (c : Dev nD) : BodyObligation (dat3 (F := F) V c) (defs₀ (F := F)) Variants.none () Set.univ := fun t => by
  rw [bigSep_W3, bigSep_W3]
  exact step_triple3 V c t

end Cert.Kernel.Regions
-- ==== Proof.KernelPool4.lean ====
/-
  The second row-maximum region.

  The region walks the 25 row tiles of a [50000,128] array, 2000 rows each, and leaves in a [1,128] row the
  columnwise maximum of all of them. A one-row scratch buffer carries the running maximum from point to point: at
  the first point it is reset to minus infinity, at every point the columnwise maximum of the current tile is joined
  into it, and at the last point it is copied to the output row, which is written back only there.

  So the output window's staging row is untouched at every point but the last, and the state that matters between
  points lives in the scratch row: the invariant before point n says that the scratch row holds the running maximum
  of tiles 0 … n-1 (anything, before the first point). The running maximum is the recursion

      runMax4 0 = -inf row,   runMax4 (n+1) = max (runMax4 n) (columnwise max of tile n),

  spelt through the body's own two payloads. The body is run once for each of its three control cases (first point,
  a middle point, last point) on symbolic whole memrefs, and the obligation at a point picks the case from the
  point's position, the two conditions being decided over the grid in closed form.
-/
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import proofs.«115727_j48790828483060_1_alg».proof.Proof.KernelPool1
import Idealize.ShloMosaic.Lib.Pipeline.FrameBody
import Idealize.ShloMosaic.Lib.Tactic

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The condition of the body's first branch (the reset of the scratch row), from the grid coordinates. -/
abbrev first4 (i : grid4.Coords) : Prop :=
  (Scalar.cmpi .ne (Scalar.extui (Scalar.cmpi .eq (BitVec.ofNat 32 (i 0).val) 0#32)) 0#32) = 1#1

/-- It holds at the first point only. -/
theorem first4_iff : ∀ t : Fin cfg4.N, first4 (grid4.coords t) ↔ t.val = 0 :=
  (by decide +kernel : ∀ t : Fin grid4.N, first4 (grid4.coords t) ↔ t.val = 0)

/-- The second branch (the copy to the output row) is taken at the last point only. -/
theorem last4_iff : ∀ t : Fin cfg4.N, k4_cond2 (grid4.coords t) = 1#1 ↔ t.val = 24 :=
  (by decide +kernel : ∀ t : Fin grid4.N, k4_cond2 (grid4.coords t) = 1#1 ↔ t.val = 24)

/-! ## The body, once per control case

Each on whole memrefs held at named contents: the tile's buffer at `x0`, the scratch row at `xs`, the output row
(where the case touches it) at `xo`. -/

/-- A middle point: neither branch is taken; the scratch row ends at the tile's columnwise maximum joined with what it
    held, and nothing else is written. -/
theorem poolRun4_mid (c : Dev nD) (i : grid4.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first4 i) (h2 : ¬ k4_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k4_pay2 x0 xs)) -∗ K ⟨⟩))
      ⊢ wp frame (wpE (defs₀ (F := F)) Variants.none c none) Set.univ (cc4__max_pool_kernel i arg1 harg1 arg2 harg2 arg3 harg3) K := by
  simp only [cc4__max_pool_kernel_eq_skeleton]; unfold cc4__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  rw [read_writes_full _ _ zeros2, readAt_full _ _ zeros2, readAt_full _ _ zeros2, hf0, hf3]

/-- The first point: the scratch row is first reset to minus infinity, so it ends at the tile's columnwise maximum
    joined with minus infinity, whatever it held. -/
theorem poolRun4_first (c : Dev nD) (i : grid4.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : first4 i) (h2 : ¬ k4_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k4_pay2 x0 (k4_pay1 (F := F)))) -∗ K ⟨⟩))
      ⊢ wp frame (wpE (defs₀ (F := F)) Variants.none c none) Set.univ (cc4__max_pool_kernel i arg1 harg1 arg2 harg2 arg3 harg3) K := by
  simp only [cc4__max_pool_kernel_eq_skeleton]; unfold cc4__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  unfold poolRun4_first.sl.v7 poolRun4_first.sl.H3_1
  rw [read_writes_full _ _ zeros2, readAt_full _ _ zeros2, hf0, View.readCov_cons_toLoadRect]

/-- The last point: as a middle point, and then the scratch row is copied to the output row. -/
theorem poolRun4_last (c : Dev nD) (i : grid4.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first4 i) (h2 : k4_cond2 i = 1#1)
    (x0 : Vec F S2000x128 .f32) (xo : Vec F S1x128 .f32) (xs : Vec F S1x128 .f32) (K : PUnit → sProp 𝕄) :
    iprop(owns (c : Thread nD τ) arg1 fullShare x0 ∗ owns (c : Thread nD τ) arg2 fullShare xo ∗ owns (c : Thread nD τ) arg3 fullShare xs
        ∗ (iprop(owns (c : Thread nD τ) arg1 fullShare x0 ∗ owns (c : Thread nD τ) arg2 fullShare (k4_pay2 x0 xs)
            ∗ owns (c : Thread nD τ) arg3 fullShare (k4_pay2 x0 xs)) -∗ K ⟨⟩))
      ⊢ wp frame (wpE (defs₀ (F := F)) Variants.none c none) Set.univ (cc4__max_pool_kernel i arg1 harg1 arg2 harg2 arg3 harg3) K := by
  simp only [cc4__max_pool_kernel_eq_skeleton]; unfold cc4__max_pool_kernel_skel
  unfold owns
  iintro ⟨⟨%f0, %hf0, H0⟩, ⟨%f2, %hf2, H2⟩, ⟨%f3, %hf3, H3⟩, Hk⟩
  obtain rfl := harg1.eq_unread hf0; obtain rfl := harg2.eq_unread hf2; obtain rfl := harg3.eq_unread hf3
  sl_exec (disch := first | exact h1 | exact h2)
  sl_step
  iapply Hk
  isplitl [H0]
  · iexists _; isplitr; · ipureintro; exact hf0
    iexact H0
  isplitl [H2]
  · iexists _; isplitr; swap; · iexact H2
    ipureintro
    unfold poolRun4_last.sl.v15 poolRun4_last.sl.H3_1
    rw [read_writes_full _ _ zeros2, View.readCov_cons_toLoadRect, readAt_full _ _ zeros2, readAt_full _ _ zeros2, hf0, hf3]
  iexists _; isplitr; swap; · iexact H3
  ipureintro
  unfold poolRun4_last.sl.H3_1
  rw [read_writes_full _ _ zeros2, readAt_full _ _ zeros2, readAt_full _ _ zeros2, hf0, hf3]

/-! ## The proof data -/

section Data

variable (V : (c : Dev nD) → (b : Ref sig .tc) → Buf (Elt F) ((c : Thread nD τ).loc b))

/-- Window `w`'s block at point `t`, read off the arrays as the region finds them. -/
def poolBlock4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The running maximum after `n` points: minus infinity before any, then the columnwise maximum of the row tile
    of point `n` joined with what the points before left. -/
def runMax4 (c : Dev nD) : ℕ → Vec F S1x128 .f32
  | 0 => k4_pay1
  | n + 1 => if h : n < cfg4.N then k4_pay2 (poolBlock4 V c 0 ⟨n, h⟩) (runMax4 c n) else runMax4 c n

theorem runMax4_zero (c : Dev nD) : runMax4 V c 0 = k4_pay1 (F := F) := rfl

theorem runMax4_succ (c : Dev nD) (n : ℕ) (h : n < cfg4.N) :
    runMax4 V c (n + 1) = k4_pay2 (poolBlock4 V c 0 ⟨n, h⟩) (runMax4 V c n) := by
  rw [runMax4, dif_pos h]

/-- What of the scoped rest the region does not name, and the generator register. -/
abbrev poolRest4 (c : Dev nD) : sProp 𝕄 :=
  iprop(Pipeline.scopedRestBut (Ix := Unit) (Name := ℕ) (U := UR sig nD τ) (Lvl := ℕ) (Val := Elt F) spec4 c [cc4_scratch0]
    ∗ ∃ r, prngReg c r)

/-- The invariant before point `n`: the scratch row holds anything before the first point and the running maximum
    of the points so far afterwards. -/
def poolInv4 (c : Dev nD) : ℕ → sProp 𝕄
  | 0 => iprop((∃ f : Buf (Elt F) ((c : Thread nD τ).loc cc4_scratch0), ((c : Thread nD τ).loc cc4_scratch0) ↦{fullShare} f)
      ∗ poolRest4 c)
  | n + 1 => iprop((((c : Thread nD τ).loc cc4_scratch0) ↦{fullShare} (runMax4 V c (n + 1)))
      ∗ poolRest4 c)

/-- The proof data of the region on core `c`. -/
def dat4 (c : Dev nD) : Dat τ (Elt F) Unit ℕ (UR sig nD τ) ℕ cfg4 c where
  A w := V c (Pipeline.arrRef spec4 w)
  after w t := match w with
    | ⟨0, _⟩ => poolBlock4 V c 0 t
    | ⟨1, _⟩ => runMax4 V c (t.val + 1)
  Φ t := poolInv4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = poolBlock4 V c 0 t := by dsimp only [dat4]
theorem after4_1 (c : Dev nD) (t : Fin cfg4.N) : (dat4 V c).after 1 t = runMax4 V c (t.val + 1) := by dsimp only [dat4]

theorem Phi4_at (c : Dev nD) (t : Fin (cfg4.N + 1)) : (dat4 V c).Φ t = poolInv4 V c t.val := rfl

theorem Phi4_zero (c : Dev nD) : (dat4 V c).Φ 0 =
    iprop((∃ f : Buf (Elt F) ((c : Thread nD τ).loc cc4_scratch0), ((c : Thread nD τ).loc cc4_scratch0) ↦{fullShare} f)
      ∗ Pipeline.scopedRestBut (Ix := Unit) (Name := ℕ) (U := UR sig nD τ) (Lvl := ℕ) (Val := Elt F) spec4 c [cc4_scratch0]
      ∗ ∃ r, prngReg c r) := rfl

theorem Phi4_last (c : Dev nD) : (dat4 V c).Φ (Fin.last cfg4.N) =
    iprop((((c : Thread nD τ).loc cc4_scratch0) ↦{fullShare} (runMax4 V c 25))
      ∗ Pipeline.scopedRestBut (Ix := Unit) (Name := ℕ) (U := UR sig nD τ) (Lvl := ℕ) (Val := Elt F) spec4 c [cc4_scratch0]
      ∗ ∃ r, prngReg c r) := by
  rw [Phi4_at, Fin.val_last, show cfg4.N = 25 from N_4]; rfl

/-- The row tile's staging buffer holds the tile when the body runs: it is fetched at every point. -/
theorem before4_0 (c : Dev nD) (t : Fin cfg4.N) (d) : (dat4 V c).before 0 t d = poolBlock4 V c 0 t := by
  rw [Dat.before_fetched _ 0 t (fetch4_0 t)]
  unfold Dat.fetched Dat.blockOf poolBlock4; rw [A_eq4]; rfl

end Data

/-! ## The body obligation -/

section Obligation

variable (V : (c : Dev nD) → (b : Ref sig .tc) → Buf (Elt F) ((c : Thread nD τ).loc b))

/-- One step of the running maximum, at a point of the grid. -/
theorem runMax4_at (c : Dev nD) (t : Fin cfg4.N) :
    runMax4 V c (t.val + 1) = k4_pay2 (poolBlock4 V c 0 t) (runMax4 V c t.val) :=
  runMax4_succ V c t.val t.isLt

theorem poolInv4_zero (c : Dev nD) : poolInv4 V c 0 =
    iprop((∃ f : Buf (Elt F) ((c : Thread nD τ).loc cc4_scratch0), ((c : Thread nD τ).loc cc4_scratch0) ↦{fullShare} f)
      ∗ poolRest4 c) := rfl

theorem poolInv4_succ (c : Dev nD) (n : ℕ) : poolInv4 V c (n + 1) =
    iprop((((c : Thread nD τ).loc cc4_scratch0) ↦{fullShare} (runMax4 V c (n + 1))) ∗ poolRest4 c) := rfl

/-- Each window's current staging memref at point `t`, as the pipeline passes it to the body. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)

/-- At every point the body takes the invariant and the windows' buffers to the invariant at the next point and
    the buffers at what the proof data say: by the point's position, one of the three runs above. -/
theorem body_obligation4 (c : Dev nD) : BodyObligation (dat4 (F := F) V c) (defs₀ (F := F)) Variants.none () Set.univ := fun t => by
  have hN : t.val < 25 := lt_of_lt_of_eq t.isLt N_4
  rw [bigSep_W4, bigSep_W4]
  by_cases hlast : t.val = 24
  · -- the last point: the maximum is joined once more and copied to the output row
    have hk : k4_cond2 (grid4.coords t) = 1#1 := (last4_iff t).mpr hlast
    have hfirst : ¬ first4 (grid4.coords t) := fun h => by have := (first4_iff t).mp h; omega
    have hi1 : idle4 1 (grid4.coords t) = false := by
      show (!(k4_cond2 (grid4.coords t) == 1#1)) = false
      rw [hk]; rfl
    simp only []
    rw [hi1]
    simp only [before4_0]
    rw [Phi4_at, Phi4_at, after4_0, after4_1, runMax4_at,
      show (dat4 V c).owesAt () t.succ = (dat4 V c).owesAt () t.castSucc from rfl,
      show (t.succ : Fin (cfg4.N + 1)).val = t.val + 1 from rfl, show (t.castSucc : Fin (cfg4.N + 1)).val = t.val from rfl]
    obtain ⟨n, hn⟩ : ∃ n, t.val = n + 1 := ⟨23, hlast⟩
    rw [poolInv4_succ, runMax4_at]
    rw [hn, poolInv4_succ, ← owns_whole, ← owns_whole]
    iintro ⟨⟨Hs, Hrest⟩, Ho, ⟨%d0, H0⟩, ⟨%d1, H1⟩⟩
    iapply (poolRun4_last c (grid4.coords t) (ms4_0 t) (hs4_0 t) (ms4_1 t) (hs4_1 t) (Memref.whole cc4_scratch0)
      (Memref.isWhole_whole _) hfirst hk (poolBlock4 V c 0 t) _ (runMax4 V c (n + 1)) _)
    isplitl [H0]; · iexact H0
    isplitl [H1]; · iexact H1
    isplitl [Hs]; · iexact Hs
    iintro ⟨H0, H1, Hs⟩
    isplitl [Hs Hrest]
    · isplitl [Hs]; · iexact Hs
      iexact Hrest
    isplitl [Ho]; · iexact Ho
    isplitl [H0]; · iexact H0
    iexact H1
  · -- any other point: the output row is handed back as it was found
    have hk : ¬ k4_cond2 (grid4.coords t) = 1#1 := fun h => hlast ((last4_iff t).mp h)
    have hi1 : idle4 1 (grid4.coords t) = true := by
      show (!(k4_cond2 (grid4.coords t) == 1#1)) = true
      simp [hk]
    have hf1 : (cfg4.win 1).flush t = false :=
      Bool.eq_false_iff.mpr fun h => hlast (by have := (flush4_1 t).mp h; omega)
    simp only [hf1]
    rw [hi1]
    simp only [before4_0]
    rw [Phi4_at, Phi4_at, after4_0,
      show (dat4 V c).owesAt () t.succ = (dat4 V c).owesAt () t.castSucc from rfl,
      show (t.succ : Fin (cfg4.N + 1)).val = t.val + 1 from rfl, show (t.castSucc : Fin (cfg4.N + 1)).val = t.val from rfl]
    rw [poolInv4_succ, runMax4_at]
    by_cases h0 : t.val = 0
    · -- the first point: the scratch row is reset to minus infinity before the tile is joined
      have hfirst : first4 (grid4.coords t) := (first4_iff t).mpr h0
      rw [h0, poolInv4_zero, runMax4_zero, ← owns_whole]
      iintro ⟨⟨⟨%fs, Hs⟩, Hrest⟩, Ho, ⟨%d0, H0⟩, ⟨%d1, H1⟩⟩
      iapply (poolRun4_first c (grid4.coords t) (ms4_0 t) (hs4_0 t) (ms4_1 t) (hs4_1 t) (Memref.whole cc4_scratch0)
        (Memref.isWhole_whole _) hfirst hk (poolBlock4 V c 0 t) fs _)
      isplitl [H0]; · iexact H0
      isplitl [Hs]; · rw [owns_whole]; iexact Hs
      iintro ⟨H0, Hs⟩
      isplitl [Hs Hrest]
      · isplitl [Hs]; · iexact Hs
        iexact Hrest
      isplitl [Ho]; · iexact Ho
      isplitl [H0]; · iexact H0
      iexists d1; iexact H1
    · -- a middle point: the tile is joined into the running maximum
      have hfirst : ¬ first4 (grid4.coords t) := fun h => h0 ((first4_iff t).mp h)
      obtain ⟨n, hn⟩ : ∃ n, t.val = n + 1 := ⟨t.val - 1, by omega⟩
      rw [hn, poolInv4_succ, ← owns_whole, ← owns_whole]
      iintro ⟨⟨Hs, Hrest⟩, Ho, ⟨%d0, H0⟩, ⟨%d1, H1⟩⟩
      iapply (poolRun4_mid c (grid4.coords t) (ms4_0 t) (hs4_0 t) (ms4_1 t) (hs4_1 t) (Memref.whole cc4_scratch0)
        (Memref.isWhole_whole _) hfirst hk (poolBlock4 V c 0 t) (runMax4 V c (n + 1)) _)
      isplitl [H0]; · iexact H0
      isplitl [Hs]; · iexact Hs
      iintro ⟨H0, Hs⟩
      isplitl [Hs Hrest]
      · isplitl [Hs]; · iexact Hs
        iexact Hrest
      isplitl [Ho]; · iexact Ho
      isplitl [H0]; · iexact H0
      iexists d1; iexact H1

end Obligation

/-! ## The region's two ends -/

section Ends

variable (V : (c : Dev nD) → (b : Ref sig .tc) → Buf (Elt F) ((c : Thread nD τ).loc b))

/-- Entering: the scratch row is one of the scoped buffers the region does not stage; opened at whatever it holds,
    with the rest and the generator register, it is the invariant before the first point. Anything else is dropped. -/
theorem poolEnter4 (c : Dev nD) (P : sProp 𝕄) :
    iprop((∃ r, prngReg c r) ∗ P
        ∗ Pipeline.scopedRest (Ix := Unit) (Name := ℕ) (U := UR sig nD τ) (Lvl := ℕ) (Val := Elt F) spec4 c)
      ⊢ (dat4 V c).Φ 0 := by
  rw [Phi4_zero, scopedRest4_split]
  iintro ⟨Hr, -, Hs, Hrest⟩
  isplitl [Hs]; · iexact Hs
  isplitl [Hrest]; · iexact Hrest
  iexact Hr

/-- Leaving: the scratch row's contents are forgotten and it rejoins the scoped rest. -/
theorem poolLeave4 (c : Dev nD) :
    (dat4 V c).Φ (Fin.last cfg4.N)
      ⊢ iprop((∃ r, prngReg c r) ∗ (BI.emp : sProp 𝕄)
        ∗ Pipeline.scopedRest (Ix := Unit) (Name := ℕ) (U := UR sig nD τ) (Lvl := ℕ) (Val := Elt F) spec4 c) := by
  rw [Phi4_last, scopedRest4_split]
  iintro ⟨Hs, Hrest, Hr⟩
  isplitl [Hr]; · iexact Hr
  isplitr; · iempintro
  isplitl [Hs]; · iexists _; iexact Hs
  iexact Hrest

end Ends

end Cert.Kernel.Regions

end
-- ==== Proof.KernelLinear5.lean ====
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Ring
import Idealize.ShloMosaic.Lib.Tactic

/-!
# The second layer's update, one row tile at a time

This kernel region computes `max(h · M + b, 0)` entrywise for a 50000 × 128 matrix `h`, a 128 × 128 matrix `M` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The row tile of the left factor is in its buffer at every step (it is brought in at every step). Stated for any proof data
    with `V`'s array that leaves the tile in place. -/
theorem held5_0_of {c : Dev nD} (dat : Dat τ (Elt F) Unit ℕ (UR sig nD τ) ℕ cfg5 c)
    (hA : dat.A 0 = V c (Pipeline.arrRef spec5 0)) (hafter : ∀ t, dat.after 0 t = tileBlock5 V c 0 t)
    (t : Fin cfg5.N) (d) : dat.before 0 t d = tileBlock5 V c 0 t :=
  (dat.before_in_eq_fetched 0 rfl (fun _ => rfl) (fun _ _ _ => rfl)
    (fun t => by rw [hafter]; unfold Dat.blockOf tileBlock5; rw [hA]; try rfl) t d).trans
    (by unfold Dat.fetched Dat.blockOf tileBlock5; rw [hA]; try rfl)

/-- The right factor is in its buffer at every step although it is brought in only at the first: its index map is constant,
    so at a later step the block already there is still the block wanted. -/
theorem held5_1_of {c : Dev nD} (dat : Dat τ (Elt F) Unit ℕ (UR sig nD τ) ℕ cfg5 c)
    (hA : dat.A 1 = V c (Pipeline.arrRef spec5 1)) (hafter : ∀ t, dat.after 1 t = tileBlock5 V c 1 t)
    (t : Fin cfg5.N) (d) : dat.before 1 t d = tileBlock5 V c 1 t :=
  (dat.before_in_eq_fetched 1 rfl (fun _ => rfl) (fun _ _ _ => rfl)
    (fun t => by rw [hafter]; unfold Dat.blockOf tileBlock5; rw [hA]; try rfl) t d).trans
    (by unfold Dat.fetched Dat.blockOf tileBlock5; rw [hA]; try rfl)

/-- The same for the bias row. -/
theorem held5_2_of {c : Dev nD} (dat : Dat τ (Elt F) Unit ℕ (UR sig nD τ) ℕ cfg5 c)
    (hA : dat.A 2 = V c (Pipeline.arrRef spec5 2)) (hafter : ∀ t, dat.after 2 t = tileBlock5 V c 2 t)
    (t : Fin cfg5.N) (d) : dat.before 2 t d = tileBlock5 V c 2 t :=
  (dat.before_in_eq_fetched 2 rfl (fun _ => rfl) (fun _ _ _ => rfl)
    (fun t => by rw [hafter]; unfold Dat.blockOf tileBlock5; rw [hA]; try rfl) t d).trans
    (by unfold Dat.fetched Dat.blockOf tileBlock5; rw [hA]; try rfl)

/-! ## What one step writes -/

/-- The whole of a 2000 × 128 buffer, of a 128 × 128 one, of a 1 × 128 one and of a 2000 × 128 one, as rectangles. -/
abbrev allA5 : Rect S2000x128 := Rect.unit (s := S2000x128) ![0, 0] S2000x128.size inb_S2000x128_S2000x128_0_0
abbrev allW5 : Rect S128x128 := Rect.unit (s := S128x128) ![0, 0] S128x128.size inb_S128x128_S128x128_0_0
abbrev allB5 : Rect S1x128 := Rect.unit (s := S1x128) ![0, 0] S1x128.size inb_S1x128_S1x128_0_0
abbrev allO5 : Rect S2000x128 := Rect.unit (s := S2000x128) ![0, 0] S2000x128.size inb_S2000x128_S2000x128_0_0

/-- The result block after one step, from the three input blocks: the step makes one store, of the whole block, of
    `max(a · W + b, 0)` computed from the whole input blocks. -/
def tileOut5 (a : Vec F S2000x128 .f32) (w : Vec F S128x128 .f32) (b : Vec F S1x128 .f32) : Vec F S2000x128 .f32 :=
  View.canon [⟨allO5, k5_pay1 (View.ld a allA5) (View.ld w allW5) (View.ld b allB5)⟩]

/-- That one store reaches every entry of the result block. -/
theorem covers5 (p : Vec F S2000x128 .f32) (y : S2000x128.Idx) :
    ∃ pc ∈ ([⟨allO5, p⟩] : List (View.Piece (Elt F) S2000x128 .f32)), y ∈ pc.1.set :=
  View.cover_of_tiled [⟨allO5, p⟩] S2000x128.size (by rfl) y

/-! ## One step of the kernel -/

set_option maxHeartbeats 1000000 in
/-- Run on four whole buffers, the first three holding `a`, `w`, `b` and the fourth anything, the kernel ends with the
    first three unchanged and the fourth holding `tileOut5 a w b`. (It reads the fourth once before overwriting it;
    what it reads there is not used.) -/
theorem kernel_triple5 (c : Dev nD) (E : Set ℕ) (i : grid5.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut5 a w b)) -∗ K ⟨⟩))
      ⊢ wp frame (wpE (defs₀ (F := F)) Variants.none c none) E (cc5__linear_kernel i m1 h1 m2 h2 m3 h3 m4 h4) K := by
  simp only [cc5__linear_kernel_eq_skeleton]; unfold cc5__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers5 _)

/-! ## The proof data of the region -/

/-- The arrays are `V`'s; after step `t` the three input windows hold their blocks still and the result window holds
    `tileOut5` of them; the invariant is the rest of the core's memory, left alone; nothing is owed and every buffer
    is owned in full. -/
def dat5 (c : Dev nD) : Dat τ (Elt F) Unit ℕ (UR sig nD τ) ℕ cfg5 c where
  A w := V c (Pipeline.arrRef spec5 w)
  after w t := match w with
    | ⟨0, _⟩ => tileBlock5 V c 0 t
    | ⟨1, _⟩ => tileBlock5 V c 1 t
    | ⟨2, _⟩ => tileBlock5 V c 2 t
    | ⟨3, _⟩ => tileOut5 (tileBlock5 V c 0 t) (tileBlock5 V c 1 t) (tileBlock5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = tileBlock5 V c 0 t := by dsimp only [dat5]
theorem after5_1 (c : Dev nD) (t : Fin cfg5.N) : (dat5 V c).after 1 t = tileBlock5 V c 1 t := by dsimp only [dat5]
theorem after5_2 (c : Dev nD) (t : Fin cfg5.N) : (dat5 V c).after 2 t = tileBlock5 V c 2 t := by dsimp only [dat5]
theorem after5_3 (c : Dev nD) (t : Fin cfg5.N) :
    (dat5 V c).after 3 t = tileOut5 (tileBlock5 V c 0 t) (tileBlock5 V c 1 t) (tileBlock5 V c 2 t) := by dsimp only [dat5]

/-- What each input buffer holds when the step starts: its block. -/
theorem held5_0 (c : Dev nD) (t : Fin cfg5.N) (d) : (dat5 V c).before 0 t d = tileBlock5 V c 0 t :=
  held5_0_of V (dat5 V c) (A_eq5 V c 0) (after5_0 V c) t d
theorem held5_1 (c : Dev nD) (t : Fin cfg5.N) (d) : (dat5 V c).before 1 t d = tileBlock5 V c 1 t :=
  held5_1_of V (dat5 V c) (A_eq5 V c 1) (after5_1 V c) t d
theorem held5_2 (c : Dev nD) (t : Fin cfg5.N) (d) : (dat5 V c).before 2 t d = tileBlock5 V c 2 t :=
  held5_2_of V (dat5 V c) (A_eq5 V c 2) (after5_2 V c) t d

/-! ## One step, as the pipeline asks for it -/

/-- What the step is given: the invariant, the debt, and the four current buffers, -/
def stepPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it gives back. -/
def stepPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The step at any point of the grid: the input buffers hold their blocks, so the kernel's triple applies; the invariant
    and the debt are not looked at. -/
theorem step_triple5 (c : Dev nD) (t : Fin cfg5.N) :
    stepPre5 V c t ⊢ wp frame (wpE (defs₀ (F := F)) Variants.none c none) Set.univ (bodyAt5 t) (fun _ => stepPost5 V c t) := by
  unfold stepPre5 stepPost5 bodyAt5
  simp only [held5_0, held5_1, held5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (kernel_triple5 c Set.univ _ _ _ _ _ _ _ _ _ (tileBlock5 V c 0 t) (tileBlock5 V c 1 t) (tileBlock5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation5 (c : Dev nD) : BodyObligation (dat5 (F := F) V c) (defs₀ (F := F)) Variants.none () Set.univ := fun t => by
  rw [bigSep_W5, bigSep_W5]
  exact step_triple5 V c t

end Cert.Kernel.Regions
-- ==== Proof.KernelLinear6.lean ====
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Ring
import Idealize.ShloMosaic.Lib.Tactic

/-!
# The third dense map, one row tile at a time

This kernel region computes `h · W + b` for a 50000 × 128 matrix `h`, a 128 × 128 weight `W` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The row tile of the left factor is in its buffer at every step (it is brought in at every step). Stated for any proof data
    with `V`'s array that leaves the tile in place. -/
theorem held6_0_of {c : Dev nD} (dat : Dat τ (Elt F) Unit ℕ (UR sig nD τ) ℕ cfg6 c)
    (hA : dat.A 0 = V c (Pipeline.arrRef spec6 0)) (hafter : ∀ t, dat.after 0 t = tileBlock6 V c 0 t)
    (t : Fin cfg6.N) (d) : dat.before 0 t d = tileBlock6 V c 0 t :=
  (dat.before_in_eq_fetched 0 rfl (fun _ => rfl) (fun _ _ _ => rfl)
    (fun t => by rw [hafter]; unfold Dat.blockOf tileBlock6; rw [hA]; try rfl) t d).trans
    (by unfold Dat.fetched Dat.blockOf tileBlock6; rw [hA]; try rfl)

/-- The right factor is in its buffer at every step although it is brought in only at the first: its index map is constant,
    so at a later step the block already there is still the block wanted. -/
theorem held6_1_of {c : Dev nD} (dat : Dat τ (Elt F) Unit ℕ (UR sig nD τ) ℕ cfg6 c)
    (hA : dat.A 1 = V c (Pipeline.arrRef spec6 1)) (hafter : ∀ t, dat.after 1 t = tileBlock6 V c 1 t)
    (t : Fin cfg6.N) (d) : dat.before 1 t d = tileBlock6 V c 1 t :=
  (dat.before_in_eq_fetched 1 rfl (fun _ => rfl) (fun _ _ _ => rfl)
    (fun t => by rw [hafter]; unfold Dat.blockOf tileBlock6; rw [hA]; try rfl) t d).trans
    (by unfold Dat.fetched Dat.blockOf tileBlock6; rw [hA]; try rfl)

/-- The same for the bias row. -/
theorem held6_2_of {c : Dev nD} (dat : Dat τ (Elt F) Unit ℕ (UR sig nD τ) ℕ cfg6 c)
    (hA : dat.A 2 = V c (Pipeline.arrRef spec6 2)) (hafter : ∀ t, dat.after 2 t = tileBlock6 V c 2 t)
    (t : Fin cfg6.N) (d) : dat.before 2 t d = tileBlock6 V c 2 t :=
  (dat.before_in_eq_fetched 2 rfl (fun _ => rfl) (fun _ _ _ => rfl)
    (fun t => by rw [hafter]; unfold Dat.blockOf tileBlock6; rw [hA]; try rfl) t d).trans
    (by unfold Dat.fetched Dat.blockOf tileBlock6; rw [hA]; try rfl)

/-! ## What one step writes -/

/-- The whole of a 2000 × 128 buffer, of a 128 × 128 one, of a 1 × 128 one and of a 2000 × 128 one, as rectangles. -/
abbrev allA6 : Rect S2000x128 := Rect.unit (s := S2000x128) ![0, 0] S2000x128.size inb_S2000x128_S2000x128_0_0
abbrev allW6 : Rect S128x128 := Rect.unit (s := S128x128) ![0, 0] S128x128.size inb_S128x128_S128x128_0_0
abbrev allB6 : Rect S1x128 := Rect.unit (s := S1x128) ![0, 0] S1x128.size inb_S1x128_S1x128_0_0
abbrev allO6 : Rect S2000x128 := Rect.unit (s := S2000x128) ![0, 0] S2000x128.size inb_S2000x128_S2000x128_0_0

/-- The result block after one step, from the three input blocks: the step makes one store, of the whole block, of
    `a · W + b` computed from the whole input blocks. -/
def tileOut6 (a : Vec F S2000x128 .f32) (w : Vec F S128x128 .f32) (b : Vec F S1x128 .f32) : Vec F S2000x128 .f32 :=
  View.canon [⟨allO6, k6_pay1 (View.ld a allA6) (View.ld w allW6) (View.ld b allB6)⟩]

/-- That one store reaches every entry of the result block. -/
theorem covers6 (p : Vec F S2000x128 .f32) (y : S2000x128.Idx) :
    ∃ pc ∈ ([⟨allO6, p⟩] : List (View.Piece (Elt F) S2000x128 .f32)), y ∈ pc.1.set :=
  View.cover_of_tiled [⟨allO6, p⟩] S2000x128.size (by rfl) y

/-! ## One step of the kernel -/

set_option maxHeartbeats 1000000 in
/-- Run on four whole buffers, the first three holding `a`, `w`, `b` and the fourth anything, the kernel ends with the
    first three unchanged and the fourth holding `tileOut6 a w b`. (It reads the fourth once before overwriting it;
    what it reads there is not used.) -/
theorem kernel_triple6 (c : Dev nD) (E : Set ℕ) (i : grid6.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut6 a w b)) -∗ K ⟨⟩))
      ⊢ wp frame (wpE (defs₀ (F := F)) Variants.none c none) E (cc6__linear_kernel i m1 h1 m2 h2 m3 h3 m4 h4) K := by
  simp only [cc6__linear_kernel_eq_skeleton]; unfold cc6__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers6 _)

/-! ## The proof data of the region -/

/-- The arrays are `V`'s; after step `t` the three input windows hold their blocks still and the result window holds
    `tileOut6` of them; the invariant is the rest of the core's memory, left alone; nothing is owed and every buffer
    is owned in full. -/
def dat6 (c : Dev nD) : Dat τ (Elt F) Unit ℕ (UR sig nD τ) ℕ cfg6 c where
  A w := V c (Pipeline.arrRef spec6 w)
  after w t := match w with
    | ⟨0, _⟩ => tileBlock6 V c 0 t
    | ⟨1, _⟩ => tileBlock6 V c 1 t
    | ⟨2, _⟩ => tileBlock6 V c 2 t
    | ⟨3, _⟩ => tileOut6 (tileBlock6 V c 0 t) (tileBlock6 V c 1 t) (tileBlock6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = tileBlock6 V c 0 t := by dsimp only [dat6]
theorem after6_1 (c : Dev nD) (t : Fin cfg6.N) : (dat6 V c).after 1 t = tileBlock6 V c 1 t := by dsimp only [dat6]
theorem after6_2 (c : Dev nD) (t : Fin cfg6.N) : (dat6 V c).after 2 t = tileBlock6 V c 2 t := by dsimp only [dat6]
theorem after6_3 (c : Dev nD) (t : Fin cfg6.N) :
    (dat6 V c).after 3 t = tileOut6 (tileBlock6 V c 0 t) (tileBlock6 V c 1 t) (tileBlock6 V c 2 t) := by dsimp only [dat6]

/-- What each input buffer holds when the step starts: its block. -/
theorem held6_0 (c : Dev nD) (t : Fin cfg6.N) (d) : (dat6 V c).before 0 t d = tileBlock6 V c 0 t :=
  held6_0_of V (dat6 V c) (A_eq6 V c 0) (after6_0 V c) t d
theorem held6_1 (c : Dev nD) (t : Fin cfg6.N) (d) : (dat6 V c).before 1 t d = tileBlock6 V c 1 t :=
  held6_1_of V (dat6 V c) (A_eq6 V c 1) (after6_1 V c) t d
theorem held6_2 (c : Dev nD) (t : Fin cfg6.N) (d) : (dat6 V c).before 2 t d = tileBlock6 V c 2 t :=
  held6_2_of V (dat6 V c) (A_eq6 V c 2) (after6_2 V c) t d

/-! ## One step, as the pipeline asks for it -/

/-- What the step is given: the invariant, the debt, and the four current buffers, -/
def stepPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it gives back. -/
def stepPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The step at any point of the grid: the input buffers hold their blocks, so the kernel's triple applies; the invariant
    and the debt are not looked at. -/
theorem step_triple6 (c : Dev nD) (t : Fin cfg6.N) :
    stepPre6 V c t ⊢ wp frame (wpE (defs₀ (F := F)) Variants.none c none) Set.univ (bodyAt6 t) (fun _ => stepPost6 V c t) := by
  unfold stepPre6 stepPost6 bodyAt6
  simp only [held6_0, held6_1, held6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (kernel_triple6 c Set.univ _ _ _ _ _ _ _ _ _ (tileBlock6 V c 0 t) (tileBlock6 V c 1 t) (tileBlock6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation6 (c : Dev nD) : BodyObligation (dat6 (F := F) V c) (defs₀ (F := F)) Variants.none () Set.univ := fun t => by
  rw [bigSep_W6, bigSep_W6]
  exact step_triple6 V c t

end Cert.Kernel.Regions
-- ==== Proof.KernelPool7.lean ====
/-
  The third row-maximum region.

  The region walks the 25 row tiles of a [50000,128] array, 2000 rows each, and leaves in a [1,128] row the
  columnwise maximum of all of them. A one-row scratch buffer carries the running maximum from point to point: at
  the first point it is reset to minus infinity, at every point the columnwise maximum of the current tile is joined
  into it, and at the last point it is copied to the output row, which is written back only there.

  So the output window's staging row is untouched at every point but the last, and the state that matters between
  points lives in the scratch row: the invariant before point n says that the scratch row holds the running maximum
  of tiles 0 … n-1 (anything, before the first point). The running maximum is the recursion

      runMax7 0 = -inf row,   runMax7 (n+1) = max (runMax7 n) (columnwise max of tile n),

  spelt through the body's own two payloads. The body is run once for each of its three control cases (first point,
  a middle point, last point) on symbolic whole memrefs, and the obligation at a point picks the case from the
  point's position, the two conditions being decided over the grid in closed form.
-/
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import proofs.«115727_j48790828483060_1_alg».proof.Proof.KernelPool1
import Idealize.ShloMosaic.Lib.Pipeline.FrameBody
import Idealize.ShloMosaic.Lib.Tactic

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The condition of the body's first branch (the reset of the scratch row), from the grid coordinates. -/
abbrev first7 (i : grid7.Coords) : Prop :=
  (Scalar.cmpi .ne (Scalar.extui (Scalar.cmpi .eq (BitVec.ofNat 32 (i 0).val) 0#32)) 0#32) = 1#1

/-- It holds at the first point only. -/
theorem first7_iff : ∀ t : Fin cfg7.N, first7 (grid7.coords t) ↔ t.val = 0 :=
  (by decide +kernel : ∀ t : Fin grid7.N, first7 (grid7.coords t) ↔ t.val = 0)

/-- The second branch (the copy to the output row) is taken at the last point only. -/
theorem last7_iff : ∀ t : Fin cfg7.N, k7_cond2 (grid7.coords t) = 1#1 ↔ t.val = 24 :=
  (by decide +kernel : ∀ t : Fin grid7.N, k7_cond2 (grid7.coords t) = 1#1 ↔ t.val = 24)

/-! ## The body, once per control case

Each on whole memrefs held at named contents: the tile's buffer at `x0`, the scratch row at `xs`, the output row
(where the case touches it) at `xo`. -/

/-- A middle point: neither branch is taken; the scratch row ends at the tile's columnwise maximum joined with what it
    held, and nothing else is written. -/
theorem poolRun7_mid (c : Dev nD) (i : grid7.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first7 i) (h2 : ¬ k7_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k7_pay2 x0 xs)) -∗ K ⟨⟩))
      ⊢ wp frame (wpE (defs₀ (F := F)) Variants.none c none) Set.univ (cc7__max_pool_kernel i arg1 harg1 arg2 harg2 arg3 harg3) K := by
  simp only [cc7__max_pool_kernel_eq_skeleton]; unfold cc7__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  rw [read_writes_full _ _ zeros2, readAt_full _ _ zeros2, readAt_full _ _ zeros2, hf0, hf3]

/-- The first point: the scratch row is first reset to minus infinity, so it ends at the tile's columnwise maximum
    joined with minus infinity, whatever it held. -/
theorem poolRun7_first (c : Dev nD) (i : grid7.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : first7 i) (h2 : ¬ k7_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k7_pay2 x0 (k7_pay1 (F := F)))) -∗ K ⟨⟩))
      ⊢ wp frame (wpE (defs₀ (F := F)) Variants.none c none) Set.univ (cc7__max_pool_kernel i arg1 harg1 arg2 harg2 arg3 harg3) K := by
  simp only [cc7__max_pool_kernel_eq_skeleton]; unfold cc7__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  unfold poolRun7_first.sl.v7 poolRun7_first.sl.H3_1
  rw [read_writes_full _ _ zeros2, readAt_full _ _ zeros2, hf0, View.readCov_cons_toLoadRect]

/-- The last point: as a middle point, and then the scratch row is copied to the output row. -/
theorem poolRun7_last (c : Dev nD) (i : grid7.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first7 i) (h2 : k7_cond2 i = 1#1)
    (x0 : Vec F S2000x128 .f32) (xo : Vec F S1x128 .f32) (xs : Vec F S1x128 .f32) (K : PUnit → sProp 𝕄) :
    iprop(owns (c : Thread nD τ) arg1 fullShare x0 ∗ owns (c : Thread nD τ) arg2 fullShare xo ∗ owns (c : Thread nD τ) arg3 fullShare xs
        ∗ (iprop(owns (c : Thread nD τ) arg1 fullShare x0 ∗ owns (c : Thread nD τ) arg2 fullShare (k7_pay2 x0 xs)
            ∗ owns (c : Thread nD τ) arg3 fullShare (k7_pay2 x0 xs)) -∗ K ⟨⟩))
      ⊢ wp frame (wpE (defs₀ (F := F)) Variants.none c none) Set.univ (cc7__max_pool_kernel i arg1 harg1 arg2 harg2 arg3 harg3) K := by
  simp only [cc7__max_pool_kernel_eq_skeleton]; unfold cc7__max_pool_kernel_skel
  unfold owns
  iintro ⟨⟨%f0, %hf0, H0⟩, ⟨%f2, %hf2, H2⟩, ⟨%f3, %hf3, H3⟩, Hk⟩
  obtain rfl := harg1.eq_unread hf0; obtain rfl := harg2.eq_unread hf2; obtain rfl := harg3.eq_unread hf3
  sl_exec (disch := first | exact h1 | exact h2)
  sl_step
  iapply Hk
  isplitl [H0]
  · iexists _; isplitr; · ipureintro; exact hf0
    iexact H0
  isplitl [H2]
  · iexists _; isplitr; swap; · iexact H2
    ipureintro
    unfold poolRun7_last.sl.v15 poolRun7_last.sl.H3_1
    rw [read_writes_full _ _ zeros2, View.readCov_cons_toLoadRect, readAt_full _ _ zeros2, readAt_full _ _ zeros2, hf0, hf3]
  iexists _; isplitr; swap; · iexact H3
  ipureintro
  unfold poolRun7_last.sl.H3_1
  rw [read_writes_full _ _ zeros2, readAt_full _ _ zeros2, readAt_full _ _ zeros2, hf0, hf3]

/-! ## The proof data -/

section Data

variable (V : (c : Dev nD) → (b : Ref sig .tc) → Buf (Elt F) ((c : Thread nD τ).loc b))

/-- Window `w`'s block at point `t`, read off the arrays as the region finds them. -/
def poolBlock7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- The running maximum after `n` points: minus infinity before any, then the columnwise maximum of the row tile
    of point `n` joined with what the points before left. -/
def runMax7 (c : Dev nD) : ℕ → Vec F S1x128 .f32
  | 0 => k7_pay1
  | n + 1 => if h : n < cfg7.N then k7_pay2 (poolBlock7 V c 0 ⟨n, h⟩) (runMax7 c n) else runMax7 c n

theorem runMax7_zero (c : Dev nD) : runMax7 V c 0 = k7_pay1 (F := F) := rfl

theorem runMax7_succ (c : Dev nD) (n : ℕ) (h : n < cfg7.N) :
    runMax7 V c (n + 1) = k7_pay2 (poolBlock7 V c 0 ⟨n, h⟩) (runMax7 V c n) := by
  rw [runMax7, dif_pos h]

/-- What of the scoped rest the region does not name, and the generator register. -/
abbrev poolRest7 (c : Dev nD) : sProp 𝕄 :=
  iprop(Pipeline.scopedRestBut (Ix := Unit) (Name := ℕ) (U := UR sig nD τ) (Lvl := ℕ) (Val := Elt F) spec7 c [cc7_scratch0]
    ∗ ∃ r, prngReg c r)

/-- The invariant before point `n`: the scratch row holds anything before the first point and the running maximum
    of the points so far afterwards. -/
def poolInv7 (c : Dev nD) : ℕ → sProp 𝕄
  | 0 => iprop((∃ f : Buf (Elt F) ((c : Thread nD τ).loc cc7_scratch0), ((c : Thread nD τ).loc cc7_scratch0) ↦{fullShare} f)
      ∗ poolRest7 c)
  | n + 1 => iprop((((c : Thread nD τ).loc cc7_scratch0) ↦{fullShare} (runMax7 V c (n + 1)))
      ∗ poolRest7 c)

/-- The proof data of the region on core `c`. -/
def dat7 (c : Dev nD) : Dat τ (Elt F) Unit ℕ (UR sig nD τ) ℕ cfg7 c where
  A w := V c (Pipeline.arrRef spec7 w)
  after w t := match w with
    | ⟨0, _⟩ => poolBlock7 V c 0 t
    | ⟨1, _⟩ => runMax7 V c (t.val + 1)
  Φ t := poolInv7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = poolBlock7 V c 0 t := by dsimp only [dat7]
theorem after7_1 (c : Dev nD) (t : Fin cfg7.N) : (dat7 V c).after 1 t = runMax7 V c (t.val + 1) := by dsimp only [dat7]

theorem Phi7_at (c : Dev nD) (t : Fin (cfg7.N + 1)) : (dat7 V c).Φ t = poolInv7 V c t.val := rfl

theorem Phi7_zero (c : Dev nD) : (dat7 V c).Φ 0 =
    iprop((∃ f : Buf (Elt F) ((c : Thread nD τ).loc cc7_scratch0), ((c : Thread nD τ).loc cc7_scratch0) ↦{fullShare} f)
      ∗ Pipeline.scopedRestBut (Ix := Unit) (Name := ℕ) (U := UR sig nD τ) (Lvl := ℕ) (Val := Elt F) spec7 c [cc7_scratch0]
      ∗ ∃ r, prngReg c r) := rfl

theorem Phi7_last (c : Dev nD) : (dat7 V c).Φ (Fin.last cfg7.N) =
    iprop((((c : Thread nD τ).loc cc7_scratch0) ↦{fullShare} (runMax7 V c 25))
      ∗ Pipeline.scopedRestBut (Ix := Unit) (Name := ℕ) (U := UR sig nD τ) (Lvl := ℕ) (Val := Elt F) spec7 c [cc7_scratch0]
      ∗ ∃ r, prngReg c r) := by
  rw [Phi7_at, Fin.val_last, show cfg7.N = 25 from N_7]; rfl

/-- The row tile's staging buffer holds the tile when the body runs: it is fetched at every point. -/
theorem before7_0 (c : Dev nD) (t : Fin cfg7.N) (d) : (dat7 V c).before 0 t d = poolBlock7 V c 0 t := by
  rw [Dat.before_fetched _ 0 t (fetch7_0 t)]
  unfold Dat.fetched Dat.blockOf poolBlock7; rw [A_eq7]; rfl

end Data

/-! ## The body obligation -/

section Obligation

variable (V : (c : Dev nD) → (b : Ref sig .tc) → Buf (Elt F) ((c : Thread nD τ).loc b))

/-- One step of the running maximum, at a point of the grid. -/
theorem runMax7_at (c : Dev nD) (t : Fin cfg7.N) :
    runMax7 V c (t.val + 1) = k7_pay2 (poolBlock7 V c 0 t) (runMax7 V c t.val) :=
  runMax7_succ V c t.val t.isLt

theorem poolInv7_zero (c : Dev nD) : poolInv7 V c 0 =
    iprop((∃ f : Buf (Elt F) ((c : Thread nD τ).loc cc7_scratch0), ((c : Thread nD τ).loc cc7_scratch0) ↦{fullShare} f)
      ∗ poolRest7 c) := rfl

theorem poolInv7_succ (c : Dev nD) (n : ℕ) : poolInv7 V c (n + 1) =
    iprop((((c : Thread nD τ).loc cc7_scratch0) ↦{fullShare} (runMax7 V c (n + 1))) ∗ poolRest7 c) := rfl

/-- Each window's current staging memref at point `t`, as the pipeline passes it to the body. -/
abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)

/-- At every point the body takes the invariant and the windows' buffers to the invariant at the next point and
    the buffers at what the proof data say: by the point's position, one of the three runs above. -/
theorem body_obligation7 (c : Dev nD) : BodyObligation (dat7 (F := F) V c) (defs₀ (F := F)) Variants.none () Set.univ := fun t => by
  have hN : t.val < 25 := lt_of_lt_of_eq t.isLt N_7
  rw [bigSep_W7, bigSep_W7]
  by_cases hlast : t.val = 24
  · -- the last point: the maximum is joined once more and copied to the output row
    have hk : k7_cond2 (grid7.coords t) = 1#1 := (last7_iff t).mpr hlast
    have hfirst : ¬ first7 (grid7.coords t) := fun h => by have := (first7_iff t).mp h; omega
    have hi1 : idle7 1 (grid7.coords t) = false := by
      show (!(k7_cond2 (grid7.coords t) == 1#1)) = false
      rw [hk]; rfl
    simp only []
    rw [hi1]
    simp only [before7_0]
    rw [Phi7_at, Phi7_at, after7_0, after7_1, runMax7_at,
      show (dat7 V c).owesAt () t.succ = (dat7 V c).owesAt () t.castSucc from rfl,
      show (t.succ : Fin (cfg7.N + 1)).val = t.val + 1 from rfl, show (t.castSucc : Fin (cfg7.N + 1)).val = t.val from rfl]
    obtain ⟨n, hn⟩ : ∃ n, t.val = n + 1 := ⟨23, hlast⟩
    rw [poolInv7_succ, runMax7_at]
    rw [hn, poolInv7_succ, ← owns_whole, ← owns_whole]
    iintro ⟨⟨Hs, Hrest⟩, Ho, ⟨%d0, H0⟩, ⟨%d1, H1⟩⟩
    iapply (poolRun7_last c (grid7.coords t) (ms7_0 t) (hs7_0 t) (ms7_1 t) (hs7_1 t) (Memref.whole cc7_scratch0)
      (Memref.isWhole_whole _) hfirst hk (poolBlock7 V c 0 t) _ (runMax7 V c (n + 1)) _)
    isplitl [H0]; · iexact H0
    isplitl [H1]; · iexact H1
    isplitl [Hs]; · iexact Hs
    iintro ⟨H0, H1, Hs⟩
    isplitl [Hs Hrest]
    · isplitl [Hs]; · iexact Hs
      iexact Hrest
    isplitl [Ho]; · iexact Ho
    isplitl [H0]; · iexact H0
    iexact H1
  · -- any other point: the output row is handed back as it was found
    have hk : ¬ k7_cond2 (grid7.coords t) = 1#1 := fun h => hlast ((last7_iff t).mp h)
    have hi1 : idle7 1 (grid7.coords t) = true := by
      show (!(k7_cond2 (grid7.coords t) == 1#1)) = true
      simp [hk]
    have hf1 : (cfg7.win 1).flush t = false :=
      Bool.eq_false_iff.mpr fun h => hlast (by have := (flush7_1 t).mp h; omega)
    simp only [hf1]
    rw [hi1]
    simp only [before7_0]
    rw [Phi7_at, Phi7_at, after7_0,
      show (dat7 V c).owesAt () t.succ = (dat7 V c).owesAt () t.castSucc from rfl,
      show (t.succ : Fin (cfg7.N + 1)).val = t.val + 1 from rfl, show (t.castSucc : Fin (cfg7.N + 1)).val = t.val from rfl]
    rw [poolInv7_succ, runMax7_at]
    by_cases h0 : t.val = 0
    · -- the first point: the scratch row is reset to minus infinity before the tile is joined
      have hfirst : first7 (grid7.coords t) := (first7_iff t).mpr h0
      rw [h0, poolInv7_zero, runMax7_zero, ← owns_whole]
      iintro ⟨⟨⟨%fs, Hs⟩, Hrest⟩, Ho, ⟨%d0, H0⟩, ⟨%d1, H1⟩⟩
      iapply (poolRun7_first c (grid7.coords t) (ms7_0 t) (hs7_0 t) (ms7_1 t) (hs7_1 t) (Memref.whole cc7_scratch0)
        (Memref.isWhole_whole _) hfirst hk (poolBlock7 V c 0 t) fs _)
      isplitl [H0]; · iexact H0
      isplitl [Hs]; · rw [owns_whole]; iexact Hs
      iintro ⟨H0, Hs⟩
      isplitl [Hs Hrest]
      · isplitl [Hs]; · iexact Hs
        iexact Hrest
      isplitl [Ho]; · iexact Ho
      isplitl [H0]; · iexact H0
      iexists d1; iexact H1
    · -- a middle point: the tile is joined into the running maximum
      have hfirst : ¬ first7 (grid7.coords t) := fun h => h0 ((first7_iff t).mp h)
      obtain ⟨n, hn⟩ : ∃ n, t.val = n + 1 := ⟨t.val - 1, by omega⟩
      rw [hn, poolInv7_succ, ← owns_whole, ← owns_whole]
      iintro ⟨⟨Hs, Hrest⟩, Ho, ⟨%d0, H0⟩, ⟨%d1, H1⟩⟩
      iapply (poolRun7_mid c (grid7.coords t) (ms7_0 t) (hs7_0 t) (ms7_1 t) (hs7_1 t) (Memref.whole cc7_scratch0)
        (Memref.isWhole_whole _) hfirst hk (poolBlock7 V c 0 t) (runMax7 V c (n + 1)) _)
      isplitl [H0]; · iexact H0
      isplitl [Hs]; · iexact Hs
      iintro ⟨H0, Hs⟩
      isplitl [Hs Hrest]
      · isplitl [Hs]; · iexact Hs
        iexact Hrest
      isplitl [Ho]; · iexact Ho
      isplitl [H0]; · iexact H0
      iexists d1; iexact H1

end Obligation

/-! ## The region's two ends -/

section Ends

variable (V : (c : Dev nD) → (b : Ref sig .tc) → Buf (Elt F) ((c : Thread nD τ).loc b))

/-- Entering: the scratch row is one of the scoped buffers the region does not stage; opened at whatever it holds,
    with the rest and the generator register, it is the invariant before the first point. Anything else is dropped. -/
theorem poolEnter7 (c : Dev nD) (P : sProp 𝕄) :
    iprop((∃ r, prngReg c r) ∗ P
        ∗ Pipeline.scopedRest (Ix := Unit) (Name := ℕ) (U := UR sig nD τ) (Lvl := ℕ) (Val := Elt F) spec7 c)
      ⊢ (dat7 V c).Φ 0 := by
  rw [Phi7_zero, scopedRest7_split]
  iintro ⟨Hr, -, Hs, Hrest⟩
  isplitl [Hs]; · iexact Hs
  isplitl [Hrest]; · iexact Hrest
  iexact Hr

/-- Leaving: the scratch row's contents are forgotten and it rejoins the scoped rest. -/
theorem poolLeave7 (c : Dev nD) :
    (dat7 V c).Φ (Fin.last cfg7.N)
      ⊢ iprop((∃ r, prngReg c r) ∗ (BI.emp : sProp 𝕄)
        ∗ Pipeline.scopedRest (Ix := Unit) (Name := ℕ) (U := UR sig nD τ) (Lvl := ℕ) (Val := Elt F) spec7 c) := by
  rw [Phi7_last, scopedRest7_split]
  iintro ⟨Hs, Hrest, Hr⟩
  isplitl [Hr]; · iexact Hr
  isplitr; · iempintro
  isplitl [Hs]; · iexists _; iexact Hs
  iexact Hrest

end Ends

end Cert.Kernel.Regions

end
-- ==== Proof.KernelLinear8.lean ====
import proofs.«115727_j48790828483060_1_alg».proof.Proof.Gen.Kernel.Launch
import proofs.«115727_j48790828483060_1_alg».proof.Proof.Gen.Kernel.Skeleton
import proofs.«115727_j48790828483060_1_alg».proof.Proof.Gen.Kernel.Points
import Idealize.ShloMosaic.Lib.Pipeline.FrameBody
import Idealize.ShloMosaic.Lib.Ring
import Idealize.ShloMosaic.Lib.Tactic

/-!
# The last layer's update, one row tile at a time

The last kernel region computes `h · M + b` for a 50000 × 128 matrix `h`, a 128 × 64 matrix `M` and a
one-row bias `b`, in 25 steps of 2000 rows; its result is 64 wide. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The row tile of the left factor is in its buffer at every step (it is brought in at every step). Stated for any proof data
    with `V`'s array that leaves the tile in place. -/
theorem held8_0_of {c : Dev nD} (dat : Dat τ (Elt F) Unit ℕ (UR sig nD τ) ℕ cfg8 c)
    (hA : dat.A 0 = V c (Pipeline.arrRef spec8 0)) (hafter : ∀ t, dat.after 0 t = tileBlock8 V c 0 t)
    (t : Fin cfg8.N) (d) : dat.before 0 t d = tileBlock8 V c 0 t :=
  (dat.before_in_eq_fetched 0 rfl (fun _ => rfl) (fun _ _ _ => rfl)
    (fun t => by rw [hafter]; unfold Dat.blockOf tileBlock8; rw [hA]; try rfl) t d).trans
    (by unfold Dat.fetched Dat.blockOf tileBlock8; rw [hA]; try rfl)

/-- The right factor is in its buffer at every step although it is brought in only at the first: its index map is constant,
    so at a later step the block already there is still the block wanted. -/
theorem held8_1_of {c : Dev nD} (dat : Dat τ (Elt F) Unit ℕ (UR sig nD τ) ℕ cfg8 c)
    (hA : dat.A 1 = V c (Pipeline.arrRef spec8 1)) (hafter : ∀ t, dat.after 1 t = tileBlock8 V c 1 t)
    (t : Fin cfg8.N) (d) : dat.before 1 t d = tileBlock8 V c 1 t :=
  (dat.before_in_eq_fetched 1 rfl (fun _ => rfl) (fun _ _ _ => rfl)
    (fun t => by rw [hafter]; unfold Dat.blockOf tileBlock8; rw [hA]; try rfl) t d).trans
    (by unfold Dat.fetched Dat.blockOf tileBlock8; rw [hA]; try rfl)

/-- The same for the bias row. -/
theorem held8_2_of {c : Dev nD} (dat : Dat τ (Elt F) Unit ℕ (UR sig nD τ) ℕ cfg8 c)
    (hA : dat.A 2 = V c (Pipeline.arrRef spec8 2)) (hafter : ∀ t, dat.after 2 t = tileBlock8 V c 2 t)
    (t : Fin cfg8.N) (d) : dat.before 2 t d = tileBlock8 V c 2 t :=
  (dat.before_in_eq_fetched 2 rfl (fun _ => rfl) (fun _ _ _ => rfl)
    (fun t => by rw [hafter]; unfold Dat.blockOf tileBlock8; rw [hA]; try rfl) t d).trans
    (by unfold Dat.fetched Dat.blockOf tileBlock8; rw [hA]; try rfl)

/-! ## What one step writes -/

/-- The whole of a 2000 × 128 buffer, of a 128 × 64 one, of a 1 × 64 one and of a 2000 × 64 one, as rectangles. -/
abbrev allA8 : Rect S2000x128 := Rect.unit (s := S2000x128) ![0, 0] S2000x128.size inb_S2000x128_S2000x128_0_0
abbrev allW8 : Rect S128x64 := Rect.unit (s := S128x64) ![0, 0] S128x64.size inb_S128x64_S128x64_0_0
abbrev allB8 : Rect S1x64 := Rect.unit (s := S1x64) ![0, 0] S1x64.size inb_S1x64_S1x64_0_0
abbrev allO8 : Rect S2000x64 := Rect.unit (s := S2000x64) ![0, 0] S2000x64.size inb_S2000x64_S2000x64_0_0

/-- The result block after one step, from the three input blocks: the step makes one store, of the whole block, of
    `a · W + b` computed from the whole input blocks. -/
def tileOut8 (a : Vec F S2000x128 .f32) (w : Vec F S128x64 .f32) (b : Vec F S1x64 .f32) : Vec F S2000x64 .f32 :=
  View.canon [⟨allO8, k8_pay1 (View.ld a allA8) (View.ld w allW8) (View.ld b allB8)⟩]

/-- That one store reaches every entry of the result block. -/
theorem covers8 (p : Vec F S2000x64 .f32) (y : S2000x64.Idx) :
    ∃ pc ∈ ([⟨allO8, p⟩] : List (View.Piece (Elt F) S2000x64 .f32)), y ∈ pc.1.set :=
  View.cover_of_tiled [⟨allO8, p⟩] S2000x64.size (by rfl) y

/-! ## One step of the kernel -/

set_option maxHeartbeats 1000000 in
/-- Run on four whole buffers, the first three holding `a`, `w`, `b` and the fourth anything, the kernel ends with the
    first three unchanged and the fourth holding `tileOut8 a w b`. (It reads the fourth once before overwriting it;
    what it reads there is not used.) -/
theorem kernel_triple8 (c : Dev nD) (E : Set ℕ) (i : grid8.Coords)
    (m1 : Memref sig .tc .vmem S2000x128 .f32) (h1 : m1.IsWhole) (m2 : Memref sig .tc .vmem S128x64 .f32) (h2 : m2.IsWhole)
    (m3 : Memref sig .tc .vmem S1x64 .f32) (h3 : m3.IsWhole) (m4 : Memref sig .tc .vmem S2000x64 .f32) (h4 : m4.IsWhole)
    (a : Vec F S2000x128 .f32) (w : Vec F S128x64 .f32) (b : Vec F S1x64 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut8 a w b)) -∗ K ⟨⟩))
      ⊢ wp frame (wpE (defs₀ (F := F)) Variants.none c none) E (cc8__linear_kernel i m1 h1 m2 h2 m3 h3 m4 h4) K := by
  simp only [cc8__linear_kernel_eq_skeleton]; unfold cc8__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers8 _)

/-! ## The proof data of the region -/

/-- The arrays are `V`'s; after step `t` the three input windows hold their blocks still and the result window holds
    `tileOut8` of them; the invariant is the rest of the core's memory, left alone; nothing is owed and every buffer
    is owned in full. -/
def dat8 (c : Dev nD) : Dat τ (Elt F) Unit ℕ (UR sig nD τ) ℕ cfg8 c where
  A w := V c (Pipeline.arrRef spec8 w)
  after w t := match w with
    | ⟨0, _⟩ => tileBlock8 V c 0 t
    | ⟨1, _⟩ => tileBlock8 V c 1 t
    | ⟨2, _⟩ => tileBlock8 V c 2 t
    | ⟨3, _⟩ => tileOut8 (tileBlock8 V c 0 t) (tileBlock8 V c 1 t) (tileBlock8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = tileBlock8 V c 0 t := by dsimp only [dat8]
theorem after8_1 (c : Dev nD) (t : Fin cfg8.N) : (dat8 V c).after 1 t = tileBlock8 V c 1 t := by dsimp only [dat8]
theorem after8_2 (c : Dev nD) (t : Fin cfg8.N) : (dat8 V c).after 2 t = tileBlock8 V c 2 t := by dsimp only [dat8]
theorem after8_3 (c : Dev nD) (t : Fin cfg8.N) :
    (dat8 V c).after 3 t = tileOut8 (tileBlock8 V c 0 t) (tileBlock8 V c 1 t) (tileBlock8 V c 2 t) := by dsimp only [dat8]

/-- What each input buffer holds when the step starts: its block. -/
theorem held8_0 (c : Dev nD) (t : Fin cfg8.N) (d) : (dat8 V c).before 0 t d = tileBlock8 V c 0 t :=
  held8_0_of V (dat8 V c) (A_eq8 V c 0) (after8_0 V c) t d
theorem held8_1 (c : Dev nD) (t : Fin cfg8.N) (d) : (dat8 V c).before 1 t d = tileBlock8 V c 1 t :=
  held8_1_of V (dat8 V c) (A_eq8 V c 1) (after8_1 V c) t d
theorem held8_2 (c : Dev nD) (t : Fin cfg8.N) (d) : (dat8 V c).before 2 t d = tileBlock8 V c 2 t :=
  held8_2_of V (dat8 V c) (A_eq8 V c 2) (after8_2 V c) t d

/-! ## One step, as the pipeline asks for it -/

/-- What the step is given: the invariant, the debt, and the four current buffers, -/
def stepPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it gives back. -/
def stepPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The step at any point of the grid: the input buffers hold their blocks, so the kernel's triple applies; the invariant
    and the debt are not looked at. -/
theorem step_triple8 (c : Dev nD) (t : Fin cfg8.N) :
    stepPre8 V c t ⊢ wp frame (wpE (defs₀ (F := F)) Variants.none c none) Set.univ (bodyAt8 t) (fun _ => stepPost8 V c t) := by
  unfold stepPre8 stepPost8 bodyAt8
  simp only [held8_0, held8_1, held8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (kernel_triple8 c Set.univ _ _ _ _ _ _ _ _ _ (tileBlock8 V c 0 t) (tileBlock8 V c 1 t) (tileBlock8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation8 (c : Dev nD) : BodyObligation (dat8 (F := F) V c) (defs₀ (F := F)) Variants.none () Set.univ := fun t => by
  rw [bigSep_W8, bigSep_W8]
  exact step_triple8 V c t

end Cert.Kernel.Regions
-- ==== Proof.KernelRun.lean ====
/-
  The run of the program's nine kernel regions among its nine stretches of host operations.

  Between two items of @main a TensorCore holds every unscoped buffer whole at known contents: the launch memory, then
  each stretch of host operations applied (`StableHlo.after`), then, after a region, the region's result array replaced
  by what its pipeline's write-backs leave (the fold `Dat.arrAt … N` of the region's proof data) and every other buffer
  untouched — the boundaries `B0 … B18` below. Regions 0, 3, 6 (a row tile times a weight plus a one-row bias), 2, 5, 8
  (the same, with a maximum against zero in 2 and 5) stage four arrays and keep no state between grid points; regions
  1, 4, 7 (a maximum over rows) keep the running maximum in a scratch row, which lives in the pipeline's invariant.
  Each region is one segment record over those boundaries; the host stretches and the chaining are the generated
  conditional frame's. No argument array is written by any stretch or region, so each ends as launched.
-/
import proofs.«115727_j48790828483060_1_alg».proof.Proof.Gen.Kernel.Regions
import proofs.«115727_j48790828483060_1_alg».proof.Proof.KernelLinear0
import proofs.«115727_j48790828483060_1_alg».proof.Proof.KernelPool1
import proofs.«115727_j48790828483060_1_alg».proof.Proof.KernelLinear2
import proofs.«115727_j48790828483060_1_alg».proof.Proof.KernelLinear3
import proofs.«115727_j48790828483060_1_alg».proof.Proof.KernelPool4
import proofs.«115727_j48790828483060_1_alg».proof.Proof.KernelLinear5
import proofs.«115727_j48790828483060_1_alg».proof.Proof.KernelLinear6
import proofs.«115727_j48790828483060_1_alg».proof.Proof.KernelPool7
import proofs.«115727_j48790828483060_1_alg».proof.Proof.KernelLinear8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references: the form a region's proof data take them in. -/
abbrev atRefs (W : Dev nD → Valuation τ sig (Elt F)) : (c : Dev nD) → (b : Ref sig .tc) → Buf (Elt F) ((c : Thread nD τ).loc b) :=
  fun c b => W c b

/-- No core owes another anything: no pair carries a level. -/
abbrev noLev : GSem nD τ sig → Finset Unit := fun _ => ∅
abbrev zeroLev : GSem nD τ sig → Unit → ℕ := fun _ _ => 0

/-- What rides beside the buffers between two items of @main: the core's generator register at some state and the
    core owing nothing. -/
abbrev rest (c : Dev nD) : sProp 𝕄 :=
  iprop((∃ r, prngReg c r) ∗ ∃ W, owes (c : Thread nD τ) (0 : CellTallies nD τ sig Unit) W)

/-! ## The buffers' contents between the items of @main -/

/-- The buffers as launched. -/
abbrev B0 (c : Dev nD) : Valuation τ sig (Elt F) := fun b => m (c, b)
/-- After the first stretch of host operations: what region 0 is entered from. -/
abbrev B1 (c : Dev nD) : Valuation τ sig (Elt F) := StableHlo.after hostOps0 (B0 m c)
/-- What region 0 leaves in its result array: the write-backs of all 25 points folded. -/
def res0 (c : Dev nD) : Buf (Elt F) ((c : Thread nD τ).loc main_v29) := (dat0 (atRefs (B1 m)) c).arrAt 3 cfg0.N
/-- After region 0: its result array replaced, every other buffer as entered. -/
def B2 (c : Dev nD) : Valuation τ sig (Elt F) := Function.update (B1 m c) main_v29 (res0 m c)
theorem B2_of_ne (c : Dev nD) (b : Ref sig .tc) (h : b ≠ main_v29) : B2 m c b = B1 m c b := by
  unfold B2; exact Function.update_of_ne (StableHlo.devRef_ne_of_ne h) _ _
theorem B2_res (c : Dev nD) : B2 m c main_v29 = res0 m c := by
  unfold B2; exact Function.update_self ..
/-- After the next stretch of host operations: what region 1 is entered from. -/
def B3 (c : Dev nD) : Valuation τ sig (Elt F) := StableHlo.after hostOps1 (B2 m c)
/-- What region 1 leaves in its result array: the write-backs of all 25 points folded. -/
def res1 (c : Dev nD) : Buf (Elt F) ((c : Thread nD τ).loc main_v50) := (dat1 (atRefs (B3 m)) c).arrAt 1 cfg1.N
/-- After region 1: its result array replaced, every other buffer as entered. -/
def B4 (c : Dev nD) : Valuation τ sig (Elt F) := Function.update (B3 m c) main_v50 (res1 m c)
theorem B4_of_ne (c : Dev nD) (b : Ref sig .tc) (h : b ≠ main_v50) : B4 m c b = B3 m c b := by
  unfold B4; exact Function.update_of_ne (StableHlo.devRef_ne_of_ne h) _ _
theorem B4_res (c : Dev nD) : B4 m c main_v50 = res1 m c := by
  unfold B4; exact Function.update_self ..
/-- After the next stretch of host operations: what region 2 is entered from. -/
def B5 (c : Dev nD) : Valuation τ sig (Elt F) := StableHlo.after hostOps2 (B4 m c)
/-- What region 2 leaves in its result array: the write-backs of all 25 points folded. -/
def res2 (c : Dev nD) : Buf (Elt F) ((c : Thread nD τ).loc main_v56) := (dat2 (atRefs (B5 m)) c).arrAt 3 cfg2.N
/-- After region 2: its result array replaced, every other buffer as entered. -/
def B6 (c : Dev nD) : Valuation τ sig (Elt F) := Function.update (B5 m c) main_v56 (res2 m c)
theorem B6_of_ne (c : Dev nD) (b : Ref sig .tc) (h : b ≠ main_v56) : B6 m c b = B5 m c b := by
  unfold B6; exact Function.update_of_ne (StableHlo.devRef_ne_of_ne h) _ _
theorem B6_res (c : Dev nD) : B6 m c main_v56 = res2 m c := by
  unfold B6; exact Function.update_self ..
/-- After the next stretch of host operations: what region 3 is entered from. -/
def B7 (c : Dev nD) : Valuation τ sig (Elt F) := StableHlo.after hostOps3 (B6 m c)
/-- What region 3 leaves in its result array: the write-backs of all 25 points folded. -/
def res3 (c : Dev nD) : Buf (Elt F) ((c : Thread nD τ).loc main_v58) := (dat3 (atRefs (B7 m)) c).arrAt 3 cfg3.N
/-- After region 3: its result array replaced, every other buffer as entered. -/
def B8 (c : Dev nD) : Valuation τ sig (Elt F) := Function.update (B7 m c) main_v58 (res3 m c)
theorem B8_of_ne (c : Dev nD) (b : Ref sig .tc) (h : b ≠ main_v58) : B8 m c b = B7 m c b := by
  unfold B8; exact Function.update_of_ne (StableHlo.devRef_ne_of_ne h) _ _
theorem B8_res (c : Dev nD) : B8 m c main_v58 = res3 m c := by
  unfold B8; exact Function.update_self ..
/-- After the next stretch of host operations: what region 4 is entered from. -/
def B9 (c : Dev nD) : Valuation τ sig (Elt F) := StableHlo.after hostOps4 (B8 m c)
/-- What region 4 leaves in its result array: the write-backs of all 25 points folded. -/
def res4 (c : Dev nD) : Buf (Elt F) ((c : Thread nD τ).loc main_v79) := (dat4 (atRefs (B9 m)) c).arrAt 1 cfg4.N
/-- After region 4: its result array replaced, every other buffer as entered. -/
def B10 (c : Dev nD) : Valuation τ sig (Elt F) := Function.update (B9 m c) main_v79 (res4 m c)
theorem B10_of_ne (c : Dev nD) (b : Ref sig .tc) (h : b ≠ main_v79) : B10 m c b = B9 m c b := by
  unfold B10; exact Function.update_of_ne (StableHlo.devRef_ne_of_ne h) _ _
theorem B10_res (c : Dev nD) : B10 m c main_v79 = res4 m c := by
  unfold B10; exact Function.update_self ..
/-- After the next stretch of host operations: what region 5 is entered from. -/
def B11 (c : Dev nD) : Valuation τ sig (Elt F) := StableHlo.after hostOps5 (B10 m c)
/-- What region 5 leaves in its result array: the write-backs of all 25 points folded. -/
def res5 (c : Dev nD) : Buf (Elt F) ((c : Thread nD τ).loc main_v85) := (dat5 (atRefs (B11 m)) c).arrAt 3 cfg5.N
/-- After region 5: its result array replaced, every other buffer as entered. -/
def B12 (c : Dev nD) : Valuation τ sig (Elt F) := Function.update (B11 m c) main_v85 (res5 m c)
theorem B12_of_ne (c : Dev nD) (b : Ref sig .tc) (h : b ≠ main_v85) : B12 m c b = B11 m c b := by
  unfold B12; exact Function.update_of_ne (StableHlo.devRef_ne_of_ne h) _ _
theorem B12_res (c : Dev nD) : B12 m c main_v85 = res5 m c := by
  unfold B12; exact Function.update_self ..
/-- After the next stretch of host operations: what region 6 is entered from. -/
def B13 (c : Dev nD) : Valuation τ sig (Elt F) := StableHlo.after hostOps6 (B12 m c)
/-- What region 6 leaves in its result array: the write-backs of all 25 points folded. -/
def res6 (c : Dev nD) : Buf (Elt F) ((c : Thread nD τ).loc main_v87) := (dat6 (atRefs (B13 m)) c).arrAt 3 cfg6.N
/-- After region 6: its result array replaced, every other buffer as entered. -/
def B14 (c : Dev nD) : Valuation τ sig (Elt F) := Function.update (B13 m c) main_v87 (res6 m c)
theorem B14_of_ne (c : Dev nD) (b : Ref sig .tc) (h : b ≠ main_v87) : B14 m c b = B13 m c b := by
  unfold B14; exact Function.update_of_ne (StableHlo.devRef_ne_of_ne h) _ _
theorem B14_res (c : Dev nD) : B14 m c main_v87 = res6 m c := by
  unfold B14; exact Function.update_self ..
/-- After the next stretch of host operations: what region 7 is entered from. -/
def B15 (c : Dev nD) : Valuation τ sig (Elt F) := StableHlo.after hostOps7 (B14 m c)
/-- What region 7 leaves in its result array: the write-backs of all 25 points folded. -/
def res7 (c : Dev nD) : Buf (Elt F) ((c : Thread nD τ).loc main_v108) := (dat7 (atRefs (B15 m)) c).arrAt 1 cfg7.N
/-- After region 7: its result array replaced, every other buffer as entered. -/
def B16 (c : Dev nD) : Valuation τ sig (Elt F) := Function.update (B15 m c) main_v108 (res7 m c)
theorem B16_of_ne (c : Dev nD) (b : Ref sig .tc) (h : b ≠ main_v108) : B16 m c b = B15 m c b := by
  unfold B16; exact Function.update_of_ne (StableHlo.devRef_ne_of_ne h) _ _
theorem B16_res (c : Dev nD) : B16 m c main_v108 = res7 m c := by
  unfold B16; exact Function.update_self ..
/-- After the next stretch of host operations: what region 8 is entered from. -/
def B17 (c : Dev nD) : Valuation τ sig (Elt F) := StableHlo.after hostOps8 (B16 m c)
/-- What region 8 leaves in its result array: the write-backs of all 25 points folded. -/
def res8 (c : Dev nD) : Buf (Elt F) ((c : Thread nD τ).loc main_v114) := (dat8 (atRefs (B17 m)) c).arrAt 3 cfg8.N
/-- After region 8: its result array replaced, every other buffer as entered. -/
def B18 (c : Dev nD) : Valuation τ sig (Elt F) := Function.update (B17 m c) main_v114 (res8 m c)
theorem B18_of_ne (c : Dev nD) (b : Ref sig .tc) (h : b ≠ main_v114) : B18 m c b = B17 m c b := by
  unfold B18; exact Function.update_of_ne (StableHlo.devRef_ne_of_ne h) _ _
theorem B18_res (c : Dev nD) : B18 m c main_v114 = res8 m c := by
  unfold B18; exact Function.update_self ..

/-- What the regions leave, in the form the conditional frame takes it: the contents of `r` after item `J - 1`. Only the
    result array of the region just left is ever read at `J`. -/
def outs : Outs (F := F) := fun J r c => match J with
  | 2 => B2 m c r
  | 4 => B4 m c r
  | 6 => B6 m c r
  | 8 => B8 m c r
  | 10 => B10 m c r
  | 12 => B12 m c r
  | 14 => B14 m c r
  | 16 => B16 m c r
  | 18 => B18 m c r
  | _ => m ((c : Thread nD τ).loc r)

/-! The generated valuations at these `outs` are the boundaries. -/
theorem V1_eq (c : Dev nD) : V1 m c = B1 m c := rfl
theorem V2_eq (c : Dev nD) : V2 m (outs m) c = B2 m c := by
  show Function.update (V1 m c) main_v29 (outs m 2 main_v29 c) = _
  rw [V1_eq]; simp only [outs, B2, Function.update_self]
theorem V3_eq (c : Dev nD) : V3 m (outs m) c = B3 m c := by
  show StableHlo.after hostOps1 (V2 m (outs m) c) = _
  rw [V2_eq]; rfl
theorem V4_eq (c : Dev nD) : V4 m (outs m) c = B4 m c := by
  show Function.update (V3 m (outs m) c) main_v50 (outs m 4 main_v50 c) = _
  rw [V3_eq]; simp only [outs, B4, Function.update_self]
theorem V5_eq (c : Dev nD) : V5 m (outs m) c = B5 m c := by
  show StableHlo.after hostOps2 (V4 m (outs m) c) = _
  rw [V4_eq]; rfl
theorem V6_eq (c : Dev nD) : V6 m (outs m) c = B6 m c := by
  show Function.update (V5 m (outs m) c) main_v56 (outs m 6 main_v56 c) = _
  rw [V5_eq]; simp only [outs, B6, Function.update_self]
theorem V7_eq (c : Dev nD) : V7 m (outs m) c = B7 m c := by
  show StableHlo.after hostOps3 (V6 m (outs m) c) = _
  rw [V6_eq]; rfl
theorem V8_eq (c : Dev nD) : V8 m (outs m) c = B8 m c := by
  show Function.update (V7 m (outs m) c) main_v58 (outs m 8 main_v58 c) = _
  rw [V7_eq]; simp only [outs, B8, Function.update_self]
theorem V9_eq (c : Dev nD) : V9 m (outs m) c = B9 m c := by
  show StableHlo.after hostOps4 (V8 m (outs m) c) = _
  rw [V8_eq]; rfl
theorem V10_eq (c : Dev nD) : V10 m (outs m) c = B10 m c := by
  show Function.update (V9 m (outs m) c) main_v79 (outs m 10 main_v79 c) = _
  rw [V9_eq]; simp only [outs, B10, Function.update_self]
theorem V11_eq (c : Dev nD) : V11 m (outs m) c = B11 m c := by
  show StableHlo.after hostOps5 (V10 m (outs m) c) = _
  rw [V10_eq]; rfl
theorem V12_eq (c : Dev nD) : V12 m (outs m) c = B12 m c := by
  show Function.update (V11 m (outs m) c) main_v85 (outs m 12 main_v85 c) = _
  rw [V11_eq]; simp only [outs, B12, Function.update_self]
theorem V13_eq (c : Dev nD) : V13 m (outs m) c = B13 m c := by
  show StableHlo.after hostOps6 (V12 m (outs m) c) = _
  rw [V12_eq]; rfl
theorem V14_eq (c : Dev nD) : V14 m (outs m) c = B14 m c := by
  show Function.update (V13 m (outs m) c) main_v87 (outs m 14 main_v87 c) = _
  rw [V13_eq]; simp only [outs, B14, Function.update_self]
theorem V15_eq (c : Dev nD) : V15 m (outs m) c = B15 m c := by
  show StableHlo.after hostOps7 (V14 m (outs m) c) = _
  rw [V14_eq]; rfl
theorem V16_eq (c : Dev nD) : V16 m (outs m) c = B16 m c := by
  show Function.update (V15 m (outs m) c) main_v108 (outs m 16 main_v108 c) = _
  rw [V15_eq]; simp only [outs, B16, Function.update_self]
theorem V17_eq (c : Dev nD) : V17 m (outs m) c = B17 m c := by
  show StableHlo.after hostOps8 (V16 m (outs m) c) = _
  rw [V16_eq]; rfl
theorem V18_eq (c : Dev nD) : V18 m (outs m) c = B18 m c := by
  show Function.update (V17 m (outs m) c) main_v114 (outs m 18 main_v114 c) = _
  rw [V17_eq]; simp only [outs, B18, Function.update_self]

/-! ## The proof data of the nine pipelines, each at the boundary its region is entered from -/

def pdats : (p : Fin 9) → (c : Dev nD) → Dat τ (Elt F) Unit ℕ (UR sig nD τ) ℕ (cfgs p) c
  | ⟨0, _⟩ => fun c => dat0 (atRefs (B1 m)) c
  | ⟨1, _⟩ => fun c => dat1 (atRefs (B3 m)) c
  | ⟨2, _⟩ => fun c => dat2 (atRefs (B5 m)) c
  | ⟨3, _⟩ => fun c => dat3 (atRefs (B7 m)) c
  | ⟨4, _⟩ => fun c => dat4 (atRefs (B9 m)) c
  | ⟨5, _⟩ => fun c => dat5 (atRefs (B11 m)) c
  | ⟨6, _⟩ => fun c => dat6 (atRefs (B13 m)) c
  | ⟨7, _⟩ => fun c => dat7 (atRefs (B15 m)) c
  | ⟨8, _⟩ => fun c => dat8 (atRefs (B17 m)) c

/-! ## The regions as segments -/

set_option maxHeartbeats 2000000 in
/-- Region 0's arrays when it ends are the next boundary's contents at them: an input array is left as entered, the
    result array is what the write-backs leave. -/
theorem exitArr0 (c : Dev nD) : ∀ w : Fin cfg0.W, (pdats m 0 c).arrAt w cfg0.N = atRefs (B2 m) c (Pipeline.arrRef spec0 w)
  | ⟨0, _⟩ => (((dat0 (atRefs (B1 m)) c).arrAt_in 0 rfl _).trans (A_eq0 (atRefs (B1 m)) c 0)).trans (B2_of_ne m c _ (by decide)).symm
  | ⟨1, _⟩ => (((dat0 (atRefs (B1 m)) c).arrAt_in 1 rfl _).trans (A_eq0 (atRefs (B1 m)) c 1)).trans (B2_of_ne m c _ (by decide)).symm
  | ⟨2, _⟩ => (((dat0 (atRefs (B1 m)) c).arrAt_in 2 rfl _).trans (A_eq0 (atRefs (B1 m)) c 2)).trans (B2_of_ne m c _ (by decide)).symm
  | ⟨3, _⟩ => (B2_res m c).symm
/-- Every buffer that is not one of region 0's arrays is at the next boundary what it was at this one. -/
theorem exitRest0 (c : Dev nD) : ∀ b, b ∉ Finset.univ.image (Pipeline.arrRef spec0) → atRefs (B2 m) c b = atRefs (B1 m) c b :=
  fun b hb => B2_of_ne m c b fun e => hb (Finset.mem_image.mpr ⟨3, Finset.mem_univ _, e.symm⟩)

set_option backward.isDefEq.respectTransparency.types false in
/-- REGION 0 as a segment: entered from every unscoped buffer at the boundary before it, left with them at the boundary
    after it. Its four arrays are taken out of the unscoped buffers and put back with the result array at what the 25
    write-backs leave; the generator register passes through the invariant; the kernel has no semaphore of its own and
    the core owes nothing. -/
def reg0 : Pipeline.RegionSeg (pcfgs (F := F)) adm (pdats m) () defs₀ Variants.none noLev zeroLev 0 where
  win := launch0.win.to₀
  block_pos := launch0.block_pos
  stage_whole := launch0.stage_whole
  K := PEmpty
  osem k := k.elim
  ho := Pipeline.OwnSemFacts.none _
  hbody c := (body_obligation0 (atRefs (B1 m)) c).loose
  hwaits := Pipeline.hwaits_of_owed_zero _ _ _ _ noLev zeroLev 0 fun _ _ => rfl
  pre c := iprop(StableHlo.held (c : Thread nD τ) (Pipeline.ucRefs τ sig) (B1 m c) ∗ rest c)
  post c := iprop(StableHlo.held (c : Thread nD τ) (Pipeline.ucRefs τ sig) (B2 m c) ∗ rest c)
  X c := iprop(∃ r, prngReg c r)
  Y c := iprop(∃ r, prngReg c r)
  Z c := Pipeline.unscopedRest (Ix := Unit) (Name := ℕ) (U := UR sig nD τ) (Lvl := ℕ) spec0 c (atRefs (B1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (B1 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (B1 m) c) (atRefs (B2 m) c) ((pdats m 0 c).arrAt · cfg0.N) (exitArr0 m c) (exitRest0 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 1's arrays when it ends are the next boundary's contents at them: the row array is left as entered, the
    one-row result is what the last point's write-back leaves. -/
theorem exitArr1 (c : Dev nD) : ∀ w : Fin cfg1.W, (pdats m 1 c).arrAt w cfg1.N = atRefs (B4 m) c (Pipeline.arrRef spec1 w)
  | ⟨0, _⟩ => (((dat1 (atRefs (B3 m)) c).arrAt_in 0 rfl _).trans (A_eq1 (atRefs (B3 m)) c 0)).trans (B4_of_ne m c _ (by decide)).symm
  | ⟨1, _⟩ => (B4_res m c).symm
/-- Every buffer that is not one of region 1's arrays is at the next boundary what it was at this one. -/
theorem exitRest1 (c : Dev nD) : ∀ b, b ∉ Finset.univ.image (Pipeline.arrRef spec1) → atRefs (B4 m) c b = atRefs (B3 m) c b :=
  fun b hb => B4_of_ne m c b fun e => hb (Finset.mem_image.mpr ⟨1, Finset.mem_univ _, e.symm⟩)

set_option backward.isDefEq.respectTransparency.types false in
/-- REGION 1 (the maximum over rows) as a segment: entered from every unscoped buffer at the boundary before it, left with
    them at the boundary after it. The scratch row that carries the running maximum is a scoped buffer: it enters the
    invariant at some contents with the rest of the scoped buffers and is given back at some contents. -/
def reg1 : Pipeline.RegionSeg (pcfgs (F := F)) adm (pdats m) () defs₀ Variants.none noLev zeroLev 1 where
  win := launch1.win.to₀
  block_pos := launch1.block_pos
  stage_whole := launch1.stage_whole
  K := PEmpty
  osem k := k.elim
  ho := Pipeline.OwnSemFacts.none _
  hbody c := (body_obligation1 (atRefs (B3 m)) c).loose
  hwaits := Pipeline.hwaits_of_owed_zero _ _ _ _ noLev zeroLev 1 fun _ _ => rfl
  pre c := iprop(StableHlo.held (c : Thread nD τ) (Pipeline.ucRefs τ sig) (B3 m c) ∗ rest c)
  post c := iprop(StableHlo.held (c : Thread nD τ) (Pipeline.ucRefs τ sig) (B4 m c) ∗ rest c)
  X c := iprop(∃ r, prngReg c r)
  Y c := iprop(∃ r, prngReg c r)
  Z c := Pipeline.unscopedRest (Ix := Unit) (Name := ℕ) (U := UR sig nD τ) (Lvl := ℕ) spec1 c (atRefs (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (B3 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 1 c).Φ 0 = (dat1 (atRefs (B3 m)) c).Φ 0 from rfl]
    exact poolEnter1 (atRefs (B3 m)) c _
  hout c := by
    rw [Pipeline.ownSems0_none, show (pdats m 1 c).Φ (Fin.last _) = (dat1 (atRefs (B3 m)) c).Φ (Fin.last _) from rfl]
    exact poolLeave1 (atRefs (B3 m)) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (B3 m) c) (atRefs (B4 m) c) ((pdats m 1 c).arrAt · cfg1.N) (exitArr1 m c) (exitRest1 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 2's arrays when it ends are the next boundary's contents at them: an input array is left as entered, the
    result array is what the write-backs leave. -/
theorem exitArr2 (c : Dev nD) : ∀ w : Fin cfg2.W, (pdats m 2 c).arrAt w cfg2.N = atRefs (B6 m) c (Pipeline.arrRef spec2 w)
  | ⟨0, _⟩ => (((dat2 (atRefs (B5 m)) c).arrAt_in 0 rfl _).trans (A_eq2 (atRefs (B5 m)) c 0)).trans (B6_of_ne m c _ (by decide)).symm
  | ⟨1, _⟩ => (((dat2 (atRefs (B5 m)) c).arrAt_in 1 rfl _).trans (A_eq2 (atRefs (B5 m)) c 1)).trans (B6_of_ne m c _ (by decide)).symm
  | ⟨2, _⟩ => (((dat2 (atRefs (B5 m)) c).arrAt_in 2 rfl _).trans (A_eq2 (atRefs (B5 m)) c 2)).trans (B6_of_ne m c _ (by decide)).symm
  | ⟨3, _⟩ => (B6_res m c).symm
/-- Every buffer that is not one of region 2's arrays is at the next boundary what it was at this one. -/
theorem exitRest2 (c : Dev nD) : ∀ b, b ∉ Finset.univ.image (Pipeline.arrRef spec2) → atRefs (B6 m) c b = atRefs (B5 m) c b :=
  fun b hb => B6_of_ne m c b fun e => hb (Finset.mem_image.mpr ⟨3, Finset.mem_univ _, e.symm⟩)

set_option backward.isDefEq.respectTransparency.types false in
/-- REGION 2 as a segment: entered from every unscoped buffer at the boundary before it, left with them at the boundary
    after it. Its four arrays are taken out of the unscoped buffers and put back with the result array at what the 25
    write-backs leave; the generator register passes through the invariant; the kernel has no semaphore of its own and
    the core owes nothing. -/
def reg2 : Pipeline.RegionSeg (pcfgs (F := F)) adm (pdats m) () defs₀ Variants.none noLev zeroLev 2 where
  win := launch2.win.to₀
  block_pos := launch2.block_pos
  stage_whole := launch2.stage_whole
  K := PEmpty
  osem k := k.elim
  ho := Pipeline.OwnSemFacts.none _
  hbody c := (body_obligation2 (atRefs (B5 m)) c).loose
  hwaits := Pipeline.hwaits_of_owed_zero _ _ _ _ noLev zeroLev 2 fun _ _ => rfl
  pre c := iprop(StableHlo.held (c : Thread nD τ) (Pipeline.ucRefs τ sig) (B5 m c) ∗ rest c)
  post c := iprop(StableHlo.held (c : Thread nD τ) (Pipeline.ucRefs τ sig) (B6 m c) ∗ rest c)
  X c := iprop(∃ r, prngReg c r)
  Y c := iprop(∃ r, prngReg c r)
  Z c := Pipeline.unscopedRest (Ix := Unit) (Name := ℕ) (U := UR sig nD τ) (Lvl := ℕ) spec2 c (atRefs (B5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (B5 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (B5 m) c) (atRefs (B6 m) c) ((pdats m 2 c).arrAt · cfg2.N) (exitArr2 m c) (exitRest2 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 3's arrays when it ends are the next boundary's contents at them: an input array is left as entered, the
    result array is what the write-backs leave. -/
theorem exitArr3 (c : Dev nD) : ∀ w : Fin cfg3.W, (pdats m 3 c).arrAt w cfg3.N = atRefs (B8 m) c (Pipeline.arrRef spec3 w)
  | ⟨0, _⟩ => (((dat3 (atRefs (B7 m)) c).arrAt_in 0 rfl _).trans (A_eq3 (atRefs (B7 m)) c 0)).trans (B8_of_ne m c _ (by decide)).symm
  | ⟨1, _⟩ => (((dat3 (atRefs (B7 m)) c).arrAt_in 1 rfl _).trans (A_eq3 (atRefs (B7 m)) c 1)).trans (B8_of_ne m c _ (by decide)).symm
  | ⟨2, _⟩ => (((dat3 (atRefs (B7 m)) c).arrAt_in 2 rfl _).trans (A_eq3 (atRefs (B7 m)) c 2)).trans (B8_of_ne m c _ (by decide)).symm
  | ⟨3, _⟩ => (B8_res m c).symm
/-- Every buffer that is not one of region 3's arrays is at the next boundary what it was at this one. -/
theorem exitRest3 (c : Dev nD) : ∀ b, b ∉ Finset.univ.image (Pipeline.arrRef spec3) → atRefs (B8 m) c b = atRefs (B7 m) c b :=
  fun b hb => B8_of_ne m c b fun e => hb (Finset.mem_image.mpr ⟨3, Finset.mem_univ _, e.symm⟩)

set_option backward.isDefEq.respectTransparency.types false in
/-- REGION 3 as a segment: entered from every unscoped buffer at the boundary before it, left with them at the boundary
    after it. Its four arrays are taken out of the unscoped buffers and put back with the result array at what the 25
    write-backs leave; the generator register passes through the invariant; the kernel has no semaphore of its own and
    the core owes nothing. -/
def reg3 : Pipeline.RegionSeg (pcfgs (F := F)) adm (pdats m) () defs₀ Variants.none noLev zeroLev 3 where
  win := launch3.win.to₀
  block_pos := launch3.block_pos
  stage_whole := launch3.stage_whole
  K := PEmpty
  osem k := k.elim
  ho := Pipeline.OwnSemFacts.none _
  hbody c := (body_obligation3 (atRefs (B7 m)) c).loose
  hwaits := Pipeline.hwaits_of_owed_zero _ _ _ _ noLev zeroLev 3 fun _ _ => rfl
  pre c := iprop(StableHlo.held (c : Thread nD τ) (Pipeline.ucRefs τ sig) (B7 m c) ∗ rest c)
  post c := iprop(StableHlo.held (c : Thread nD τ) (Pipeline.ucRefs τ sig) (B8 m c) ∗ rest c)
  X c := iprop(∃ r, prngReg c r)
  Y c := iprop(∃ r, prngReg c r)
  Z c := Pipeline.unscopedRest (Ix := Unit) (Name := ℕ) (U := UR sig nD τ) (Lvl := ℕ) spec3 c (atRefs (B7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (B7 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 3 c).Φ 0 = Pipeline.ΦA spec3 c from rfl]; unfold Pipeline.ΦA
    iintro ⟨Hgen, -, Hscoped⟩
    isplitl [Hscoped]; · iexact Hscoped
    iexact Hgen
  hout c := by
    rw [Pipeline.ownSems0_none, show (pdats m 3 c).Φ (Fin.last _) = Pipeline.ΦA spec3 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (B7 m) c) (atRefs (B8 m) c) ((pdats m 3 c).arrAt · cfg3.N) (exitArr3 m c) (exitRest3 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 4's arrays when it ends are the next boundary's contents at them: the row array is left as entered, the
    one-row result is what the last point's write-back leaves. -/
theorem exitArr4 (c : Dev nD) : ∀ w : Fin cfg4.W, (pdats m 4 c).arrAt w cfg4.N = atRefs (B10 m) c (Pipeline.arrRef spec4 w)
  | ⟨0, _⟩ => (((dat4 (atRefs (B9 m)) c).arrAt_in 0 rfl _).trans (A_eq4 (atRefs (B9 m)) c 0)).trans (B10_of_ne m c _ (by decide)).symm
  | ⟨1, _⟩ => (B10_res m c).symm
/-- Every buffer that is not one of region 4's arrays is at the next boundary what it was at this one. -/
theorem exitRest4 (c : Dev nD) : ∀ b, b ∉ Finset.univ.image (Pipeline.arrRef spec4) → atRefs (B10 m) c b = atRefs (B9 m) c b :=
  fun b hb => B10_of_ne m c b fun e => hb (Finset.mem_image.mpr ⟨1, Finset.mem_univ _, e.symm⟩)

set_option backward.isDefEq.respectTransparency.types false in
/-- REGION 4 (the maximum over rows) as a segment: entered from every unscoped buffer at the boundary before it, left with
    them at the boundary after it. The scratch row that carries the running maximum is a scoped buffer: it enters the
    invariant at some contents with the rest of the scoped buffers and is given back at some contents. -/
def reg4 : Pipeline.RegionSeg (pcfgs (F := F)) adm (pdats m) () defs₀ Variants.none noLev zeroLev 4 where
  win := launch4.win.to₀
  block_pos := launch4.block_pos
  stage_whole := launch4.stage_whole
  K := PEmpty
  osem k := k.elim
  ho := Pipeline.OwnSemFacts.none _
  hbody c := (body_obligation4 (atRefs (B9 m)) c).loose
  hwaits := Pipeline.hwaits_of_owed_zero _ _ _ _ noLev zeroLev 4 fun _ _ => rfl
  pre c := iprop(StableHlo.held (c : Thread nD τ) (Pipeline.ucRefs τ sig) (B9 m c) ∗ rest c)
  post c := iprop(StableHlo.held (c : Thread nD τ) (Pipeline.ucRefs τ sig) (B10 m c) ∗ rest c)
  X c := iprop(∃ r, prngReg c r)
  Y c := iprop(∃ r, prngReg c r)
  Z c := Pipeline.unscopedRest (Ix := Unit) (Name := ℕ) (U := UR sig nD τ) (Lvl := ℕ) spec4 c (atRefs (B9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (B9 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 4 c).Φ 0 = (dat4 (atRefs (B9 m)) c).Φ 0 from rfl]
    exact poolEnter4 (atRefs (B9 m)) c _
  hout c := by
    rw [Pipeline.ownSems0_none, show (pdats m 4 c).Φ (Fin.last _) = (dat4 (atRefs (B9 m)) c).Φ (Fin.last _) from rfl]
    exact poolLeave4 (atRefs (B9 m)) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (B9 m) c) (atRefs (B10 m) c) ((pdats m 4 c).arrAt · cfg4.N) (exitArr4 m c) (exitRest4 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 5's arrays when it ends are the next boundary's contents at them: an input array is left as entered, the
    result array is what the write-backs leave. -/
theorem exitArr5 (c : Dev nD) : ∀ w : Fin cfg5.W, (pdats m 5 c).arrAt w cfg5.N = atRefs (B12 m) c (Pipeline.arrRef spec5 w)
  | ⟨0, _⟩ => (((dat5 (atRefs (B11 m)) c).arrAt_in 0 rfl _).trans (A_eq5 (atRefs (B11 m)) c 0)).trans (B12_of_ne m c _ (by decide)).symm
  | ⟨1, _⟩ => (((dat5 (atRefs (B11 m)) c).arrAt_in 1 rfl _).trans (A_eq5 (atRefs (B11 m)) c 1)).trans (B12_of_ne m c _ (by decide)).symm
  | ⟨2, _⟩ => (((dat5 (atRefs (B11 m)) c).arrAt_in 2 rfl _).trans (A_eq5 (atRefs (B11 m)) c 2)).trans (B12_of_ne m c _ (by decide)).symm
  | ⟨3, _⟩ => (B12_res m c).symm
/-- Every buffer that is not one of region 5's arrays is at the next boundary what it was at this one. -/
theorem exitRest5 (c : Dev nD) : ∀ b, b ∉ Finset.univ.image (Pipeline.arrRef spec5) → atRefs (B12 m) c b = atRefs (B11 m) c b :=
  fun b hb => B12_of_ne m c b fun e => hb (Finset.mem_image.mpr ⟨3, Finset.mem_univ _, e.symm⟩)

set_option backward.isDefEq.respectTransparency.types false in
/-- REGION 5 as a segment: entered from every unscoped buffer at the boundary before it, left with them at the boundary
    after it. Its four arrays are taken out of the unscoped buffers and put back with the result array at what the 25
    write-backs leave; the generator register passes through the invariant; the kernel has no semaphore of its own and
    the core owes nothing. -/
def reg5 : Pipeline.RegionSeg (pcfgs (F := F)) adm (pdats m) () defs₀ Variants.none noLev zeroLev 5 where
  win := launch5.win.to₀
  block_pos := launch5.block_pos
  stage_whole := launch5.stage_whole
  K := PEmpty
  osem k := k.elim
  ho := Pipeline.OwnSemFacts.none _
  hbody c := (body_obligation5 (atRefs (B11 m)) c).loose
  hwaits := Pipeline.hwaits_of_owed_zero _ _ _ _ noLev zeroLev 5 fun _ _ => rfl
  pre c := iprop(StableHlo.held (c : Thread nD τ) (Pipeline.ucRefs τ sig) (B11 m c) ∗ rest c)
  post c := iprop(StableHlo.held (c : Thread nD τ) (Pipeline.ucRefs τ sig) (B12 m c) ∗ rest c)
  X c := iprop(∃ r, prngReg c r)
  Y c := iprop(∃ r, prngReg c r)
  Z c := Pipeline.unscopedRest (Ix := Unit) (Name := ℕ) (U := UR sig nD τ) (Lvl := ℕ) spec5 c (atRefs (B11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (B11 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 5 c).Φ 0 = Pipeline.ΦA spec5 c from rfl]; unfold Pipeline.ΦA
    iintro ⟨Hgen, -, Hscoped⟩
    isplitl [Hscoped]; · iexact Hscoped
    iexact Hgen
  hout c := by
    rw [Pipeline.ownSems0_none, show (pdats m 5 c).Φ (Fin.last _) = Pipeline.ΦA spec5 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (B11 m) c) (atRefs (B12 m) c) ((pdats m 5 c).arrAt · cfg5.N) (exitArr5 m c) (exitRest5 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 6's arrays when it ends are the next boundary's contents at them: an input array is left as entered, the
    result array is what the write-backs leave. -/
theorem exitArr6 (c : Dev nD) : ∀ w : Fin cfg6.W, (pdats m 6 c).arrAt w cfg6.N = atRefs (B14 m) c (Pipeline.arrRef spec6 w)
  | ⟨0, _⟩ => (((dat6 (atRefs (B13 m)) c).arrAt_in 0 rfl _).trans (A_eq6 (atRefs (B13 m)) c 0)).trans (B14_of_ne m c _ (by decide)).symm
  | ⟨1, _⟩ => (((dat6 (atRefs (B13 m)) c).arrAt_in 1 rfl _).trans (A_eq6 (atRefs (B13 m)) c 1)).trans (B14_of_ne m c _ (by decide)).symm
  | ⟨2, _⟩ => (((dat6 (atRefs (B13 m)) c).arrAt_in 2 rfl _).trans (A_eq6 (atRefs (B13 m)) c 2)).trans (B14_of_ne m c _ (by decide)).symm
  | ⟨3, _⟩ => (B14_res m c).symm
/-- Every buffer that is not one of region 6's arrays is at the next boundary what it was at this one. -/
theorem exitRest6 (c : Dev nD) : ∀ b, b ∉ Finset.univ.image (Pipeline.arrRef spec6) → atRefs (B14 m) c b = atRefs (B13 m) c b :=
  fun b hb => B14_of_ne m c b fun e => hb (Finset.mem_image.mpr ⟨3, Finset.mem_univ _, e.symm⟩)

set_option backward.isDefEq.respectTransparency.types false in
/-- REGION 6 as a segment: entered from every unscoped buffer at the boundary before it, left with them at the boundary
    after it. Its four arrays are taken out of the unscoped buffers and put back with the result array at what the 25
    write-backs leave; the generator register passes through the invariant; the kernel has no semaphore of its own and
    the core owes nothing. -/
def reg6 : Pipeline.RegionSeg (pcfgs (F := F)) adm (pdats m) () defs₀ Variants.none noLev zeroLev 6 where
  win := launch6.win.to₀
  block_pos := launch6.block_pos
  stage_whole := launch6.stage_whole
  K := PEmpty
  osem k := k.elim
  ho := Pipeline.OwnSemFacts.none _
  hbody c := (body_obligation6 (atRefs (B13 m)) c).loose
  hwaits := Pipeline.hwaits_of_owed_zero _ _ _ _ noLev zeroLev 6 fun _ _ => rfl
  pre c := iprop(StableHlo.held (c : Thread nD τ) (Pipeline.ucRefs τ sig) (B13 m c) ∗ rest c)
  post c := iprop(StableHlo.held (c : Thread nD τ) (Pipeline.ucRefs τ sig) (B14 m c) ∗ rest c)
  X c := iprop(∃ r, prngReg c r)
  Y c := iprop(∃ r, prngReg c r)
  Z c := Pipeline.unscopedRest (Ix := Unit) (Name := ℕ) (U := UR sig nD τ) (Lvl := ℕ) spec6 c (atRefs (B13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atRefs (B13 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 6 c).Φ 0 = Pipeline.ΦA spec6 c from rfl]; unfold Pipeline.ΦA
    iintro ⟨Hgen, -, Hscoped⟩
    isplitl [Hscoped]; · iexact Hscoped
    iexact Hgen
  hout c := by
    rw [Pipeline.ownSems0_none, show (pdats m 6 c).Φ (Fin.last _) = Pipeline.ΦA spec6 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atRefs (B13 m) c) (atRefs (B14 m) c) ((pdats m 6 c).arrAt · cfg6.N) (exitArr6 m c) (exitRest6 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 7's arrays when it ends are the next boundary's contents at them: the row array is left as entered, the
    one-row result is what the last point's write-back leaves. -/
theorem exitArr7 (c : Dev nD) : ∀ w : Fin cfg7.W, (pdats m 7 c).arrAt w cfg7.N = atRefs (B16 m) c (Pipeline.arrRef spec7 w)
  | ⟨0, _⟩ => (((dat7 (atRefs (B15 m)) c).arrAt_in 0 rfl _).trans (A_eq7 (atRefs (B15 m)) c 0)).trans (B16_of_ne m c _ (by decide)).symm
  | ⟨1, _⟩ => (B16_res m c).symm
/-- Every buffer that is not one of region 7's arrays is at the next boundary what it was at this one. -/
theorem exitRest7 (c : Dev nD) : ∀ b, b ∉ Finset.univ.image (Pipeline.arrRef spec7) → atRefs (B16 m) c b = atRefs (B15 m) c b :=
  fun b hb => B16_of_ne m c b fun e => hb (Finset.mem_image.mpr ⟨1, Finset.mem_univ _, e.symm⟩)

set_option backward.isDefEq.respectTransparency.types false in
/-- REGION 7 (the maximum over rows) as a segment: entered from every unscoped buffer at the boundary before it, left with
    them at the boundary after it. The scratch row that carries the running maximum is a scoped buffer: it enters the
    invariant at some contents with the rest of the scoped buffers and is given back at some contents. -/
def reg7 : Pipeline.RegionSeg (pcfgs (F := F)) adm (pdats m) () defs₀ Variants.none noLev zeroLev 7 where
  win := launch7.win.to₀
  block_pos := launch7.block_pos
  stage_whole := launch7.stage_whole
  K := PEmpty
  osem k := k.elim
  ho := Pipeline.OwnSemFacts.none _
  hbody c := (body_obligation7 (atRefs (B15 m)) c).loose
  hwaits := Pipeline.hwaits_of_owed_zero _ _ _ _ noLev zeroLev 7 fun _ _ => rfl
  pre c := iprop(StableHlo.held (c : Thread nD τ) (Pipeline.ucRefs τ sig) (B15 m c) ∗ rest c)
  post c := iprop(StableHlo.held (c : Thread nD τ) (Pipeline.ucRefs τ sig) (B16 m c) ∗ rest c)
  X c := iprop(∃ r, prngReg c r)
  Y c := iprop(∃ r, prngReg c r)
  Z c := Pipeline.unscopedRest (Ix := Unit) (Name := ℕ) (U := UR sig nD τ) (Lvl := ℕ) spec7 c (atRefs (B15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atRefs (B15 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 7 c).Φ 0 = (dat7 (atRefs (B15 m)) c).Φ 0 from rfl]
    exact poolEnter7 (atRefs (B15 m)) c _
  hout c := by
    rw [Pipeline.ownSems0_none, show (pdats m 7 c).Φ (Fin.last _) = (dat7 (atRefs (B15 m)) c).Φ (Fin.last _) from rfl]
    exact poolLeave7 (atRefs (B15 m)) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atRefs (B15 m) c) (atRefs (B16 m) c) ((pdats m 7 c).arrAt · cfg7.N) (exitArr7 m c) (exitRest7 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 8's arrays when it ends are the next boundary's contents at them: an input array is left as entered, the
    result array is what the write-backs leave. -/
theorem exitArr8 (c : Dev nD) : ∀ w : Fin cfg8.W, (pdats m 8 c).arrAt w cfg8.N = atRefs (B18 m) c (Pipeline.arrRef spec8 w)
  | ⟨0, _⟩ => (((dat8 (atRefs (B17 m)) c).arrAt_in 0 rfl _).trans (A_eq8 (atRefs (B17 m)) c 0)).trans (B18_of_ne m c _ (by decide)).symm
  | ⟨1, _⟩ => (((dat8 (atRefs (B17 m)) c).arrAt_in 1 rfl _).trans (A_eq8 (atRefs (B17 m)) c 1)).trans (B18_of_ne m c _ (by decide)).symm
  | ⟨2, _⟩ => (((dat8 (atRefs (B17 m)) c).arrAt_in 2 rfl _).trans (A_eq8 (atRefs (B17 m)) c 2)).trans (B18_of_ne m c _ (by decide)).symm
  | ⟨3, _⟩ => (B18_res m c).symm
/-- Every buffer that is not one of region 8's arrays is at the next boundary what it was at this one. -/
theorem exitRest8 (c : Dev nD) : ∀ b, b ∉ Finset.univ.image (Pipeline.arrRef spec8) → atRefs (B18 m) c b = atRefs (B17 m) c b :=
  fun b hb => B18_of_ne m c b fun e => hb (Finset.mem_image.mpr ⟨3, Finset.mem_univ _, e.symm⟩)

set_option backward.isDefEq.respectTransparency.types false in
/-- REGION 8 as a segment: entered from every unscoped buffer at the boundary before it, left with them at the boundary
    after it. Its four arrays are taken out of the unscoped buffers and put back with the result array at what the 25
    write-backs leave; the generator register passes through the invariant; the kernel has no semaphore of its own and
    the core owes nothing. -/
def reg8 : Pipeline.RegionSeg (pcfgs (F := F)) adm (pdats m) () defs₀ Variants.none noLev zeroLev 8 where
  win := launch8.win.to₀
  block_pos := launch8.block_pos
  stage_whole := launch8.stage_whole
  K := PEmpty
  osem k := k.elim
  ho := Pipeline.OwnSemFacts.none _
  hbody c := (body_obligation8 (atRefs (B17 m)) c).loose
  hwaits := Pipeline.hwaits_of_owed_zero _ _ _ _ noLev zeroLev 8 fun _ _ => rfl
  pre c := iprop(StableHlo.held (c : Thread nD τ) (Pipeline.ucRefs τ sig) (B17 m c) ∗ rest c)
  post c := iprop(StableHlo.held (c : Thread nD τ) (Pipeline.ucRefs τ sig) (B18 m c) ∗ rest c)
  X c := iprop(∃ r, prngReg c r)
  Y c := iprop(∃ r, prngReg c r)
  Z c := Pipeline.unscopedRest (Ix := Unit) (Name := ℕ) (U := UR sig nD τ) (Lvl := ℕ) spec8 c (atRefs (B17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atRefs (B17 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 8 c).Φ 0 = Pipeline.ΦA spec8 c from rfl]; unfold Pipeline.ΦA
    iintro ⟨Hgen, -, Hscoped⟩
    isplitl [Hscoped]; · iexact Hscoped
    iexact Hgen
  hout c := by
    rw [Pipeline.ownSems0_none, show (pdats m 8 c).Φ (Fin.last _) = Pipeline.ΦA spec8 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atRefs (B17 m) c) (atRefs (B18 m) c) ((pdats m 8 c).arrAt · cfg8.N) (exitArr8 m c) (exitRest8 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

/-! ## The frame -/

/-- The launch element: the pipeline library's, at every pipeline's staging cells. -/
abbrev launchElt : UR sig nD τ := initOf (Pipeline.cells cfgs cellOf_inj) (Pipeline.launchToks cfgs cellOf_inj)

-- the conditional frame's implicit arguments are found by unifying its conclusion with this one, which takes unfolding
-- plain definitions in a metavariable's type
set_option backward.isDefEq.respectTransparency.types false in
/-- From any memory with zero counters every weakly fair execution of @main on the TensorCores terminates, nothing
    faulting, and every argument array ends as launched: the conditional frame at the nine records above. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m (emb₁ : Emb (UR sig nD τ) 𝕄) () Variants.none noLev zeroLev (fun _ _ => rfl) ρ (outs m) (pdats m)
    0 (fun _ => iprop(emp)) launchElt
    (by
      iintro Hu; imodintro
      isplitl [Hu]
      · iapply (show (ownU launchElt : sProp 𝕄) ⊢ BI.own (emb₁ launchElt) from .rfl)
        iexact Hu
      iapply (show (BI.emp : sProp 𝕄) ⊢ bigSep Finset.univ (fun _ : Dev nD => (BI.emp : sProp 𝕄)) from by rw [BI.bigSep_emp_const])
      iempintro)
    (fun _ => rest)
    (by
      refine Pipeline.initEach noLev zeroLev fun c => ?_
      iintro ⟨⟨-, Howes, -, Hgen, -⟩, -⟩
      imodintro
      isplitl [Hgen]; · iexists _; iexact Hgen
      iexists ∅; iexact Howes)
    (fun c => by iintro ⟨-, Howes⟩; iexact Howes)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)

end Cert.Kernel.Regions

end
-- ==== Proof.KernelIdealLinear0.lean ====
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Ring
import Idealize.ShloMosaic.Lib.Tactic

/-!
# The first dense map, one row tile at a time

The first kernel region computes `a · W + b` for a 50000 × 144 matrix `a`, a 144 × 128 weight `W` and a
one-row bias `b`, in 25 steps of 2000 rows. At step `t` it sees four blocks: rows `2000 t … 2000 t + 1999`
of `a`, all of `W`, all of `b`, and the matching 2000 rows of the result. The weight and the bias do not depend
on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row tile of `a` is in its buffer at every step (it is brought in at every step). Stated for any proof data
    with `V`'s array that leaves the tile in place. -/
theorem held0_0_of {c : Dev nD} (dat : Dat τ (Elt F) Unit ℕ (UR sig nD τ) ℕ cfg0 c)
    (hA : dat.A 0 = V c (Pipeline.arrRef spec0 0)) (hafter : ∀ t, dat.after 0 t = tileBlock0 V c 0 t)
    (t : Fin cfg0.N) (d) : dat.before 0 t d = tileBlock0 V c 0 t :=
  (dat.before_in_eq_fetched 0 rfl (fun _ => rfl) (fun _ _ _ => rfl)
    (fun t => by rw [hafter]; unfold Dat.blockOf tileBlock0; rw [hA]; try rfl) t d).trans
    (by unfold Dat.fetched Dat.blockOf tileBlock0; rw [hA]; try rfl)

/-- The weight is in its buffer at every step although it is brought in only at the first: its index map is constant,
    so at a later step the block already there is still the block wanted. -/
theorem held0_1_of {c : Dev nD} (dat : Dat τ (Elt F) Unit ℕ (UR sig nD τ) ℕ cfg0 c)
    (hA : dat.A 1 = V c (Pipeline.arrRef spec0 1)) (hafter : ∀ t, dat.after 1 t = tileBlock0 V c 1 t)
    (t : Fin cfg0.N) (d) : dat.before 1 t d = tileBlock0 V c 1 t :=
  (dat.before_in_eq_fetched 1 rfl (fun _ => rfl) (fun _ _ _ => rfl)
    (fun t => by rw [hafter]; unfold Dat.blockOf tileBlock0; rw [hA]; try rfl) t d).trans
    (by unfold Dat.fetched Dat.blockOf tileBlock0; rw [hA]; try rfl)

/-- The same for the bias row. -/
theorem held0_2_of {c : Dev nD} (dat : Dat τ (Elt F) Unit ℕ (UR sig nD τ) ℕ cfg0 c)
    (hA : dat.A 2 = V c (Pipeline.arrRef spec0 2)) (hafter : ∀ t, dat.after 2 t = tileBlock0 V c 2 t)
    (t : Fin cfg0.N) (d) : dat.before 2 t d = tileBlock0 V c 2 t :=
  (dat.before_in_eq_fetched 2 rfl (fun _ => rfl) (fun _ _ _ => rfl)
    (fun t => by rw [hafter]; unfold Dat.blockOf tileBlock0; rw [hA]; try rfl) t d).trans
    (by unfold Dat.fetched Dat.blockOf tileBlock0; rw [hA]; try rfl)

/-! ## What one step writes -/

/-- The whole of a 2000 × 144 buffer, of the weight's, of the bias row's and of a 2000 × 128 buffer, as rectangles. -/
abbrev allA0 : Rect S2000x144 := Rect.unit (s := S2000x144) ![0, 0] S2000x144.size inb_S2000x144_S2000x144_0_0
abbrev allW0 : Rect S144x128 := Rect.unit (s := S144x128) ![0, 0] S144x128.size inb_S144x128_S144x128_0_0
abbrev allB0 : Rect S1x128 := Rect.unit (s := S1x128) ![0, 0] S1x128.size inb_S1x128_S1x128_0_0
abbrev allO0 : Rect S2000x128 := Rect.unit (s := S2000x128) ![0, 0] S2000x128.size inb_S2000x128_S2000x128_0_0

/-- The result block after one step, from the three input blocks: the step makes one store, of the whole block, of
    `a · W + b` computed from the whole input blocks. -/
def tileOut0 (a : Vec F S2000x144 .f32) (w : Vec F S144x128 .f32) (b : Vec F S1x128 .f32) : Vec F S2000x128 .f32 :=
  View.canon [⟨allO0, k0_pay1 (View.ld a allA0) (View.ld w allW0) (View.ld b allB0)⟩]

/-- That one store reaches every entry of the result block. -/
theorem covers0 (p : Vec F S2000x128 .f32) (y : S2000x128.Idx) :
    ∃ pc ∈ ([⟨allO0, p⟩] : List (View.Piece (Elt F) S2000x128 .f32)), y ∈ pc.1.set :=
  View.cover_of_tiled [⟨allO0, p⟩] S2000x128.size (by rfl) y

/-! ## One step of the kernel -/

set_option maxHeartbeats 1000000 in
/-- Run on four whole buffers, the first three holding `a`, `w`, `b` and the fourth anything, the kernel ends with the
    first three unchanged and the fourth holding `tileOut0 a w b`. (It reads the fourth once before overwriting it;
    what it reads there is not used.) -/
theorem kernel_triple0 (c : Dev nD) (E : Set ℕ) (i : grid0.Coords)
    (m1 : Memref sig .tc .vmem S2000x144 .f32) (h1 : m1.IsWhole) (m2 : Memref sig .tc .vmem S144x128 .f32) (h2 : m2.IsWhole)
    (m3 : Memref sig .tc .vmem S1x128 .f32) (h3 : m3.IsWhole) (m4 : Memref sig .tc .vmem S2000x128 .f32) (h4 : m4.IsWhole)
    (a : Vec F S2000x144 .f32) (w : Vec F S144x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut0 a w b)) -∗ K ⟨⟩))
      ⊢ wp frame (wpE (defs₀ (F := F)) Variants.none c none) E (cc0__linear_kernel i m1 h1 m2 h2 m3 h3 m4 h4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers0 _)

/-! ## The proof data of the region -/

/-- The arrays are `V`'s; after step `t` the three input windows hold their blocks still and the result window holds
    `tileOut0` of them; the invariant is the rest of the core's memory, left alone; nothing is owed and every buffer
    is owned in full. -/
def dat0 (c : Dev nD) : Dat τ (Elt F) Unit ℕ (UR sig nD τ) ℕ cfg0 c where
  A w := V c (Pipeline.arrRef spec0 w)
  after w t := match w with
    | ⟨0, _⟩ => tileBlock0 V c 0 t
    | ⟨1, _⟩ => tileBlock0 V c 1 t
    | ⟨2, _⟩ => tileBlock0 V c 2 t
    | ⟨3, _⟩ => tileOut0 (tileBlock0 V c 0 t) (tileBlock0 V c 1 t) (tileBlock0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = tileBlock0 V c 0 t := by dsimp only [dat0]
theorem after0_1 (c : Dev nD) (t : Fin cfg0.N) : (dat0 V c).after 1 t = tileBlock0 V c 1 t := by dsimp only [dat0]
theorem after0_2 (c : Dev nD) (t : Fin cfg0.N) : (dat0 V c).after 2 t = tileBlock0 V c 2 t := by dsimp only [dat0]
theorem after0_3 (c : Dev nD) (t : Fin cfg0.N) :
    (dat0 V c).after 3 t = tileOut0 (tileBlock0 V c 0 t) (tileBlock0 V c 1 t) (tileBlock0 V c 2 t) := by dsimp only [dat0]

/-- What each input buffer holds when the step starts: its block. -/
theorem held0_0 (c : Dev nD) (t : Fin cfg0.N) (d) : (dat0 V c).before 0 t d = tileBlock0 V c 0 t :=
  held0_0_of V (dat0 V c) (A_eq0 V c 0) (after0_0 V c) t d
theorem held0_1 (c : Dev nD) (t : Fin cfg0.N) (d) : (dat0 V c).before 1 t d = tileBlock0 V c 1 t :=
  held0_1_of V (dat0 V c) (A_eq0 V c 1) (after0_1 V c) t d
theorem held0_2 (c : Dev nD) (t : Fin cfg0.N) (d) : (dat0 V c).before 2 t d = tileBlock0 V c 2 t :=
  held0_2_of V (dat0 V c) (A_eq0 V c 2) (after0_2 V c) t d

/-! ## One step, as the pipeline asks for it -/

/-- What the step is given: the invariant, the debt, and the four current buffers, -/
def stepPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it gives back. -/
def stepPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The step at any point of the grid: the input buffers hold their blocks, so the kernel's triple applies; the invariant
    and the debt are not looked at. -/
theorem step_triple0 (c : Dev nD) (t : Fin cfg0.N) :
    stepPre0 V c t ⊢ wp frame (wpE (defs₀ (F := F)) Variants.none c none) Set.univ (bodyAt0 t) (fun _ => stepPost0 V c t) := by
  unfold stepPre0 stepPost0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (kernel_triple0 c Set.univ _ _ _ _ _ _ _ _ _ (tileBlock0 V c 0 t) (tileBlock0 V c 1 t) (tileBlock0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation0 (c : Dev nD) : BodyObligation (dat0 (F := F) V c) (defs₀ (F := F)) Variants.none () Set.univ := fun t => by
  rw [bigSep_W0, bigSep_W0]
  exact step_triple0 V c t

end Cert.KernelIdeal.Regions
-- ==== Proof.KernelIdealPool1.lean ====
/-
  The first row-maximum region.

  The region walks the 25 row tiles of a [50000,128] array, 2000 rows each, and leaves in a [1,128] row the
  columnwise maximum of all of them. A one-row scratch buffer carries the running maximum from point to point: at
  the first point it is reset to minus infinity, at every point the columnwise maximum of the current tile is joined
  into it, and at the last point it is copied to the output row, which is written back only there.

  So the output window's staging row is untouched at every point but the last, and the state that matters between
  points lives in the scratch row: the invariant before point n says that the scratch row holds the running maximum
  of tiles 0 … n-1 (anything, before the first point). The running maximum is the recursion

      runMax1 0 = -inf row,   runMax1 (n+1) = max (runMax1 n) (columnwise max of tile n),

  spelt through the body's own two payloads. The body is run once for each of its three control cases (first point,
  a middle point, last point) on symbolic whole memrefs, and the obligation at a point picks the case from the
  point's position, the two conditions being decided over the grid in closed form.
-/
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Tactic

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape loads and stores

A rectangle of the full sizes at offset zero is the whole shape: a load through it reads the contents, and a store
through it, made last, leaves exactly its payload whatever was stored before. -/

theorem zeros2 : (![0, 0] : Fin 2 → Nat) = fun _ => 0 := funext fun a => by fin_cases a <;> rfl

section Whole

variable {sg : RefSig} {κ : Kind} {sp : Space} {S : Shape} {e : EltTy} {Val : EltTy → Type}

/-- A load through the full rectangle reads what the view reads. -/
theorem readAt_full (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-- A store through the full rectangle, made last, leaves its payload. -/
theorem read_writes_full (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Whole

/-! ## The body's two conditions, over the grid -/

/-- The condition of the body's first branch (the reset of the scratch row), from the grid coordinates. -/
abbrev first1 (i : grid1.Coords) : Prop :=
  (Scalar.cmpi .ne (Scalar.extui (Scalar.cmpi .eq (BitVec.ofNat 32 (i 0).val) 0#32)) 0#32) = 1#1

/-- It holds at the first point only. -/
theorem first1_iff : ∀ t : Fin cfg1.N, first1 (grid1.coords t) ↔ t.val = 0 :=
  (by decide +kernel : ∀ t : Fin grid1.N, first1 (grid1.coords t) ↔ t.val = 0)

/-- The second branch (the copy to the output row) is taken at the last point only. -/
theorem last1_iff : ∀ t : Fin cfg1.N, k1_cond2 (grid1.coords t) = 1#1 ↔ t.val = 24 :=
  (by decide +kernel : ∀ t : Fin grid1.N, k1_cond2 (grid1.coords t) = 1#1 ↔ t.val = 24)

/-! ## The body, once per control case

Each on whole memrefs held at named contents: the tile's buffer at `x0`, the scratch row at `xs`, the output row
(where the case touches it) at `xo`. -/

/-- A middle point: neither branch is taken; the scratch row ends at the tile's columnwise maximum joined with what it
    held, and nothing else is written. -/
theorem poolRun1_mid (c : Dev nD) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first1 i) (h2 : ¬ k1_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k1_pay2 x0 xs)) -∗ K ⟨⟩))
      ⊢ wp frame (wpE (defs₀ (F := F)) Variants.none c none) Set.univ (cc1__max_pool_kernel i arg1 harg1 arg2 harg2 arg3 harg3) K := by
  simp only [cc1__max_pool_kernel_eq_skeleton]; unfold cc1__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  rw [read_writes_full _ _ zeros2, readAt_full _ _ zeros2, readAt_full _ _ zeros2, hf0, hf3]

/-- The first point: the scratch row is first reset to minus infinity, so it ends at the tile's columnwise maximum
    joined with minus infinity, whatever it held. -/
theorem poolRun1_first (c : Dev nD) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : first1 i) (h2 : ¬ k1_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k1_pay2 x0 (k1_pay1 (F := F)))) -∗ K ⟨⟩))
      ⊢ wp frame (wpE (defs₀ (F := F)) Variants.none c none) Set.univ (cc1__max_pool_kernel i arg1 harg1 arg2 harg2 arg3 harg3) K := by
  simp only [cc1__max_pool_kernel_eq_skeleton]; unfold cc1__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  unfold poolRun1_first.sl.v7 poolRun1_first.sl.H3_1
  rw [read_writes_full _ _ zeros2, readAt_full _ _ zeros2, hf0, View.readCov_cons_toLoadRect]

/-- The last point: as a middle point, and then the scratch row is copied to the output row. -/
theorem poolRun1_last (c : Dev nD) (i : grid1.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first1 i) (h2 : k1_cond2 i = 1#1)
    (x0 : Vec F S2000x128 .f32) (xo : Vec F S1x128 .f32) (xs : Vec F S1x128 .f32) (K : PUnit → sProp 𝕄) :
    iprop(owns (c : Thread nD τ) arg1 fullShare x0 ∗ owns (c : Thread nD τ) arg2 fullShare xo ∗ owns (c : Thread nD τ) arg3 fullShare xs
        ∗ (iprop(owns (c : Thread nD τ) arg1 fullShare x0 ∗ owns (c : Thread nD τ) arg2 fullShare (k1_pay2 x0 xs)
            ∗ owns (c : Thread nD τ) arg3 fullShare (k1_pay2 x0 xs)) -∗ K ⟨⟩))
      ⊢ wp frame (wpE (defs₀ (F := F)) Variants.none c none) Set.univ (cc1__max_pool_kernel i arg1 harg1 arg2 harg2 arg3 harg3) K := by
  simp only [cc1__max_pool_kernel_eq_skeleton]; unfold cc1__max_pool_kernel_skel
  unfold owns
  iintro ⟨⟨%f0, %hf0, H0⟩, ⟨%f2, %hf2, H2⟩, ⟨%f3, %hf3, H3⟩, Hk⟩
  obtain rfl := harg1.eq_unread hf0; obtain rfl := harg2.eq_unread hf2; obtain rfl := harg3.eq_unread hf3
  sl_exec (disch := first | exact h1 | exact h2)
  sl_step
  iapply Hk
  isplitl [H0]
  · iexists _; isplitr; · ipureintro; exact hf0
    iexact H0
  isplitl [H2]
  · iexists _; isplitr; swap; · iexact H2
    ipureintro
    unfold poolRun1_last.sl.v15 poolRun1_last.sl.H3_1
    rw [read_writes_full _ _ zeros2, View.readCov_cons_toLoadRect, readAt_full _ _ zeros2, readAt_full _ _ zeros2, hf0, hf3]
  iexists _; isplitr; swap; · iexact H3
  ipureintro
  unfold poolRun1_last.sl.H3_1
  rw [read_writes_full _ _ zeros2, readAt_full _ _ zeros2, readAt_full _ _ zeros2, hf0, hf3]

/-! ## The proof data -/

section Data

variable (V : (c : Dev nD) → (b : Ref sig .tc) → Buf (Elt F) ((c : Thread nD τ).loc b))

/-- Window `w`'s block at point `t`, read off the arrays as the region finds them. -/
def poolBlock1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The running maximum after `n` points: minus infinity before any, then the columnwise maximum of the row tile
    of point `n` joined with what the points before left. -/
def runMax1 (c : Dev nD) : ℕ → Vec F S1x128 .f32
  | 0 => k1_pay1
  | n + 1 => if h : n < cfg1.N then k1_pay2 (poolBlock1 V c 0 ⟨n, h⟩) (runMax1 c n) else runMax1 c n

theorem runMax1_zero (c : Dev nD) : runMax1 V c 0 = k1_pay1 (F := F) := rfl

theorem runMax1_succ (c : Dev nD) (n : ℕ) (h : n < cfg1.N) :
    runMax1 V c (n + 1) = k1_pay2 (poolBlock1 V c 0 ⟨n, h⟩) (runMax1 V c n) := by
  rw [runMax1, dif_pos h]

/-- What of the scoped rest the region does not name, and the generator register. -/
abbrev poolRest1 (c : Dev nD) : sProp 𝕄 :=
  iprop(Pipeline.scopedRestBut (Ix := Unit) (Name := ℕ) (U := UR sig nD τ) (Lvl := ℕ) (Val := Elt F) spec1 c [cc1_scratch0]
    ∗ ∃ r, prngReg c r)

/-- The invariant before point `n`: the scratch row holds anything before the first point and the running maximum
    of the points so far afterwards. -/
def poolInv1 (c : Dev nD) : ℕ → sProp 𝕄
  | 0 => iprop((∃ f : Buf (Elt F) ((c : Thread nD τ).loc cc1_scratch0), ((c : Thread nD τ).loc cc1_scratch0) ↦{fullShare} f)
      ∗ poolRest1 c)
  | n + 1 => iprop((((c : Thread nD τ).loc cc1_scratch0) ↦{fullShare} (runMax1 V c (n + 1)))
      ∗ poolRest1 c)

/-- The proof data of the region on core `c`. -/
def dat1 (c : Dev nD) : Dat τ (Elt F) Unit ℕ (UR sig nD τ) ℕ cfg1 c where
  A w := V c (Pipeline.arrRef spec1 w)
  after w t := match w with
    | ⟨0, _⟩ => poolBlock1 V c 0 t
    | ⟨1, _⟩ => runMax1 V c (t.val + 1)
  Φ t := poolInv1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = poolBlock1 V c 0 t := by dsimp only [dat1]
theorem after1_1 (c : Dev nD) (t : Fin cfg1.N) : (dat1 V c).after 1 t = runMax1 V c (t.val + 1) := by dsimp only [dat1]

theorem Phi1_at (c : Dev nD) (t : Fin (cfg1.N + 1)) : (dat1 V c).Φ t = poolInv1 V c t.val := rfl

theorem Phi1_zero (c : Dev nD) : (dat1 V c).Φ 0 =
    iprop((∃ f : Buf (Elt F) ((c : Thread nD τ).loc cc1_scratch0), ((c : Thread nD τ).loc cc1_scratch0) ↦{fullShare} f)
      ∗ Pipeline.scopedRestBut (Ix := Unit) (Name := ℕ) (U := UR sig nD τ) (Lvl := ℕ) (Val := Elt F) spec1 c [cc1_scratch0]
      ∗ ∃ r, prngReg c r) := rfl

theorem Phi1_last (c : Dev nD) : (dat1 V c).Φ (Fin.last cfg1.N) =
    iprop((((c : Thread nD τ).loc cc1_scratch0) ↦{fullShare} (runMax1 V c 25))
      ∗ Pipeline.scopedRestBut (Ix := Unit) (Name := ℕ) (U := UR sig nD τ) (Lvl := ℕ) (Val := Elt F) spec1 c [cc1_scratch0]
      ∗ ∃ r, prngReg c r) := by
  rw [Phi1_at, Fin.val_last, show cfg1.N = 25 from N_1]; rfl

/-- The row tile's staging buffer holds the tile when the body runs: it is fetched at every point. -/
theorem before1_0 (c : Dev nD) (t : Fin cfg1.N) (d) : (dat1 V c).before 0 t d = poolBlock1 V c 0 t := by
  rw [Dat.before_fetched _ 0 t (fetch1_0 t)]
  unfold Dat.fetched Dat.blockOf poolBlock1; rw [A_eq1]; rfl

end Data

/-! ## The body obligation -/

section Obligation

variable (V : (c : Dev nD) → (b : Ref sig .tc) → Buf (Elt F) ((c : Thread nD τ).loc b))

/-- One step of the running maximum, at a point of the grid. -/
theorem runMax1_at (c : Dev nD) (t : Fin cfg1.N) :
    runMax1 V c (t.val + 1) = k1_pay2 (poolBlock1 V c 0 t) (runMax1 V c t.val) :=
  runMax1_succ V c t.val t.isLt

theorem poolInv1_zero (c : Dev nD) : poolInv1 V c 0 =
    iprop((∃ f : Buf (Elt F) ((c : Thread nD τ).loc cc1_scratch0), ((c : Thread nD τ).loc cc1_scratch0) ↦{fullShare} f)
      ∗ poolRest1 c) := rfl

theorem poolInv1_succ (c : Dev nD) (n : ℕ) : poolInv1 V c (n + 1) =
    iprop((((c : Thread nD τ).loc cc1_scratch0) ↦{fullShare} (runMax1 V c (n + 1))) ∗ poolRest1 c) := rfl

/-- Each window's current staging memref at point `t`, as the pipeline passes it to the body. -/
abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)

/-- At every point the body takes the invariant and the windows' buffers to the invariant at the next point and
    the buffers at what the proof data say: by the point's position, one of the three runs above. -/
theorem body_obligation1 (c : Dev nD) : BodyObligation (dat1 (F := F) V c) (defs₀ (F := F)) Variants.none () Set.univ := fun t => by
  have hN : t.val < 25 := lt_of_lt_of_eq t.isLt N_1
  rw [bigSep_W1, bigSep_W1]
  by_cases hlast : t.val = 24
  · -- the last point: the maximum is joined once more and copied to the output row
    have hk : k1_cond2 (grid1.coords t) = 1#1 := (last1_iff t).mpr hlast
    have hfirst : ¬ first1 (grid1.coords t) := fun h => by have := (first1_iff t).mp h; omega
    have hi1 : idle1 1 (grid1.coords t) = false := by
      show (!(k1_cond2 (grid1.coords t) == 1#1)) = false
      rw [hk]; rfl
    simp only []
    rw [hi1]
    simp only [before1_0]
    rw [Phi1_at, Phi1_at, after1_0, after1_1, runMax1_at,
      show (dat1 V c).owesAt () t.succ = (dat1 V c).owesAt () t.castSucc from rfl,
      show (t.succ : Fin (cfg1.N + 1)).val = t.val + 1 from rfl, show (t.castSucc : Fin (cfg1.N + 1)).val = t.val from rfl]
    obtain ⟨n, hn⟩ : ∃ n, t.val = n + 1 := ⟨23, hlast⟩
    rw [poolInv1_succ, runMax1_at]
    rw [hn, poolInv1_succ, ← owns_whole, ← owns_whole]
    iintro ⟨⟨Hs, Hrest⟩, Ho, ⟨%d0, H0⟩, ⟨%d1, H1⟩⟩
    iapply (poolRun1_last c (grid1.coords t) (ms1_0 t) (hs1_0 t) (ms1_1 t) (hs1_1 t) (Memref.whole cc1_scratch0)
      (Memref.isWhole_whole _) hfirst hk (poolBlock1 V c 0 t) _ (runMax1 V c (n + 1)) _)
    isplitl [H0]; · iexact H0
    isplitl [H1]; · iexact H1
    isplitl [Hs]; · iexact Hs
    iintro ⟨H0, H1, Hs⟩
    isplitl [Hs Hrest]
    · isplitl [Hs]; · iexact Hs
      iexact Hrest
    isplitl [Ho]; · iexact Ho
    isplitl [H0]; · iexact H0
    iexact H1
  · -- any other point: the output row is handed back as it was found
    have hk : ¬ k1_cond2 (grid1.coords t) = 1#1 := fun h => hlast ((last1_iff t).mp h)
    have hi1 : idle1 1 (grid1.coords t) = true := by
      show (!(k1_cond2 (grid1.coords t) == 1#1)) = true
      simp [hk]
    have hf1 : (cfg1.win 1).flush t = false :=
      Bool.eq_false_iff.mpr fun h => hlast (by have := (flush1_1 t).mp h; omega)
    simp only [hf1]
    rw [hi1]
    simp only [before1_0]
    rw [Phi1_at, Phi1_at, after1_0,
      show (dat1 V c).owesAt () t.succ = (dat1 V c).owesAt () t.castSucc from rfl,
      show (t.succ : Fin (cfg1.N + 1)).val = t.val + 1 from rfl, show (t.castSucc : Fin (cfg1.N + 1)).val = t.val from rfl]
    rw [poolInv1_succ, runMax1_at]
    by_cases h0 : t.val = 0
    · -- the first point: the scratch row is reset to minus infinity before the tile is joined
      have hfirst : first1 (grid1.coords t) := (first1_iff t).mpr h0
      rw [h0, poolInv1_zero, runMax1_zero, ← owns_whole]
      iintro ⟨⟨⟨%fs, Hs⟩, Hrest⟩, Ho, ⟨%d0, H0⟩, ⟨%d1, H1⟩⟩
      iapply (poolRun1_first c (grid1.coords t) (ms1_0 t) (hs1_0 t) (ms1_1 t) (hs1_1 t) (Memref.whole cc1_scratch0)
        (Memref.isWhole_whole _) hfirst hk (poolBlock1 V c 0 t) fs _)
      isplitl [H0]; · iexact H0
      isplitl [Hs]; · rw [owns_whole]; iexact Hs
      iintro ⟨H0, Hs⟩
      isplitl [Hs Hrest]
      · isplitl [Hs]; · iexact Hs
        iexact Hrest
      isplitl [Ho]; · iexact Ho
      isplitl [H0]; · iexact H0
      iexists d1; iexact H1
    · -- a middle point: the tile is joined into the running maximum
      have hfirst : ¬ first1 (grid1.coords t) := fun h => h0 ((first1_iff t).mp h)
      obtain ⟨n, hn⟩ : ∃ n, t.val = n + 1 := ⟨t.val - 1, by omega⟩
      rw [hn, poolInv1_succ, ← owns_whole, ← owns_whole]
      iintro ⟨⟨Hs, Hrest⟩, Ho, ⟨%d0, H0⟩, ⟨%d1, H1⟩⟩
      iapply (poolRun1_mid c (grid1.coords t) (ms1_0 t) (hs1_0 t) (ms1_1 t) (hs1_1 t) (Memref.whole cc1_scratch0)
        (Memref.isWhole_whole _) hfirst hk (poolBlock1 V c 0 t) (runMax1 V c (n + 1)) _)
      isplitl [H0]; · iexact H0
      isplitl [Hs]; · iexact Hs
      iintro ⟨H0, Hs⟩
      isplitl [Hs Hrest]
      · isplitl [Hs]; · iexact Hs
        iexact Hrest
      isplitl [Ho]; · iexact Ho
      isplitl [H0]; · iexact H0
      iexists d1; iexact H1

end Obligation

/-! ## The region's two ends -/

section Ends

variable (V : (c : Dev nD) → (b : Ref sig .tc) → Buf (Elt F) ((c : Thread nD τ).loc b))

/-- Entering: the scratch row is one of the scoped buffers the region does not stage; opened at whatever it holds,
    with the rest and the generator register, it is the invariant before the first point. Anything else is dropped. -/
theorem poolEnter1 (c : Dev nD) (P : sProp 𝕄) :
    iprop((∃ r, prngReg c r) ∗ P
        ∗ Pipeline.scopedRest (Ix := Unit) (Name := ℕ) (U := UR sig nD τ) (Lvl := ℕ) (Val := Elt F) spec1 c)
      ⊢ (dat1 V c).Φ 0 := by
  rw [Phi1_zero, scopedRest1_split]
  iintro ⟨Hr, -, Hs, Hrest⟩
  isplitl [Hs]; · iexact Hs
  isplitl [Hrest]; · iexact Hrest
  iexact Hr

/-- Leaving: the scratch row's contents are forgotten and it rejoins the scoped rest. -/
theorem poolLeave1 (c : Dev nD) :
    (dat1 V c).Φ (Fin.last cfg1.N)
      ⊢ iprop((∃ r, prngReg c r) ∗ (BI.emp : sProp 𝕄)
        ∗ Pipeline.scopedRest (Ix := Unit) (Name := ℕ) (U := UR sig nD τ) (Lvl := ℕ) (Val := Elt F) spec1 c) := by
  rw [Phi1_last, scopedRest1_split]
  iintro ⟨Hs, Hrest, Hr⟩
  isplitl [Hr]; · iexact Hr
  isplitr; · iempintro
  isplitl [Hs]; · iexists _; iexact Hs
  iexact Hrest

end Ends

end Cert.KernelIdeal.Regions

end
-- ==== Proof.KernelIdealLinear2.lean ====
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Ring
import Idealize.ShloMosaic.Lib.Tactic

/-!
# The first layer's update, one row tile at a time

This kernel region computes `max(h · M + b, 0)` entrywise for a 50000 × 128 matrix `h`, a 128 × 128 matrix `M` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row tile of the left factor is in its buffer at every step (it is brought in at every step). Stated for any proof data
    with `V`'s array that leaves the tile in place. -/
theorem held2_0_of {c : Dev nD} (dat : Dat τ (Elt F) Unit ℕ (UR sig nD τ) ℕ cfg2 c)
    (hA : dat.A 0 = V c (Pipeline.arrRef spec2 0)) (hafter : ∀ t, dat.after 0 t = tileBlock2 V c 0 t)
    (t : Fin cfg2.N) (d) : dat.before 0 t d = tileBlock2 V c 0 t :=
  (dat.before_in_eq_fetched 0 rfl (fun _ => rfl) (fun _ _ _ => rfl)
    (fun t => by rw [hafter]; unfold Dat.blockOf tileBlock2; rw [hA]; try rfl) t d).trans
    (by unfold Dat.fetched Dat.blockOf tileBlock2; rw [hA]; try rfl)

/-- The right factor is in its buffer at every step although it is brought in only at the first: its index map is constant,
    so at a later step the block already there is still the block wanted. -/
theorem held2_1_of {c : Dev nD} (dat : Dat τ (Elt F) Unit ℕ (UR sig nD τ) ℕ cfg2 c)
    (hA : dat.A 1 = V c (Pipeline.arrRef spec2 1)) (hafter : ∀ t, dat.after 1 t = tileBlock2 V c 1 t)
    (t : Fin cfg2.N) (d) : dat.before 1 t d = tileBlock2 V c 1 t :=
  (dat.before_in_eq_fetched 1 rfl (fun _ => rfl) (fun _ _ _ => rfl)
    (fun t => by rw [hafter]; unfold Dat.blockOf tileBlock2; rw [hA]; try rfl) t d).trans
    (by unfold Dat.fetched Dat.blockOf tileBlock2; rw [hA]; try rfl)

/-- The same for the bias row. -/
theorem held2_2_of {c : Dev nD} (dat : Dat τ (Elt F) Unit ℕ (UR sig nD τ) ℕ cfg2 c)
    (hA : dat.A 2 = V c (Pipeline.arrRef spec2 2)) (hafter : ∀ t, dat.after 2 t = tileBlock2 V c 2 t)
    (t : Fin cfg2.N) (d) : dat.before 2 t d = tileBlock2 V c 2 t :=
  (dat.before_in_eq_fetched 2 rfl (fun _ => rfl) (fun _ _ _ => rfl)
    (fun t => by rw [hafter]; unfold Dat.blockOf tileBlock2; rw [hA]; try rfl) t d).trans
    (by unfold Dat.fetched Dat.blockOf tileBlock2; rw [hA]; try rfl)

/-! ## What one step writes -/

/-- The whole of a 2000 × 128 buffer, of a 128 × 128 one, of a 1 × 128 one and of a 2000 × 128 one, as rectangles. -/
abbrev allA2 : Rect S2000x128 := Rect.unit (s := S2000x128) ![0, 0] S2000x128.size inb_S2000x128_S2000x128_0_0
abbrev allW2 : Rect S128x128 := Rect.unit (s := S128x128) ![0, 0] S128x128.size inb_S128x128_S128x128_0_0
abbrev allB2 : Rect S1x128 := Rect.unit (s := S1x128) ![0, 0] S1x128.size inb_S1x128_S1x128_0_0
abbrev allO2 : Rect S2000x128 := Rect.unit (s := S2000x128) ![0, 0] S2000x128.size inb_S2000x128_S2000x128_0_0

/-- The result block after one step, from the three input blocks: the step makes one store, of the whole block, of
    `max(a · W + b, 0)` computed from the whole input blocks. -/
def tileOut2 (a : Vec F S2000x128 .f32) (w : Vec F S128x128 .f32) (b : Vec F S1x128 .f32) : Vec F S2000x128 .f32 :=
  View.canon [⟨allO2, k2_pay1 (View.ld a allA2) (View.ld w allW2) (View.ld b allB2)⟩]

/-- That one store reaches every entry of the result block. -/
theorem covers2 (p : Vec F S2000x128 .f32) (y : S2000x128.Idx) :
    ∃ pc ∈ ([⟨allO2, p⟩] : List (View.Piece (Elt F) S2000x128 .f32)), y ∈ pc.1.set :=
  View.cover_of_tiled [⟨allO2, p⟩] S2000x128.size (by rfl) y

/-! ## One step of the kernel -/

set_option maxHeartbeats 1000000 in
/-- Run on four whole buffers, the first three holding `a`, `w`, `b` and the fourth anything, the kernel ends with the
    first three unchanged and the fourth holding `tileOut2 a w b`. (It reads the fourth once before overwriting it;
    what it reads there is not used.) -/
theorem kernel_triple2 (c : Dev nD) (E : Set ℕ) (i : grid2.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut2 a w b)) -∗ K ⟨⟩))
      ⊢ wp frame (wpE (defs₀ (F := F)) Variants.none c none) E (cc2__linear_kernel i m1 h1 m2 h2 m3 h3 m4 h4) K := by
  simp only [cc2__linear_kernel_eq_skeleton]; unfold cc2__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers2 _)

/-! ## The proof data of the region -/

/-- The arrays are `V`'s; after step `t` the three input windows hold their blocks still and the result window holds
    `tileOut2` of them; the invariant is the rest of the core's memory, left alone; nothing is owed and every buffer
    is owned in full. -/
def dat2 (c : Dev nD) : Dat τ (Elt F) Unit ℕ (UR sig nD τ) ℕ cfg2 c where
  A w := V c (Pipeline.arrRef spec2 w)
  after w t := match w with
    | ⟨0, _⟩ => tileBlock2 V c 0 t
    | ⟨1, _⟩ => tileBlock2 V c 1 t
    | ⟨2, _⟩ => tileBlock2 V c 2 t
    | ⟨3, _⟩ => tileOut2 (tileBlock2 V c 0 t) (tileBlock2 V c 1 t) (tileBlock2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = tileBlock2 V c 0 t := by dsimp only [dat2]
theorem after2_1 (c : Dev nD) (t : Fin cfg2.N) : (dat2 V c).after 1 t = tileBlock2 V c 1 t := by dsimp only [dat2]
theorem after2_2 (c : Dev nD) (t : Fin cfg2.N) : (dat2 V c).after 2 t = tileBlock2 V c 2 t := by dsimp only [dat2]
theorem after2_3 (c : Dev nD) (t : Fin cfg2.N) :
    (dat2 V c).after 3 t = tileOut2 (tileBlock2 V c 0 t) (tileBlock2 V c 1 t) (tileBlock2 V c 2 t) := by dsimp only [dat2]

/-- What each input buffer holds when the step starts: its block. -/
theorem held2_0 (c : Dev nD) (t : Fin cfg2.N) (d) : (dat2 V c).before 0 t d = tileBlock2 V c 0 t :=
  held2_0_of V (dat2 V c) (A_eq2 V c 0) (after2_0 V c) t d
theorem held2_1 (c : Dev nD) (t : Fin cfg2.N) (d) : (dat2 V c).before 1 t d = tileBlock2 V c 1 t :=
  held2_1_of V (dat2 V c) (A_eq2 V c 1) (after2_1 V c) t d
theorem held2_2 (c : Dev nD) (t : Fin cfg2.N) (d) : (dat2 V c).before 2 t d = tileBlock2 V c 2 t :=
  held2_2_of V (dat2 V c) (A_eq2 V c 2) (after2_2 V c) t d

/-! ## One step, as the pipeline asks for it -/

/-- What the step is given: the invariant, the debt, and the four current buffers, -/
def stepPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it gives back. -/
def stepPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The step at any point of the grid: the input buffers hold their blocks, so the kernel's triple applies; the invariant
    and the debt are not looked at. -/
theorem step_triple2 (c : Dev nD) (t : Fin cfg2.N) :
    stepPre2 V c t ⊢ wp frame (wpE (defs₀ (F := F)) Variants.none c none) Set.univ (bodyAt2 t) (fun _ => stepPost2 V c t) := by
  unfold stepPre2 stepPost2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (kernel_triple2 c Set.univ _ _ _ _ _ _ _ _ _ (tileBlock2 V c 0 t) (tileBlock2 V c 1 t) (tileBlock2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation2 (c : Dev nD) : BodyObligation (dat2 (F := F) V c) (defs₀ (F := F)) Variants.none () Set.univ := fun t => by
  rw [bigSep_W2, bigSep_W2]
  exact step_triple2 V c t

end Cert.KernelIdeal.Regions
-- ==== Proof.KernelIdealLinear3.lean ====
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Ring
import Idealize.ShloMosaic.Lib.Tactic

/-!
# The second dense map, one row tile at a time

This kernel region computes `h · W + b` for a 50000 × 128 matrix `h`, a 128 × 128 weight `W` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The row tile of the left factor is in its buffer at every step (it is brought in at every step). Stated for any proof data
    with `V`'s array that leaves the tile in place. -/
theorem held3_0_of {c : Dev nD} (dat : Dat τ (Elt F) Unit ℕ (UR sig nD τ) ℕ cfg3 c)
    (hA : dat.A 0 = V c (Pipeline.arrRef spec3 0)) (hafter : ∀ t, dat.after 0 t = tileBlock3 V c 0 t)
    (t : Fin cfg3.N) (d) : dat.before 0 t d = tileBlock3 V c 0 t :=
  (dat.before_in_eq_fetched 0 rfl (fun _ => rfl) (fun _ _ _ => rfl)
    (fun t => by rw [hafter]; unfold Dat.blockOf tileBlock3; rw [hA]; try rfl) t d).trans
    (by unfold Dat.fetched Dat.blockOf tileBlock3; rw [hA]; try rfl)

/-- The right factor is in its buffer at every step although it is brought in only at the first: its index map is constant,
    so at a later step the block already there is still the block wanted. -/
theorem held3_1_of {c : Dev nD} (dat : Dat τ (Elt F) Unit ℕ (UR sig nD τ) ℕ cfg3 c)
    (hA : dat.A 1 = V c (Pipeline.arrRef spec3 1)) (hafter : ∀ t, dat.after 1 t = tileBlock3 V c 1 t)
    (t : Fin cfg3.N) (d) : dat.before 1 t d = tileBlock3 V c 1 t :=
  (dat.before_in_eq_fetched 1 rfl (fun _ => rfl) (fun _ _ _ => rfl)
    (fun t => by rw [hafter]; unfold Dat.blockOf tileBlock3; rw [hA]; try rfl) t d).trans
    (by unfold Dat.fetched Dat.blockOf tileBlock3; rw [hA]; try rfl)

/-- The same for the bias row. -/
theorem held3_2_of {c : Dev nD} (dat : Dat τ (Elt F) Unit ℕ (UR sig nD τ) ℕ cfg3 c)
    (hA : dat.A 2 = V c (Pipeline.arrRef spec3 2)) (hafter : ∀ t, dat.after 2 t = tileBlock3 V c 2 t)
    (t : Fin cfg3.N) (d) : dat.before 2 t d = tileBlock3 V c 2 t :=
  (dat.before_in_eq_fetched 2 rfl (fun _ => rfl) (fun _ _ _ => rfl)
    (fun t => by rw [hafter]; unfold Dat.blockOf tileBlock3; rw [hA]; try rfl) t d).trans
    (by unfold Dat.fetched Dat.blockOf tileBlock3; rw [hA]; try rfl)

/-! ## What one step writes -/

/-- The whole of a 2000 × 128 buffer, of a 128 × 128 one, of a 1 × 128 one and of a 2000 × 128 one, as rectangles. -/
abbrev allA3 : Rect S2000x128 := Rect.unit (s := S2000x128) ![0, 0] S2000x128.size inb_S2000x128_S2000x128_0_0
abbrev allW3 : Rect S128x128 := Rect.unit (s := S128x128) ![0, 0] S128x128.size inb_S128x128_S128x128_0_0
abbrev allB3 : Rect S1x128 := Rect.unit (s := S1x128) ![0, 0] S1x128.size inb_S1x128_S1x128_0_0
abbrev allO3 : Rect S2000x128 := Rect.unit (s := S2000x128) ![0, 0] S2000x128.size inb_S2000x128_S2000x128_0_0

/-- The result block after one step, from the three input blocks: the step makes one store, of the whole block, of
    `a · W + b` computed from the whole input blocks. -/
def tileOut3 (a : Vec F S2000x128 .f32) (w : Vec F S128x128 .f32) (b : Vec F S1x128 .f32) : Vec F S2000x128 .f32 :=
  View.canon [⟨allO3, k3_pay1 (View.ld a allA3) (View.ld w allW3) (View.ld b allB3)⟩]

/-- That one store reaches every entry of the result block. -/
theorem covers3 (p : Vec F S2000x128 .f32) (y : S2000x128.Idx) :
    ∃ pc ∈ ([⟨allO3, p⟩] : List (View.Piece (Elt F) S2000x128 .f32)), y ∈ pc.1.set :=
  View.cover_of_tiled [⟨allO3, p⟩] S2000x128.size (by rfl) y

/-! ## One step of the kernel -/

set_option maxHeartbeats 1000000 in
/-- Run on four whole buffers, the first three holding `a`, `w`, `b` and the fourth anything, the kernel ends with the
    first three unchanged and the fourth holding `tileOut3 a w b`. (It reads the fourth once before overwriting it;
    what it reads there is not used.) -/
theorem kernel_triple3 (c : Dev nD) (E : Set ℕ) (i : grid3.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut3 a w b)) -∗ K ⟨⟩))
      ⊢ wp frame (wpE (defs₀ (F := F)) Variants.none c none) E (cc3__linear_kernel i m1 h1 m2 h2 m3 h3 m4 h4) K := by
  simp only [cc3__linear_kernel_eq_skeleton]; unfold cc3__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers3 _)

/-! ## The proof data of the region -/

/-- The arrays are `V`'s; after step `t` the three input windows hold their blocks still and the result window holds
    `tileOut3` of them; the invariant is the rest of the core's memory, left alone; nothing is owed and every buffer
    is owned in full. -/
def dat3 (c : Dev nD) : Dat τ (Elt F) Unit ℕ (UR sig nD τ) ℕ cfg3 c where
  A w := V c (Pipeline.arrRef spec3 w)
  after w t := match w with
    | ⟨0, _⟩ => tileBlock3 V c 0 t
    | ⟨1, _⟩ => tileBlock3 V c 1 t
    | ⟨2, _⟩ => tileBlock3 V c 2 t
    | ⟨3, _⟩ => tileOut3 (tileBlock3 V c 0 t) (tileBlock3 V c 1 t) (tileBlock3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = tileBlock3 V c 0 t := by dsimp only [dat3]
theorem after3_1 (c : Dev nD) (t : Fin cfg3.N) : (dat3 V c).after 1 t = tileBlock3 V c 1 t := by dsimp only [dat3]
theorem after3_2 (c : Dev nD) (t : Fin cfg3.N) : (dat3 V c).after 2 t = tileBlock3 V c 2 t := by dsimp only [dat3]
theorem after3_3 (c : Dev nD) (t : Fin cfg3.N) :
    (dat3 V c).after 3 t = tileOut3 (tileBlock3 V c 0 t) (tileBlock3 V c 1 t) (tileBlock3 V c 2 t) := by dsimp only [dat3]

/-- What each input buffer holds when the step starts: its block. -/
theorem held3_0 (c : Dev nD) (t : Fin cfg3.N) (d) : (dat3 V c).before 0 t d = tileBlock3 V c 0 t :=
  held3_0_of V (dat3 V c) (A_eq3 V c 0) (after3_0 V c) t d
theorem held3_1 (c : Dev nD) (t : Fin cfg3.N) (d) : (dat3 V c).before 1 t d = tileBlock3 V c 1 t :=
  held3_1_of V (dat3 V c) (A_eq3 V c 1) (after3_1 V c) t d
theorem held3_2 (c : Dev nD) (t : Fin cfg3.N) (d) : (dat3 V c).before 2 t d = tileBlock3 V c 2 t :=
  held3_2_of V (dat3 V c) (A_eq3 V c 2) (after3_2 V c) t d

/-! ## One step, as the pipeline asks for it -/

/-- What the step is given: the invariant, the debt, and the four current buffers, -/
def stepPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it gives back. -/
def stepPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The step at any point of the grid: the input buffers hold their blocks, so the kernel's triple applies; the invariant
    and the debt are not looked at. -/
theorem step_triple3 (c : Dev nD) (t : Fin cfg3.N) :
    stepPre3 V c t ⊢ wp frame (wpE (defs₀ (F := F)) Variants.none c none) Set.univ (bodyAt3 t) (fun _ => stepPost3 V c t) := by
  unfold stepPre3 stepPost3 bodyAt3
  simp only [held3_0, held3_1, held3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernel_triple3 c Set.univ _ _ _ _ _ _ _ _ _ (tileBlock3 V c 0 t) (tileBlock3 V c 1 t) (tileBlock3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation3 (c : Dev nD) : BodyObligation (dat3 (F := F) V c) (defs₀ (F := F)) Variants.none () Set.univ := fun t => by
  rw [bigSep_W3, bigSep_W3]
  exact step_triple3 V c t

end Cert.KernelIdeal.Regions
-- ==== Proof.KernelIdealPool4.lean ====
/-
  The second row-maximum region.

  The region walks the 25 row tiles of a [50000,128] array, 2000 rows each, and leaves in a [1,128] row the
  columnwise maximum of all of them. A one-row scratch buffer carries the running maximum from point to point: at
  the first point it is reset to minus infinity, at every point the columnwise maximum of the current tile is joined
  into it, and at the last point it is copied to the output row, which is written back only there.

  So the output window's staging row is untouched at every point but the last, and the state that matters between
  points lives in the scratch row: the invariant before point n says that the scratch row holds the running maximum
  of tiles 0 … n-1 (anything, before the first point). The running maximum is the recursion

      runMax4 0 = -inf row,   runMax4 (n+1) = max (runMax4 n) (columnwise max of tile n),

  spelt through the body's own two payloads. The body is run once for each of its three control cases (first point,
  a middle point, last point) on symbolic whole memrefs, and the obligation at a point picks the case from the
  point's position, the two conditions being decided over the grid in closed form.
-/
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import proofs.«115727_j48790828483060_1_alg».proof.Proof.KernelIdealPool1
import Idealize.ShloMosaic.Lib.Pipeline.FrameBody
import Idealize.ShloMosaic.Lib.Tactic

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The condition of the body's first branch (the reset of the scratch row), from the grid coordinates. -/
abbrev first4 (i : grid4.Coords) : Prop :=
  (Scalar.cmpi .ne (Scalar.extui (Scalar.cmpi .eq (BitVec.ofNat 32 (i 0).val) 0#32)) 0#32) = 1#1

/-- It holds at the first point only. -/
theorem first4_iff : ∀ t : Fin cfg4.N, first4 (grid4.coords t) ↔ t.val = 0 :=
  (by decide +kernel : ∀ t : Fin grid4.N, first4 (grid4.coords t) ↔ t.val = 0)

/-- The second branch (the copy to the output row) is taken at the last point only. -/
theorem last4_iff : ∀ t : Fin cfg4.N, k4_cond2 (grid4.coords t) = 1#1 ↔ t.val = 24 :=
  (by decide +kernel : ∀ t : Fin grid4.N, k4_cond2 (grid4.coords t) = 1#1 ↔ t.val = 24)

/-! ## The body, once per control case

Each on whole memrefs held at named contents: the tile's buffer at `x0`, the scratch row at `xs`, the output row
(where the case touches it) at `xo`. -/

/-- A middle point: neither branch is taken; the scratch row ends at the tile's columnwise maximum joined with what it
    held, and nothing else is written. -/
theorem poolRun4_mid (c : Dev nD) (i : grid4.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first4 i) (h2 : ¬ k4_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k4_pay2 x0 xs)) -∗ K ⟨⟩))
      ⊢ wp frame (wpE (defs₀ (F := F)) Variants.none c none) Set.univ (cc4__max_pool_kernel i arg1 harg1 arg2 harg2 arg3 harg3) K := by
  simp only [cc4__max_pool_kernel_eq_skeleton]; unfold cc4__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  rw [read_writes_full _ _ zeros2, readAt_full _ _ zeros2, readAt_full _ _ zeros2, hf0, hf3]

/-- The first point: the scratch row is first reset to minus infinity, so it ends at the tile's columnwise maximum
    joined with minus infinity, whatever it held. -/
theorem poolRun4_first (c : Dev nD) (i : grid4.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : first4 i) (h2 : ¬ k4_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k4_pay2 x0 (k4_pay1 (F := F)))) -∗ K ⟨⟩))
      ⊢ wp frame (wpE (defs₀ (F := F)) Variants.none c none) Set.univ (cc4__max_pool_kernel i arg1 harg1 arg2 harg2 arg3 harg3) K := by
  simp only [cc4__max_pool_kernel_eq_skeleton]; unfold cc4__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  unfold poolRun4_first.sl.v7 poolRun4_first.sl.H3_1
  rw [read_writes_full _ _ zeros2, readAt_full _ _ zeros2, hf0, View.readCov_cons_toLoadRect]

/-- The last point: as a middle point, and then the scratch row is copied to the output row. -/
theorem poolRun4_last (c : Dev nD) (i : grid4.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first4 i) (h2 : k4_cond2 i = 1#1)
    (x0 : Vec F S2000x128 .f32) (xo : Vec F S1x128 .f32) (xs : Vec F S1x128 .f32) (K : PUnit → sProp 𝕄) :
    iprop(owns (c : Thread nD τ) arg1 fullShare x0 ∗ owns (c : Thread nD τ) arg2 fullShare xo ∗ owns (c : Thread nD τ) arg3 fullShare xs
        ∗ (iprop(owns (c : Thread nD τ) arg1 fullShare x0 ∗ owns (c : Thread nD τ) arg2 fullShare (k4_pay2 x0 xs)
            ∗ owns (c : Thread nD τ) arg3 fullShare (k4_pay2 x0 xs)) -∗ K ⟨⟩))
      ⊢ wp frame (wpE (defs₀ (F := F)) Variants.none c none) Set.univ (cc4__max_pool_kernel i arg1 harg1 arg2 harg2 arg3 harg3) K := by
  simp only [cc4__max_pool_kernel_eq_skeleton]; unfold cc4__max_pool_kernel_skel
  unfold owns
  iintro ⟨⟨%f0, %hf0, H0⟩, ⟨%f2, %hf2, H2⟩, ⟨%f3, %hf3, H3⟩, Hk⟩
  obtain rfl := harg1.eq_unread hf0; obtain rfl := harg2.eq_unread hf2; obtain rfl := harg3.eq_unread hf3
  sl_exec (disch := first | exact h1 | exact h2)
  sl_step
  iapply Hk
  isplitl [H0]
  · iexists _; isplitr; · ipureintro; exact hf0
    iexact H0
  isplitl [H2]
  · iexists _; isplitr; swap; · iexact H2
    ipureintro
    unfold poolRun4_last.sl.v15 poolRun4_last.sl.H3_1
    rw [read_writes_full _ _ zeros2, View.readCov_cons_toLoadRect, readAt_full _ _ zeros2, readAt_full _ _ zeros2, hf0, hf3]
  iexists _; isplitr; swap; · iexact H3
  ipureintro
  unfold poolRun4_last.sl.H3_1
  rw [read_writes_full _ _ zeros2, readAt_full _ _ zeros2, readAt_full _ _ zeros2, hf0, hf3]

/-! ## The proof data -/

section Data

variable (V : (c : Dev nD) → (b : Ref sig .tc) → Buf (Elt F) ((c : Thread nD τ).loc b))

/-- Window `w`'s block at point `t`, read off the arrays as the region finds them. -/
def poolBlock4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The running maximum after `n` points: minus infinity before any, then the columnwise maximum of the row tile
    of point `n` joined with what the points before left. -/
def runMax4 (c : Dev nD) : ℕ → Vec F S1x128 .f32
  | 0 => k4_pay1
  | n + 1 => if h : n < cfg4.N then k4_pay2 (poolBlock4 V c 0 ⟨n, h⟩) (runMax4 c n) else runMax4 c n

theorem runMax4_zero (c : Dev nD) : runMax4 V c 0 = k4_pay1 (F := F) := rfl

theorem runMax4_succ (c : Dev nD) (n : ℕ) (h : n < cfg4.N) :
    runMax4 V c (n + 1) = k4_pay2 (poolBlock4 V c 0 ⟨n, h⟩) (runMax4 V c n) := by
  rw [runMax4, dif_pos h]

/-- What of the scoped rest the region does not name, and the generator register. -/
abbrev poolRest4 (c : Dev nD) : sProp 𝕄 :=
  iprop(Pipeline.scopedRestBut (Ix := Unit) (Name := ℕ) (U := UR sig nD τ) (Lvl := ℕ) (Val := Elt F) spec4 c [cc4_scratch0]
    ∗ ∃ r, prngReg c r)

/-- The invariant before point `n`: the scratch row holds anything before the first point and the running maximum
    of the points so far afterwards. -/
def poolInv4 (c : Dev nD) : ℕ → sProp 𝕄
  | 0 => iprop((∃ f : Buf (Elt F) ((c : Thread nD τ).loc cc4_scratch0), ((c : Thread nD τ).loc cc4_scratch0) ↦{fullShare} f)
      ∗ poolRest4 c)
  | n + 1 => iprop((((c : Thread nD τ).loc cc4_scratch0) ↦{fullShare} (runMax4 V c (n + 1)))
      ∗ poolRest4 c)

/-- The proof data of the region on core `c`. -/
def dat4 (c : Dev nD) : Dat τ (Elt F) Unit ℕ (UR sig nD τ) ℕ cfg4 c where
  A w := V c (Pipeline.arrRef spec4 w)
  after w t := match w with
    | ⟨0, _⟩ => poolBlock4 V c 0 t
    | ⟨1, _⟩ => runMax4 V c (t.val + 1)
  Φ t := poolInv4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = poolBlock4 V c 0 t := by dsimp only [dat4]
theorem after4_1 (c : Dev nD) (t : Fin cfg4.N) : (dat4 V c).after 1 t = runMax4 V c (t.val + 1) := by dsimp only [dat4]

theorem Phi4_at (c : Dev nD) (t : Fin (cfg4.N + 1)) : (dat4 V c).Φ t = poolInv4 V c t.val := rfl

theorem Phi4_zero (c : Dev nD) : (dat4 V c).Φ 0 =
    iprop((∃ f : Buf (Elt F) ((c : Thread nD τ).loc cc4_scratch0), ((c : Thread nD τ).loc cc4_scratch0) ↦{fullShare} f)
      ∗ Pipeline.scopedRestBut (Ix := Unit) (Name := ℕ) (U := UR sig nD τ) (Lvl := ℕ) (Val := Elt F) spec4 c [cc4_scratch0]
      ∗ ∃ r, prngReg c r) := rfl

theorem Phi4_last (c : Dev nD) : (dat4 V c).Φ (Fin.last cfg4.N) =
    iprop((((c : Thread nD τ).loc cc4_scratch0) ↦{fullShare} (runMax4 V c 25))
      ∗ Pipeline.scopedRestBut (Ix := Unit) (Name := ℕ) (U := UR sig nD τ) (Lvl := ℕ) (Val := Elt F) spec4 c [cc4_scratch0]
      ∗ ∃ r, prngReg c r) := by
  rw [Phi4_at, Fin.val_last, show cfg4.N = 25 from N_4]; rfl

/-- The row tile's staging buffer holds the tile when the body runs: it is fetched at every point. -/
theorem before4_0 (c : Dev nD) (t : Fin cfg4.N) (d) : (dat4 V c).before 0 t d = poolBlock4 V c 0 t := by
  rw [Dat.before_fetched _ 0 t (fetch4_0 t)]
  unfold Dat.fetched Dat.blockOf poolBlock4; rw [A_eq4]; rfl

end Data

/-! ## The body obligation -/

section Obligation

variable (V : (c : Dev nD) → (b : Ref sig .tc) → Buf (Elt F) ((c : Thread nD τ).loc b))

/-- One step of the running maximum, at a point of the grid. -/
theorem runMax4_at (c : Dev nD) (t : Fin cfg4.N) :
    runMax4 V c (t.val + 1) = k4_pay2 (poolBlock4 V c 0 t) (runMax4 V c t.val) :=
  runMax4_succ V c t.val t.isLt

theorem poolInv4_zero (c : Dev nD) : poolInv4 V c 0 =
    iprop((∃ f : Buf (Elt F) ((c : Thread nD τ).loc cc4_scratch0), ((c : Thread nD τ).loc cc4_scratch0) ↦{fullShare} f)
      ∗ poolRest4 c) := rfl

theorem poolInv4_succ (c : Dev nD) (n : ℕ) : poolInv4 V c (n + 1) =
    iprop((((c : Thread nD τ).loc cc4_scratch0) ↦{fullShare} (runMax4 V c (n + 1))) ∗ poolRest4 c) := rfl

/-- Each window's current staging memref at point `t`, as the pipeline passes it to the body. -/
abbrev ms4_0 (t : Fin cfg4.N) : Memref sig .tc .vmem S2000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)

/-- At every point the body takes the invariant and the windows' buffers to the invariant at the next point and
    the buffers at what the proof data say: by the point's position, one of the three runs above. -/
theorem body_obligation4 (c : Dev nD) : BodyObligation (dat4 (F := F) V c) (defs₀ (F := F)) Variants.none () Set.univ := fun t => by
  have hN : t.val < 25 := lt_of_lt_of_eq t.isLt N_4
  rw [bigSep_W4, bigSep_W4]
  by_cases hlast : t.val = 24
  · -- the last point: the maximum is joined once more and copied to the output row
    have hk : k4_cond2 (grid4.coords t) = 1#1 := (last4_iff t).mpr hlast
    have hfirst : ¬ first4 (grid4.coords t) := fun h => by have := (first4_iff t).mp h; omega
    have hi1 : idle4 1 (grid4.coords t) = false := by
      show (!(k4_cond2 (grid4.coords t) == 1#1)) = false
      rw [hk]; rfl
    simp only []
    rw [hi1]
    simp only [before4_0]
    rw [Phi4_at, Phi4_at, after4_0, after4_1, runMax4_at,
      show (dat4 V c).owesAt () t.succ = (dat4 V c).owesAt () t.castSucc from rfl,
      show (t.succ : Fin (cfg4.N + 1)).val = t.val + 1 from rfl, show (t.castSucc : Fin (cfg4.N + 1)).val = t.val from rfl]
    obtain ⟨n, hn⟩ : ∃ n, t.val = n + 1 := ⟨23, hlast⟩
    rw [poolInv4_succ, runMax4_at]
    rw [hn, poolInv4_succ, ← owns_whole, ← owns_whole]
    iintro ⟨⟨Hs, Hrest⟩, Ho, ⟨%d0, H0⟩, ⟨%d1, H1⟩⟩
    iapply (poolRun4_last c (grid4.coords t) (ms4_0 t) (hs4_0 t) (ms4_1 t) (hs4_1 t) (Memref.whole cc4_scratch0)
      (Memref.isWhole_whole _) hfirst hk (poolBlock4 V c 0 t) _ (runMax4 V c (n + 1)) _)
    isplitl [H0]; · iexact H0
    isplitl [H1]; · iexact H1
    isplitl [Hs]; · iexact Hs
    iintro ⟨H0, H1, Hs⟩
    isplitl [Hs Hrest]
    · isplitl [Hs]; · iexact Hs
      iexact Hrest
    isplitl [Ho]; · iexact Ho
    isplitl [H0]; · iexact H0
    iexact H1
  · -- any other point: the output row is handed back as it was found
    have hk : ¬ k4_cond2 (grid4.coords t) = 1#1 := fun h => hlast ((last4_iff t).mp h)
    have hi1 : idle4 1 (grid4.coords t) = true := by
      show (!(k4_cond2 (grid4.coords t) == 1#1)) = true
      simp [hk]
    have hf1 : (cfg4.win 1).flush t = false :=
      Bool.eq_false_iff.mpr fun h => hlast (by have := (flush4_1 t).mp h; omega)
    simp only [hf1]
    rw [hi1]
    simp only [before4_0]
    rw [Phi4_at, Phi4_at, after4_0,
      show (dat4 V c).owesAt () t.succ = (dat4 V c).owesAt () t.castSucc from rfl,
      show (t.succ : Fin (cfg4.N + 1)).val = t.val + 1 from rfl, show (t.castSucc : Fin (cfg4.N + 1)).val = t.val from rfl]
    rw [poolInv4_succ, runMax4_at]
    by_cases h0 : t.val = 0
    · -- the first point: the scratch row is reset to minus infinity before the tile is joined
      have hfirst : first4 (grid4.coords t) := (first4_iff t).mpr h0
      rw [h0, poolInv4_zero, runMax4_zero, ← owns_whole]
      iintro ⟨⟨⟨%fs, Hs⟩, Hrest⟩, Ho, ⟨%d0, H0⟩, ⟨%d1, H1⟩⟩
      iapply (poolRun4_first c (grid4.coords t) (ms4_0 t) (hs4_0 t) (ms4_1 t) (hs4_1 t) (Memref.whole cc4_scratch0)
        (Memref.isWhole_whole _) hfirst hk (poolBlock4 V c 0 t) fs _)
      isplitl [H0]; · iexact H0
      isplitl [Hs]; · rw [owns_whole]; iexact Hs
      iintro ⟨H0, Hs⟩
      isplitl [Hs Hrest]
      · isplitl [Hs]; · iexact Hs
        iexact Hrest
      isplitl [Ho]; · iexact Ho
      isplitl [H0]; · iexact H0
      iexists d1; iexact H1
    · -- a middle point: the tile is joined into the running maximum
      have hfirst : ¬ first4 (grid4.coords t) := fun h => h0 ((first4_iff t).mp h)
      obtain ⟨n, hn⟩ : ∃ n, t.val = n + 1 := ⟨t.val - 1, by omega⟩
      rw [hn, poolInv4_succ, ← owns_whole, ← owns_whole]
      iintro ⟨⟨Hs, Hrest⟩, Ho, ⟨%d0, H0⟩, ⟨%d1, H1⟩⟩
      iapply (poolRun4_mid c (grid4.coords t) (ms4_0 t) (hs4_0 t) (ms4_1 t) (hs4_1 t) (Memref.whole cc4_scratch0)
        (Memref.isWhole_whole _) hfirst hk (poolBlock4 V c 0 t) (runMax4 V c (n + 1)) _)
      isplitl [H0]; · iexact H0
      isplitl [Hs]; · iexact Hs
      iintro ⟨H0, Hs⟩
      isplitl [Hs Hrest]
      · isplitl [Hs]; · iexact Hs
        iexact Hrest
      isplitl [Ho]; · iexact Ho
      isplitl [H0]; · iexact H0
      iexists d1; iexact H1

end Obligation

/-! ## The region's two ends -/

section Ends

variable (V : (c : Dev nD) → (b : Ref sig .tc) → Buf (Elt F) ((c : Thread nD τ).loc b))

/-- Entering: the scratch row is one of the scoped buffers the region does not stage; opened at whatever it holds,
    with the rest and the generator register, it is the invariant before the first point. Anything else is dropped. -/
theorem poolEnter4 (c : Dev nD) (P : sProp 𝕄) :
    iprop((∃ r, prngReg c r) ∗ P
        ∗ Pipeline.scopedRest (Ix := Unit) (Name := ℕ) (U := UR sig nD τ) (Lvl := ℕ) (Val := Elt F) spec4 c)
      ⊢ (dat4 V c).Φ 0 := by
  rw [Phi4_zero, scopedRest4_split]
  iintro ⟨Hr, -, Hs, Hrest⟩
  isplitl [Hs]; · iexact Hs
  isplitl [Hrest]; · iexact Hrest
  iexact Hr

/-- Leaving: the scratch row's contents are forgotten and it rejoins the scoped rest. -/
theorem poolLeave4 (c : Dev nD) :
    (dat4 V c).Φ (Fin.last cfg4.N)
      ⊢ iprop((∃ r, prngReg c r) ∗ (BI.emp : sProp 𝕄)
        ∗ Pipeline.scopedRest (Ix := Unit) (Name := ℕ) (U := UR sig nD τ) (Lvl := ℕ) (Val := Elt F) spec4 c) := by
  rw [Phi4_last, scopedRest4_split]
  iintro ⟨Hs, Hrest, Hr⟩
  isplitl [Hr]; · iexact Hr
  isplitr; · iempintro
  isplitl [Hs]; · iexists _; iexact Hs
  iexact Hrest

end Ends

end Cert.KernelIdeal.Regions

end
-- ==== Proof.KernelIdealLinear5.lean ====
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Ring
import Idealize.ShloMosaic.Lib.Tactic

/-!
# The second layer's update, one row tile at a time

This kernel region computes `max(h · M + b, 0)` entrywise for a 50000 × 128 matrix `h`, a 128 × 128 matrix `M` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- The row tile of the left factor is in its buffer at every step (it is brought in at every step). Stated for any proof data
    with `V`'s array that leaves the tile in place. -/
theorem held5_0_of {c : Dev nD} (dat : Dat τ (Elt F) Unit ℕ (UR sig nD τ) ℕ cfg5 c)
    (hA : dat.A 0 = V c (Pipeline.arrRef spec5 0)) (hafter : ∀ t, dat.after 0 t = tileBlock5 V c 0 t)
    (t : Fin cfg5.N) (d) : dat.before 0 t d = tileBlock5 V c 0 t :=
  (dat.before_in_eq_fetched 0 rfl (fun _ => rfl) (fun _ _ _ => rfl)
    (fun t => by rw [hafter]; unfold Dat.blockOf tileBlock5; rw [hA]; try rfl) t d).trans
    (by unfold Dat.fetched Dat.blockOf tileBlock5; rw [hA]; try rfl)

/-- The right factor is in its buffer at every step although it is brought in only at the first: its index map is constant,
    so at a later step the block already there is still the block wanted. -/
theorem held5_1_of {c : Dev nD} (dat : Dat τ (Elt F) Unit ℕ (UR sig nD τ) ℕ cfg5 c)
    (hA : dat.A 1 = V c (Pipeline.arrRef spec5 1)) (hafter : ∀ t, dat.after 1 t = tileBlock5 V c 1 t)
    (t : Fin cfg5.N) (d) : dat.before 1 t d = tileBlock5 V c 1 t :=
  (dat.before_in_eq_fetched 1 rfl (fun _ => rfl) (fun _ _ _ => rfl)
    (fun t => by rw [hafter]; unfold Dat.blockOf tileBlock5; rw [hA]; try rfl) t d).trans
    (by unfold Dat.fetched Dat.blockOf tileBlock5; rw [hA]; try rfl)

/-- The same for the bias row. -/
theorem held5_2_of {c : Dev nD} (dat : Dat τ (Elt F) Unit ℕ (UR sig nD τ) ℕ cfg5 c)
    (hA : dat.A 2 = V c (Pipeline.arrRef spec5 2)) (hafter : ∀ t, dat.after 2 t = tileBlock5 V c 2 t)
    (t : Fin cfg5.N) (d) : dat.before 2 t d = tileBlock5 V c 2 t :=
  (dat.before_in_eq_fetched 2 rfl (fun _ => rfl) (fun _ _ _ => rfl)
    (fun t => by rw [hafter]; unfold Dat.blockOf tileBlock5; rw [hA]; try rfl) t d).trans
    (by unfold Dat.fetched Dat.blockOf tileBlock5; rw [hA]; try rfl)

/-! ## What one step writes -/

/-- The whole of a 2000 × 128 buffer, of a 128 × 128 one, of a 1 × 128 one and of a 2000 × 128 one, as rectangles. -/
abbrev allA5 : Rect S2000x128 := Rect.unit (s := S2000x128) ![0, 0] S2000x128.size inb_S2000x128_S2000x128_0_0
abbrev allW5 : Rect S128x128 := Rect.unit (s := S128x128) ![0, 0] S128x128.size inb_S128x128_S128x128_0_0
abbrev allB5 : Rect S1x128 := Rect.unit (s := S1x128) ![0, 0] S1x128.size inb_S1x128_S1x128_0_0
abbrev allO5 : Rect S2000x128 := Rect.unit (s := S2000x128) ![0, 0] S2000x128.size inb_S2000x128_S2000x128_0_0

/-- The result block after one step, from the three input blocks: the step makes one store, of the whole block, of
    `max(a · W + b, 0)` computed from the whole input blocks. -/
def tileOut5 (a : Vec F S2000x128 .f32) (w : Vec F S128x128 .f32) (b : Vec F S1x128 .f32) : Vec F S2000x128 .f32 :=
  View.canon [⟨allO5, k5_pay1 (View.ld a allA5) (View.ld w allW5) (View.ld b allB5)⟩]

/-- That one store reaches every entry of the result block. -/
theorem covers5 (p : Vec F S2000x128 .f32) (y : S2000x128.Idx) :
    ∃ pc ∈ ([⟨allO5, p⟩] : List (View.Piece (Elt F) S2000x128 .f32)), y ∈ pc.1.set :=
  View.cover_of_tiled [⟨allO5, p⟩] S2000x128.size (by rfl) y

/-! ## One step of the kernel -/

set_option maxHeartbeats 1000000 in
/-- Run on four whole buffers, the first three holding `a`, `w`, `b` and the fourth anything, the kernel ends with the
    first three unchanged and the fourth holding `tileOut5 a w b`. (It reads the fourth once before overwriting it;
    what it reads there is not used.) -/
theorem kernel_triple5 (c : Dev nD) (E : Set ℕ) (i : grid5.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut5 a w b)) -∗ K ⟨⟩))
      ⊢ wp frame (wpE (defs₀ (F := F)) Variants.none c none) E (cc5__linear_kernel i m1 h1 m2 h2 m3 h3 m4 h4) K := by
  simp only [cc5__linear_kernel_eq_skeleton]; unfold cc5__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers5 _)

/-! ## The proof data of the region -/

/-- The arrays are `V`'s; after step `t` the three input windows hold their blocks still and the result window holds
    `tileOut5` of them; the invariant is the rest of the core's memory, left alone; nothing is owed and every buffer
    is owned in full. -/
def dat5 (c : Dev nD) : Dat τ (Elt F) Unit ℕ (UR sig nD τ) ℕ cfg5 c where
  A w := V c (Pipeline.arrRef spec5 w)
  after w t := match w with
    | ⟨0, _⟩ => tileBlock5 V c 0 t
    | ⟨1, _⟩ => tileBlock5 V c 1 t
    | ⟨2, _⟩ => tileBlock5 V c 2 t
    | ⟨3, _⟩ => tileOut5 (tileBlock5 V c 0 t) (tileBlock5 V c 1 t) (tileBlock5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = tileBlock5 V c 0 t := by dsimp only [dat5]
theorem after5_1 (c : Dev nD) (t : Fin cfg5.N) : (dat5 V c).after 1 t = tileBlock5 V c 1 t := by dsimp only [dat5]
theorem after5_2 (c : Dev nD) (t : Fin cfg5.N) : (dat5 V c).after 2 t = tileBlock5 V c 2 t := by dsimp only [dat5]
theorem after5_3 (c : Dev nD) (t : Fin cfg5.N) :
    (dat5 V c).after 3 t = tileOut5 (tileBlock5 V c 0 t) (tileBlock5 V c 1 t) (tileBlock5 V c 2 t) := by dsimp only [dat5]

/-- What each input buffer holds when the step starts: its block. -/
theorem held5_0 (c : Dev nD) (t : Fin cfg5.N) (d) : (dat5 V c).before 0 t d = tileBlock5 V c 0 t :=
  held5_0_of V (dat5 V c) (A_eq5 V c 0) (after5_0 V c) t d
theorem held5_1 (c : Dev nD) (t : Fin cfg5.N) (d) : (dat5 V c).before 1 t d = tileBlock5 V c 1 t :=
  held5_1_of V (dat5 V c) (A_eq5 V c 1) (after5_1 V c) t d
theorem held5_2 (c : Dev nD) (t : Fin cfg5.N) (d) : (dat5 V c).before 2 t d = tileBlock5 V c 2 t :=
  held5_2_of V (dat5 V c) (A_eq5 V c 2) (after5_2 V c) t d

/-! ## One step, as the pipeline asks for it -/

/-- What the step is given: the invariant, the debt, and the four current buffers, -/
def stepPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it gives back. -/
def stepPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The step at any point of the grid: the input buffers hold their blocks, so the kernel's triple applies; the invariant
    and the debt are not looked at. -/
theorem step_triple5 (c : Dev nD) (t : Fin cfg5.N) :
    stepPre5 V c t ⊢ wp frame (wpE (defs₀ (F := F)) Variants.none c none) Set.univ (bodyAt5 t) (fun _ => stepPost5 V c t) := by
  unfold stepPre5 stepPost5 bodyAt5
  simp only [held5_0, held5_1, held5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (kernel_triple5 c Set.univ _ _ _ _ _ _ _ _ _ (tileBlock5 V c 0 t) (tileBlock5 V c 1 t) (tileBlock5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation5 (c : Dev nD) : BodyObligation (dat5 (F := F) V c) (defs₀ (F := F)) Variants.none () Set.univ := fun t => by
  rw [bigSep_W5, bigSep_W5]
  exact step_triple5 V c t

end Cert.KernelIdeal.Regions
-- ==== Proof.KernelIdealLinear6.lean ====
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Ring
import Idealize.ShloMosaic.Lib.Tactic

/-!
# The third dense map, one row tile at a time

This kernel region computes `h · W + b` for a 50000 × 128 matrix `h`, a 128 × 128 weight `W` and a
one-row bias `b`, in 25 steps of 2000 rows. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-- The row tile of the left factor is in its buffer at every step (it is brought in at every step). Stated for any proof data
    with `V`'s array that leaves the tile in place. -/
theorem held6_0_of {c : Dev nD} (dat : Dat τ (Elt F) Unit ℕ (UR sig nD τ) ℕ cfg6 c)
    (hA : dat.A 0 = V c (Pipeline.arrRef spec6 0)) (hafter : ∀ t, dat.after 0 t = tileBlock6 V c 0 t)
    (t : Fin cfg6.N) (d) : dat.before 0 t d = tileBlock6 V c 0 t :=
  (dat.before_in_eq_fetched 0 rfl (fun _ => rfl) (fun _ _ _ => rfl)
    (fun t => by rw [hafter]; unfold Dat.blockOf tileBlock6; rw [hA]; try rfl) t d).trans
    (by unfold Dat.fetched Dat.blockOf tileBlock6; rw [hA]; try rfl)

/-- The right factor is in its buffer at every step although it is brought in only at the first: its index map is constant,
    so at a later step the block already there is still the block wanted. -/
theorem held6_1_of {c : Dev nD} (dat : Dat τ (Elt F) Unit ℕ (UR sig nD τ) ℕ cfg6 c)
    (hA : dat.A 1 = V c (Pipeline.arrRef spec6 1)) (hafter : ∀ t, dat.after 1 t = tileBlock6 V c 1 t)
    (t : Fin cfg6.N) (d) : dat.before 1 t d = tileBlock6 V c 1 t :=
  (dat.before_in_eq_fetched 1 rfl (fun _ => rfl) (fun _ _ _ => rfl)
    (fun t => by rw [hafter]; unfold Dat.blockOf tileBlock6; rw [hA]; try rfl) t d).trans
    (by unfold Dat.fetched Dat.blockOf tileBlock6; rw [hA]; try rfl)

/-- The same for the bias row. -/
theorem held6_2_of {c : Dev nD} (dat : Dat τ (Elt F) Unit ℕ (UR sig nD τ) ℕ cfg6 c)
    (hA : dat.A 2 = V c (Pipeline.arrRef spec6 2)) (hafter : ∀ t, dat.after 2 t = tileBlock6 V c 2 t)
    (t : Fin cfg6.N) (d) : dat.before 2 t d = tileBlock6 V c 2 t :=
  (dat.before_in_eq_fetched 2 rfl (fun _ => rfl) (fun _ _ _ => rfl)
    (fun t => by rw [hafter]; unfold Dat.blockOf tileBlock6; rw [hA]; try rfl) t d).trans
    (by unfold Dat.fetched Dat.blockOf tileBlock6; rw [hA]; try rfl)

/-! ## What one step writes -/

/-- The whole of a 2000 × 128 buffer, of a 128 × 128 one, of a 1 × 128 one and of a 2000 × 128 one, as rectangles. -/
abbrev allA6 : Rect S2000x128 := Rect.unit (s := S2000x128) ![0, 0] S2000x128.size inb_S2000x128_S2000x128_0_0
abbrev allW6 : Rect S128x128 := Rect.unit (s := S128x128) ![0, 0] S128x128.size inb_S128x128_S128x128_0_0
abbrev allB6 : Rect S1x128 := Rect.unit (s := S1x128) ![0, 0] S1x128.size inb_S1x128_S1x128_0_0
abbrev allO6 : Rect S2000x128 := Rect.unit (s := S2000x128) ![0, 0] S2000x128.size inb_S2000x128_S2000x128_0_0

/-- The result block after one step, from the three input blocks: the step makes one store, of the whole block, of
    `a · W + b` computed from the whole input blocks. -/
def tileOut6 (a : Vec F S2000x128 .f32) (w : Vec F S128x128 .f32) (b : Vec F S1x128 .f32) : Vec F S2000x128 .f32 :=
  View.canon [⟨allO6, k6_pay1 (View.ld a allA6) (View.ld w allW6) (View.ld b allB6)⟩]

/-- That one store reaches every entry of the result block. -/
theorem covers6 (p : Vec F S2000x128 .f32) (y : S2000x128.Idx) :
    ∃ pc ∈ ([⟨allO6, p⟩] : List (View.Piece (Elt F) S2000x128 .f32)), y ∈ pc.1.set :=
  View.cover_of_tiled [⟨allO6, p⟩] S2000x128.size (by rfl) y

/-! ## One step of the kernel -/

set_option maxHeartbeats 1000000 in
/-- Run on four whole buffers, the first three holding `a`, `w`, `b` and the fourth anything, the kernel ends with the
    first three unchanged and the fourth holding `tileOut6 a w b`. (It reads the fourth once before overwriting it;
    what it reads there is not used.) -/
theorem kernel_triple6 (c : Dev nD) (E : Set ℕ) (i : grid6.Coords)
    (m1 : Memref sig .tc .vmem S2000x128 .f32) (h1 : m1.IsWhole) (m2 : Memref sig .tc .vmem S128x128 .f32) (h2 : m2.IsWhole)
    (m3 : Memref sig .tc .vmem S1x128 .f32) (h3 : m3.IsWhole) (m4 : Memref sig .tc .vmem S2000x128 .f32) (h4 : m4.IsWhole)
    (a : Vec F S2000x128 .f32) (w : Vec F S128x128 .f32) (b : Vec F S1x128 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut6 a w b)) -∗ K ⟨⟩))
      ⊢ wp frame (wpE (defs₀ (F := F)) Variants.none c none) E (cc6__linear_kernel i m1 h1 m2 h2 m3 h3 m4 h4) K := by
  simp only [cc6__linear_kernel_eq_skeleton]; unfold cc6__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers6 _)

/-! ## The proof data of the region -/

/-- The arrays are `V`'s; after step `t` the three input windows hold their blocks still and the result window holds
    `tileOut6` of them; the invariant is the rest of the core's memory, left alone; nothing is owed and every buffer
    is owned in full. -/
def dat6 (c : Dev nD) : Dat τ (Elt F) Unit ℕ (UR sig nD τ) ℕ cfg6 c where
  A w := V c (Pipeline.arrRef spec6 w)
  after w t := match w with
    | ⟨0, _⟩ => tileBlock6 V c 0 t
    | ⟨1, _⟩ => tileBlock6 V c 1 t
    | ⟨2, _⟩ => tileBlock6 V c 2 t
    | ⟨3, _⟩ => tileOut6 (tileBlock6 V c 0 t) (tileBlock6 V c 1 t) (tileBlock6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = tileBlock6 V c 0 t := by dsimp only [dat6]
theorem after6_1 (c : Dev nD) (t : Fin cfg6.N) : (dat6 V c).after 1 t = tileBlock6 V c 1 t := by dsimp only [dat6]
theorem after6_2 (c : Dev nD) (t : Fin cfg6.N) : (dat6 V c).after 2 t = tileBlock6 V c 2 t := by dsimp only [dat6]
theorem after6_3 (c : Dev nD) (t : Fin cfg6.N) :
    (dat6 V c).after 3 t = tileOut6 (tileBlock6 V c 0 t) (tileBlock6 V c 1 t) (tileBlock6 V c 2 t) := by dsimp only [dat6]

/-- What each input buffer holds when the step starts: its block. -/
theorem held6_0 (c : Dev nD) (t : Fin cfg6.N) (d) : (dat6 V c).before 0 t d = tileBlock6 V c 0 t :=
  held6_0_of V (dat6 V c) (A_eq6 V c 0) (after6_0 V c) t d
theorem held6_1 (c : Dev nD) (t : Fin cfg6.N) (d) : (dat6 V c).before 1 t d = tileBlock6 V c 1 t :=
  held6_1_of V (dat6 V c) (A_eq6 V c 1) (after6_1 V c) t d
theorem held6_2 (c : Dev nD) (t : Fin cfg6.N) (d) : (dat6 V c).before 2 t d = tileBlock6 V c 2 t :=
  held6_2_of V (dat6 V c) (A_eq6 V c 2) (after6_2 V c) t d

/-! ## One step, as the pipeline asks for it -/

/-- What the step is given: the invariant, the debt, and the four current buffers, -/
def stepPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it gives back. -/
def stepPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The step at any point of the grid: the input buffers hold their blocks, so the kernel's triple applies; the invariant
    and the debt are not looked at. -/
theorem step_triple6 (c : Dev nD) (t : Fin cfg6.N) :
    stepPre6 V c t ⊢ wp frame (wpE (defs₀ (F := F)) Variants.none c none) Set.univ (bodyAt6 t) (fun _ => stepPost6 V c t) := by
  unfold stepPre6 stepPost6 bodyAt6
  simp only [held6_0, held6_1, held6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (kernel_triple6 c Set.univ _ _ _ _ _ _ _ _ _ (tileBlock6 V c 0 t) (tileBlock6 V c 1 t) (tileBlock6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation6 (c : Dev nD) : BodyObligation (dat6 (F := F) V c) (defs₀ (F := F)) Variants.none () Set.univ := fun t => by
  rw [bigSep_W6, bigSep_W6]
  exact step_triple6 V c t

end Cert.KernelIdeal.Regions
-- ==== Proof.KernelIdealPool7.lean ====
/-
  The third row-maximum region.

  The region walks the 25 row tiles of a [50000,128] array, 2000 rows each, and leaves in a [1,128] row the
  columnwise maximum of all of them. A one-row scratch buffer carries the running maximum from point to point: at
  the first point it is reset to minus infinity, at every point the columnwise maximum of the current tile is joined
  into it, and at the last point it is copied to the output row, which is written back only there.

  So the output window's staging row is untouched at every point but the last, and the state that matters between
  points lives in the scratch row: the invariant before point n says that the scratch row holds the running maximum
  of tiles 0 … n-1 (anything, before the first point). The running maximum is the recursion

      runMax7 0 = -inf row,   runMax7 (n+1) = max (runMax7 n) (columnwise max of tile n),

  spelt through the body's own two payloads. The body is run once for each of its three control cases (first point,
  a middle point, last point) on symbolic whole memrefs, and the obligation at a point picks the case from the
  point's position, the two conditions being decided over the grid in closed form.
-/
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import proofs.«115727_j48790828483060_1_alg».proof.Proof.KernelIdealPool1
import Idealize.ShloMosaic.Lib.Pipeline.FrameBody
import Idealize.ShloMosaic.Lib.Tactic

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The condition of the body's first branch (the reset of the scratch row), from the grid coordinates. -/
abbrev first7 (i : grid7.Coords) : Prop :=
  (Scalar.cmpi .ne (Scalar.extui (Scalar.cmpi .eq (BitVec.ofNat 32 (i 0).val) 0#32)) 0#32) = 1#1

/-- It holds at the first point only. -/
theorem first7_iff : ∀ t : Fin cfg7.N, first7 (grid7.coords t) ↔ t.val = 0 :=
  (by decide +kernel : ∀ t : Fin grid7.N, first7 (grid7.coords t) ↔ t.val = 0)

/-- The second branch (the copy to the output row) is taken at the last point only. -/
theorem last7_iff : ∀ t : Fin cfg7.N, k7_cond2 (grid7.coords t) = 1#1 ↔ t.val = 24 :=
  (by decide +kernel : ∀ t : Fin grid7.N, k7_cond2 (grid7.coords t) = 1#1 ↔ t.val = 24)

/-! ## The body, once per control case

Each on whole memrefs held at named contents: the tile's buffer at `x0`, the scratch row at `xs`, the output row
(where the case touches it) at `xo`. -/

/-- A middle point: neither branch is taken; the scratch row ends at the tile's columnwise maximum joined with what it
    held, and nothing else is written. -/
theorem poolRun7_mid (c : Dev nD) (i : grid7.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first7 i) (h2 : ¬ k7_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k7_pay2 x0 xs)) -∗ K ⟨⟩))
      ⊢ wp frame (wpE (defs₀ (F := F)) Variants.none c none) Set.univ (cc7__max_pool_kernel i arg1 harg1 arg2 harg2 arg3 harg3) K := by
  simp only [cc7__max_pool_kernel_eq_skeleton]; unfold cc7__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  rw [read_writes_full _ _ zeros2, readAt_full _ _ zeros2, readAt_full _ _ zeros2, hf0, hf3]

/-- The first point: the scratch row is first reset to minus infinity, so it ends at the tile's columnwise maximum
    joined with minus infinity, whatever it held. -/
theorem poolRun7_first (c : Dev nD) (i : grid7.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : first7 i) (h2 : ¬ k7_cond2 i = 1#1)
    (x0 : Vec F S2000x128 .f32) (xs : Vec F S1x128 .f32) (K : PUnit → sProp 𝕄) :
    iprop(owns (c : Thread nD τ) arg1 fullShare x0 ∗ owns (c : Thread nD τ) arg3 fullShare xs
        ∗ (iprop(owns (c : Thread nD τ) arg1 fullShare x0 ∗ owns (c : Thread nD τ) arg3 fullShare (k7_pay2 x0 (k7_pay1 (F := F)))) -∗ K ⟨⟩))
      ⊢ wp frame (wpE (defs₀ (F := F)) Variants.none c none) Set.univ (cc7__max_pool_kernel i arg1 harg1 arg2 harg2 arg3 harg3) K := by
  simp only [cc7__max_pool_kernel_eq_skeleton]; unfold cc7__max_pool_kernel_skel
  unfold owns
  iintro ⟨⟨%f0, %hf0, H0⟩, ⟨%f3, %hf3, H3⟩, Hk⟩
  obtain rfl := harg1.eq_unread hf0; obtain rfl := harg3.eq_unread hf3
  sl_exec (disch := first | exact h1 | exact h2)
  sl_step
  iapply Hk
  isplitl [H0]
  · iexists _; isplitr; · ipureintro; exact hf0
    iexact H0
  iexists _; isplitr; swap; · iexact H3
  ipureintro
  unfold poolRun7_first.sl.v7 poolRun7_first.sl.H3_1
  rw [read_writes_full _ _ zeros2, readAt_full _ _ zeros2, hf0, View.readCov_cons_toLoadRect]

/-- The last point: as a middle point, and then the scratch row is copied to the output row. -/
theorem poolRun7_last (c : Dev nD) (i : grid7.Coords)
    (arg1 : Memref sig .tc .vmem S2000x128 .f32) (harg1 : arg1.IsWhole)
    (arg2 : Memref sig .tc .vmem S1x128 .f32) (harg2 : arg2.IsWhole)
    (arg3 : Memref sig .tc .vmem S1x128 .f32) (harg3 : arg3.IsWhole)
    (h1 : ¬ first7 i) (h2 : k7_cond2 i = 1#1)
    (x0 : Vec F S2000x128 .f32) (xo : Vec F S1x128 .f32) (xs : Vec F S1x128 .f32) (K : PUnit → sProp 𝕄) :
    iprop(owns (c : Thread nD τ) arg1 fullShare x0 ∗ owns (c : Thread nD τ) arg2 fullShare xo ∗ owns (c : Thread nD τ) arg3 fullShare xs
        ∗ (iprop(owns (c : Thread nD τ) arg1 fullShare x0 ∗ owns (c : Thread nD τ) arg2 fullShare (k7_pay2 x0 xs)
            ∗ owns (c : Thread nD τ) arg3 fullShare (k7_pay2 x0 xs)) -∗ K ⟨⟩))
      ⊢ wp frame (wpE (defs₀ (F := F)) Variants.none c none) Set.univ (cc7__max_pool_kernel i arg1 harg1 arg2 harg2 arg3 harg3) K := by
  simp only [cc7__max_pool_kernel_eq_skeleton]; unfold cc7__max_pool_kernel_skel
  unfold owns
  iintro ⟨⟨%f0, %hf0, H0⟩, ⟨%f2, %hf2, H2⟩, ⟨%f3, %hf3, H3⟩, Hk⟩
  obtain rfl := harg1.eq_unread hf0; obtain rfl := harg2.eq_unread hf2; obtain rfl := harg3.eq_unread hf3
  sl_exec (disch := first | exact h1 | exact h2)
  sl_step
  iapply Hk
  isplitl [H0]
  · iexists _; isplitr; · ipureintro; exact hf0
    iexact H0
  isplitl [H2]
  · iexists _; isplitr; swap; · iexact H2
    ipureintro
    unfold poolRun7_last.sl.v15 poolRun7_last.sl.H3_1
    rw [read_writes_full _ _ zeros2, View.readCov_cons_toLoadRect, readAt_full _ _ zeros2, readAt_full _ _ zeros2, hf0, hf3]
  iexists _; isplitr; swap; · iexact H3
  ipureintro
  unfold poolRun7_last.sl.H3_1
  rw [read_writes_full _ _ zeros2, readAt_full _ _ zeros2, readAt_full _ _ zeros2, hf0, hf3]

/-! ## The proof data -/

section Data

variable (V : (c : Dev nD) → (b : Ref sig .tc) → Buf (Elt F) ((c : Thread nD τ).loc b))

/-- Window `w`'s block at point `t`, read off the arrays as the region finds them. -/
def poolBlock7 (c : Dev nD) (w : Fin cfg7.W) (t : Fin cfg7.N) :
    ((cfg7.win w).xblock (cfg7.grid.coords t)).Idx → Elt F (cfg7.win w).elt :=
  ((cfg7.win w).blk t).view.read (Elt F) (V c (Pipeline.arrRef spec7 w))

/-- The running maximum after `n` points: minus infinity before any, then the columnwise maximum of the row tile
    of point `n` joined with what the points before left. -/
def runMax7 (c : Dev nD) : ℕ → Vec F S1x128 .f32
  | 0 => k7_pay1
  | n + 1 => if h : n < cfg7.N then k7_pay2 (poolBlock7 V c 0 ⟨n, h⟩) (runMax7 c n) else runMax7 c n

theorem runMax7_zero (c : Dev nD) : runMax7 V c 0 = k7_pay1 (F := F) := rfl

theorem runMax7_succ (c : Dev nD) (n : ℕ) (h : n < cfg7.N) :
    runMax7 V c (n + 1) = k7_pay2 (poolBlock7 V c 0 ⟨n, h⟩) (runMax7 V c n) := by
  rw [runMax7, dif_pos h]

/-- What of the scoped rest the region does not name, and the generator register. -/
abbrev poolRest7 (c : Dev nD) : sProp 𝕄 :=
  iprop(Pipeline.scopedRestBut (Ix := Unit) (Name := ℕ) (U := UR sig nD τ) (Lvl := ℕ) (Val := Elt F) spec7 c [cc7_scratch0]
    ∗ ∃ r, prngReg c r)

/-- The invariant before point `n`: the scratch row holds anything before the first point and the running maximum
    of the points so far afterwards. -/
def poolInv7 (c : Dev nD) : ℕ → sProp 𝕄
  | 0 => iprop((∃ f : Buf (Elt F) ((c : Thread nD τ).loc cc7_scratch0), ((c : Thread nD τ).loc cc7_scratch0) ↦{fullShare} f)
      ∗ poolRest7 c)
  | n + 1 => iprop((((c : Thread nD τ).loc cc7_scratch0) ↦{fullShare} (runMax7 V c (n + 1)))
      ∗ poolRest7 c)

/-- The proof data of the region on core `c`. -/
def dat7 (c : Dev nD) : Dat τ (Elt F) Unit ℕ (UR sig nD τ) ℕ cfg7 c where
  A w := V c (Pipeline.arrRef spec7 w)
  after w t := match w with
    | ⟨0, _⟩ => poolBlock7 V c 0 t
    | ⟨1, _⟩ => runMax7 V c (t.val + 1)
  Φ t := poolInv7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = poolBlock7 V c 0 t := by dsimp only [dat7]
theorem after7_1 (c : Dev nD) (t : Fin cfg7.N) : (dat7 V c).after 1 t = runMax7 V c (t.val + 1) := by dsimp only [dat7]

theorem Phi7_at (c : Dev nD) (t : Fin (cfg7.N + 1)) : (dat7 V c).Φ t = poolInv7 V c t.val := rfl

theorem Phi7_zero (c : Dev nD) : (dat7 V c).Φ 0 =
    iprop((∃ f : Buf (Elt F) ((c : Thread nD τ).loc cc7_scratch0), ((c : Thread nD τ).loc cc7_scratch0) ↦{fullShare} f)
      ∗ Pipeline.scopedRestBut (Ix := Unit) (Name := ℕ) (U := UR sig nD τ) (Lvl := ℕ) (Val := Elt F) spec7 c [cc7_scratch0]
      ∗ ∃ r, prngReg c r) := rfl

theorem Phi7_last (c : Dev nD) : (dat7 V c).Φ (Fin.last cfg7.N) =
    iprop((((c : Thread nD τ).loc cc7_scratch0) ↦{fullShare} (runMax7 V c 25))
      ∗ Pipeline.scopedRestBut (Ix := Unit) (Name := ℕ) (U := UR sig nD τ) (Lvl := ℕ) (Val := Elt F) spec7 c [cc7_scratch0]
      ∗ ∃ r, prngReg c r) := by
  rw [Phi7_at, Fin.val_last, show cfg7.N = 25 from N_7]; rfl

/-- The row tile's staging buffer holds the tile when the body runs: it is fetched at every point. -/
theorem before7_0 (c : Dev nD) (t : Fin cfg7.N) (d) : (dat7 V c).before 0 t d = poolBlock7 V c 0 t := by
  rw [Dat.before_fetched _ 0 t (fetch7_0 t)]
  unfold Dat.fetched Dat.blockOf poolBlock7; rw [A_eq7]; rfl

end Data

/-! ## The body obligation -/

section Obligation

variable (V : (c : Dev nD) → (b : Ref sig .tc) → Buf (Elt F) ((c : Thread nD τ).loc b))

/-- One step of the running maximum, at a point of the grid. -/
theorem runMax7_at (c : Dev nD) (t : Fin cfg7.N) :
    runMax7 V c (t.val + 1) = k7_pay2 (poolBlock7 V c 0 t) (runMax7 V c t.val) :=
  runMax7_succ V c t.val t.isLt

theorem poolInv7_zero (c : Dev nD) : poolInv7 V c 0 =
    iprop((∃ f : Buf (Elt F) ((c : Thread nD τ).loc cc7_scratch0), ((c : Thread nD τ).loc cc7_scratch0) ↦{fullShare} f)
      ∗ poolRest7 c) := rfl

theorem poolInv7_succ (c : Dev nD) (n : ℕ) : poolInv7 V c (n + 1) =
    iprop((((c : Thread nD τ).loc cc7_scratch0) ↦{fullShare} (runMax7 V c (n + 1))) ∗ poolRest7 c) := rfl

/-- Each window's current staging memref at point `t`, as the pipeline passes it to the body. -/
abbrev ms7_0 (t : Fin cfg7.N) : Memref sig .tc .vmem S2000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)

/-- At every point the body takes the invariant and the windows' buffers to the invariant at the next point and
    the buffers at what the proof data say: by the point's position, one of the three runs above. -/
theorem body_obligation7 (c : Dev nD) : BodyObligation (dat7 (F := F) V c) (defs₀ (F := F)) Variants.none () Set.univ := fun t => by
  have hN : t.val < 25 := lt_of_lt_of_eq t.isLt N_7
  rw [bigSep_W7, bigSep_W7]
  by_cases hlast : t.val = 24
  · -- the last point: the maximum is joined once more and copied to the output row
    have hk : k7_cond2 (grid7.coords t) = 1#1 := (last7_iff t).mpr hlast
    have hfirst : ¬ first7 (grid7.coords t) := fun h => by have := (first7_iff t).mp h; omega
    have hi1 : idle7 1 (grid7.coords t) = false := by
      show (!(k7_cond2 (grid7.coords t) == 1#1)) = false
      rw [hk]; rfl
    simp only []
    rw [hi1]
    simp only [before7_0]
    rw [Phi7_at, Phi7_at, after7_0, after7_1, runMax7_at,
      show (dat7 V c).owesAt () t.succ = (dat7 V c).owesAt () t.castSucc from rfl,
      show (t.succ : Fin (cfg7.N + 1)).val = t.val + 1 from rfl, show (t.castSucc : Fin (cfg7.N + 1)).val = t.val from rfl]
    obtain ⟨n, hn⟩ : ∃ n, t.val = n + 1 := ⟨23, hlast⟩
    rw [poolInv7_succ, runMax7_at]
    rw [hn, poolInv7_succ, ← owns_whole, ← owns_whole]
    iintro ⟨⟨Hs, Hrest⟩, Ho, ⟨%d0, H0⟩, ⟨%d1, H1⟩⟩
    iapply (poolRun7_last c (grid7.coords t) (ms7_0 t) (hs7_0 t) (ms7_1 t) (hs7_1 t) (Memref.whole cc7_scratch0)
      (Memref.isWhole_whole _) hfirst hk (poolBlock7 V c 0 t) _ (runMax7 V c (n + 1)) _)
    isplitl [H0]; · iexact H0
    isplitl [H1]; · iexact H1
    isplitl [Hs]; · iexact Hs
    iintro ⟨H0, H1, Hs⟩
    isplitl [Hs Hrest]
    · isplitl [Hs]; · iexact Hs
      iexact Hrest
    isplitl [Ho]; · iexact Ho
    isplitl [H0]; · iexact H0
    iexact H1
  · -- any other point: the output row is handed back as it was found
    have hk : ¬ k7_cond2 (grid7.coords t) = 1#1 := fun h => hlast ((last7_iff t).mp h)
    have hi1 : idle7 1 (grid7.coords t) = true := by
      show (!(k7_cond2 (grid7.coords t) == 1#1)) = true
      simp [hk]
    have hf1 : (cfg7.win 1).flush t = false :=
      Bool.eq_false_iff.mpr fun h => hlast (by have := (flush7_1 t).mp h; omega)
    simp only [hf1]
    rw [hi1]
    simp only [before7_0]
    rw [Phi7_at, Phi7_at, after7_0,
      show (dat7 V c).owesAt () t.succ = (dat7 V c).owesAt () t.castSucc from rfl,
      show (t.succ : Fin (cfg7.N + 1)).val = t.val + 1 from rfl, show (t.castSucc : Fin (cfg7.N + 1)).val = t.val from rfl]
    rw [poolInv7_succ, runMax7_at]
    by_cases h0 : t.val = 0
    · -- the first point: the scratch row is reset to minus infinity before the tile is joined
      have hfirst : first7 (grid7.coords t) := (first7_iff t).mpr h0
      rw [h0, poolInv7_zero, runMax7_zero, ← owns_whole]
      iintro ⟨⟨⟨%fs, Hs⟩, Hrest⟩, Ho, ⟨%d0, H0⟩, ⟨%d1, H1⟩⟩
      iapply (poolRun7_first c (grid7.coords t) (ms7_0 t) (hs7_0 t) (ms7_1 t) (hs7_1 t) (Memref.whole cc7_scratch0)
        (Memref.isWhole_whole _) hfirst hk (poolBlock7 V c 0 t) fs _)
      isplitl [H0]; · iexact H0
      isplitl [Hs]; · rw [owns_whole]; iexact Hs
      iintro ⟨H0, Hs⟩
      isplitl [Hs Hrest]
      · isplitl [Hs]; · iexact Hs
        iexact Hrest
      isplitl [Ho]; · iexact Ho
      isplitl [H0]; · iexact H0
      iexists d1; iexact H1
    · -- a middle point: the tile is joined into the running maximum
      have hfirst : ¬ first7 (grid7.coords t) := fun h => h0 ((first7_iff t).mp h)
      obtain ⟨n, hn⟩ : ∃ n, t.val = n + 1 := ⟨t.val - 1, by omega⟩
      rw [hn, poolInv7_succ, ← owns_whole, ← owns_whole]
      iintro ⟨⟨Hs, Hrest⟩, Ho, ⟨%d0, H0⟩, ⟨%d1, H1⟩⟩
      iapply (poolRun7_mid c (grid7.coords t) (ms7_0 t) (hs7_0 t) (ms7_1 t) (hs7_1 t) (Memref.whole cc7_scratch0)
        (Memref.isWhole_whole _) hfirst hk (poolBlock7 V c 0 t) (runMax7 V c (n + 1)) _)
      isplitl [H0]; · iexact H0
      isplitl [Hs]; · iexact Hs
      iintro ⟨H0, Hs⟩
      isplitl [Hs Hrest]
      · isplitl [Hs]; · iexact Hs
        iexact Hrest
      isplitl [Ho]; · iexact Ho
      isplitl [H0]; · iexact H0
      iexists d1; iexact H1

end Obligation

/-! ## The region's two ends -/

section Ends

variable (V : (c : Dev nD) → (b : Ref sig .tc) → Buf (Elt F) ((c : Thread nD τ).loc b))

/-- Entering: the scratch row is one of the scoped buffers the region does not stage; opened at whatever it holds,
    with the rest and the generator register, it is the invariant before the first point. Anything else is dropped. -/
theorem poolEnter7 (c : Dev nD) (P : sProp 𝕄) :
    iprop((∃ r, prngReg c r) ∗ P
        ∗ Pipeline.scopedRest (Ix := Unit) (Name := ℕ) (U := UR sig nD τ) (Lvl := ℕ) (Val := Elt F) spec7 c)
      ⊢ (dat7 V c).Φ 0 := by
  rw [Phi7_zero, scopedRest7_split]
  iintro ⟨Hr, -, Hs, Hrest⟩
  isplitl [Hs]; · iexact Hs
  isplitl [Hrest]; · iexact Hrest
  iexact Hr

/-- Leaving: the scratch row's contents are forgotten and it rejoins the scoped rest. -/
theorem poolLeave7 (c : Dev nD) :
    (dat7 V c).Φ (Fin.last cfg7.N)
      ⊢ iprop((∃ r, prngReg c r) ∗ (BI.emp : sProp 𝕄)
        ∗ Pipeline.scopedRest (Ix := Unit) (Name := ℕ) (U := UR sig nD τ) (Lvl := ℕ) (Val := Elt F) spec7 c) := by
  rw [Phi7_last, scopedRest7_split]
  iintro ⟨Hs, Hrest, Hr⟩
  isplitl [Hr]; · iexact Hr
  isplitr; · iempintro
  isplitl [Hs]; · iexists _; iexact Hs
  iexact Hrest

end Ends

end Cert.KernelIdeal.Regions

end
-- ==== Proof.KernelIdealLinear8.lean ====
import proofs.«115727_j48790828483060_1_alg».proof.Proof.Gen.KernelIdeal.Launch
import proofs.«115727_j48790828483060_1_alg».proof.Proof.Gen.KernelIdeal.Skeleton
import proofs.«115727_j48790828483060_1_alg».proof.Proof.Gen.KernelIdeal.Points
import Idealize.ShloMosaic.Lib.Pipeline.FrameBody
import Idealize.ShloMosaic.Lib.Ring
import Idealize.ShloMosaic.Lib.Tactic

/-!
# The last layer's update, one row tile at a time

The last kernel region computes `h · M + b` for a 50000 × 128 matrix `h`, a 128 × 64 matrix `M` and a
one-row bias `b`, in 25 steps of 2000 rows; its result is 64 wide. At step `t` it sees four blocks: rows `2000 t … 2000 t + 1999`
of the left factor, all of the right factor, all of `b`, and the matching 2000 rows of the result. The right factor and
the bias do not depend on `t`: they are brought in once and stay.

This file says, at arbitrary contents `V` of the arrays when the region starts, what each block is at each step,
what the step leaves in the result block (a function of the three input blocks alone), and proves that one step
of the kernel does exactly that and touches nothing else.
-/

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four blocks at a step -/

/-- The block of window `w` at step `t`: the part of the window's array, as `V` has it, that the window's index map
    selects at `t`. -/
def tileBlock8 (c : Dev nD) (w : Fin cfg8.W) (t : Fin cfg8.N) :
    ((cfg8.win w).xblock (cfg8.grid.coords t)).Idx → Elt F (cfg8.win w).elt :=
  ((cfg8.win w).blk t).view.read (Elt F) (V c (Pipeline.arrRef spec8 w))

/-- The row tile of the left factor is in its buffer at every step (it is brought in at every step). Stated for any proof data
    with `V`'s array that leaves the tile in place. -/
theorem held8_0_of {c : Dev nD} (dat : Dat τ (Elt F) Unit ℕ (UR sig nD τ) ℕ cfg8 c)
    (hA : dat.A 0 = V c (Pipeline.arrRef spec8 0)) (hafter : ∀ t, dat.after 0 t = tileBlock8 V c 0 t)
    (t : Fin cfg8.N) (d) : dat.before 0 t d = tileBlock8 V c 0 t :=
  (dat.before_in_eq_fetched 0 rfl (fun _ => rfl) (fun _ _ _ => rfl)
    (fun t => by rw [hafter]; unfold Dat.blockOf tileBlock8; rw [hA]; try rfl) t d).trans
    (by unfold Dat.fetched Dat.blockOf tileBlock8; rw [hA]; try rfl)

/-- The right factor is in its buffer at every step although it is brought in only at the first: its index map is constant,
    so at a later step the block already there is still the block wanted. -/
theorem held8_1_of {c : Dev nD} (dat : Dat τ (Elt F) Unit ℕ (UR sig nD τ) ℕ cfg8 c)
    (hA : dat.A 1 = V c (Pipeline.arrRef spec8 1)) (hafter : ∀ t, dat.after 1 t = tileBlock8 V c 1 t)
    (t : Fin cfg8.N) (d) : dat.before 1 t d = tileBlock8 V c 1 t :=
  (dat.before_in_eq_fetched 1 rfl (fun _ => rfl) (fun _ _ _ => rfl)
    (fun t => by rw [hafter]; unfold Dat.blockOf tileBlock8; rw [hA]; try rfl) t d).trans
    (by unfold Dat.fetched Dat.blockOf tileBlock8; rw [hA]; try rfl)

/-- The same for the bias row. -/
theorem held8_2_of {c : Dev nD} (dat : Dat τ (Elt F) Unit ℕ (UR sig nD τ) ℕ cfg8 c)
    (hA : dat.A 2 = V c (Pipeline.arrRef spec8 2)) (hafter : ∀ t, dat.after 2 t = tileBlock8 V c 2 t)
    (t : Fin cfg8.N) (d) : dat.before 2 t d = tileBlock8 V c 2 t :=
  (dat.before_in_eq_fetched 2 rfl (fun _ => rfl) (fun _ _ _ => rfl)
    (fun t => by rw [hafter]; unfold Dat.blockOf tileBlock8; rw [hA]; try rfl) t d).trans
    (by unfold Dat.fetched Dat.blockOf tileBlock8; rw [hA]; try rfl)

/-! ## What one step writes -/

/-- The whole of a 2000 × 128 buffer, of a 128 × 64 one, of a 1 × 64 one and of a 2000 × 64 one, as rectangles. -/
abbrev allA8 : Rect S2000x128 := Rect.unit (s := S2000x128) ![0, 0] S2000x128.size inb_S2000x128_S2000x128_0_0
abbrev allW8 : Rect S128x64 := Rect.unit (s := S128x64) ![0, 0] S128x64.size inb_S128x64_S128x64_0_0
abbrev allB8 : Rect S1x64 := Rect.unit (s := S1x64) ![0, 0] S1x64.size inb_S1x64_S1x64_0_0
abbrev allO8 : Rect S2000x64 := Rect.unit (s := S2000x64) ![0, 0] S2000x64.size inb_S2000x64_S2000x64_0_0

/-- The result block after one step, from the three input blocks: the step makes one store, of the whole block, of
    `a · W + b` computed from the whole input blocks. -/
def tileOut8 (a : Vec F S2000x128 .f32) (w : Vec F S128x64 .f32) (b : Vec F S1x64 .f32) : Vec F S2000x64 .f32 :=
  View.canon [⟨allO8, k8_pay1 (View.ld a allA8) (View.ld w allW8) (View.ld b allB8)⟩]

/-- That one store reaches every entry of the result block. -/
theorem covers8 (p : Vec F S2000x64 .f32) (y : S2000x64.Idx) :
    ∃ pc ∈ ([⟨allO8, p⟩] : List (View.Piece (Elt F) S2000x64 .f32)), y ∈ pc.1.set :=
  View.cover_of_tiled [⟨allO8, p⟩] S2000x64.size (by rfl) y

/-! ## One step of the kernel -/

set_option maxHeartbeats 1000000 in
/-- Run on four whole buffers, the first three holding `a`, `w`, `b` and the fourth anything, the kernel ends with the
    first three unchanged and the fourth holding `tileOut8 a w b`. (It reads the fourth once before overwriting it;
    what it reads there is not used.) -/
theorem kernel_triple8 (c : Dev nD) (E : Set ℕ) (i : grid8.Coords)
    (m1 : Memref sig .tc .vmem S2000x128 .f32) (h1 : m1.IsWhole) (m2 : Memref sig .tc .vmem S128x64 .f32) (h2 : m2.IsWhole)
    (m3 : Memref sig .tc .vmem S1x64 .f32) (h3 : m3.IsWhole) (m4 : Memref sig .tc .vmem S2000x64 .f32) (h4 : m4.IsWhole)
    (a : Vec F S2000x128 .f32) (w : Vec F S128x64 .f32) (b : Vec F S1x64 .f32) (K : PUnit → sProp 𝕄) :
    iprop(owns (c : Thread nD τ) m1 fullShare a ∗ owns (c : Thread nD τ) m2 fullShare w ∗ owns (c : Thread nD τ) m3 fullShare b
        ∗ (∃ d, owns (c : Thread nD τ) m4 fullShare d)
        ∗ (iprop(owns (c : Thread nD τ) m1 fullShare a ∗ owns (c : Thread nD τ) m2 fullShare w ∗ owns (c : Thread nD τ) m3 fullShare b
            ∗ owns (c : Thread nD τ) m4 fullShare (tileOut8 a w b)) -∗ K ⟨⟩))
      ⊢ wp frame (wpE (defs₀ (F := F)) Variants.none c none) E (cc8__linear_kernel i m1 h1 m2 h2 m3 h3 m4 h4) K := by
  simp only [cc8__linear_kernel_eq_skeleton]; unfold cc8__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers8 _)

/-! ## The proof data of the region -/

/-- The arrays are `V`'s; after step `t` the three input windows hold their blocks still and the result window holds
    `tileOut8` of them; the invariant is the rest of the core's memory, left alone; nothing is owed and every buffer
    is owned in full. -/
def dat8 (c : Dev nD) : Dat τ (Elt F) Unit ℕ (UR sig nD τ) ℕ cfg8 c where
  A w := V c (Pipeline.arrRef spec8 w)
  after w t := match w with
    | ⟨0, _⟩ => tileBlock8 V c 0 t
    | ⟨1, _⟩ => tileBlock8 V c 1 t
    | ⟨2, _⟩ => tileBlock8 V c 2 t
    | ⟨3, _⟩ => tileOut8 (tileBlock8 V c 0 t) (tileBlock8 V c 1 t) (tileBlock8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = tileBlock8 V c 0 t := by dsimp only [dat8]
theorem after8_1 (c : Dev nD) (t : Fin cfg8.N) : (dat8 V c).after 1 t = tileBlock8 V c 1 t := by dsimp only [dat8]
theorem after8_2 (c : Dev nD) (t : Fin cfg8.N) : (dat8 V c).after 2 t = tileBlock8 V c 2 t := by dsimp only [dat8]
theorem after8_3 (c : Dev nD) (t : Fin cfg8.N) :
    (dat8 V c).after 3 t = tileOut8 (tileBlock8 V c 0 t) (tileBlock8 V c 1 t) (tileBlock8 V c 2 t) := by dsimp only [dat8]

/-- What each input buffer holds when the step starts: its block. -/
theorem held8_0 (c : Dev nD) (t : Fin cfg8.N) (d) : (dat8 V c).before 0 t d = tileBlock8 V c 0 t :=
  held8_0_of V (dat8 V c) (A_eq8 V c 0) (after8_0 V c) t d
theorem held8_1 (c : Dev nD) (t : Fin cfg8.N) (d) : (dat8 V c).before 1 t d = tileBlock8 V c 1 t :=
  held8_1_of V (dat8 V c) (A_eq8 V c 1) (after8_1 V c) t d
theorem held8_2 (c : Dev nD) (t : Fin cfg8.N) (d) : (dat8 V c).before 2 t d = tileBlock8 V c 2 t :=
  held8_2_of V (dat8 V c) (A_eq8 V c 2) (after8_2 V c) t d

/-! ## One step, as the pipeline asks for it -/

/-- What the step is given: the invariant, the debt, and the four current buffers, -/
def stepPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it gives back. -/
def stepPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The step at any point of the grid: the input buffers hold their blocks, so the kernel's triple applies; the invariant
    and the debt are not looked at. -/
theorem step_triple8 (c : Dev nD) (t : Fin cfg8.N) :
    stepPre8 V c t ⊢ wp frame (wpE (defs₀ (F := F)) Variants.none c none) Set.univ (bodyAt8 t) (fun _ => stepPost8 V c t) := by
  unfold stepPre8 stepPost8 bodyAt8
  simp only [held8_0, held8_1, held8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (kernel_triple8 c Set.univ _ _ _ _ _ _ _ _ _ (tileBlock8 V c 0 t) (tileBlock8 V c 1 t) (tileBlock8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's frame rule asks of the region's body. -/
theorem body_obligation8 (c : Dev nD) : BodyObligation (dat8 (F := F) V c) (defs₀ (F := F)) Variants.none () Set.univ := fun t => by
  rw [bigSep_W8, bigSep_W8]
  exact step_triple8 V c t

end Cert.KernelIdeal.Regions
-- ==== Proof.KernelIdealRun.lean ====
/-
  The run of the program's nine kernel regions among its nine stretches of host operations.

  Between two items of @main a TensorCore holds every unscoped buffer whole at known contents: the launch memory, then
  each stretch of host operations applied (`StableHlo.after`), then, after a region, the region's result array replaced
  by what its pipeline's write-backs leave (the fold `Dat.arrAt … N` of the region's proof data) and every other buffer
  untouched — the boundaries `B0 … B18` below. Regions 0, 3, 6 (a row tile times a weight plus a one-row bias), 2, 5, 8
  (the same, with a maximum against zero in 2 and 5) stage four arrays and keep no state between grid points; regions
  1, 4, 7 (a maximum over rows) keep the running maximum in a scratch row, which lives in the pipeline's invariant.
  Each region is one segment record over those boundaries; the host stretches and the chaining are the generated
  conditional frame's. No argument array is written by any stretch or region, so each ends as launched.
-/
import proofs.«115727_j48790828483060_1_alg».proof.Proof.Gen.KernelIdeal.Regions
import proofs.«115727_j48790828483060_1_alg».proof.Proof.KernelIdealLinear0
import proofs.«115727_j48790828483060_1_alg».proof.Proof.KernelIdealPool1
import proofs.«115727_j48790828483060_1_alg».proof.Proof.KernelIdealLinear2
import proofs.«115727_j48790828483060_1_alg».proof.Proof.KernelIdealLinear3
import proofs.«115727_j48790828483060_1_alg».proof.Proof.KernelIdealPool4
import proofs.«115727_j48790828483060_1_alg».proof.Proof.KernelIdealLinear5
import proofs.«115727_j48790828483060_1_alg».proof.Proof.KernelIdealLinear6
import proofs.«115727_j48790828483060_1_alg».proof.Proof.KernelIdealPool7
import proofs.«115727_j48790828483060_1_alg».proof.Proof.KernelIdealLinear8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A boundary's contents read at the TensorCore's references: the form a region's proof data take them in. -/
abbrev atRefs (W : Dev nD → Valuation τ sig (Elt F)) : (c : Dev nD) → (b : Ref sig .tc) → Buf (Elt F) ((c : Thread nD τ).loc b) :=
  fun c b => W c b

/-- No core owes another anything: no pair carries a level. -/
abbrev noLev : GSem nD τ sig → Finset Unit := fun _ => ∅
abbrev zeroLev : GSem nD τ sig → Unit → ℕ := fun _ _ => 0

/-- What rides beside the buffers between two items of @main: the core's generator register at some state and the
    core owing nothing. -/
abbrev rest (c : Dev nD) : sProp 𝕄 :=
  iprop((∃ r, prngReg c r) ∗ ∃ W, owes (c : Thread nD τ) (0 : CellTallies nD τ sig Unit) W)

/-! ## The buffers' contents between the items of @main -/

/-- The buffers as launched. -/
abbrev B0 (c : Dev nD) : Valuation τ sig (Elt F) := fun b => m (c, b)
/-- After the first stretch of host operations: what region 0 is entered from. -/
abbrev B1 (c : Dev nD) : Valuation τ sig (Elt F) := StableHlo.after hostOps0 (B0 m c)
/-- What region 0 leaves in its result array: the write-backs of all 25 points folded. -/
def res0 (c : Dev nD) : Buf (Elt F) ((c : Thread nD τ).loc main_v29) := (dat0 (atRefs (B1 m)) c).arrAt 3 cfg0.N
/-- After region 0: its result array replaced, every other buffer as entered. -/
def B2 (c : Dev nD) : Valuation τ sig (Elt F) := Function.update (B1 m c) main_v29 (res0 m c)
theorem B2_of_ne (c : Dev nD) (b : Ref sig .tc) (h : b ≠ main_v29) : B2 m c b = B1 m c b := by
  unfold B2; exact Function.update_of_ne (StableHlo.devRef_ne_of_ne h) _ _
theorem B2_res (c : Dev nD) : B2 m c main_v29 = res0 m c := by
  unfold B2; exact Function.update_self ..
/-- After the next stretch of host operations: what region 1 is entered from. -/
def B3 (c : Dev nD) : Valuation τ sig (Elt F) := StableHlo.after hostOps1 (B2 m c)
/-- What region 1 leaves in its result array: the write-backs of all 25 points folded. -/
def res1 (c : Dev nD) : Buf (Elt F) ((c : Thread nD τ).loc main_v50) := (dat1 (atRefs (B3 m)) c).arrAt 1 cfg1.N
/-- After region 1: its result array replaced, every other buffer as entered. -/
def B4 (c : Dev nD) : Valuation τ sig (Elt F) := Function.update (B3 m c) main_v50 (res1 m c)
theorem B4_of_ne (c : Dev nD) (b : Ref sig .tc) (h : b ≠ main_v50) : B4 m c b = B3 m c b := by
  unfold B4; exact Function.update_of_ne (StableHlo.devRef_ne_of_ne h) _ _
theorem B4_res (c : Dev nD) : B4 m c main_v50 = res1 m c := by
  unfold B4; exact Function.update_self ..
/-- After the next stretch of host operations: what region 2 is entered from. -/
def B5 (c : Dev nD) : Valuation τ sig (Elt F) := StableHlo.after hostOps2 (B4 m c)
/-- What region 2 leaves in its result array: the write-backs of all 25 points folded. -/
def res2 (c : Dev nD) : Buf (Elt F) ((c : Thread nD τ).loc main_v56) := (dat2 (atRefs (B5 m)) c).arrAt 3 cfg2.N
/-- After region 2: its result array replaced, every other buffer as entered. -/
def B6 (c : Dev nD) : Valuation τ sig (Elt F) := Function.update (B5 m c) main_v56 (res2 m c)
theorem B6_of_ne (c : Dev nD) (b : Ref sig .tc) (h : b ≠ main_v56) : B6 m c b = B5 m c b := by
  unfold B6; exact Function.update_of_ne (StableHlo.devRef_ne_of_ne h) _ _
theorem B6_res (c : Dev nD) : B6 m c main_v56 = res2 m c := by
  unfold B6; exact Function.update_self ..
/-- After the next stretch of host operations: what region 3 is entered from. -/
def B7 (c : Dev nD) : Valuation τ sig (Elt F) := StableHlo.after hostOps3 (B6 m c)
/-- What region 3 leaves in its result array: the write-backs of all 25 points folded. -/
def res3 (c : Dev nD) : Buf (Elt F) ((c : Thread nD τ).loc main_v58) := (dat3 (atRefs (B7 m)) c).arrAt 3 cfg3.N
/-- After region 3: its result array replaced, every other buffer as entered. -/
def B8 (c : Dev nD) : Valuation τ sig (Elt F) := Function.update (B7 m c) main_v58 (res3 m c)
theorem B8_of_ne (c : Dev nD) (b : Ref sig .tc) (h : b ≠ main_v58) : B8 m c b = B7 m c b := by
  unfold B8; exact Function.update_of_ne (StableHlo.devRef_ne_of_ne h) _ _
theorem B8_res (c : Dev nD) : B8 m c main_v58 = res3 m c := by
  unfold B8; exact Function.update_self ..
/-- After the next stretch of host operations: what region 4 is entered from. -/
def B9 (c : Dev nD) : Valuation τ sig (Elt F) := StableHlo.after hostOps4 (B8 m c)
/-- What region 4 leaves in its result array: the write-backs of all 25 points folded. -/
def res4 (c : Dev nD) : Buf (Elt F) ((c : Thread nD τ).loc main_v79) := (dat4 (atRefs (B9 m)) c).arrAt 1 cfg4.N
/-- After region 4: its result array replaced, every other buffer as entered. -/
def B10 (c : Dev nD) : Valuation τ sig (Elt F) := Function.update (B9 m c) main_v79 (res4 m c)
theorem B10_of_ne (c : Dev nD) (b : Ref sig .tc) (h : b ≠ main_v79) : B10 m c b = B9 m c b := by
  unfold B10; exact Function.update_of_ne (StableHlo.devRef_ne_of_ne h) _ _
theorem B10_res (c : Dev nD) : B10 m c main_v79 = res4 m c := by
  unfold B10; exact Function.update_self ..
/-- After the next stretch of host operations: what region 5 is entered from. -/
def B11 (c : Dev nD) : Valuation τ sig (Elt F) := StableHlo.after hostOps5 (B10 m c)
/-- What region 5 leaves in its result array: the write-backs of all 25 points folded. -/
def res5 (c : Dev nD) : Buf (Elt F) ((c : Thread nD τ).loc main_v85) := (dat5 (atRefs (B11 m)) c).arrAt 3 cfg5.N
/-- After region 5: its result array replaced, every other buffer as entered. -/
def B12 (c : Dev nD) : Valuation τ sig (Elt F) := Function.update (B11 m c) main_v85 (res5 m c)
theorem B12_of_ne (c : Dev nD) (b : Ref sig .tc) (h : b ≠ main_v85) : B12 m c b = B11 m c b := by
  unfold B12; exact Function.update_of_ne (StableHlo.devRef_ne_of_ne h) _ _
theorem B12_res (c : Dev nD) : B12 m c main_v85 = res5 m c := by
  unfold B12; exact Function.update_self ..
/-- After the next stretch of host operations: what region 6 is entered from. -/
def B13 (c : Dev nD) : Valuation τ sig (Elt F) := StableHlo.after hostOps6 (B12 m c)
/-- What region 6 leaves in its result array: the write-backs of all 25 points folded. -/
def res6 (c : Dev nD) : Buf (Elt F) ((c : Thread nD τ).loc main_v87) := (dat6 (atRefs (B13 m)) c).arrAt 3 cfg6.N
/-- After region 6: its result array replaced, every other buffer as entered. -/
def B14 (c : Dev nD) : Valuation τ sig (Elt F) := Function.update (B13 m c) main_v87 (res6 m c)
theorem B14_of_ne (c : Dev nD) (b : Ref sig .tc) (h : b ≠ main_v87) : B14 m c b = B13 m c b := by
  unfold B14; exact Function.update_of_ne (StableHlo.devRef_ne_of_ne h) _ _
theorem B14_res (c : Dev nD) : B14 m c main_v87 = res6 m c := by
  unfold B14; exact Function.update_self ..
/-- After the next stretch of host operations: what region 7 is entered from. -/
def B15 (c : Dev nD) : Valuation τ sig (Elt F) := StableHlo.after hostOps7 (B14 m c)
/-- What region 7 leaves in its result array: the write-backs of all 25 points folded. -/
def res7 (c : Dev nD) : Buf (Elt F) ((c : Thread nD τ).loc main_v108) := (dat7 (atRefs (B15 m)) c).arrAt 1 cfg7.N
/-- After region 7: its result array replaced, every other buffer as entered. -/
def B16 (c : Dev nD) : Valuation τ sig (Elt F) := Function.update (B15 m c) main_v108 (res7 m c)
theorem B16_of_ne (c : Dev nD) (b : Ref sig .tc) (h : b ≠ main_v108) : B16 m c b = B15 m c b := by
  unfold B16; exact Function.update_of_ne (StableHlo.devRef_ne_of_ne h) _ _
theorem B16_res (c : Dev nD) : B16 m c main_v108 = res7 m c := by
  unfold B16; exact Function.update_self ..
/-- After the next stretch of host operations: what region 8 is entered from. -/
def B17 (c : Dev nD) : Valuation τ sig (Elt F) := StableHlo.after hostOps8 (B16 m c)
/-- What region 8 leaves in its result array: the write-backs of all 25 points folded. -/
def res8 (c : Dev nD) : Buf (Elt F) ((c : Thread nD τ).loc main_v114) := (dat8 (atRefs (B17 m)) c).arrAt 3 cfg8.N
/-- After region 8: its result array replaced, every other buffer as entered. -/
def B18 (c : Dev nD) : Valuation τ sig (Elt F) := Function.update (B17 m c) main_v114 (res8 m c)
theorem B18_of_ne (c : Dev nD) (b : Ref sig .tc) (h : b ≠ main_v114) : B18 m c b = B17 m c b := by
  unfold B18; exact Function.update_of_ne (StableHlo.devRef_ne_of_ne h) _ _
theorem B18_res (c : Dev nD) : B18 m c main_v114 = res8 m c := by
  unfold B18; exact Function.update_self ..

/-- What the regions leave, in the form the conditional frame takes it: the contents of `r` after item `J - 1`. Only the
    result array of the region just left is ever read at `J`. -/
def outs : Outs (F := F) := fun J r c => match J with
  | 2 => B2 m c r
  | 4 => B4 m c r
  | 6 => B6 m c r
  | 8 => B8 m c r
  | 10 => B10 m c r
  | 12 => B12 m c r
  | 14 => B14 m c r
  | 16 => B16 m c r
  | 18 => B18 m c r
  | _ => m ((c : Thread nD τ).loc r)

/-! The generated valuations at these `outs` are the boundaries. -/
theorem V1_eq (c : Dev nD) : V1 m c = B1 m c := rfl
theorem V2_eq (c : Dev nD) : V2 m (outs m) c = B2 m c := by
  show Function.update (V1 m c) main_v29 (outs m 2 main_v29 c) = _
  rw [V1_eq]; simp only [outs, B2, Function.update_self]
theorem V3_eq (c : Dev nD) : V3 m (outs m) c = B3 m c := by
  show StableHlo.after hostOps1 (V2 m (outs m) c) = _
  rw [V2_eq]; rfl
theorem V4_eq (c : Dev nD) : V4 m (outs m) c = B4 m c := by
  show Function.update (V3 m (outs m) c) main_v50 (outs m 4 main_v50 c) = _
  rw [V3_eq]; simp only [outs, B4, Function.update_self]
theorem V5_eq (c : Dev nD) : V5 m (outs m) c = B5 m c := by
  show StableHlo.after hostOps2 (V4 m (outs m) c) = _
  rw [V4_eq]; rfl
theorem V6_eq (c : Dev nD) : V6 m (outs m) c = B6 m c := by
  show Function.update (V5 m (outs m) c) main_v56 (outs m 6 main_v56 c) = _
  rw [V5_eq]; simp only [outs, B6, Function.update_self]
theorem V7_eq (c : Dev nD) : V7 m (outs m) c = B7 m c := by
  show StableHlo.after hostOps3 (V6 m (outs m) c) = _
  rw [V6_eq]; rfl
theorem V8_eq (c : Dev nD) : V8 m (outs m) c = B8 m c := by
  show Function.update (V7 m (outs m) c) main_v58 (outs m 8 main_v58 c) = _
  rw [V7_eq]; simp only [outs, B8, Function.update_self]
theorem V9_eq (c : Dev nD) : V9 m (outs m) c = B9 m c := by
  show StableHlo.after hostOps4 (V8 m (outs m) c) = _
  rw [V8_eq]; rfl
theorem V10_eq (c : Dev nD) : V10 m (outs m) c = B10 m c := by
  show Function.update (V9 m (outs m) c) main_v79 (outs m 10 main_v79 c) = _
  rw [V9_eq]; simp only [outs, B10, Function.update_self]
theorem V11_eq (c : Dev nD) : V11 m (outs m) c = B11 m c := by
  show StableHlo.after hostOps5 (V10 m (outs m) c) = _
  rw [V10_eq]; rfl
theorem V12_eq (c : Dev nD) : V12 m (outs m) c = B12 m c := by
  show Function.update (V11 m (outs m) c) main_v85 (outs m 12 main_v85 c) = _
  rw [V11_eq]; simp only [outs, B12, Function.update_self]
theorem V13_eq (c : Dev nD) : V13 m (outs m) c = B13 m c := by
  show StableHlo.after hostOps6 (V12 m (outs m) c) = _
  rw [V12_eq]; rfl
theorem V14_eq (c : Dev nD) : V14 m (outs m) c = B14 m c := by
  show Function.update (V13 m (outs m) c) main_v87 (outs m 14 main_v87 c) = _
  rw [V13_eq]; simp only [outs, B14, Function.update_self]
theorem V15_eq (c : Dev nD) : V15 m (outs m) c = B15 m c := by
  show StableHlo.after hostOps7 (V14 m (outs m) c) = _
  rw [V14_eq]; rfl
theorem V16_eq (c : Dev nD) : V16 m (outs m) c = B16 m c := by
  show Function.update (V15 m (outs m) c) main_v108 (outs m 16 main_v108 c) = _
  rw [V15_eq]; simp only [outs, B16, Function.update_self]
theorem V17_eq (c : Dev nD) : V17 m (outs m) c = B17 m c := by
  show StableHlo.after hostOps8 (V16 m (outs m) c) = _
  rw [V16_eq]; rfl
theorem V18_eq (c : Dev nD) : V18 m (outs m) c = B18 m c := by
  show Function.update (V17 m (outs m) c) main_v114 (outs m 18 main_v114 c) = _
  rw [V17_eq]; simp only [outs, B18, Function.update_self]

/-! ## The proof data of the nine pipelines, each at the boundary its region is entered from -/

def pdats : (p : Fin 9) → (c : Dev nD) → Dat τ (Elt F) Unit ℕ (UR sig nD τ) ℕ (cfgs p) c
  | ⟨0, _⟩ => fun c => dat0 (atRefs (B1 m)) c
  | ⟨1, _⟩ => fun c => dat1 (atRefs (B3 m)) c
  | ⟨2, _⟩ => fun c => dat2 (atRefs (B5 m)) c
  | ⟨3, _⟩ => fun c => dat3 (atRefs (B7 m)) c
  | ⟨4, _⟩ => fun c => dat4 (atRefs (B9 m)) c
  | ⟨5, _⟩ => fun c => dat5 (atRefs (B11 m)) c
  | ⟨6, _⟩ => fun c => dat6 (atRefs (B13 m)) c
  | ⟨7, _⟩ => fun c => dat7 (atRefs (B15 m)) c
  | ⟨8, _⟩ => fun c => dat8 (atRefs (B17 m)) c

/-! ## The regions as segments -/

set_option maxHeartbeats 2000000 in
/-- Region 0's arrays when it ends are the next boundary's contents at them: an input array is left as entered, the
    result array is what the write-backs leave. -/
theorem exitArr0 (c : Dev nD) : ∀ w : Fin cfg0.W, (pdats m 0 c).arrAt w cfg0.N = atRefs (B2 m) c (Pipeline.arrRef spec0 w)
  | ⟨0, _⟩ => (((dat0 (atRefs (B1 m)) c).arrAt_in 0 rfl _).trans (A_eq0 (atRefs (B1 m)) c 0)).trans (B2_of_ne m c _ (by decide)).symm
  | ⟨1, _⟩ => (((dat0 (atRefs (B1 m)) c).arrAt_in 1 rfl _).trans (A_eq0 (atRefs (B1 m)) c 1)).trans (B2_of_ne m c _ (by decide)).symm
  | ⟨2, _⟩ => (((dat0 (atRefs (B1 m)) c).arrAt_in 2 rfl _).trans (A_eq0 (atRefs (B1 m)) c 2)).trans (B2_of_ne m c _ (by decide)).symm
  | ⟨3, _⟩ => (B2_res m c).symm
/-- Every buffer that is not one of region 0's arrays is at the next boundary what it was at this one. -/
theorem exitRest0 (c : Dev nD) : ∀ b, b ∉ Finset.univ.image (Pipeline.arrRef spec0) → atRefs (B2 m) c b = atRefs (B1 m) c b :=
  fun b hb => B2_of_ne m c b fun e => hb (Finset.mem_image.mpr ⟨3, Finset.mem_univ _, e.symm⟩)

set_option backward.isDefEq.respectTransparency.types false in
/-- REGION 0 as a segment: entered from every unscoped buffer at the boundary before it, left with them at the boundary
    after it. Its four arrays are taken out of the unscoped buffers and put back with the result array at what the 25
    write-backs leave; the generator register passes through the invariant; the kernel has no semaphore of its own and
    the core owes nothing. -/
def reg0 : Pipeline.RegionSeg (pcfgs (F := F)) adm (pdats m) () defs₀ Variants.none noLev zeroLev 0 where
  win := launch0.win.to₀
  block_pos := launch0.block_pos
  stage_whole := launch0.stage_whole
  K := PEmpty
  osem k := k.elim
  ho := Pipeline.OwnSemFacts.none _
  hbody c := (body_obligation0 (atRefs (B1 m)) c).loose
  hwaits := Pipeline.hwaits_of_owed_zero _ _ _ _ noLev zeroLev 0 fun _ _ => rfl
  pre c := iprop(StableHlo.held (c : Thread nD τ) (Pipeline.ucRefs τ sig) (B1 m c) ∗ rest c)
  post c := iprop(StableHlo.held (c : Thread nD τ) (Pipeline.ucRefs τ sig) (B2 m c) ∗ rest c)
  X c := iprop(∃ r, prngReg c r)
  Y c := iprop(∃ r, prngReg c r)
  Z c := Pipeline.unscopedRest (Ix := Unit) (Name := ℕ) (U := UR sig nD τ) (Lvl := ℕ) spec0 c (atRefs (B1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (B1 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (B1 m) c) (atRefs (B2 m) c) ((pdats m 0 c).arrAt · cfg0.N) (exitArr0 m c) (exitRest0 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 1's arrays when it ends are the next boundary's contents at them: the row array is left as entered, the
    one-row result is what the last point's write-back leaves. -/
theorem exitArr1 (c : Dev nD) : ∀ w : Fin cfg1.W, (pdats m 1 c).arrAt w cfg1.N = atRefs (B4 m) c (Pipeline.arrRef spec1 w)
  | ⟨0, _⟩ => (((dat1 (atRefs (B3 m)) c).arrAt_in 0 rfl _).trans (A_eq1 (atRefs (B3 m)) c 0)).trans (B4_of_ne m c _ (by decide)).symm
  | ⟨1, _⟩ => (B4_res m c).symm
/-- Every buffer that is not one of region 1's arrays is at the next boundary what it was at this one. -/
theorem exitRest1 (c : Dev nD) : ∀ b, b ∉ Finset.univ.image (Pipeline.arrRef spec1) → atRefs (B4 m) c b = atRefs (B3 m) c b :=
  fun b hb => B4_of_ne m c b fun e => hb (Finset.mem_image.mpr ⟨1, Finset.mem_univ _, e.symm⟩)

set_option backward.isDefEq.respectTransparency.types false in
/-- REGION 1 (the maximum over rows) as a segment: entered from every unscoped buffer at the boundary before it, left with
    them at the boundary after it. The scratch row that carries the running maximum is a scoped buffer: it enters the
    invariant at some contents with the rest of the scoped buffers and is given back at some contents. -/
def reg1 : Pipeline.RegionSeg (pcfgs (F := F)) adm (pdats m) () defs₀ Variants.none noLev zeroLev 1 where
  win := launch1.win.to₀
  block_pos := launch1.block_pos
  stage_whole := launch1.stage_whole
  K := PEmpty
  osem k := k.elim
  ho := Pipeline.OwnSemFacts.none _
  hbody c := (body_obligation1 (atRefs (B3 m)) c).loose
  hwaits := Pipeline.hwaits_of_owed_zero _ _ _ _ noLev zeroLev 1 fun _ _ => rfl
  pre c := iprop(StableHlo.held (c : Thread nD τ) (Pipeline.ucRefs τ sig) (B3 m c) ∗ rest c)
  post c := iprop(StableHlo.held (c : Thread nD τ) (Pipeline.ucRefs τ sig) (B4 m c) ∗ rest c)
  X c := iprop(∃ r, prngReg c r)
  Y c := iprop(∃ r, prngReg c r)
  Z c := Pipeline.unscopedRest (Ix := Unit) (Name := ℕ) (U := UR sig nD τ) (Lvl := ℕ) spec1 c (atRefs (B3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (B3 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 1 c).Φ 0 = (dat1 (atRefs (B3 m)) c).Φ 0 from rfl]
    exact poolEnter1 (atRefs (B3 m)) c _
  hout c := by
    rw [Pipeline.ownSems0_none, show (pdats m 1 c).Φ (Fin.last _) = (dat1 (atRefs (B3 m)) c).Φ (Fin.last _) from rfl]
    exact poolLeave1 (atRefs (B3 m)) c
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (B3 m) c) (atRefs (B4 m) c) ((pdats m 1 c).arrAt · cfg1.N) (exitArr1 m c) (exitRest1 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 2's arrays when it ends are the next boundary's contents at them: an input array is left as entered, the
    result array is what the write-backs leave. -/
theorem exitArr2 (c : Dev nD) : ∀ w : Fin cfg2.W, (pdats m 2 c).arrAt w cfg2.N = atRefs (B6 m) c (Pipeline.arrRef spec2 w)
  | ⟨0, _⟩ => (((dat2 (atRefs (B5 m)) c).arrAt_in 0 rfl _).trans (A_eq2 (atRefs (B5 m)) c 0)).trans (B6_of_ne m c _ (by decide)).symm
  | ⟨1, _⟩ => (((dat2 (atRefs (B5 m)) c).arrAt_in 1 rfl _).trans (A_eq2 (atRefs (B5 m)) c 1)).trans (B6_of_ne m c _ (by decide)).symm
  | ⟨2, _⟩ => (((dat2 (atRefs (B5 m)) c).arrAt_in 2 rfl _).trans (A_eq2 (atRefs (B5 m)) c 2)).trans (B6_of_ne m c _ (by decide)).symm
  | ⟨3, _⟩ => (B6_res m c).symm
/-- Every buffer that is not one of region 2's arrays is at the next boundary what it was at this one. -/
theorem exitRest2 (c : Dev nD) : ∀ b, b ∉ Finset.univ.image (Pipeline.arrRef spec2) → atRefs (B6 m) c b = atRefs (B5 m) c b :=
  fun b hb => B6_of_ne m c b fun e => hb (Finset.mem_image.mpr ⟨3, Finset.mem_univ _, e.symm⟩)

set_option backward.isDefEq.respectTransparency.types false in
/-- REGION 2 as a segment: entered from every unscoped buffer at the boundary before it, left with them at the boundary
    after it. Its four arrays are taken out of the unscoped buffers and put back with the result array at what the 25
    write-backs leave; the generator register passes through the invariant; the kernel has no semaphore of its own and
    the core owes nothing. -/
def reg2 : Pipeline.RegionSeg (pcfgs (F := F)) adm (pdats m) () defs₀ Variants.none noLev zeroLev 2 where
  win := launch2.win.to₀
  block_pos := launch2.block_pos
  stage_whole := launch2.stage_whole
  K := PEmpty
  osem k := k.elim
  ho := Pipeline.OwnSemFacts.none _
  hbody c := (body_obligation2 (atRefs (B5 m)) c).loose
  hwaits := Pipeline.hwaits_of_owed_zero _ _ _ _ noLev zeroLev 2 fun _ _ => rfl
  pre c := iprop(StableHlo.held (c : Thread nD τ) (Pipeline.ucRefs τ sig) (B5 m c) ∗ rest c)
  post c := iprop(StableHlo.held (c : Thread nD τ) (Pipeline.ucRefs τ sig) (B6 m c) ∗ rest c)
  X c := iprop(∃ r, prngReg c r)
  Y c := iprop(∃ r, prngReg c r)
  Z c := Pipeline.unscopedRest (Ix := Unit) (Name := ℕ) (U := UR sig nD τ) (Lvl := ℕ) spec2 c (atRefs (B5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (B5 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (pdats m 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (B5 m) c) (atRefs (B6 m) c) ((pdats m 2 c).arrAt · cfg2.N) (exitArr2 m c) (exitRest2 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 3's arrays when it ends are the next boundary's contents at them: an input array is left as entered, the
    result array is what the write-backs leave. -/
theorem exitArr3 (c : Dev nD) : ∀ w : Fin cfg3.W, (pdats m 3 c).arrAt w cfg3.N = atRefs (B8 m) c (Pipeline.arrRef spec3 w)
  | ⟨0, _⟩ => (((dat3 (atRefs (B7 m)) c).arrAt_in 0 rfl _).trans (A_eq3 (atRefs (B7 m)) c 0)).trans (B8_of_ne m c _ (by decide)).symm
  | ⟨1, _⟩ => (((dat3 (atRefs (B7 m)) c).arrAt_in 1 rfl _).trans (A_eq3 (atRefs (B7 m)) c 1)).trans (B8_of_ne m c _ (by decide)).symm
  | ⟨2, _⟩ => (((dat3 (atRefs (B7 m)) c).arrAt_in 2 rfl _).trans (A_eq3 (atRefs (B7 m)) c 2)).trans (B8_of_ne m c _ (by decide)).symm
  | ⟨3, _⟩ => (B8_res m c).symm
/-- Every buffer that is not one of region 3's arrays is at the next boundary what it was at this one. -/
theorem exitRest3 (c : Dev nD) : ∀ b, b ∉ Finset.univ.image (Pipeline.arrRef spec3) → atRefs (B8 m) c b = atRefs (B7 m) c b :=
  fun b hb => B8_of_ne m c b fun e => hb (Finset.mem_image.mpr ⟨3, Finset.mem_univ _, e.symm⟩)

set_option backward.isDefEq.respectTransparency.types false in
/-- REGION 3 as a segment: entered from every unscoped buffer at the boundary before it, left with them at the boundary
    after it. Its four arrays are taken out of the unscoped buffers and put back with the result array at what the 25
    write-backs leave; the generator register passes through the invariant; the kernel has no semaphore of its own and
    the core owes nothing. -/
def reg3 : Pipeline.RegionSeg (pcfgs (F := F)) adm (pdats m) () defs₀ Variants.none noLev zeroLev 3 where
  win := launch3.win.to₀
  block_pos := launch3.block_pos
  stage_whole := launch3.stage_whole
  K := PEmpty
  osem k := k.elim
  ho := Pipeline.OwnSemFacts.none _
  hbody c := (body_obligation3 (atRefs (B7 m)) c).loose
  hwaits := Pipeline.hwaits_of_owed_zero _ _ _ _ noLev zeroLev 3 fun _ _ => rfl
  pre c := iprop(StableHlo.held (c : Thread nD τ) (Pipeline.ucRefs τ sig) (B7 m c) ∗ rest c)
  post c := iprop(StableHlo.held (c : Thread nD τ) (Pipeline.ucRefs τ sig) (B8 m c) ∗ rest c)
  X c := iprop(∃ r, prngReg c r)
  Y c := iprop(∃ r, prngReg c r)
  Z c := Pipeline.unscopedRest (Ix := Unit) (Name := ℕ) (U := UR sig nD τ) (Lvl := ℕ) spec3 c (atRefs (B7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (B7 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 3 c).Φ 0 = Pipeline.ΦA spec3 c from rfl]; unfold Pipeline.ΦA
    iintro ⟨Hgen, -, Hscoped⟩
    isplitl [Hscoped]; · iexact Hscoped
    iexact Hgen
  hout c := by
    rw [Pipeline.ownSems0_none, show (pdats m 3 c).Φ (Fin.last _) = Pipeline.ΦA spec3 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (B7 m) c) (atRefs (B8 m) c) ((pdats m 3 c).arrAt · cfg3.N) (exitArr3 m c) (exitRest3 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 4's arrays when it ends are the next boundary's contents at them: the row array is left as entered, the
    one-row result is what the last point's write-back leaves. -/
theorem exitArr4 (c : Dev nD) : ∀ w : Fin cfg4.W, (pdats m 4 c).arrAt w cfg4.N = atRefs (B10 m) c (Pipeline.arrRef spec4 w)
  | ⟨0, _⟩ => (((dat4 (atRefs (B9 m)) c).arrAt_in 0 rfl _).trans (A_eq4 (atRefs (B9 m)) c 0)).trans (B10_of_ne m c _ (by decide)).symm
  | ⟨1, _⟩ => (B10_res m c).symm
/-- Every buffer that is not one of region 4's arrays is at the next boundary what it was at this one. -/
theorem exitRest4 (c : Dev nD) : ∀ b, b ∉ Finset.univ.image (Pipeline.arrRef spec4) → atRefs (B10 m) c b = atRefs (B9 m) c b :=
  fun b hb => B10_of_ne m c b fun e => hb (Finset.mem_image.mpr ⟨1, Finset.mem_univ _, e.symm⟩)

set_option backward.isDefEq.respectTransparency.types false in
/-- REGION 4 (the maximum over rows) as a segment: entered from every unscoped buffer at the boundary before it, left with
    them at the boundary after it. The scratch row that carries the running maximum is a scoped buffer: it enters the
    invariant at some contents with the rest of the scoped buffers and is given back at some contents. -/
def reg4 : Pipeline.RegionSeg (pcfgs (F := F)) adm (pdats m) () defs₀ Variants.none noLev zeroLev 4 where
  win := launch4.win.to₀
  block_pos := launch4.block_pos
  stage_whole := launch4.stage_whole
  K := PEmpty
  osem k := k.elim
  ho := Pipeline.OwnSemFacts.none _
  hbody c := (body_obligation4 (atRefs (B9 m)) c).loose
  hwaits := Pipeline.hwaits_of_owed_zero _ _ _ _ noLev zeroLev 4 fun _ _ => rfl
  pre c := iprop(StableHlo.held (c : Thread nD τ) (Pipeline.ucRefs τ sig) (B9 m c) ∗ rest c)
  post c := iprop(StableHlo.held (c : Thread nD τ) (Pipeline.ucRefs τ sig) (B10 m c) ∗ rest c)
  X c := iprop(∃ r, prngReg c r)
  Y c := iprop(∃ r, prngReg c r)
  Z c := Pipeline.unscopedRest (Ix := Unit) (Name := ℕ) (U := UR sig nD τ) (Lvl := ℕ) spec4 c (atRefs (B9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atRefs (B9 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 4 c).Φ 0 = (dat4 (atRefs (B9 m)) c).Φ 0 from rfl]
    exact poolEnter4 (atRefs (B9 m)) c _
  hout c := by
    rw [Pipeline.ownSems0_none, show (pdats m 4 c).Φ (Fin.last _) = (dat4 (atRefs (B9 m)) c).Φ (Fin.last _) from rfl]
    exact poolLeave4 (atRefs (B9 m)) c
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atRefs (B9 m) c) (atRefs (B10 m) c) ((pdats m 4 c).arrAt · cfg4.N) (exitArr4 m c) (exitRest4 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 5's arrays when it ends are the next boundary's contents at them: an input array is left as entered, the
    result array is what the write-backs leave. -/
theorem exitArr5 (c : Dev nD) : ∀ w : Fin cfg5.W, (pdats m 5 c).arrAt w cfg5.N = atRefs (B12 m) c (Pipeline.arrRef spec5 w)
  | ⟨0, _⟩ => (((dat5 (atRefs (B11 m)) c).arrAt_in 0 rfl _).trans (A_eq5 (atRefs (B11 m)) c 0)).trans (B12_of_ne m c _ (by decide)).symm
  | ⟨1, _⟩ => (((dat5 (atRefs (B11 m)) c).arrAt_in 1 rfl _).trans (A_eq5 (atRefs (B11 m)) c 1)).trans (B12_of_ne m c _ (by decide)).symm
  | ⟨2, _⟩ => (((dat5 (atRefs (B11 m)) c).arrAt_in 2 rfl _).trans (A_eq5 (atRefs (B11 m)) c 2)).trans (B12_of_ne m c _ (by decide)).symm
  | ⟨3, _⟩ => (B12_res m c).symm
/-- Every buffer that is not one of region 5's arrays is at the next boundary what it was at this one. -/
theorem exitRest5 (c : Dev nD) : ∀ b, b ∉ Finset.univ.image (Pipeline.arrRef spec5) → atRefs (B12 m) c b = atRefs (B11 m) c b :=
  fun b hb => B12_of_ne m c b fun e => hb (Finset.mem_image.mpr ⟨3, Finset.mem_univ _, e.symm⟩)

set_option backward.isDefEq.respectTransparency.types false in
/-- REGION 5 as a segment: entered from every unscoped buffer at the boundary before it, left with them at the boundary
    after it. Its four arrays are taken out of the unscoped buffers and put back with the result array at what the 25
    write-backs leave; the generator register passes through the invariant; the kernel has no semaphore of its own and
    the core owes nothing. -/
def reg5 : Pipeline.RegionSeg (pcfgs (F := F)) adm (pdats m) () defs₀ Variants.none noLev zeroLev 5 where
  win := launch5.win.to₀
  block_pos := launch5.block_pos
  stage_whole := launch5.stage_whole
  K := PEmpty
  osem k := k.elim
  ho := Pipeline.OwnSemFacts.none _
  hbody c := (body_obligation5 (atRefs (B11 m)) c).loose
  hwaits := Pipeline.hwaits_of_owed_zero _ _ _ _ noLev zeroLev 5 fun _ _ => rfl
  pre c := iprop(StableHlo.held (c : Thread nD τ) (Pipeline.ucRefs τ sig) (B11 m c) ∗ rest c)
  post c := iprop(StableHlo.held (c : Thread nD τ) (Pipeline.ucRefs τ sig) (B12 m c) ∗ rest c)
  X c := iprop(∃ r, prngReg c r)
  Y c := iprop(∃ r, prngReg c r)
  Z c := Pipeline.unscopedRest (Ix := Unit) (Name := ℕ) (U := UR sig nD τ) (Lvl := ℕ) spec5 c (atRefs (B11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atRefs (B11 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 5 c).Φ 0 = Pipeline.ΦA spec5 c from rfl]; unfold Pipeline.ΦA
    iintro ⟨Hgen, -, Hscoped⟩
    isplitl [Hscoped]; · iexact Hscoped
    iexact Hgen
  hout c := by
    rw [Pipeline.ownSems0_none, show (pdats m 5 c).Φ (Fin.last _) = Pipeline.ΦA spec5 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atRefs (B11 m) c) (atRefs (B12 m) c) ((pdats m 5 c).arrAt · cfg5.N) (exitArr5 m c) (exitRest5 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 6's arrays when it ends are the next boundary's contents at them: an input array is left as entered, the
    result array is what the write-backs leave. -/
theorem exitArr6 (c : Dev nD) : ∀ w : Fin cfg6.W, (pdats m 6 c).arrAt w cfg6.N = atRefs (B14 m) c (Pipeline.arrRef spec6 w)
  | ⟨0, _⟩ => (((dat6 (atRefs (B13 m)) c).arrAt_in 0 rfl _).trans (A_eq6 (atRefs (B13 m)) c 0)).trans (B14_of_ne m c _ (by decide)).symm
  | ⟨1, _⟩ => (((dat6 (atRefs (B13 m)) c).arrAt_in 1 rfl _).trans (A_eq6 (atRefs (B13 m)) c 1)).trans (B14_of_ne m c _ (by decide)).symm
  | ⟨2, _⟩ => (((dat6 (atRefs (B13 m)) c).arrAt_in 2 rfl _).trans (A_eq6 (atRefs (B13 m)) c 2)).trans (B14_of_ne m c _ (by decide)).symm
  | ⟨3, _⟩ => (B14_res m c).symm
/-- Every buffer that is not one of region 6's arrays is at the next boundary what it was at this one. -/
theorem exitRest6 (c : Dev nD) : ∀ b, b ∉ Finset.univ.image (Pipeline.arrRef spec6) → atRefs (B14 m) c b = atRefs (B13 m) c b :=
  fun b hb => B14_of_ne m c b fun e => hb (Finset.mem_image.mpr ⟨3, Finset.mem_univ _, e.symm⟩)

set_option backward.isDefEq.respectTransparency.types false in
/-- REGION 6 as a segment: entered from every unscoped buffer at the boundary before it, left with them at the boundary
    after it. Its four arrays are taken out of the unscoped buffers and put back with the result array at what the 25
    write-backs leave; the generator register passes through the invariant; the kernel has no semaphore of its own and
    the core owes nothing. -/
def reg6 : Pipeline.RegionSeg (pcfgs (F := F)) adm (pdats m) () defs₀ Variants.none noLev zeroLev 6 where
  win := launch6.win.to₀
  block_pos := launch6.block_pos
  stage_whole := launch6.stage_whole
  K := PEmpty
  osem k := k.elim
  ho := Pipeline.OwnSemFacts.none _
  hbody c := (body_obligation6 (atRefs (B13 m)) c).loose
  hwaits := Pipeline.hwaits_of_owed_zero _ _ _ _ noLev zeroLev 6 fun _ _ => rfl
  pre c := iprop(StableHlo.held (c : Thread nD τ) (Pipeline.ucRefs τ sig) (B13 m c) ∗ rest c)
  post c := iprop(StableHlo.held (c : Thread nD τ) (Pipeline.ucRefs τ sig) (B14 m c) ∗ rest c)
  X c := iprop(∃ r, prngReg c r)
  Y c := iprop(∃ r, prngReg c r)
  Z c := Pipeline.unscopedRest (Ix := Unit) (Name := ℕ) (U := UR sig nD τ) (Lvl := ℕ) spec6 c (atRefs (B13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atRefs (B13 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 6 c).Φ 0 = Pipeline.ΦA spec6 c from rfl]; unfold Pipeline.ΦA
    iintro ⟨Hgen, -, Hscoped⟩
    isplitl [Hscoped]; · iexact Hscoped
    iexact Hgen
  hout c := by
    rw [Pipeline.ownSems0_none, show (pdats m 6 c).Φ (Fin.last _) = Pipeline.ΦA spec6 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atRefs (B13 m) c) (atRefs (B14 m) c) ((pdats m 6 c).arrAt · cfg6.N) (exitArr6 m c) (exitRest6 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 7's arrays when it ends are the next boundary's contents at them: the row array is left as entered, the
    one-row result is what the last point's write-back leaves. -/
theorem exitArr7 (c : Dev nD) : ∀ w : Fin cfg7.W, (pdats m 7 c).arrAt w cfg7.N = atRefs (B16 m) c (Pipeline.arrRef spec7 w)
  | ⟨0, _⟩ => (((dat7 (atRefs (B15 m)) c).arrAt_in 0 rfl _).trans (A_eq7 (atRefs (B15 m)) c 0)).trans (B16_of_ne m c _ (by decide)).symm
  | ⟨1, _⟩ => (B16_res m c).symm
/-- Every buffer that is not one of region 7's arrays is at the next boundary what it was at this one. -/
theorem exitRest7 (c : Dev nD) : ∀ b, b ∉ Finset.univ.image (Pipeline.arrRef spec7) → atRefs (B16 m) c b = atRefs (B15 m) c b :=
  fun b hb => B16_of_ne m c b fun e => hb (Finset.mem_image.mpr ⟨1, Finset.mem_univ _, e.symm⟩)

set_option backward.isDefEq.respectTransparency.types false in
/-- REGION 7 (the maximum over rows) as a segment: entered from every unscoped buffer at the boundary before it, left with
    them at the boundary after it. The scratch row that carries the running maximum is a scoped buffer: it enters the
    invariant at some contents with the rest of the scoped buffers and is given back at some contents. -/
def reg7 : Pipeline.RegionSeg (pcfgs (F := F)) adm (pdats m) () defs₀ Variants.none noLev zeroLev 7 where
  win := launch7.win.to₀
  block_pos := launch7.block_pos
  stage_whole := launch7.stage_whole
  K := PEmpty
  osem k := k.elim
  ho := Pipeline.OwnSemFacts.none _
  hbody c := (body_obligation7 (atRefs (B15 m)) c).loose
  hwaits := Pipeline.hwaits_of_owed_zero _ _ _ _ noLev zeroLev 7 fun _ _ => rfl
  pre c := iprop(StableHlo.held (c : Thread nD τ) (Pipeline.ucRefs τ sig) (B15 m c) ∗ rest c)
  post c := iprop(StableHlo.held (c : Thread nD τ) (Pipeline.ucRefs τ sig) (B16 m c) ∗ rest c)
  X c := iprop(∃ r, prngReg c r)
  Y c := iprop(∃ r, prngReg c r)
  Z c := Pipeline.unscopedRest (Ix := Unit) (Name := ℕ) (U := UR sig nD τ) (Lvl := ℕ) spec7 c (atRefs (B15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atRefs (B15 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 7 c).Φ 0 = (dat7 (atRefs (B15 m)) c).Φ 0 from rfl]
    exact poolEnter7 (atRefs (B15 m)) c _
  hout c := by
    rw [Pipeline.ownSems0_none, show (pdats m 7 c).Φ (Fin.last _) = (dat7 (atRefs (B15 m)) c).Φ (Fin.last _) from rfl]
    exact poolLeave7 (atRefs (B15 m)) c
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atRefs (B15 m) c) (atRefs (B16 m) c) ((pdats m 7 c).arrAt · cfg7.N) (exitArr7 m c) (exitRest7 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

set_option maxHeartbeats 2000000 in
/-- Region 8's arrays when it ends are the next boundary's contents at them: an input array is left as entered, the
    result array is what the write-backs leave. -/
theorem exitArr8 (c : Dev nD) : ∀ w : Fin cfg8.W, (pdats m 8 c).arrAt w cfg8.N = atRefs (B18 m) c (Pipeline.arrRef spec8 w)
  | ⟨0, _⟩ => (((dat8 (atRefs (B17 m)) c).arrAt_in 0 rfl _).trans (A_eq8 (atRefs (B17 m)) c 0)).trans (B18_of_ne m c _ (by decide)).symm
  | ⟨1, _⟩ => (((dat8 (atRefs (B17 m)) c).arrAt_in 1 rfl _).trans (A_eq8 (atRefs (B17 m)) c 1)).trans (B18_of_ne m c _ (by decide)).symm
  | ⟨2, _⟩ => (((dat8 (atRefs (B17 m)) c).arrAt_in 2 rfl _).trans (A_eq8 (atRefs (B17 m)) c 2)).trans (B18_of_ne m c _ (by decide)).symm
  | ⟨3, _⟩ => (B18_res m c).symm
/-- Every buffer that is not one of region 8's arrays is at the next boundary what it was at this one. -/
theorem exitRest8 (c : Dev nD) : ∀ b, b ∉ Finset.univ.image (Pipeline.arrRef spec8) → atRefs (B18 m) c b = atRefs (B17 m) c b :=
  fun b hb => B18_of_ne m c b fun e => hb (Finset.mem_image.mpr ⟨3, Finset.mem_univ _, e.symm⟩)

set_option backward.isDefEq.respectTransparency.types false in
/-- REGION 8 as a segment: entered from every unscoped buffer at the boundary before it, left with them at the boundary
    after it. Its four arrays are taken out of the unscoped buffers and put back with the result array at what the 25
    write-backs leave; the generator register passes through the invariant; the kernel has no semaphore of its own and
    the core owes nothing. -/
def reg8 : Pipeline.RegionSeg (pcfgs (F := F)) adm (pdats m) () defs₀ Variants.none noLev zeroLev 8 where
  win := launch8.win.to₀
  block_pos := launch8.block_pos
  stage_whole := launch8.stage_whole
  K := PEmpty
  osem k := k.elim
  ho := Pipeline.OwnSemFacts.none _
  hbody c := (body_obligation8 (atRefs (B17 m)) c).loose
  hwaits := Pipeline.hwaits_of_owed_zero _ _ _ _ noLev zeroLev 8 fun _ _ => rfl
  pre c := iprop(StableHlo.held (c : Thread nD τ) (Pipeline.ucRefs τ sig) (B17 m c) ∗ rest c)
  post c := iprop(StableHlo.held (c : Thread nD τ) (Pipeline.ucRefs τ sig) (B18 m c) ∗ rest c)
  X c := iprop(∃ r, prngReg c r)
  Y c := iprop(∃ r, prngReg c r)
  Z c := Pipeline.unscopedRest (Ix := Unit) (Name := ℕ) (U := UR sig nD τ) (Lvl := ℕ) spec8 c (atRefs (B17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atRefs (B17 m) c) fun _ => rfl
    rw [Pipeline.unscopedBufs_held] at hsplit
    iintro ⟨⟨Hbufs, Hgen, Howes⟩, -, -⟩
    ihave Hparts := hsplit $$ Hbufs
    icases Hparts with ⟨Harr, Hother⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hgen]; · iexact Hgen
    iexact Hother
  hin c := by
    rw [show (pdats m 8 c).Φ 0 = Pipeline.ΦA spec8 c from rfl]; unfold Pipeline.ΦA
    iintro ⟨Hgen, -, Hscoped⟩
    isplitl [Hscoped]; · iexact Hscoped
    iexact Hgen
  hout c := by
    rw [Pipeline.ownSems0_none, show (pdats m 8 c).Φ (Fin.last _) = Pipeline.ΦA spec8 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atRefs (B17 m) c) (atRefs (B18 m) c) ((pdats m 8 c).arrAt · cfg8.N) (exitArr8 m c) (exitRest8 m c)
    rw [Pipeline.unscopedBufs_held] at hjoin
    iintro ⟨Harr, Howes, Hgen, Hother⟩
    imodintro
    isplitl [Harr Hother]
    · iapply hjoin; isplitl [Harr] <;> iassumption
    isplitl [Hgen]; · iexact Hgen
    unfold Pipeline.Dat.owesAt Pipeline.owesWithin
    icases Howes with ⟨%W, -, Howes⟩; iexists W; iexact Howes

/-! ## The frame -/

/-- The launch element: the pipeline library's, at every pipeline's staging cells. -/
abbrev launchElt : UR sig nD τ := initOf (Pipeline.cells cfgs cellOf_inj) (Pipeline.launchToks cfgs cellOf_inj)

-- the conditional frame's implicit arguments are found by unifying its conclusion with this one, which takes unfolding
-- plain definitions in a metavariable's type
set_option backward.isDefEq.respectTransparency.types false in
/-- From any memory with zero counters every weakly fair execution of @main on the TensorCores terminates, nothing
    faulting, and every argument array ends as launched: the conditional frame at the nine records above. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m (emb₁ : Emb (UR sig nD τ) 𝕄) () Variants.none noLev zeroLev (fun _ _ => rfl) ρ (outs m) (pdats m)
    0 (fun _ => iprop(emp)) launchElt
    (by
      iintro Hu; imodintro
      isplitl [Hu]
      · iapply (show (ownU launchElt : sProp 𝕄) ⊢ BI.own (emb₁ launchElt) from .rfl)
        iexact Hu
      iapply (show (BI.emp : sProp 𝕄) ⊢ bigSep Finset.univ (fun _ : Dev nD => (BI.emp : sProp 𝕄)) from by rw [BI.bigSep_emp_const])
      iempintro)
    (fun _ => rest)
    (by
      refine Pipeline.initEach noLev zeroLev fun c => ?_
      iintro ⟨⟨-, Howes, -, Hgen, -⟩, -⟩
      imodintro
      isplitl [Hgen]; · iexists _; iexact Hgen
      iexists ∅; iexact Howes)
    (fun c => by iintro ⟨-, Howes⟩; iexact Howes)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)

end Cert.KernelIdeal.Regions

end
-- ==== Proof.KernelIdealValueRun.lean ====
/-
  The same run with every unscoped buffer read at the end: after @main each TensorCore's memory holds, at every
  unscoped buffer, the last boundary's contents `B18`. In particular the program's result array `main_v114` holds what
  region 8's write-backs leave, `res8`, and the argument arrays their launch contents.
-/
import proofs.«115727_j48790828483060_1_alg».proof.Proof.KernelIdealRun

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! The thread states chain: what a host stretch leaves is what the next region is entered from, and back. -/
theorem enter0 (c : Dev nD) : (iprop(StableHlo.held (c : Thread nD τ) (Pipeline.ucRefs τ sig) (V1 m c) ∗ rest c) : sProp 𝕄) ⊢ (reg0 m).pre c := by
  rw [V1_eq]; exact .rfl
theorem leave0 (c : Dev nD) : (reg0 m).post c ⊢ (iprop(StableHlo.held (c : Thread nD τ) (Pipeline.ucRefs τ sig) (V2 m (outs m) c) ∗ rest c) : sProp 𝕄) := by
  rw [V2_eq]; exact .rfl
theorem enter1 (c : Dev nD) : (iprop(StableHlo.held (c : Thread nD τ) (Pipeline.ucRefs τ sig) (V3 m (outs m) c) ∗ rest c) : sProp 𝕄) ⊢ (reg1 m).pre c := by
  rw [V3_eq]; exact .rfl
theorem leave1 (c : Dev nD) : (reg1 m).post c ⊢ (iprop(StableHlo.held (c : Thread nD τ) (Pipeline.ucRefs τ sig) (V4 m (outs m) c) ∗ rest c) : sProp 𝕄) := by
  rw [V4_eq]; exact .rfl
theorem enter2 (c : Dev nD) : (iprop(StableHlo.held (c : Thread nD τ) (Pipeline.ucRefs τ sig) (V5 m (outs m) c) ∗ rest c) : sProp 𝕄) ⊢ (reg2 m).pre c := by
  rw [V5_eq]; exact .rfl
theorem leave2 (c : Dev nD) : (reg2 m).post c ⊢ (iprop(StableHlo.held (c : Thread nD τ) (Pipeline.ucRefs τ sig) (V6 m (outs m) c) ∗ rest c) : sProp 𝕄) := by
  rw [V6_eq]; exact .rfl
theorem enter3 (c : Dev nD) : (iprop(StableHlo.held (c : Thread nD τ) (Pipeline.ucRefs τ sig) (V7 m (outs m) c) ∗ rest c) : sProp 𝕄) ⊢ (reg3 m).pre c := by
  rw [V7_eq]; exact .rfl
theorem leave3 (c : Dev nD) : (reg3 m).post c ⊢ (iprop(StableHlo.held (c : Thread nD τ) (Pipeline.ucRefs τ sig) (V8 m (outs m) c) ∗ rest c) : sProp 𝕄) := by
  rw [V8_eq]; exact .rfl
theorem enter4 (c : Dev nD) : (iprop(StableHlo.held (c : Thread nD τ) (Pipeline.ucRefs τ sig) (V9 m (outs m) c) ∗ rest c) : sProp 𝕄) ⊢ (reg4 m).pre c := by
  rw [V9_eq]; exact .rfl
theorem leave4 (c : Dev nD) : (reg4 m).post c ⊢ (iprop(StableHlo.held (c : Thread nD τ) (Pipeline.ucRefs τ sig) (V10 m (outs m) c) ∗ rest c) : sProp 𝕄) := by
  rw [V10_eq]; exact .rfl
theorem enter5 (c : Dev nD) : (iprop(StableHlo.held (c : Thread nD τ) (Pipeline.ucRefs τ sig) (V11 m (outs m) c) ∗ rest c) : sProp 𝕄) ⊢ (reg5 m).pre c := by
  rw [V11_eq]; exact .rfl
theorem leave5 (c : Dev nD) : (reg5 m).post c ⊢ (iprop(StableHlo.held (c : Thread nD τ) (Pipeline.ucRefs τ sig) (V12 m (outs m) c) ∗ rest c) : sProp 𝕄) := by
  rw [V12_eq]; exact .rfl
theorem enter6 (c : Dev nD) : (iprop(StableHlo.held (c : Thread nD τ) (Pipeline.ucRefs τ sig) (V13 m (outs m) c) ∗ rest c) : sProp 𝕄) ⊢ (reg6 m).pre c := by
  rw [V13_eq]; exact .rfl
theorem leave6 (c : Dev nD) : (reg6 m).post c ⊢ (iprop(StableHlo.held (c : Thread nD τ) (Pipeline.ucRefs τ sig) (V14 m (outs m) c) ∗ rest c) : sProp 𝕄) := by
  rw [V14_eq]; exact .rfl
theorem enter7 (c : Dev nD) : (iprop(StableHlo.held (c : Thread nD τ) (Pipeline.ucRefs τ sig) (V15 m (outs m) c) ∗ rest c) : sProp 𝕄) ⊢ (reg7 m).pre c := by
  rw [V15_eq]; exact .rfl
theorem leave7 (c : Dev nD) : (reg7 m).post c ⊢ (iprop(StableHlo.held (c : Thread nD τ) (Pipeline.ucRefs τ sig) (V16 m (outs m) c) ∗ rest c) : sProp 𝕄) := by
  rw [V16_eq]; exact .rfl
theorem enter8 (c : Dev nD) : (iprop(StableHlo.held (c : Thread nD τ) (Pipeline.ucRefs τ sig) (V17 m (outs m) c) ∗ rest c) : sProp 𝕄) ⊢ (reg8 m).pre c := by
  rw [V17_eq]; exact .rfl
theorem leave8 (c : Dev nD) : (reg8 m).post c ⊢ (iprop(StableHlo.held (c : Thread nD τ) (Pipeline.ucRefs τ sig) (V18 m (outs m) c) ∗ rest c) : sProp 𝕄) := by
  rw [V18_eq]; exact .rfl

set_option backward.isDefEq.respectTransparency.types false in
/-- Every weakly fair execution of @main terminates, and in every final state each TensorCore's unscoped buffers hold the
    last boundary's contents. -/
theorem run_boundaries (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B18 m c b) := by
  refine Pipeline.θ_run_regions_kit_dev (pcfgs (F := F)) adm (pdats m) () cellOf_inj (emb₁ : Emb (UR sig nD τ) 𝕄) defs₀ Variants.none noLev zeroLev m ρ main
    (segs m (outs m) Variants.none noLev zeroLev (fun _ => rest) () (pdats m) (reg0 m) (reg1 m) (reg2 m) (reg3 m) (reg4 m) (reg5 m) (reg6 m) (reg7 m) (reg8 m))
    (fun c Q => by
      rewrite [main_chain c, Seg.run_eq_chain,
        show (segs m (outs m) Variants.none noLev zeroLev (fun _ => rest) () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) 0 (fun _ _ => rfl) (fun _ => iprop(emp)) launchElt
    (by
      iintro Hu; imodintro
      isplitl [Hu]
      · iapply (show (ownU launchElt : sProp 𝕄) ⊢ BI.own (emb₁ launchElt) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => iprop(StableHlo.held (c : Thread nD τ) (Pipeline.ucRefs τ sig) (B18 m c) ∗ ∃ r, prngReg c r))
    (hch := fun c => ⟨.rfl, enter0 m c, leave0 m c, enter1 m c, leave1 m c, enter2 m c, leave2 m c, enter3 m c, leave3 m c, enter4 m c, leave4 m c, enter5 m c, leave5 m c, enter6 m c, leave6 m c, enter7 m c, leave7 m c, enter8 m c, (leave8 m c).trans (by
      rw [V18_eq]
      iintro ⟨Hh, Hgen, Howes⟩
      isplitl [Hh Hgen]
      · isplitl [Hh] <;> iassumption
      iexact Howes)⟩)
    (hinit := ?_) (QY := fun c s => ∀ b ∈ Pipeline.ucRefs τ sig, s.mem (((c : Thread nD τ)).1, b) = B18 m c b)
    (hfin := fun c s' => ?_) (hQ := fun _ h => h)
  · refine Pipeline.initEach noLev zeroLev fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, Howes, -, Hgen, -⟩, -⟩
    imodintro
    isplitl [Hh]; · iexact Hh
    isplitl [Hgen]; · iexists _; iexact Hgen
    iexists ∅; iexact Howes
  · iintro ⟨⟨Hh, -⟩, HSI⟩
    unfold StableHlo.held
    imodintro
    iapply (pointsTo_read_all (Pipeline.ucRefs τ sig) (fun b => (((c : Thread nD τ)).1, b)) (B18 m c) s')
    isplitl [Hh] <;> iassumption

/-- An unscoped TensorCore reference is among those read at the end. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! A buffer that a stretch of host operations does not write is, after the stretch, what it was before. -/
theorem B1_carry (c : Dev nD) (r : Ref sig .tc) (h : r ∉ hostOps0_W) : B1 m c r = B0 m c r :=
  StableHlo.after_of_writes_sub hostOps0 _ hostOps0_writes h
theorem B3_carry (c : Dev nD) (r : Ref sig .tc) (h : r ∉ hostOps1_W) : B3 m c r = B2 m c r :=
  StableHlo.after_of_writes_sub hostOps1 _ hostOps1_writes h
theorem B5_carry (c : Dev nD) (r : Ref sig .tc) (h : r ∉ hostOps2_W) : B5 m c r = B4 m c r :=
  StableHlo.after_of_writes_sub hostOps2 _ hostOps2_writes h
theorem B7_carry (c : Dev nD) (r : Ref sig .tc) (h : r ∉ hostOps3_W) : B7 m c r = B6 m c r :=
  StableHlo.after_of_writes_sub hostOps3 _ hostOps3_writes h
theorem B9_carry (c : Dev nD) (r : Ref sig .tc) (h : r ∉ hostOps4_W) : B9 m c r = B8 m c r :=
  StableHlo.after_of_writes_sub hostOps4 _ hostOps4_writes h
theorem B11_carry (c : Dev nD) (r : Ref sig .tc) (h : r ∉ hostOps5_W) : B11 m c r = B10 m c r :=
  StableHlo.after_of_writes_sub hostOps5 _ hostOps5_writes h
theorem B13_carry (c : Dev nD) (r : Ref sig .tc) (h : r ∉ hostOps6_W) : B13 m c r = B12 m c r :=
  StableHlo.after_of_writes_sub hostOps6 _ hostOps6_writes h
theorem B15_carry (c : Dev nD) (r : Ref sig .tc) (h : r ∉ hostOps7_W) : B15 m c r = B14 m c r :=
  StableHlo.after_of_writes_sub hostOps7 _ hostOps7_writes h
theorem B17_carry (c : Dev nD) (r : Ref sig .tc) (h : r ∉ hostOps8_W) : B17 m c r = B16 m c r :=
  StableHlo.after_of_writes_sub hostOps8 _ hostOps8_writes h

/-! No stretch and no region writes an argument array: at the last boundary each holds its launch contents. -/
theorem B18_arg0 (c : Dev nD) : B18 m c main_arg0 = m ((c : Thread nD τ).loc main_arg0) := by
  rw [← V18_eq]; exact V18_main_arg0 m (outs m) c
theorem B18_arg1 (c : Dev nD) : B18 m c main_arg1 = m ((c : Thread nD τ).loc main_arg1) := by
  rw [← V18_eq]; exact V18_main_arg1 m (outs m) c
theorem B18_arg2 (c : Dev nD) : B18 m c main_arg2 = m ((c : Thread nD τ).loc main_arg2) := by
  rw [← V18_eq]; exact V18_main_arg2 m (outs m) c
theorem B18_arg3 (c : Dev nD) : B18 m c main_arg3 = m ((c : Thread nD τ).loc main_arg3) := by
  rw [← V18_eq]; exact V18_main_arg3 m (outs m) c
theorem B18_arg4 (c : Dev nD) : B18 m c main_arg4 = m ((c : Thread nD τ).loc main_arg4) := by
  rw [← V18_eq]; exact V18_main_arg4 m (outs m) c
theorem B18_arg5 (c : Dev nD) : B18 m c main_arg5 = m ((c : Thread nD τ).loc main_arg5) := by
  rw [← V18_eq]; exact V18_main_arg5 m (outs m) c
theorem B18_arg6 (c : Dev nD) : B18 m c main_arg6 = m ((c : Thread nD τ).loc main_arg6) := by
  rw [← V18_eq]; exact V18_main_arg6 m (outs m) c
theorem B18_arg7 (c : Dev nD) : B18 m c main_arg7 = m ((c : Thread nD τ).loc main_arg7) := by
  rw [← V18_eq]; exact V18_main_arg7 m (outs m) c
theorem B18_arg8 (c : Dev nD) : B18 m c main_arg8 = m ((c : Thread nD τ).loc main_arg8) := by
  rw [← V18_eq]; exact V18_main_arg8 m (outs m) c
theorem B18_arg9 (c : Dev nD) : B18 m c main_arg9 = m ((c : Thread nD τ).loc main_arg9) := by
  rw [← V18_eq]; exact V18_main_arg9 m (outs m) c
theorem B18_arg10 (c : Dev nD) : B18 m c main_arg10 = m ((c : Thread nD τ).loc main_arg10) := by
  rw [← V18_eq]; exact V18_main_arg10 m (outs m) c
theorem B18_arg11 (c : Dev nD) : B18 m c main_arg11 = m ((c : Thread nD τ).loc main_arg11) := by
  rw [← V18_eq]; exact V18_main_arg11 m (outs m) c
theorem B18_arg12 (c : Dev nD) : B18 m c main_arg12 = m ((c : Thread nD τ).loc main_arg12) := by
  rw [← V18_eq]; exact V18_main_arg12 m (outs m) c
theorem B18_arg13 (c : Dev nD) : B18 m c main_arg13 = m ((c : Thread nD τ).loc main_arg13) := by
  rw [← V18_eq]; exact V18_main_arg13 m (outs m) c
theorem B18_arg14 (c : Dev nD) : B18 m c main_arg14 = m ((c : Thread nD τ).loc main_arg14) := by
  rw [← V18_eq]; exact V18_main_arg14 m (outs m) c
theorem B18_arg15 (c : Dev nD) : B18 m c main_arg15 = m ((c : Thread nD τ).loc main_arg15) := by
  rw [← V18_eq]; exact V18_main_arg15 m (outs m) c

/-- The result array at the last boundary is what region 8's write-backs leave. -/
theorem B18_result (c : Dev nD) : B18 m c main_v114 = res8 m c := B18_res m c

end Cert.KernelIdeal.Regions

end
-- ==== Proof.NetSpec.lean ====
/-
  The reference network as named whole-array functions.

  A three-layer graph network over 50000 nodes and 800000 directed edges.  Each layer is a
  symmetric-normalised graph convolution (with one self-loop per node), a maximum over all the
  nodes of every feature column, and a dense merge of each node's row with that column maximum.
  Every function below is spelt with the array operations the reference program itself uses, in
  the reference's own order of operands, so that a stretch of the reference's operations read at
  its result buffer is the matching function applied to the stretch's inputs.
-/
import proofs.«115727_j48790828483060_1_alg».proof.ReferenceIdeal
import Idealize.ShloMosaic.PureOps

noncomputable section

namespace Cert.Bridge

open Idealize.ShloMosaic Cert.ReferenceIdeal Cert.ReferenceIdeal.Facts₀

variable {F : FTy → Type} [FloatOps F] [Facts₀]

/-! ## The input and the edge list -/

/-- The node features with the random features appended: 128 + 16 = 144 columns. -/
def catIn (x : Vec F S50000x128 .f32) (noise : Vec F S50000x16 .f32) : Vec F S50000x144 .f32 :=
  concatenate S50000x144 1 [⟨S50000x128, x⟩, ⟨S50000x16, noise⟩] concatenates_S50000x128_S50000x16_S50000x144_d1

/-- Row 0 of the edge list: the source node of every edge. -/
def edgeSrc (ei : Vec F S2x800000 .i32) : Vec F S800000 .i32 :=
  fun i => shapeCast S800000 (extractStridedSlice S1x800000 ![0, 0] ei slices_S2x800000_S1x800000_0_0) shapeCasts_S1x800000_S800000 i

/-- Row 1 of the edge list: the target node of every edge. -/
def edgeDst (ei : Vec F S2x800000 .i32) : Vec F S800000 .i32 :=
  fun i => shapeCast S800000 (extractStridedSlice S1x800000 ![1, 0] ei slices_S2x800000_S1x800000_1_0) shapeCasts_S1x800000_S800000 i

/-- A node index read the way array indexing reads it: a negative index counts from the end
    (50000 is added to it), any other index is itself. -/
def normIdx (v : Vec F S800000 .i32) : Vec F S800000 .i32 :=
  select (cmpi .slt v (broadcastInDim S800000 ![] bcast_S_S800000 (constantI S_ 32 0#32 : Vec F S_ .i32)))
    (addi v (broadcastInDim S800000 ![] bcast_S_S800000 (constantI S_ 32 50000#32 : Vec F S_ .i32))) v

/-! ## The graph-only quantities -/

/-- The inverse square root of every node's degree: the number of edges that end at the node,
    plus one for its self-loop. -/
def invSqrtDeg (dst : Vec F S800000 .i32) : Vec F S50000 .f32 :=
  Host.rsqrt
    (addf
      (Host.scatterAdd scatter_S50000_S800000x1_S800000_n_0_0_1
        (broadcastInDim S50000 ![] bcast_S_S50000 (constant S_ .f32 0x00000000#32 : Vec F S_ .f32))
        (broadcastInDim S800000x1 ![0] bcast_S800000_S800000x1_0 dst)
        (broadcastInDim S800000 ![] bcast_S_S800000 (constant S_ .f32 0x3F800000#32 : Vec F S_ .f32)))
      (broadcastInDim S50000 ![] bcast_S_S50000 (constant S_ .f32 0x3F800000#32 : Vec F S_ .f32)))

/-- The weight of every edge: the product of the inverse square-root degrees of its two ends. -/
def edgeNormOf (src dst : Vec F S800000 .i32) : Vec F S800000 .f32 :=
  mulf
    (Host.gather gather_S50000_S800000x1_S800000_n_0_n_n_0_1_1 (invSqrtDeg dst)
      (broadcastInDim S800000x1 ![0] bcast_S800000_S800000x1_0 (normIdx src)))
    (Host.gather gather_S50000_S800000x1_S800000_n_0_n_n_0_1_1 (invSqrtDeg dst)
      (broadcastInDim S800000x1 ![0] bcast_S800000_S800000x1_0 (normIdx dst)))

/-- The weight of every node's self-loop: its inverse degree. -/
def selfWOf (dst : Vec F S800000 .i32) : Vec F S50000 .f32 :=
  mulf (invSqrtDeg dst) (invSqrtDeg dst)

/-- The edge weights as a function of the edge list alone. -/
def edgeNorm (ei : Vec F S2x800000 .i32) : Vec F S800000 .f32 := edgeNormOf (edgeSrc ei) (edgeDst ei)

/-- The self-loop weights as a function of the edge list alone. -/
def selfW (ei : Vec F S2x800000 .i32) : Vec F S50000 .f32 := selfWOf (edgeDst ei)

/-! ## One convolution after its dense product -/

/-- The aggregation over given weights: every edge carries its source row, scaled by the edge's
    weight, to its target row, where the carried rows are summed from zero; to that are added the
    node's own row scaled by its self-loop weight, and then the bias row. -/
def aggregateWith (xw : Vec F S50000x128 .f32) (src dst : Vec F S800000 .i32) (norm : Vec F S800000 .f32)
    (selfw : Vec F S50000 .f32) (b : Vec F S128 .f32) : Vec F S50000x128 .f32 :=
  addf
    (addf
      (Host.scatterAdd scatter_S50000x128_S800000x1_S800000x128_1_0_0_1
        (broadcastInDim S50000x128 ![] bcast_S_S50000x128 (constant S_ .f32 0x00000000#32 : Vec F S_ .f32))
        (broadcastInDim S800000x1 ![0] bcast_S800000_S800000x1_0 dst)
        (mulf
          (Host.gather gather_S50000x128_S800000x1_S800000x128_1_0_n_n_0_1_1128 xw
            (broadcastInDim S800000x1 ![0] bcast_S800000_S800000x1_0 (normIdx src)))
          (broadcastInDim S800000x128 ![0, 1] bcast_S800000x1_S800000x128_0_1
            (broadcastInDim S800000x1 ![0] bcast_S800000_S800000x1_0 norm))))
      (mulf xw
        (broadcastInDim S50000x128 ![0, 1] bcast_S50000x1_S50000x128_0_1
          (broadcastInDim S50000x1 ![0] bcast_S50000_S50000x1_0 selfw))))
    (broadcastInDim S50000x128 ![0, 1] bcast_S1x128_S50000x128_0_1
      (broadcastInDim S1x128 ![1] bcast_S128_S1x128_1 b))

/-- The aggregation over the source and target vectors, with the weights the graph gives. -/
def aggregateOf (xw : Vec F S50000x128 .f32) (src dst : Vec F S800000 .i32) (b : Vec F S128 .f32) : Vec F S50000x128 .f32 :=
  aggregateWith xw src dst (edgeNormOf src dst) (selfWOf dst) b

/-- The aggregation over the edge list. -/
def aggregate (xw : Vec F S50000x128 .f32) (ei : Vec F S2x800000 .i32) (b : Vec F S128 .f32) : Vec F S50000x128 .f32 :=
  aggregateWith xw (edgeSrc ei) (edgeDst ei) (edgeNorm ei) (selfW ei) b

theorem aggregate_eq_of (xw : Vec F S50000x128 .f32) (ei : Vec F S2x800000 .i32) (b : Vec F S128 .f32) :
    aggregate xw ei b = aggregateOf xw (edgeSrc ei) (edgeDst ei) b := rfl

/-! ## The pooled maximum and the merge -/

/-- The maximum of every column over all the rows, from minus infinity, as one row. -/
def rowMax (g : Vec F S50000x128 .f32) : Vec F S1x128 .f32 :=
  broadcastInDim S1x128 ![1] bcast_S128_S1x128_1
    (Host.reduce FloatOps.maximumf g (constant S_ .f32 0xFF800000#32 : Vec F S_ .f32) reducesTo_S50000x128_S128_d0 h_S_)

/-- Every row followed by the row of column maxima: 256 columns. -/
def withMax (g : Vec F S50000x128 .f32) : Vec F S50000x256 .f32 :=
  concatenate S50000x256 1
    [⟨S50000x128, g⟩, ⟨S50000x128, broadcastInDim S50000x128 ![0, 1] bcast_S1x128_S50000x128_0_1 (rowMax g)⟩]
    concatenates_S50000x128_S50000x128_S50000x256_d1

/-- The merge to 128 columns: the 256-column rows times the merge matrix, plus the merge bias row. -/
def mergeRef (g : Vec F S50000x128 .f32) (M : Vec F S256x128 .f32) (mb : Vec F S128 .f32) : Vec F S50000x128 .f32 :=
  addf (Host.dotGeneral dot_S50000x256_S256x128_S50000x128_1_0_0_1_n_n none (withMax g) M)
    (broadcastInDim S50000x128 ![0, 1] bcast_S1x128_S50000x128_0_1 (broadcastInDim S1x128 ![1] bcast_S128_S1x128_1 mb))

/-- The last layer's merge, to 64 columns. -/
def mergeRef64 (g : Vec F S50000x128 .f32) (M : Vec F S256x64 .f32) (mb : Vec F S64 .f32) : Vec F S50000x64 .f32 :=
  addf (Host.dotGeneral dot_S50000x256_S256x64_S50000x64_1_0_0_1_n_n none (withMax g) M)
    (broadcastInDim S50000x64 ![0, 1] bcast_S1x64_S50000x64_0_1 (broadcastInDim S1x64 ![1] bcast_S64_S1x64_1 mb))

/-- The positive part, entry by entry. -/
def reluRef (x : Vec F S50000x128 .f32) : Vec F S50000x128 .f32 :=
  maximumf x (broadcastInDim S50000x128 ![] bcast_S_S50000x128 (constant S_ .f32 0x00000000#32 : Vec F S_ .f32))

/-! ## The dense products in front of the convolutions -/

/-- The first layer's product: 144 columns to 128. -/
def xwRef144 (h : Vec F S50000x144 .f32) (W : Vec F S144x128 .f32) : Vec F S50000x128 .f32 :=
  Host.dotGeneral dot_S50000x144_S144x128_S50000x128_1_0_0_1_n_n none h W

/-- The later layers' product: 128 columns to 128. -/
def xwRef128 (h : Vec F S50000x128 .f32) (W : Vec F S128x128 .f32) : Vec F S50000x128 .f32 :=
  Host.dotGeneral dot_S50000x128_S128x128_S50000x128_1_0_0_1_n_n none h W

/-! ## The network -/

/-- The three layers in order; the positive part follows the first two merges only. -/
def refNet (x : Vec F S50000x128 .f32) (ei : Vec F S2x800000 .i32) (noise : Vec F S50000x16 .f32)
    (W0 : Vec F S144x128 .f32) (b0 : Vec F S128 .f32) (W1 : Vec F S128x128 .f32) (b1 : Vec F S128 .f32)
    (W2 : Vec F S128x128 .f32) (b2 : Vec F S128 .f32)
    (M0 : Vec F S256x128 .f32) (mb0 : Vec F S128 .f32) (M1 : Vec F S256x128 .f32) (mb1 : Vec F S128 .f32)
    (M2 : Vec F S256x64 .f32) (mb2 : Vec F S64 .f32) : Vec F S50000x64 .f32 :=
  mergeRef64
    (aggregate
      (xwRef128
        (reluRef (mergeRef
          (aggregate
            (xwRef128
              (reluRef (mergeRef (aggregate (xwRef144 (catIn x noise) W0) ei b0) M0 mb0))
              W1)
            ei b1)
          M1 mb1))
        W2)
      ei b2)
    M2 mb2

end Cert.Bridge

end
-- ==== Proof.KernelIdealStretches.lean ====
import proofs.«115727_j48790828483060_1_alg».proof.Proof.Gen.KernelIdeal.Launch
import proofs.«115727_j48790828483060_1_alg».proof.Proof.NetSpec
import proofs.«115727_j48790828483060_1_alg».proof.Proof.Gen.ReferenceIdeal
import Idealize.ShloMosaic.Lib.StableHlo.Run
import Idealize.ShloMosaic.PureOps.Ideal.Laws

/-!
# The stretches of array operations between the kernel regions, read at their results

Between two kernel regions the program applies a fixed list of whole-array operations to the buffers. Whatever the
buffers hold before such a stretch (`W`), each buffer it writes holds afterwards a fixed expression of what it read:

* the first stretch builds, from the arguments alone, the input with the random features appended, the sources and
  targets of the edges, the weight of every edge, the weight of every self-loop, and a row of zeros;
* before each pooling region a stretch aggregates along the edges: gather the source rows, scale by the edge weights,
  sum into the target rows, add the self-loop term and the bias;
* before each merging region a stretch splits the merge matrix into its upper and lower halves and forms the bias row
  "pooled row times lower half, plus merge bias";
* before the second and third dense regions a stretch writes a row of zeros.
-/

set_option maxRecDepth 16384

noncomputable section

namespace Cert.KernelIdeal.Regions

open Cert.KernelIdeal Cert.KernelIdeal.Gen
open Idealize.ShloMosaic Idealize.ShloMosaic.TcCoe
open Idealize.SL Idealize.SL.Sem
open Cert.Bridge

variable (W : Valuation τ sig (Elt Ideal))

/-- The row of zeros the dense regions add. -/
abbrev zeroRow : FVec Ideal S1x128 .f32 := broadcastInDim S1x128 ![] bcast_S_S1x128 (constant (F := Ideal) S_ .f32 0x00000000#32)

/-- The upper and lower halves of a merge matrix, and the bias row of a merge. -/
abbrev upper128 (M : FVec Ideal S256x128 .f32) : FVec Ideal S128x128 .f32 := extractStridedSlice S128x128 ![0, 0] M slices_S256x128_S128x128_0_0
abbrev lower128 (M : FVec Ideal S256x128 .f32) : FVec Ideal S128x128 .f32 := extractStridedSlice S128x128 ![128, 0] M slices_S256x128_S128x128_128_0
abbrev biasRow128 (mx : FVec Ideal S1x128 .f32) (M : FVec Ideal S256x128 .f32) (mb : FVec Ideal S128 .f32) : FVec Ideal S1x128 .f32 :=
  addf (Host.dotGeneral (F := Ideal) dot_S1x128_S128x128_S1x128_1_0_0_1_n_n none mx (lower128 M)) (broadcastInDim S1x128 ![1] bcast_S128_S1x128_1 mb)
abbrev upper64 (M : FVec Ideal S256x64 .f32) : FVec Ideal S128x64 .f32 := extractStridedSlice S128x64 ![0, 0] M slices_S256x64_S128x64_0_0
abbrev lower64 (M : FVec Ideal S256x64 .f32) : FVec Ideal S128x64 .f32 := extractStridedSlice S128x64 ![128, 0] M slices_S256x64_S128x64_128_0
abbrev biasRow64 (mx : FVec Ideal S1x128 .f32) (M : FVec Ideal S256x64 .f32) (mb : FVec Ideal S64 .f32) : FVec Ideal S1x64 .f32 :=
  addf (Host.dotGeneral (F := Ideal) dot_S1x128_S128x64_S1x64_1_0_0_1_n_n none mx (lower64 M)) (broadcastInDim S1x64 ![1] bcast_S64_S1x64_1 mb)

/-! ## The first stretch: the graph's quantities, from the arguments -/

set_option maxHeartbeats 4000000 in
/-- The input with the random features appended. -/
theorem stretch0_cat : StableHlo.after hostOps0 W main_v4 = catIn (W main_arg0) (W main_arg3) := by
  after_results_simp <;> rfl

set_option maxHeartbeats 4000000 in
/-- The source of every edge. -/
theorem stretch0_src : StableHlo.after hostOps0 W main_v1 = edgeSrc (W main_arg1) := by
  after_results_simp <;> rfl

set_option maxHeartbeats 4000000 in
/-- The target of every edge. -/
theorem stretch0_dst : StableHlo.after hostOps0 W main_v3 = edgeDst (W main_arg1) := by
  after_results_simp <;> rfl

set_option maxHeartbeats 4000000 in
/-- The weight of every edge. -/
theorem stretch0_norm : StableHlo.after hostOps0 W main_v26 = edgeNorm (W main_arg1) := by
  after_results_simp <;> rfl

set_option maxHeartbeats 4000000 in
/-- The weight of every self-loop. -/
theorem stretch0_selfw : StableHlo.after hostOps0 W main_v27 = selfW (W main_arg1) := by
  after_results_simp <;> rfl

set_option maxHeartbeats 4000000 in
/-- A row of zeros. -/
theorem stretch0_zero : StableHlo.after hostOps0 W main_v28 = zeroRow := by
  after_results_simp <;> rfl

/-! ## The aggregations -/

set_option maxHeartbeats 4000000 in
/-- The first layer's aggregation of the product array. -/
theorem stretch1_agg : StableHlo.after hostOps1 W main_v49 = aggregateWith (W main_v29) (W main_v1) (W main_v3) (W main_v26) (W main_v27) (W main_arg5) := by
  after_results_simp <;> rfl

set_option maxHeartbeats 4000000 in
/-- The second layer's aggregation. -/
theorem stretch4_agg : StableHlo.after hostOps4 W main_v78 = aggregateWith (W main_v58) (W main_v1) (W main_v3) (W main_v26) (W main_v27) (W main_arg7) := by
  after_results_simp <;> rfl

set_option maxHeartbeats 4000000 in
/-- The third layer's aggregation. -/
theorem stretch7_agg : StableHlo.after hostOps7 W main_v107 = aggregateWith (W main_v87) (W main_v1) (W main_v3) (W main_v26) (W main_v27) (W main_arg9) := by
  after_results_simp <;> rfl

/-! ## The merges' right factors and bias rows -/

set_option maxHeartbeats 4000000 in
/-- The upper half of the first merge matrix. -/
theorem stretch2_upper : StableHlo.after hostOps2 W main_v51 = upper128 (W main_arg10) := by
  after_results_simp <;> rfl

set_option maxHeartbeats 4000000 in
/-- The first merge's bias row. -/
theorem stretch2_bias : StableHlo.after hostOps2 W main_v55 = biasRow128 (W main_v50) (W main_arg10) (W main_arg11) := by
  after_results_simp <;> rfl

set_option maxHeartbeats 4000000 in
/-- The upper half of the second merge matrix. -/
theorem stretch5_upper : StableHlo.after hostOps5 W main_v80 = upper128 (W main_arg12) := by
  after_results_simp <;> rfl

set_option maxHeartbeats 4000000 in
/-- The second merge's bias row. -/
theorem stretch5_bias : StableHlo.after hostOps5 W main_v84 = biasRow128 (W main_v79) (W main_arg12) (W main_arg13) := by
  after_results_simp <;> rfl

set_option maxHeartbeats 4000000 in
/-- The upper half of the third merge matrix. -/
theorem stretch8_upper : StableHlo.after hostOps8 W main_v109 = upper64 (W main_arg14) := by
  after_results_simp <;> rfl

set_option maxHeartbeats 4000000 in
/-- The third merge's bias row. -/
theorem stretch8_bias : StableHlo.after hostOps8 W main_v113 = biasRow64 (W main_v108) (W main_arg14) (W main_arg15) := by
  after_results_simp <;> rfl

/-! ## The rows of zeros before the second and third dense regions -/

set_option maxHeartbeats 4000000 in
/-- A row of zeros. -/
theorem stretch3_zero : StableHlo.after hostOps3 W main_v57 = zeroRow := by
  after_results_simp <;> rfl

set_option maxHeartbeats 4000000 in
/-- A row of zeros. -/
theorem stretch6_zero : StableHlo.after hostOps6 W main_v86 = zeroRow := by
  after_results_simp <;> rfl

end Cert.KernelIdeal.Regions
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.PayLinear.lean ====
/-
  The three kinds of dense-layer payloads of the kernel, read at an output index over the extended reals.

  Each body multiplies its row tile by a weight on the matrix unit into a zero accumulator and adds a one-row bias to
  every row; two of them then take the maximum with zero. With every float operation exact and a change of float format
  the identity, the value at row `p` and column `q` is the contraction sum `∑ k, a(p, k) · w(k, q)` plus the bias at
  column `q` (and its maximum with zero where the body rectifies).
-/
import proofs.«115727_j48790828483060_1_alg».proof.Proof.Gen.KernelIdeal.Skeleton
import proofs.«115727_j48790828483060_1_alg».proof.Proof.LibDense

noncomputable section

open scoped BigOperators

namespace Cert.Bridge

open Idealize.ShloMosaic Idealize.ShloMosaic.ValueIdx Cert.KernelIdeal Cert.KernelIdeal.Gen Cert.Dense

/-- A plain matmul into a zero accumulator plus a one-row bias on every row, at `(p, q)`. -/
theorem affine_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![M, K]⟩ φ₁) (r : FVec Ideal ⟨2, ![K, N]⟩ φ₂) (b : FVec Ideal ⟨2, ![1, N]⟩ .f32)
    (h : (⟨2, ![1, N]⟩ : Shape).Broadcasts ⟨2, ![M, N]⟩) (p : Fin M) (q : Fin N) :
    addf (matmul (F := Ideal) D none l r (constant ⟨2, ![M, N]⟩ .f32 0x00000000#32)) (broadcastTo ⟨2, ![M, N]⟩ b h) (ix2 p q)
      = (∑ k : Fin K, l (ix2 p k) * r (ix2 k q)) + b (ix2 (0 : Fin 1) q) := by
  rw [addf_apply, matmul_zero_eq_mm D h1 h2 h3 h4 h5 h6, mm_apply, broadcastTo_1b_ab_apply]

/-- The same followed by the maximum with a zero splat. -/
theorem reluAffine_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![M, K]⟩ φ₁) (r : FVec Ideal ⟨2, ![K, N]⟩ φ₂) (b : FVec Ideal ⟨2, ![1, N]⟩ .f32)
    (h : (⟨2, ![1, N]⟩ : Shape).Broadcasts ⟨2, ![M, N]⟩) (p : Fin M) (q : Fin N) :
    maximumf (addf (matmul (F := Ideal) D none l r (constant ⟨2, ![M, N]⟩ .f32 0x00000000#32)) (broadcastTo ⟨2, ![M, N]⟩ b h))
        (broadcast ⟨2, ![M, N]⟩ (Scalar.ofBits (F := Ideal) .f32 0x00000000#32)) (ix2 p q)
      = max ((∑ k : Fin K, l (ix2 p k) * r (ix2 k q)) + b (ix2 (0 : Fin 1) q)) 0 := by
  rw [maximumf_apply, affine_apply D h1 h2 h3 h4 h5 h6, broadcast_apply]
  show max _ (Ideal.ofBits .f32 0x00000000#32) = _
  rw [Ideal.ofBits_zero_f32]

theorem k0_pay1_apply (a : Vec Ideal S2000x144 .f32) (w : Vec Ideal S144x128 .f32) (b : Vec Ideal S1x128 .f32)
    (p : Fin 2000) (q : Fin 128) :
    k0_pay1 (F := Ideal) a w b (ix2 p q) = (∑ k : Fin 144, a (ix2 p k) * w (ix2 k q)) + b (ix2 (0 : Fin 1) q) := by
  unfold k0_pay1
  simp only [shapeCast_self]
  exact affine_apply dot_S2000x144_S144x128_S2000x128_1_0_0_1_n_n rfl rfl rfl rfl rfl rfl _ _ b _ p q

theorem k3_pay1_apply (a : Vec Ideal S2000x128 .f32) (w : Vec Ideal S128x128 .f32) (b : Vec Ideal S1x128 .f32)
    (p : Fin 2000) (q : Fin 128) :
    k3_pay1 (F := Ideal) a w b (ix2 p q) = (∑ k : Fin 128, a (ix2 p k) * w (ix2 k q)) + b (ix2 (0 : Fin 1) q) := by
  unfold k3_pay1
  simp only [shapeCast_self]
  exact affine_apply dot_S2000x128_S128x128_S2000x128_1_0_0_1_n_n rfl rfl rfl rfl rfl rfl _ _ b _ p q

theorem k6_pay1_apply (a : Vec Ideal S2000x128 .f32) (w : Vec Ideal S128x128 .f32) (b : Vec Ideal S1x128 .f32)
    (p : Fin 2000) (q : Fin 128) :
    k6_pay1 (F := Ideal) a w b (ix2 p q) = (∑ k : Fin 128, a (ix2 p k) * w (ix2 k q)) + b (ix2 (0 : Fin 1) q) := by
  unfold k6_pay1
  simp only [shapeCast_self]
  exact affine_apply dot_S2000x128_S128x128_S2000x128_1_0_0_1_n_n rfl rfl rfl rfl rfl rfl _ _ b _ p q

theorem k2_pay1_apply (a : Vec Ideal S2000x128 .f32) (w : Vec Ideal S128x128 .f32) (b : Vec Ideal S1x128 .f32)
    (p : Fin 2000) (q : Fin 128) :
    k2_pay1 (F := Ideal) a w b (ix2 p q)
      = max ((∑ k : Fin 128, a (ix2 p k) * w (ix2 k q)) + b (ix2 (0 : Fin 1) q)) 0 := by
  unfold k2_pay1
  simp only [shapeCast_self]
  exact reluAffine_apply dot_S2000x128_S128x128_S2000x128_1_0_0_1_n_n rfl rfl rfl rfl rfl rfl _ _ b _ p q

theorem k5_pay1_apply (a : Vec Ideal S2000x128 .f32) (w : Vec Ideal S128x128 .f32) (b : Vec Ideal S1x128 .f32)
    (p : Fin 2000) (q : Fin 128) :
    k5_pay1 (F := Ideal) a w b (ix2 p q)
      = max ((∑ k : Fin 128, a (ix2 p k) * w (ix2 k q)) + b (ix2 (0 : Fin 1) q)) 0 := by
  unfold k5_pay1
  simp only [shapeCast_self]
  exact reluAffine_apply dot_S2000x128_S128x128_S2000x128_1_0_0_1_n_n rfl rfl rfl rfl rfl rfl _ _ b _ p q

theorem k8_pay1_apply (a : Vec Ideal S2000x128 .f32) (w : Vec Ideal S128x64 .f32) (b : Vec Ideal S1x64 .f32)
    (p : Fin 2000) (q : Fin 64) :
    k8_pay1 (F := Ideal) a w b (ix2 p q) = (∑ k : Fin 128, a (ix2 p k) * w (ix2 k q)) + b (ix2 (0 : Fin 1) q) := by
  unfold k8_pay1
  simp only [shapeCast_self]
  exact affine_apply dot_S2000x128_S128x64_S2000x64_1_0_0_1_n_n rfl rfl rfl rfl rfl rfl _ _ b _ p q

end Cert.Bridge

end
-- ==== Proof.PayMaxPool.lean ====
/-
  The max-pool payloads of the kernel, read at an index over the extended reals.

  The running maximum is kept in a one-row buffer. At the first grid point the body stores a row of `-∞`, the least
  extended real `⊥`. At every point it then stores, in column `q`, the maximum of the buffer's entry and the column
  maximum of the row tile: `max (acc q) (sup over the 2000 rows p of tile (p, q))`, the supremum of a finite family
  of extended reals (which is `⊥` over an empty family, and is the fold of `max` from `⊥`).
-/
import proofs.«115727_j48790828483060_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx Cert.KernelIdeal Cert.KernelIdeal.Gen

/-- The word `0xFF800000` is `-∞`. -/
theorem ofBits_negInf_f32 : Ideal.ofBits .f32 0xFF800000#32 = (⊥ : EReal) := by simp [Ideal.ofBits, Ideal.ieee]

/-- Folding `max` from `⊥` over a finite family is its supremum. -/
theorem fold_max_bot_eq_sup {ι : Type*} (s : Finset ι) (f : ι → EReal) : s.fold max (⊥ : EReal) f = s.sup f := rfl

/-- The source index of a reduction over the rows of a `[2000, 128]` array, above lane `q` with row `p`. -/
theorem lift_rows (h : S2000x128.Reduces [0] S128) (q : Fin 128) (p : Fin 2000) :
    h.lift (ix1 q) p = ix2 p q :=
  funext fun a => Fin.ext (by
    show h.liftVal (ix1 q) p.val a = (ix2 p q a).val
    match a with
    | ⟨0, _⟩ => rfl
    | ⟨1, _⟩ => rfl)

/-- The column maxima of a row tile laid out as one row, joined with an accumulator row. -/
theorem poolStep_apply (tile : FVec Ideal S2000x128 .f32) (acc : FVec Ideal S1x128 .f32)
    (h : S2000x128.Reduces [0] S128) (hφ : FKind.Formats .f32) (hacc : (0xFF800000#32 : BitVec 32) = FKind.maximumf.neutral .f32 hφ)
    (hc : S128.ShapeCasts S1x128) (u : Fin 1) (q : Fin 128) :
    maximumf acc (shapeCast S1x128 (multiReduction (F := Ideal) .maximumf [0] S128 tile 0xFF800000#32 h hφ hacc) hc) (ix2 u q)
      = max (acc (ix2 u q)) (Finset.univ.sup fun p : Fin 2000 => tile (ix2 p q)) := by
  rw [maximumf_apply, shapeCast_a_1a_apply]
  refine congrArg (max (acc (ix2 u q))) ?_
  refine (Ideal.multiReduction_maximumf_single tile 0xFF800000#32 h hφ hacc (ix1 q)).trans ?_
  have e : (fun p : Fin 2000 => tile (h.lift (ix1 q) p)) = fun p : Fin 2000 => tile (ix2 p q) :=
    funext fun p => congrArg tile (lift_rows h q p)
  have e0 : (Finset.univ : Finset (Fin 2000)).fold max (Ideal.ofBits .f32 0xFF800000#32) (fun p : Fin 2000 => tile (h.lift (ix1 q) p))
      = (Finset.univ : Finset (Fin 2000)).sup (fun p : Fin 2000 => tile (h.lift (ix1 q) p)) := by
    rw [ofBits_negInf_f32, fold_max_bot_eq_sup]
  exact e0.trans (congrArg (Finset.univ : Finset (Fin 2000)).sup e)

theorem k1_pay1_apply (j : S1x128.Idx) : k1_pay1 (F := Ideal) j = (⊥ : EReal) := by
  unfold k1_pay1
  simp only [shapeCast_self]
  exact ofBits_negInf_f32

theorem k4_pay1_apply (j : S1x128.Idx) : k4_pay1 (F := Ideal) j = (⊥ : EReal) := by
  unfold k4_pay1
  simp only [shapeCast_self]
  exact ofBits_negInf_f32

theorem k7_pay1_apply (j : S1x128.Idx) : k7_pay1 (F := Ideal) j = (⊥ : EReal) := by
  unfold k7_pay1
  simp only [shapeCast_self]
  exact ofBits_negInf_f32

theorem k1_pay2_apply (tile : Vec Ideal S2000x128 .f32) (acc : Vec Ideal S1x128 .f32) (u : Fin 1) (q : Fin 128) :
    k1_pay2 (F := Ideal) tile acc (ix2 u q)
      = max (acc (ix2 u q)) (Finset.univ.sup fun p : Fin 2000 => tile (ix2 p q)) := by
  unfold k1_pay2
  simp only [shapeCast_self]
  exact poolStep_apply tile acc _ _ _ _ u q

theorem k4_pay2_apply (tile : Vec Ideal S2000x128 .f32) (acc : Vec Ideal S1x128 .f32) (u : Fin 1) (q : Fin 128) :
    k4_pay2 (F := Ideal) tile acc (ix2 u q)
      = max (acc (ix2 u q)) (Finset.univ.sup fun p : Fin 2000 => tile (ix2 p q)) := by
  unfold k4_pay2
  simp only [shapeCast_self]
  exact poolStep_apply tile acc _ _ _ _ u q

theorem k7_pay2_apply (tile : Vec Ideal S2000x128 .f32) (acc : Vec Ideal S1x128 .f32) (u : Fin 1) (q : Fin 128) :
    k7_pay2 (F := Ideal) tile acc (ix2 u q)
      = max (acc (ix2 u q)) (Finset.univ.sup fun p : Fin 2000 => tile (ix2 p q)) := by
  unfold k7_pay2
  simp only [shapeCast_self]
  exact poolStep_apply tile acc _ _ _ _ u q

end Cert.Bridge

end
-- ==== Proof.MergeSplit.lean ====
/-
  Two regroupings on the extended reals, over abstract families.

  (1) A contraction over `128 + 128` indices of a concatenated row against a weight splits into the contraction of
  the first half plus the contraction of the second half; with a bias added last, the three terms regroup by
  associativity of `+` alone. No distributivity and no cancellation is used, so nothing needs to be finite.

  (2) The rows `0 … 49999` are the 25 tiles of 2000 consecutive rows: row `r` is row `p = r mod 2000` of tile
  `t = r div 2000`, and `r = 2000 t + p` determines `(t, p)`. The supremum of a family over all rows is the
  supremum over the tiles of the suprema inside each tile, and the suprema over the first `n` tiles grow by one
  tile's supremum at a time, from `⊥` at `n = 0` to the supremum over all rows at `n = 25`.
-/
import Idealize.ShloMosaic.Lib.ValueIdx

noncomputable section

open scoped BigOperators

namespace Cert.Bridge

/-! ## A sum over two halves -/

/-- A sum over `m + n` indices is the sum over the first `m` plus the sum over the last `n`. -/
theorem sum_halves {m n : ℕ} (f : Fin (m + n) → EReal) :
    ∑ k : Fin (m + n), f k = (∑ k : Fin m, f (Fin.castAdd n k)) + ∑ k : Fin n, f (Fin.natAdd m k) :=
  Fin.sum_univ_add f

/-- The merge: a concatenated row against a weight, plus a bias. -/
theorem merge_append {m n : ℕ} (h : Fin m → EReal) (mp : Fin n → EReal) (M : Fin (m + n) → EReal) (mb : EReal) :
    (∑ k : Fin (m + n), Fin.append h mp k * M k) + mb
      = (∑ k : Fin m, h k * M (Fin.castAdd n k)) + ((∑ k : Fin n, mp k * M (Fin.natAdd m k)) + mb) := by
  rw [sum_halves, add_assoc]
  simp only [Fin.append_left, Fin.append_right]

/-- The same over `Fin 256` with the two halves of the row and of the weight named by their coordinates: entry `k`
    and entry `128 + k`. -/
theorem merge_256 (cat M : Fin 256 → EReal) (h mp Mlo Mhi : Fin 128 → EReal) (mb : EReal)
    (hl : ∀ k : Fin 128, cat ⟨k.val, by omega⟩ = h k) (hr : ∀ k : Fin 128, cat ⟨128 + k.val, by omega⟩ = mp k)
    (ml : ∀ k : Fin 128, M ⟨k.val, by omega⟩ = Mlo k) (mr : ∀ k : Fin 128, M ⟨128 + k.val, by omega⟩ = Mhi k) :
    (∑ k : Fin 256, cat k * M k) + mb
      = (∑ k : Fin 128, h k * Mlo k) + ((∑ k : Fin 128, mp k * Mhi k) + mb) := by
  have e := sum_halves (m := 128) (n := 128) (fun k => cat k * M k)
  have e' : (∑ k : Fin 256, cat k * M k)
      = (∑ k : Fin 128, cat ⟨k.val, by omega⟩ * M ⟨k.val, by omega⟩)
        + ∑ k : Fin 128, cat ⟨128 + k.val, by omega⟩ * M ⟨128 + k.val, by omega⟩ := e
  rw [e', add_assoc]
  simp only [hl, hr, ml, mr]

/-! ## Rows as tiles -/

/-- Row `p` of tile `t`: row `2000 t + p`. -/
def rowOf (t : Fin 25) (p : Fin 2000) : Fin 50000 := ⟨2000 * t.val + p.val, by have := t.isLt; have := p.isLt; omega⟩
/-- The tile of a row. -/
def tileOf (r : Fin 50000) : Fin 25 := ⟨r.val / 2000, by have := r.isLt; omega⟩
/-- The place of a row inside its tile. -/
def posOf (r : Fin 50000) : Fin 2000 := ⟨r.val % 2000, Nat.mod_lt _ (by decide)⟩

theorem rowOf_val (t : Fin 25) (p : Fin 2000) : (rowOf t p).val = 2000 * t.val + p.val := rfl
theorem tileOf_val (r : Fin 50000) : (tileOf r).val = r.val / 2000 := rfl
theorem posOf_val (r : Fin 50000) : (posOf r).val = r.val % 2000 := rfl

theorem rowOf_tileOf_posOf (r : Fin 50000) : rowOf (tileOf r) (posOf r) = r := Fin.ext (Nat.div_add_mod r.val 2000)

theorem tileOf_rowOf (t : Fin 25) (p : Fin 2000) : tileOf (rowOf t p) = t :=
  Fin.ext (by show (2000 * t.val + p.val) / 2000 = t.val; have := p.isLt; omega)

theorem posOf_rowOf (t : Fin 25) (p : Fin 2000) : posOf (rowOf t p) = p :=
  Fin.ext (by show (2000 * t.val + p.val) % 2000 = p.val; have := p.isLt; omega)

/-- `r = 2000 t + p` has exactly one solution. -/
theorem rowOf_eq_iff (r : Fin 50000) (t : Fin 25) (p : Fin 2000) : rowOf t p = r ↔ t = tileOf r ∧ p = posOf r :=
  ⟨fun h => by subst h; exact ⟨(tileOf_rowOf t p).symm, (posOf_rowOf t p).symm⟩,
   fun ⟨ht, hp⟩ => by subst ht hp; exact rowOf_tileOf_posOf r⟩

/-- Every row lies in exactly one tile at exactly one place. -/
theorem exists_unique_rowOf (r : Fin 50000) : ∃! tp : Fin 25 × Fin 2000, rowOf tp.1 tp.2 = r :=
  ⟨(tileOf r, posOf r), rowOf_tileOf_posOf r, fun tp h => Prod.ext ((rowOf_eq_iff r tp.1 tp.2).1 h).1 ((rowOf_eq_iff r tp.1 tp.2).1 h).2⟩

/-- The supremum over all rows is the supremum over the tiles of the suprema inside the tiles. -/
theorem sup_rows_eq_sup_tiles (f : Fin 50000 → EReal) :
    Finset.univ.sup f = Finset.univ.sup fun t : Fin 25 => Finset.univ.sup fun p : Fin 2000 => f (rowOf t p) := by
  apply le_antisymm
  · refine Finset.sup_le fun r _ => ?_
    refine (congrArg f (rowOf_tileOf_posOf r)).ge.trans ?_
    exact (Finset.le_sup (f := fun p => f (rowOf (tileOf r) p)) (Finset.mem_univ (posOf r))).trans
      (Finset.le_sup (f := fun t : Fin 25 => Finset.univ.sup fun p : Fin 2000 => f (rowOf t p)) (Finset.mem_univ (tileOf r)))
  · exact Finset.sup_le fun t _ => Finset.sup_le fun p _ => Finset.le_sup (Finset.mem_univ _)

/-- The supremum over the rows of the first `n` tiles. -/
def supBelow (f : Fin 50000 → EReal) (n : ℕ) : EReal :=
  (Finset.univ.filter fun r : Fin 50000 => r.val < 2000 * n).sup f

theorem supBelow_zero (f : Fin 50000 → EReal) : supBelow f 0 = ⊥ := by
  unfold supBelow
  rw [Finset.filter_false_of_mem (fun r _ => by omega), Finset.sup_empty]

theorem supBelow_succ (f : Fin 50000 → EReal) (n : ℕ) (hn : n < 25) :
    supBelow f (n + 1) = max (supBelow f n) (Finset.univ.sup fun p : Fin 2000 => f (rowOf ⟨n, hn⟩ p)) := by
  unfold supBelow
  apply le_antisymm
  · refine Finset.sup_le fun r hr => ?_
    have hr' : r.val < 2000 * (n + 1) := (Finset.mem_filter.1 hr).2
    by_cases hlt : r.val < 2000 * n
    · exact (Finset.le_sup (Finset.mem_filter.2 ⟨Finset.mem_univ r, hlt⟩)).trans (le_max_left _ _)
    · have e : rowOf ⟨n, hn⟩ ⟨r.val - 2000 * n, by omega⟩ = r := Fin.ext (by show 2000 * n + (r.val - 2000 * n) = r.val; omega)
      refine (congrArg f e).ge.trans ?_
      exact (Finset.le_sup (f := fun p : Fin 2000 => f (rowOf ⟨n, hn⟩ p)) (Finset.mem_univ _)).trans (le_max_right _ _)
  · refine max_le (Finset.sup_mono fun r hr => ?_) (Finset.sup_le fun p _ => Finset.le_sup ?_)
    · exact Finset.mem_filter.2 ⟨Finset.mem_univ r, by have := (Finset.mem_filter.1 hr).2; omega⟩
    · exact Finset.mem_filter.2 ⟨Finset.mem_univ _, by show 2000 * n + p.val < 2000 * (n + 1); have := p.isLt; omega⟩

theorem supBelow_all (f : Fin 50000 → EReal) : supBelow f 25 = Finset.univ.sup f := by
  unfold supBelow
  rw [Finset.filter_true_of_mem (fun r _ => by have := r.isLt; omega)]

end Cert.Bridge

end
-- ==== Proof.WholeArray.lean ====
/-
  From row tiles to whole arrays, over the extended reals.

  An array of 50000 rows is read through 25 tiles of 2000 consecutive rows; row `p` of tile `t` is row `2000 t + p`.

  A dense-layer body applied to each tile gives, row by row, the same affine map of the whole array: at row
  `r = 2000 t + p` and column `q` the value `∑ k, a(r, k) · w(k, q) + b(q)` (rectified where the body rectifies),
  because a row of the product depends on that row of the left operand only.

  The running maximum, started at `-∞` and joined tile by tile with each tile's column maxima, is after the first
  `n` tiles the supremum over the rows below `2000 n`, and after all 25 the supremum over every row, whatever the
  order in which the tiles are visited.
-/
import proofs.«115727_j48790828483060_1_alg».proof.Proof.PayLinear
import proofs.«115727_j48790828483060_1_alg».proof.Proof.PayMaxPool
import proofs.«115727_j48790828483060_1_alg».proof.Proof.MergeSplit

noncomputable section

open scoped BigOperators

namespace Cert.Bridge

open Idealize.ShloMosaic Idealize.ShloMosaic.ValueIdx Cert.KernelIdeal Cert.KernelIdeal.Gen Cert.Dense

/-! ## Tiles of an array and an array of tiles -/

/-- Tile `t` of an array of 50000 rows: its rows `2000 t … 2000 t + 1999`. -/
def tileAt {K : ℕ} (x : (⟨2, ![50000, K]⟩ : Shape).Idx → EReal) (t : Fin 25) : (⟨2, ![2000, K]⟩ : Shape).Idx → EReal :=
  fun j => x (ix2 (rowOf t (c0 j)) (c1 j))

theorem tileAt_apply {K : ℕ} (x : (⟨2, ![50000, K]⟩ : Shape).Idx → EReal) (t : Fin 25) (p : Fin 2000) (k : Fin K) :
    tileAt x t (ix2 p k) = x (ix2 (rowOf t p) k) := rfl

/-- The array of 50000 rows whose tile `t` is `g t`. -/
def ofTiles {N : ℕ} (g : Fin 25 → (⟨2, ![2000, N]⟩ : Shape).Idx → EReal) : (⟨2, ![50000, N]⟩ : Shape).Idx → EReal :=
  fun i => g (tileOf (c0 i)) (ix2 (posOf (c0 i)) (c1 i))

theorem ofTiles_apply {N : ℕ} (g : Fin 25 → (⟨2, ![2000, N]⟩ : Shape).Idx → EReal) (r : Fin 50000) (q : Fin N) :
    ofTiles g (ix2 r q) = g (tileOf r) (ix2 (posOf r) q) := rfl

theorem ofTiles_rowOf {N : ℕ} (g : Fin 25 → (⟨2, ![2000, N]⟩ : Shape).Idx → EReal) (t : Fin 25) (p : Fin 2000) (q : Fin N) :
    ofTiles g (ix2 (rowOf t p) q) = g t (ix2 p q) := by
  rw [ofTiles_apply, tileOf_rowOf, posOf_rowOf]

theorem tileAt_ofTiles {N : ℕ} (g : Fin 25 → (⟨2, ![2000, N]⟩ : Shape).Idx → EReal) (t : Fin 25) : tileAt (ofTiles g) t = g t := by
  funext j
  obtain ⟨p, q, rfl⟩ : ∃ (p : Fin 2000) (q : Fin N), j = ix2 p q := ⟨j 0, j 1, eq_ix2 j⟩
  exact ofTiles_rowOf g t p q

theorem ofTiles_tileAt {K : ℕ} (x : (⟨2, ![50000, K]⟩ : Shape).Idx → EReal) : ofTiles (tileAt x) = x := by
  funext i
  obtain ⟨r, q, rfl⟩ : ∃ (r : Fin 50000) (q : Fin K), i = ix2 r q := ⟨i 0, i 1, eq_ix2 i⟩
  rw [ofTiles_apply, tileAt_apply, rowOf_tileOf_posOf]

/-! ## The dense layers, tile by tile and as whole arrays -/

/-- The affine map of a whole array at `(r, q)`. -/
def affine {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, a (ix2 (c0 i) k) * w (ix2 k (c1 i))) + b (ix2 (0 : Fin 1) (c1 i))

theorem affine_at {M K N : ℕ} (a : (⟨2, ![M, K]⟩ : Shape).Idx → EReal) (w : (⟨2, ![K, N]⟩ : Shape).Idx → EReal)
    (b : (⟨2, ![1, N]⟩ : Shape).Idx → EReal) (r : Fin M) (q : Fin N) :
    affine a w b (ix2 r q) = (∑ k : Fin K, a (ix2 r k) * w (ix2 k q)) + b (ix2 (0 : Fin 1) q) := rfl

/-- The rectified affine map of a whole array. -/
def reluAffine {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (affine a w b i) 0

theorem reluAffine_at {M K N : ℕ} (a : (⟨2, ![M, K]⟩ : Shape).Idx → EReal) (w : (⟨2, ![K, N]⟩ : Shape).Idx → EReal)
    (b : (⟨2, ![1, N]⟩ : Shape).Idx → EReal) (r : Fin M) (q : Fin N) :
    reluAffine a w b (ix2 r q) = max ((∑ k : Fin K, a (ix2 r k) * w (ix2 k q)) + b (ix2 (0 : Fin 1) q)) 0 := rfl

/-- A tile of the affine map is the affine map of the tile. -/
theorem tileAt_affine {K N : ℕ} (a : (⟨2, ![50000, K]⟩ : Shape).Idx → EReal) (w : (⟨2, ![K, N]⟩ : Shape).Idx → EReal)
    (b : (⟨2, ![1, N]⟩ : Shape).Idx → EReal) (t : Fin 25) : tileAt (affine a w b) t = affine (tileAt a t) w b := by
  funext j
  obtain ⟨p, q, rfl⟩ : ∃ (p : Fin 2000) (q : Fin N), j = ix2 p q := ⟨j 0, j 1, eq_ix2 j⟩
  rfl

theorem tileAt_reluAffine {K N : ℕ} (a : (⟨2, ![50000, K]⟩ : Shape).Idx → EReal) (w : (⟨2, ![K, N]⟩ : Shape).Idx → EReal)
    (b : (⟨2, ![1, N]⟩ : Shape).Idx → EReal) (t : Fin 25) : tileAt (reluAffine a w b) t = reluAffine (tileAt a t) w b := by
  funext j
  obtain ⟨p, q, rfl⟩ : ∃ (p : Fin 2000) (q : Fin N), j = ix2 p q := ⟨j 0, j 1, eq_ix2 j⟩
  rfl

theorem k0_pay1_eq (a : Vec Ideal S2000x144 .f32) (w : Vec Ideal S144x128 .f32) (b : Vec Ideal S1x128 .f32) :
    k0_pay1 (F := Ideal) a w b = affine a w b := by
  funext j
  obtain ⟨p, q, rfl⟩ : ∃ (p : Fin 2000) (q : Fin 128), j = ix2 p q := ⟨j 0, j 1, eq_ix2 j⟩
  exact k0_pay1_apply a w b p q

theorem k3_pay1_eq (a : Vec Ideal S2000x128 .f32) (w : Vec Ideal S128x128 .f32) (b : Vec Ideal S1x128 .f32) :
    k3_pay1 (F := Ideal) a w b = affine a w b := by
  funext j
  obtain ⟨p, q, rfl⟩ : ∃ (p : Fin 2000) (q : Fin 128), j = ix2 p q := ⟨j 0, j 1, eq_ix2 j⟩
  exact k3_pay1_apply a w b p q

theorem k6_pay1_eq (a : Vec Ideal S2000x128 .f32) (w : Vec Ideal S128x128 .f32) (b : Vec Ideal S1x128 .f32) :
    k6_pay1 (F := Ideal) a w b = affine a w b := by
  funext j
  obtain ⟨p, q, rfl⟩ : ∃ (p : Fin 2000) (q : Fin 128), j = ix2 p q := ⟨j 0, j 1, eq_ix2 j⟩
  exact k6_pay1_apply a w b p q

theorem k2_pay1_eq (a : Vec Ideal S2000x128 .f32) (w : Vec Ideal S128x128 .f32) (b : Vec Ideal S1x128 .f32) :
    k2_pay1 (F := Ideal) a w b = reluAffine a w b := by
  funext j
  obtain ⟨p, q, rfl⟩ : ∃ (p : Fin 2000) (q : Fin 128), j = ix2 p q := ⟨j 0, j 1, eq_ix2 j⟩
  exact k2_pay1_apply a w b p q

theorem k5_pay1_eq (a : Vec Ideal S2000x128 .f32) (w : Vec Ideal S128x128 .f32) (b : Vec Ideal S1x128 .f32) :
    k5_pay1 (F := Ideal) a w b = reluAffine a w b := by
  funext j
  obtain ⟨p, q, rfl⟩ : ∃ (p : Fin 2000) (q : Fin 128), j = ix2 p q := ⟨j 0, j 1, eq_ix2 j⟩
  exact k5_pay1_apply a w b p q

theorem k8_pay1_eq (a : Vec Ideal S2000x128 .f32) (w : Vec Ideal S128x64 .f32) (b : Vec Ideal S1x64 .f32) :
    k8_pay1 (F := Ideal) a w b = affine a w b := by
  funext j
  obtain ⟨p, q, rfl⟩ : ∃ (p : Fin 2000) (q : Fin 64), j = ix2 p q := ⟨j 0, j 1, eq_ix2 j⟩
  exact k8_pay1_apply a w b p q

/-- The array whose tiles are the first layer's body on the tiles of `a` is the affine map of `a`. -/
theorem ofTiles_k0 (a : FVec Ideal S50000x144 .f32) (w : Vec Ideal S144x128 .f32) (b : Vec Ideal S1x128 .f32) :
    ofTiles (fun t => k0_pay1 (F := Ideal) (tileAt a t) w b) = affine a w b := by
  simp only [k0_pay1_eq, ← tileAt_affine]
  exact ofTiles_tileAt _

theorem ofTiles_k3 (a : FVec Ideal S50000x128 .f32) (w : Vec Ideal S128x128 .f32) (b : Vec Ideal S1x128 .f32) :
    ofTiles (fun t => k3_pay1 (F := Ideal) (tileAt a t) w b) = affine a w b := by
  simp only [k3_pay1_eq, ← tileAt_affine]
  exact ofTiles_tileAt _

theorem ofTiles_k6 (a : FVec Ideal S50000x128 .f32) (w : Vec Ideal S128x128 .f32) (b : Vec Ideal S1x128 .f32) :
    ofTiles (fun t => k6_pay1 (F := Ideal) (tileAt a t) w b) = affine a w b := by
  simp only [k6_pay1_eq, ← tileAt_affine]
  exact ofTiles_tileAt _

theorem ofTiles_k2 (a : FVec Ideal S50000x128 .f32) (w : Vec Ideal S128x128 .f32) (b : Vec Ideal S1x128 .f32) :
    ofTiles (fun t => k2_pay1 (F := Ideal) (tileAt a t) w b) = reluAffine a w b := by
  simp only [k2_pay1_eq, ← tileAt_reluAffine]
  exact ofTiles_tileAt _

theorem ofTiles_k5 (a : FVec Ideal S50000x128 .f32) (w : Vec Ideal S128x128 .f32) (b : Vec Ideal S1x128 .f32) :
    ofTiles (fun t => k5_pay1 (F := Ideal) (tileAt a t) w b) = reluAffine a w b := by
  simp only [k5_pay1_eq, ← tileAt_reluAffine]
  exact ofTiles_tileAt _

theorem ofTiles_k8 (a : FVec Ideal S50000x128 .f32) (w : Vec Ideal S128x64 .f32) (b : Vec Ideal S1x64 .f32) :
    ofTiles (fun t => k8_pay1 (F := Ideal) (tileAt a t) w b) = affine a w b := by
  simp only [k8_pay1_eq, ← tileAt_affine]
  exact ofTiles_tileAt _

/-! ## The running maximum over the tiles -/

section Pool

variable (step : FVec Ideal S2000x128 .f32 → FVec Ideal S1x128 .f32 → FVec Ideal S1x128 .f32)
  (hstep : ∀ (tile : FVec Ideal S2000x128 .f32) (acc : FVec Ideal S1x128 .f32) (u : Fin 1) (q : Fin 128),
    step tile acc (ix2 u q) = max (acc (ix2 u q)) (Finset.univ.sup fun p : Fin 2000 => tile (ix2 p q)))

include hstep

/-- One more tile: the supremum over the rows below `2000 n` becomes the one below `2000 (n + 1)`. -/
theorem pool_step_of (x : FVec Ideal S50000x128 .f32) (acc : FVec Ideal S1x128 .f32) (n : ℕ) (hn : n < 25) (u : Fin 1) (q : Fin 128)
    (hacc : acc (ix2 u q) = supBelow (fun r => x (ix2 r q)) n) :
    step (tileAt x ⟨n, hn⟩) acc (ix2 u q) = supBelow (fun r => x (ix2 r q)) (n + 1) := by
  rw [hstep, hacc, supBelow_succ _ n hn]
  rfl

/-- The tiles visited in any order, from any start: the start joined with the suprema of the visited tiles. -/
theorem pool_foldl_of (x : FVec Ideal S50000x128 .f32) (l : List (Fin 25)) (init : FVec Ideal S1x128 .f32) (u : Fin 1) (q : Fin 128) :
    l.foldl (fun acc t => step (tileAt x t) acc) init (ix2 u q)
      = max (init (ix2 u q)) (l.toFinset.sup fun t => Finset.univ.sup fun p : Fin 2000 => x (ix2 (rowOf t p) q)) := by
  induction l generalizing init with
  | nil => simp
  | cons t l ih =>
    rw [List.foldl_cons, ih, hstep, List.toFinset_cons, Finset.sup_insert, max_assoc]
    rfl

/-- All 25 tiles in order from a row of `⊥`: the supremum over every row. -/
theorem pool_all_of (x : FVec Ideal S50000x128 .f32) (init : FVec Ideal S1x128 .f32) (u : Fin 1) (q : Fin 128)
    (hinit : init (ix2 u q) = ⊥) :
    (List.finRange 25).foldl (fun acc t => step (tileAt x t) acc) init (ix2 u q)
      = Finset.univ.sup fun r : Fin 50000 => x (ix2 r q) := by
  rw [pool_foldl_of step hstep, hinit, List.toFinset_finRange, sup_rows_eq_sup_tiles (fun r => x (ix2 r q))]
  exact max_eq_right bot_le

end Pool

/-- The running maximum after the first `n` tiles, started from the row of `-∞`. -/
def poolRun (step : FVec Ideal S2000x128 .f32 → FVec Ideal S1x128 .f32 → FVec Ideal S1x128 .f32) (init : FVec Ideal S1x128 .f32)
    (x : FVec Ideal S50000x128 .f32) : (n : ℕ) → n ≤ 25 → FVec Ideal S1x128 .f32
  | 0, _ => init
  | n + 1, h => step (tileAt x ⟨n, h⟩) (poolRun step init x n (Nat.le_of_succ_le h))

theorem poolRun_apply (step : FVec Ideal S2000x128 .f32 → FVec Ideal S1x128 .f32 → FVec Ideal S1x128 .f32)
    (hstep : ∀ (tile : FVec Ideal S2000x128 .f32) (acc : FVec Ideal S1x128 .f32) (u : Fin 1) (q : Fin 128),
      step tile acc (ix2 u q) = max (acc (ix2 u q)) (Finset.univ.sup fun p : Fin 2000 => tile (ix2 p q)))
    (init : FVec Ideal S1x128 .f32) (hinit : ∀ j, init j = ⊥) (x : FVec Ideal S50000x128 .f32)
    (n : ℕ) (hn : n ≤ 25) (u : Fin 1) (q : Fin 128) :
    poolRun step init x n hn (ix2 u q) = supBelow (fun r => x (ix2 r q)) n := by
  induction n with
  | zero => rw [supBelow_zero]; exact hinit _
  | succ n ih => exact pool_step_of step hstep x _ n hn u q (ih (Nat.le_of_succ_le hn))

theorem poolRun_all (step : FVec Ideal S2000x128 .f32 → FVec Ideal S1x128 .f32 → FVec Ideal S1x128 .f32)
    (hstep : ∀ (tile : FVec Ideal S2000x128 .f32) (acc : FVec Ideal S1x128 .f32) (u : Fin 1) (q : Fin 128),
      step tile acc (ix2 u q) = max (acc (ix2 u q)) (Finset.univ.sup fun p : Fin 2000 => tile (ix2 p q)))
    (init : FVec Ideal S1x128 .f32) (hinit : ∀ j, init j = ⊥) (x : FVec Ideal S50000x128 .f32) (u : Fin 1) (q : Fin 128) :
    poolRun step init x 25 le_rfl (ix2 u q) = Finset.univ.sup fun r : Fin 50000 => x (ix2 r q) := by
  rw [poolRun_apply step hstep init hinit, supBelow_all]

/-- The first layer's pool: `k1_pay2` over the 25 tiles in order from `k1_pay1`. -/
theorem k1_pool_all (x : FVec Ideal S50000x128 .f32) (u : Fin 1) (q : Fin 128) :
    (List.finRange 25).foldl (fun acc t => k1_pay2 (F := Ideal) (tileAt x t) acc) (k1_pay1 (F := Ideal)) (ix2 u q)
      = Finset.univ.sup fun r : Fin 50000 => x (ix2 r q) :=
  pool_all_of _ k1_pay2_apply x _ u q (k1_pay1_apply _)

theorem k4_pool_all (x : FVec Ideal S50000x128 .f32) (u : Fin 1) (q : Fin 128) :
    (List.finRange 25).foldl (fun acc t => k4_pay2 (F := Ideal) (tileAt x t) acc) (k4_pay1 (F := Ideal)) (ix2 u q)
      = Finset.univ.sup fun r : Fin 50000 => x (ix2 r q) :=
  pool_all_of _ k4_pay2_apply x _ u q (k4_pay1_apply _)

theorem k7_pool_all (x : FVec Ideal S50000x128 .f32) (u : Fin 1) (q : Fin 128) :
    (List.finRange 25).foldl (fun acc t => k7_pay2 (F := Ideal) (tileAt x t) acc) (k7_pay1 (F := Ideal)) (ix2 u q)
      = Finset.univ.sup fun r : Fin 50000 => x (ix2 r q) :=
  pool_all_of _ k7_pay2_apply x _ u q (k7_pay1_apply _)

theorem k1_poolRun_all (x : FVec Ideal S50000x128 .f32) (u : Fin 1) (q : Fin 128) :
    poolRun (k1_pay2 (F := Ideal)) (k1_pay1 (F := Ideal)) x 25 le_rfl (ix2 u q) = Finset.univ.sup fun r : Fin 50000 => x (ix2 r q) :=
  poolRun_all _ k1_pay2_apply _ k1_pay1_apply x u q

theorem k4_poolRun_all (x : FVec Ideal S50000x128 .f32) (u : Fin 1) (q : Fin 128) :
    poolRun (k4_pay2 (F := Ideal)) (k4_pay1 (F := Ideal)) x 25 le_rfl (ix2 u q) = Finset.univ.sup fun r : Fin 50000 => x (ix2 r q) :=
  poolRun_all _ k4_pay2_apply _ k4_pay1_apply x u q

theorem k7_poolRun_all (x : FVec Ideal S50000x128 .f32) (u : Fin 1) (q : Fin 128) :
    poolRun (k7_pay2 (F := Ideal)) (k7_pay1 (F := Ideal)) x 25 le_rfl (ix2 u q) = Finset.univ.sup fun r : Fin 50000 => x (ix2 r q) :=
  poolRun_all _ k7_pay2_apply _ k7_pay1_apply x u q

end Cert.Bridge

end
-- ==== Proof.KernelIdealLinearWhole.lean ====
import proofs.«115727_j48790828483060_1_alg».proof.Proof.KernelIdealLinear0
import proofs.«115727_j48790828483060_1_alg».proof.Proof.KernelIdealLinear2
import proofs.«115727_j48790828483060_1_alg».proof.Proof.KernelIdealLinear3
import proofs.«115727_j48790828483060_1_alg».proof.Proof.KernelIdealLinear5
import proofs.«115727_j48790828483060_1_alg».proof.Proof.KernelIdealLinear6
import proofs.«115727_j48790828483060_1_alg».proof.Proof.KernelIdealLinear8
import proofs.«115727_j48790828483060_1_alg».proof.Proof.WholeArray
import Idealize.ShloMosaic.Lib.Pipeline.Value

/-!
# The dense regions: from 25 row tiles to the whole array

Each dense region fills its result array 2000 rows at a time: step `t` writes rows `2000 t … 2000 t + 1999`, computed
from the same rows of the left factor and from the whole right factor and bias. The 25 steps' row ranges are disjoint
and exhaust the 50000 rows, so when the region ends the array is determined tile by tile: its tile `t` is what one step
computes from tile `t` of the left factor. Over the extended reals this is stated with no reference to the order of
the steps.
-/

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.Bridge

/-! ## Rows of a tile, as plain index arithmetic -/

/-- Reading an array of 50000 rows at row `2000 n + p`, column `k`, for `(p, k)` running over a tile, is reading its
    tile `n`. The reading map `e` is any map of indices with those two coordinates. -/
theorem read_rows_eq_tileAt {K : ℕ} (x : (⟨2, ![50000, K]⟩ : Shape).Idx → EReal) (t : Fin 25)
    (e : (⟨2, ![2000, K]⟩ : Shape).Idx → (⟨2, ![50000, K]⟩ : Shape).Idx)
    (h0 : ∀ j, (e j 0).val = t.val * 2000 + 1 * (j 0).val) (h1 : ∀ j, (e j 1).val = 0 * K + 1 * (j 1).val) :
    (fun j => x (e j)) = tileAt x t := by
  funext j
  show x (e j) = x (ix2 (rowOf t (c0 j)) (c1 j))
  congr 1
  funext a; apply Fin.ext
  match a with
  | ⟨0, _⟩ => show (e j 0).val = 2000 * t.val + (j 0).val; rw [h0]; omega
  | ⟨1, _⟩ => show (e j 1).val = (j 1).val; rw [h1]; omega

/-- Reading the array whose tiles are `g` at those same rows gives back `g n`. -/
theorem read_rows_ofTiles {N : ℕ} (g : Fin 25 → (⟨2, ![2000, N]⟩ : Shape).Idx → EReal) (t : Fin 25)
    (e : (⟨2, ![2000, N]⟩ : Shape).Idx → (⟨2, ![50000, N]⟩ : Shape).Idx)
    (h0 : ∀ j, (e j 0).val = t.val * 2000 + 1 * (j 0).val) (h1 : ∀ j, (e j 1).val = 0 * N + 1 * (j 1).val) :
    (fun j => ofTiles g (e j)) = g t := by
  rw [read_rows_eq_tileAt (ofTiles g) t e h0 h1, tileAt_ofTiles]

/-- Reading a whole array through a map that moves nothing is reading the array. -/
theorem read_whole_eq {A B : ℕ} (x : (⟨2, ![A, B]⟩ : Shape).Idx → EReal)
    (e : (⟨2, ![A, B]⟩ : Shape).Idx → (⟨2, ![A, B]⟩ : Shape).Idx)
    (h0 : ∀ j, (e j 0).val = 0 * A + 1 * (j 0).val) (h1 : ∀ j, (e j 1).val = 0 * B + 1 * (j 1).val) :
    (fun j => x (e j)) = x := by
  funext j
  congr 1
  funext a; apply Fin.ext
  match a with
  | ⟨0, _⟩ => show (e j 0).val = (j 0).val; rw [h0]; omega
  | ⟨1, _⟩ => show (e j 1).val = (j 1).val; rw [h1]; omega

variable (V : (c : Dev nD) → (b : Ref sig .tc) → Buf (Elt Ideal) ((c : Thread nD τ).loc b))

/-- The zero offsets of a whole-buffer rectangle. -/
theorem zeroOff : (![0, 0] : Fin 2 → Nat) = fun _ => 0 := funext fun a => by fin_cases a <;> rfl

/-! # Region 0: from its 25 tiles to the whole result array -/

/-- The index maps of the region's four windows, decided over its 25 steps: the two row-tile windows are at tile `t`,
    the right factor and the bias never move. -/
theorem tileIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A step of the region as one of the 25 tiles. -/
abbrev tileNo0 (t : Fin cfg0.N) : Fin 25 := Fin.cast N_0 t

/-- One step's result on tile `n` of the left factor, with the right factor and the bias as the region found them. -/
abbrev tileG0 (c : Dev nD) (n : Fin 25) : (⟨2, ![2000, 128]⟩ : Shape).Idx → EReal :=
  k0_pay1 (F := Ideal) (tileAt (K := 144) (V c (Pipeline.arrRef spec0 0)) n) (V c (Pipeline.arrRef spec0 1)) (V c (Pipeline.arrRef spec0 2))

/-- The whole result array the region should leave: tile `n` of it is `tileG0 n`. -/
abbrev wholeG0 (c : Dev nD) : (⟨2, ![50000, 128]⟩ : Shape).Idx → EReal := ofTiles (tileG0 V c)

/-- What step `t` writes back is tile `t` of that array. -/
theorem flushed0_eq (c : Dev nD) (t : Fin cfg0.N) :
    (dat0 (F := Ideal) V c).flushed 3 t = ((cfg0.win 3).blk t).view.read (Elt Ideal) (wholeG0 V c) := by
  show (cfg0.win 3).cut (grid0.coords t) ((dat0 V c).after 3 t) = _
  rw [after0_3]
  unfold tileOut0
  rw [View.canon_unit_zero zeroOff]
  simp only [View.ld_unit_zero (S := S2000x144) zeroOff, View.ld_unit_zero (S := S144x128) zeroOff,
    View.ld_unit_zero (S := S1x128) zeroOff]
  obtain ⟨a0, a1, w0, w1, b0, b1, o0, o1⟩ := tileIndex0 t
  have hA : tileBlock0 V c 0 t = tileAt (K := 144) (V c (Pipeline.arrRef spec0 0)) (tileNo0 t) :=
    read_rows_eq_tileAt (K := 144) (V c (Pipeline.arrRef spec0 0)) (tileNo0 t) (fun j => ((cfg0.win 0).blk t).view.emb j)
      (fun j => by show win0_0.index t (0 : Fin 2) * 2000 + 1 * (j 0).val = _; rw [a0]; rfl)
      (fun j => by show win0_0.index t (1 : Fin 2) * 144 + 1 * (j 1).val = _; rw [a1])
  have hW : tileBlock0 V c 1 t = V c (Pipeline.arrRef spec0 1) :=
    read_whole_eq (A := 144) (B := 128) (V c (Pipeline.arrRef spec0 1)) (fun j => ((cfg0.win 1).blk t).view.emb j)
      (fun j => by show win0_1.index t (0 : Fin 2) * 144 + 1 * (j 0).val = _; rw [w0])
      (fun j => by show win0_1.index t (1 : Fin 2) * 128 + 1 * (j 1).val = _; rw [w1])
  have hB : tileBlock0 V c 2 t = V c (Pipeline.arrRef spec0 2) :=
    read_whole_eq (A := 1) (B := 128) (V c (Pipeline.arrRef spec0 2)) (fun j => ((cfg0.win 2).blk t).view.emb j)
      (fun j => by show win0_2.index t (0 : Fin 2) * 1 + 1 * (j 0).val = _; rw [b0])
      (fun j => by show win0_2.index t (1 : Fin 2) * 128 + 1 * (j 1).val = _; rw [b1])
  have hO : (fun j => ofTiles (tileG0 V c) (((cfg0.win 3).blk t).view.emb j)) = tileG0 V c (tileNo0 t) :=
    read_rows_ofTiles (N := 128) (tileG0 V c) (tileNo0 t) (fun j => ((cfg0.win 3).blk t).view.emb j)
      (fun j => by show win0_3.index t (0 : Fin 2) * 2000 + 1 * (j 0).val = _; rw [o0]; rfl)
      (fun j => by show win0_3.index t (1 : Fin 2) * 128 + 1 * (j 1).val = _; rw [o1])
  rw [hA, hW, hB]
  exact hO.symm

/-- An index of the result array is in step `t`'s block iff each coordinate is in the block's range. -/
theorem mem_tile0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v29).slice (win0_3.rect t)).set ↔ _
  rw [View.set_slice_whole, Rect.mem_set_unit]
  exact Iff.rfl

/-- Every row is in some tile: row `r` is in tile `r / 2000`. -/
theorem covered0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := Fin.cast N_0.symm ⟨(i 0).val / 2000, by omega⟩
  have htv : t.val = (i 0).val / 2000 := rfl
  obtain ⟨a0, a1, w0, w1, b0, b1, o0, o1⟩ := tileIndex0 t
  refine ⟨t, flush0_3 t, ?_⟩
  rw [mem_tile0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the region the result array is, tile by tile, one step's result on the matching tile of the left factor. -/
theorem wholeOut0 (c : Dev nD) :
    (dat0 (F := Ideal) V c).arrAt 3 cfg0.N = ofTiles (fun n => k0_pay1 (F := Ideal)
      (tileAt (K := 144) (V c (Pipeline.arrRef spec0 0)) n) (V c (Pipeline.arrRef spec0 1)) (V c (Pipeline.arrRef spec0 2))) :=
  (dat0 (F := Ideal) V c).arrAt_eq_of_cover 3 (wholeG0 V c) (fun t _ => flushed0_eq V c t) covered0

/-! # Region 2: from its 25 tiles to the whole result array -/

/-- The index maps of the region's four windows, decided over its 25 steps: the two row-tile windows are at tile `t`,
    the right factor and the bias never move. -/
theorem tileIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A step of the region as one of the 25 tiles. -/
abbrev tileNo2 (t : Fin cfg2.N) : Fin 25 := Fin.cast N_2 t

/-- One step's result on tile `n` of the left factor, with the right factor and the bias as the region found them. -/
abbrev tileG2 (c : Dev nD) (n : Fin 25) : (⟨2, ![2000, 128]⟩ : Shape).Idx → EReal :=
  k2_pay1 (F := Ideal) (tileAt (K := 128) (V c (Pipeline.arrRef spec2 0)) n) (V c (Pipeline.arrRef spec2 1)) (V c (Pipeline.arrRef spec2 2))

/-- The whole result array the region should leave: tile `n` of it is `tileG2 n`. -/
abbrev wholeG2 (c : Dev nD) : (⟨2, ![50000, 128]⟩ : Shape).Idx → EReal := ofTiles (tileG2 V c)

/-- What step `t` writes back is tile `t` of that array. -/
theorem flushed2_eq (c : Dev nD) (t : Fin cfg2.N) :
    (dat2 (F := Ideal) V c).flushed 3 t = ((cfg2.win 3).blk t).view.read (Elt Ideal) (wholeG2 V c) := by
  show (cfg2.win 3).cut (grid2.coords t) ((dat2 V c).after 3 t) = _
  rw [after2_3]
  unfold tileOut2
  rw [View.canon_unit_zero zeroOff]
  simp only [View.ld_unit_zero (S := S2000x128) zeroOff, View.ld_unit_zero (S := S128x128) zeroOff,
    View.ld_unit_zero (S := S1x128) zeroOff]
  obtain ⟨a0, a1, w0, w1, b0, b1, o0, o1⟩ := tileIndex2 t
  have hA : tileBlock2 V c 0 t = tileAt (K := 128) (V c (Pipeline.arrRef spec2 0)) (tileNo2 t) :=
    read_rows_eq_tileAt (K := 128) (V c (Pipeline.arrRef spec2 0)) (tileNo2 t) (fun j => ((cfg2.win 0).blk t).view.emb j)
      (fun j => by show win2_0.index t (0 : Fin 2) * 2000 + 1 * (j 0).val = _; rw [a0]; rfl)
      (fun j => by show win2_0.index t (1 : Fin 2) * 128 + 1 * (j 1).val = _; rw [a1])
  have hW : tileBlock2 V c 1 t = V c (Pipeline.arrRef spec2 1) :=
    read_whole_eq (A := 128) (B := 128) (V c (Pipeline.arrRef spec2 1)) (fun j => ((cfg2.win 1).blk t).view.emb j)
      (fun j => by show win2_1.index t (0 : Fin 2) * 128 + 1 * (j 0).val = _; rw [w0])
      (fun j => by show win2_1.index t (1 : Fin 2) * 128 + 1 * (j 1).val = _; rw [w1])
  have hB : tileBlock2 V c 2 t = V c (Pipeline.arrRef spec2 2) :=
    read_whole_eq (A := 1) (B := 128) (V c (Pipeline.arrRef spec2 2)) (fun j => ((cfg2.win 2).blk t).view.emb j)
      (fun j => by show win2_2.index t (0 : Fin 2) * 1 + 1 * (j 0).val = _; rw [b0])
      (fun j => by show win2_2.index t (1 : Fin 2) * 128 + 1 * (j 1).val = _; rw [b1])
  have hO : (fun j => ofTiles (tileG2 V c) (((cfg2.win 3).blk t).view.emb j)) = tileG2 V c (tileNo2 t) :=
    read_rows_ofTiles (N := 128) (tileG2 V c) (tileNo2 t) (fun j => ((cfg2.win 3).blk t).view.emb j)
      (fun j => by show win2_3.index t (0 : Fin 2) * 2000 + 1 * (j 0).val = _; rw [o0]; rfl)
      (fun j => by show win2_3.index t (1 : Fin 2) * 128 + 1 * (j 1).val = _; rw [o1])
  rw [hA, hW, hB]
  exact hO.symm

/-- An index of the result array is in step `t`'s block iff each coordinate is in the block's range. -/
theorem mem_tile2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v56).slice (win2_3.rect t)).set ↔ _
  rw [View.set_slice_whole, Rect.mem_set_unit]
  exact Iff.rfl

/-- Every row is in some tile: row `r` is in tile `r / 2000`. -/
theorem covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := Fin.cast N_2.symm ⟨(i 0).val / 2000, by omega⟩
  have htv : t.val = (i 0).val / 2000 := rfl
  obtain ⟨a0, a1, w0, w1, b0, b1, o0, o1⟩ := tileIndex2 t
  refine ⟨t, flush2_3 t, ?_⟩
  rw [mem_tile2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- After the region the result array is, tile by tile, one step's result on the matching tile of the left factor. -/
theorem wholeOut2 (c : Dev nD) :
    (dat2 (F := Ideal) V c).arrAt 3 cfg2.N = ofTiles (fun n => k2_pay1 (F := Ideal)
      (tileAt (K := 128) (V c (Pipeline.arrRef spec2 0)) n) (V c (Pipeline.arrRef spec2 1)) (V c (Pipeline.arrRef spec2 2))) :=
  (dat2 (F := Ideal) V c).arrAt_eq_of_cover 3 (wholeG2 V c) (fun t _ => flushed2_eq V c t) covered2

/-! # Region 3: from its 25 tiles to the whole result array -/

/-- The index maps of the region's four windows, decided over its 25 steps: the two row-tile windows are at tile `t`,
    the right factor and the bias never move. -/
theorem tileIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A step of the region as one of the 25 tiles. -/
abbrev tileNo3 (t : Fin cfg3.N) : Fin 25 := Fin.cast N_3 t

/-- One step's result on tile `n` of the left factor, with the right factor and the bias as the region found them. -/
abbrev tileG3 (c : Dev nD) (n : Fin 25) : (⟨2, ![2000, 128]⟩ : Shape).Idx → EReal :=
  k3_pay1 (F := Ideal) (tileAt (K := 128) (V c (Pipeline.arrRef spec3 0)) n) (V c (Pipeline.arrRef spec3 1)) (V c (Pipeline.arrRef spec3 2))

/-- The whole result array the region should leave: tile `n` of it is `tileG3 n`. -/
abbrev wholeG3 (c : Dev nD) : (⟨2, ![50000, 128]⟩ : Shape).Idx → EReal := ofTiles (tileG3 V c)

/-- What step `t` writes back is tile `t` of that array. -/
theorem flushed3_eq (c : Dev nD) (t : Fin cfg3.N) :
    (dat3 (F := Ideal) V c).flushed 3 t = ((cfg3.win 3).blk t).view.read (Elt Ideal) (wholeG3 V c) := by
  show (cfg3.win 3).cut (grid3.coords t) ((dat3 V c).after 3 t) = _
  rw [after3_3]
  unfold tileOut3
  rw [View.canon_unit_zero zeroOff]
  simp only [View.ld_unit_zero (S := S2000x128) zeroOff, View.ld_unit_zero (S := S128x128) zeroOff,
    View.ld_unit_zero (S := S1x128) zeroOff]
  obtain ⟨a0, a1, w0, w1, b0, b1, o0, o1⟩ := tileIndex3 t
  have hA : tileBlock3 V c 0 t = tileAt (K := 128) (V c (Pipeline.arrRef spec3 0)) (tileNo3 t) :=
    read_rows_eq_tileAt (K := 128) (V c (Pipeline.arrRef spec3 0)) (tileNo3 t) (fun j => ((cfg3.win 0).blk t).view.emb j)
      (fun j => by show win3_0.index t (0 : Fin 2) * 2000 + 1 * (j 0).val = _; rw [a0]; rfl)
      (fun j => by show win3_0.index t (1 : Fin 2) * 128 + 1 * (j 1).val = _; rw [a1])
  have hW : tileBlock3 V c 1 t = V c (Pipeline.arrRef spec3 1) :=
    read_whole_eq (A := 128) (B := 128) (V c (Pipeline.arrRef spec3 1)) (fun j => ((cfg3.win 1).blk t).view.emb j)
      (fun j => by show win3_1.index t (0 : Fin 2) * 128 + 1 * (j 0).val = _; rw [w0])
      (fun j => by show win3_1.index t (1 : Fin 2) * 128 + 1 * (j 1).val = _; rw [w1])
  have hB : tileBlock3 V c 2 t = V c (Pipeline.arrRef spec3 2) :=
    read_whole_eq (A := 1) (B := 128) (V c (Pipeline.arrRef spec3 2)) (fun j => ((cfg3.win 2).blk t).view.emb j)
      (fun j => by show win3_2.index t (0 : Fin 2) * 1 + 1 * (j 0).val = _; rw [b0])
      (fun j => by show win3_2.index t (1 : Fin 2) * 128 + 1 * (j 1).val = _; rw [b1])
  have hO : (fun j => ofTiles (tileG3 V c) (((cfg3.win 3).blk t).view.emb j)) = tileG3 V c (tileNo3 t) :=
    read_rows_ofTiles (N := 128) (tileG3 V c) (tileNo3 t) (fun j => ((cfg3.win 3).blk t).view.emb j)
      (fun j => by show win3_3.index t (0 : Fin 2) * 2000 + 1 * (j 0).val = _; rw [o0]; rfl)
      (fun j => by show win3_3.index t (1 : Fin 2) * 128 + 1 * (j 1).val = _; rw [o1])
  rw [hA, hW, hB]
  exact hO.symm

/-- An index of the result array is in step `t`'s block iff each coordinate is in the block's range. -/
theorem mem_tile3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v58).slice (win3_3.rect t)).set ↔ _
  rw [View.set_slice_whole, Rect.mem_set_unit]
  exact Iff.rfl

/-- Every row is in some tile: row `r` is in tile `r / 2000`. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  let t : Fin cfg3.N := Fin.cast N_3.symm ⟨(i 0).val / 2000, by omega⟩
  have htv : t.val = (i 0).val / 2000 := rfl
  obtain ⟨a0, a1, w0, w1, b0, b1, o0, o1⟩ := tileIndex3 t
  refine ⟨t, flush3_3 t, ?_⟩
  rw [mem_tile3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- After the region the result array is, tile by tile, one step's result on the matching tile of the left factor. -/
theorem wholeOut3 (c : Dev nD) :
    (dat3 (F := Ideal) V c).arrAt 3 cfg3.N = ofTiles (fun n => k3_pay1 (F := Ideal)
      (tileAt (K := 128) (V c (Pipeline.arrRef spec3 0)) n) (V c (Pipeline.arrRef spec3 1)) (V c (Pipeline.arrRef spec3 2))) :=
  (dat3 (F := Ideal) V c).arrAt_eq_of_cover 3 (wholeG3 V c) (fun t _ => flushed3_eq V c t) covered3

/-! # Region 5: from its 25 tiles to the whole result array -/

/-- The index maps of the region's four windows, decided over its 25 steps: the two row-tile windows are at tile `t`,
    the right factor and the bias never move. -/
theorem tileIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A step of the region as one of the 25 tiles. -/
abbrev tileNo5 (t : Fin cfg5.N) : Fin 25 := Fin.cast N_5 t

/-- One step's result on tile `n` of the left factor, with the right factor and the bias as the region found them. -/
abbrev tileG5 (c : Dev nD) (n : Fin 25) : (⟨2, ![2000, 128]⟩ : Shape).Idx → EReal :=
  k5_pay1 (F := Ideal) (tileAt (K := 128) (V c (Pipeline.arrRef spec5 0)) n) (V c (Pipeline.arrRef spec5 1)) (V c (Pipeline.arrRef spec5 2))

/-- The whole result array the region should leave: tile `n` of it is `tileG5 n`. -/
abbrev wholeG5 (c : Dev nD) : (⟨2, ![50000, 128]⟩ : Shape).Idx → EReal := ofTiles (tileG5 V c)

/-- What step `t` writes back is tile `t` of that array. -/
theorem flushed5_eq (c : Dev nD) (t : Fin cfg5.N) :
    (dat5 (F := Ideal) V c).flushed 3 t = ((cfg5.win 3).blk t).view.read (Elt Ideal) (wholeG5 V c) := by
  show (cfg5.win 3).cut (grid5.coords t) ((dat5 V c).after 3 t) = _
  rw [after5_3]
  unfold tileOut5
  rw [View.canon_unit_zero zeroOff]
  simp only [View.ld_unit_zero (S := S2000x128) zeroOff, View.ld_unit_zero (S := S128x128) zeroOff,
    View.ld_unit_zero (S := S1x128) zeroOff]
  obtain ⟨a0, a1, w0, w1, b0, b1, o0, o1⟩ := tileIndex5 t
  have hA : tileBlock5 V c 0 t = tileAt (K := 128) (V c (Pipeline.arrRef spec5 0)) (tileNo5 t) :=
    read_rows_eq_tileAt (K := 128) (V c (Pipeline.arrRef spec5 0)) (tileNo5 t) (fun j => ((cfg5.win 0).blk t).view.emb j)
      (fun j => by show win5_0.index t (0 : Fin 2) * 2000 + 1 * (j 0).val = _; rw [a0]; rfl)
      (fun j => by show win5_0.index t (1 : Fin 2) * 128 + 1 * (j 1).val = _; rw [a1])
  have hW : tileBlock5 V c 1 t = V c (Pipeline.arrRef spec5 1) :=
    read_whole_eq (A := 128) (B := 128) (V c (Pipeline.arrRef spec5 1)) (fun j => ((cfg5.win 1).blk t).view.emb j)
      (fun j => by show win5_1.index t (0 : Fin 2) * 128 + 1 * (j 0).val = _; rw [w0])
      (fun j => by show win5_1.index t (1 : Fin 2) * 128 + 1 * (j 1).val = _; rw [w1])
  have hB : tileBlock5 V c 2 t = V c (Pipeline.arrRef spec5 2) :=
    read_whole_eq (A := 1) (B := 128) (V c (Pipeline.arrRef spec5 2)) (fun j => ((cfg5.win 2).blk t).view.emb j)
      (fun j => by show win5_2.index t (0 : Fin 2) * 1 + 1 * (j 0).val = _; rw [b0])
      (fun j => by show win5_2.index t (1 : Fin 2) * 128 + 1 * (j 1).val = _; rw [b1])
  have hO : (fun j => ofTiles (tileG5 V c) (((cfg5.win 3).blk t).view.emb j)) = tileG5 V c (tileNo5 t) :=
    read_rows_ofTiles (N := 128) (tileG5 V c) (tileNo5 t) (fun j => ((cfg5.win 3).blk t).view.emb j)
      (fun j => by show win5_3.index t (0 : Fin 2) * 2000 + 1 * (j 0).val = _; rw [o0]; rfl)
      (fun j => by show win5_3.index t (1 : Fin 2) * 128 + 1 * (j 1).val = _; rw [o1])
  rw [hA, hW, hB]
  exact hO.symm

/-- An index of the result array is in step `t`'s block iff each coordinate is in the block's range. -/
theorem mem_tile5 (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v85).slice (win5_3.rect t)).set ↔ _
  rw [View.set_slice_whole, Rect.mem_set_unit]
  exact Iff.rfl

/-- Every row is in some tile: row `r` is in tile `r / 2000`. -/
theorem covered5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  let t : Fin cfg5.N := Fin.cast N_5.symm ⟨(i 0).val / 2000, by omega⟩
  have htv : t.val = (i 0).val / 2000 := rfl
  obtain ⟨a0, a1, w0, w1, b0, b1, o0, o1⟩ := tileIndex5 t
  refine ⟨t, flush5_3 t, ?_⟩
  rw [mem_tile5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 128 ≤ (i 1).val ∧ (i 1).val < win5_3.index t (1 : Fin 2) * 128 + 128; omega

/-- After the region the result array is, tile by tile, one step's result on the matching tile of the left factor. -/
theorem wholeOut5 (c : Dev nD) :
    (dat5 (F := Ideal) V c).arrAt 3 cfg5.N = ofTiles (fun n => k5_pay1 (F := Ideal)
      (tileAt (K := 128) (V c (Pipeline.arrRef spec5 0)) n) (V c (Pipeline.arrRef spec5 1)) (V c (Pipeline.arrRef spec5 2))) :=
  (dat5 (F := Ideal) V c).arrAt_eq_of_cover 3 (wholeG5 V c) (fun t _ => flushed5_eq V c t) covered5

/-! # Region 6: from its 25 tiles to the whole result array -/

/-- The index maps of the region's four windows, decided over its 25 steps: the two row-tile windows are at tile `t`,
    the right factor and the bias never move. -/
theorem tileIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- A step of the region as one of the 25 tiles. -/
abbrev tileNo6 (t : Fin cfg6.N) : Fin 25 := Fin.cast N_6 t

/-- One step's result on tile `n` of the left factor, with the right factor and the bias as the region found them. -/
abbrev tileG6 (c : Dev nD) (n : Fin 25) : (⟨2, ![2000, 128]⟩ : Shape).Idx → EReal :=
  k6_pay1 (F := Ideal) (tileAt (K := 128) (V c (Pipeline.arrRef spec6 0)) n) (V c (Pipeline.arrRef spec6 1)) (V c (Pipeline.arrRef spec6 2))

/-- The whole result array the region should leave: tile `n` of it is `tileG6 n`. -/
abbrev wholeG6 (c : Dev nD) : (⟨2, ![50000, 128]⟩ : Shape).Idx → EReal := ofTiles (tileG6 V c)

/-- What step `t` writes back is tile `t` of that array. -/
theorem flushed6_eq (c : Dev nD) (t : Fin cfg6.N) :
    (dat6 (F := Ideal) V c).flushed 3 t = ((cfg6.win 3).blk t).view.read (Elt Ideal) (wholeG6 V c) := by
  show (cfg6.win 3).cut (grid6.coords t) ((dat6 V c).after 3 t) = _
  rw [after6_3]
  unfold tileOut6
  rw [View.canon_unit_zero zeroOff]
  simp only [View.ld_unit_zero (S := S2000x128) zeroOff, View.ld_unit_zero (S := S128x128) zeroOff,
    View.ld_unit_zero (S := S1x128) zeroOff]
  obtain ⟨a0, a1, w0, w1, b0, b1, o0, o1⟩ := tileIndex6 t
  have hA : tileBlock6 V c 0 t = tileAt (K := 128) (V c (Pipeline.arrRef spec6 0)) (tileNo6 t) :=
    read_rows_eq_tileAt (K := 128) (V c (Pipeline.arrRef spec6 0)) (tileNo6 t) (fun j => ((cfg6.win 0).blk t).view.emb j)
      (fun j => by show win6_0.index t (0 : Fin 2) * 2000 + 1 * (j 0).val = _; rw [a0]; rfl)
      (fun j => by show win6_0.index t (1 : Fin 2) * 128 + 1 * (j 1).val = _; rw [a1])
  have hW : tileBlock6 V c 1 t = V c (Pipeline.arrRef spec6 1) :=
    read_whole_eq (A := 128) (B := 128) (V c (Pipeline.arrRef spec6 1)) (fun j => ((cfg6.win 1).blk t).view.emb j)
      (fun j => by show win6_1.index t (0 : Fin 2) * 128 + 1 * (j 0).val = _; rw [w0])
      (fun j => by show win6_1.index t (1 : Fin 2) * 128 + 1 * (j 1).val = _; rw [w1])
  have hB : tileBlock6 V c 2 t = V c (Pipeline.arrRef spec6 2) :=
    read_whole_eq (A := 1) (B := 128) (V c (Pipeline.arrRef spec6 2)) (fun j => ((cfg6.win 2).blk t).view.emb j)
      (fun j => by show win6_2.index t (0 : Fin 2) * 1 + 1 * (j 0).val = _; rw [b0])
      (fun j => by show win6_2.index t (1 : Fin 2) * 128 + 1 * (j 1).val = _; rw [b1])
  have hO : (fun j => ofTiles (tileG6 V c) (((cfg6.win 3).blk t).view.emb j)) = tileG6 V c (tileNo6 t) :=
    read_rows_ofTiles (N := 128) (tileG6 V c) (tileNo6 t) (fun j => ((cfg6.win 3).blk t).view.emb j)
      (fun j => by show win6_3.index t (0 : Fin 2) * 2000 + 1 * (j 0).val = _; rw [o0]; rfl)
      (fun j => by show win6_3.index t (1 : Fin 2) * 128 + 1 * (j 1).val = _; rw [o1])
  rw [hA, hW, hB]
  exact hO.symm

/-- An index of the result array is in step `t`'s block iff each coordinate is in the block's range. -/
theorem mem_tile6 (t : Fin cfg6.N) (i : S50000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v87).slice (win6_3.rect t)).set ↔ _
  rw [View.set_slice_whole, Rect.mem_set_unit]
  exact Iff.rfl

/-- Every row is in some tile: row `r` is in tile `r / 2000`. -/
theorem covered6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  let t : Fin cfg6.N := Fin.cast N_6.symm ⟨(i 0).val / 2000, by omega⟩
  have htv : t.val = (i 0).val / 2000 := rfl
  obtain ⟨a0, a1, w0, w1, b0, b1, o0, o1⟩ := tileIndex6 t
  refine ⟨t, flush6_3 t, ?_⟩
  rw [mem_tile6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 128 ≤ (i 1).val ∧ (i 1).val < win6_3.index t (1 : Fin 2) * 128 + 128; omega

/-- After the region the result array is, tile by tile, one step's result on the matching tile of the left factor. -/
theorem wholeOut6 (c : Dev nD) :
    (dat6 (F := Ideal) V c).arrAt 3 cfg6.N = ofTiles (fun n => k6_pay1 (F := Ideal)
      (tileAt (K := 128) (V c (Pipeline.arrRef spec6 0)) n) (V c (Pipeline.arrRef spec6 1)) (V c (Pipeline.arrRef spec6 2))) :=
  (dat6 (F := Ideal) V c).arrAt_eq_of_cover 3 (wholeG6 V c) (fun t _ => flushed6_eq V c t) covered6

/-! # Region 8: from its 25 tiles to the whole result array -/

/-- The index maps of the region's four windows, decided over its 25 steps: the two row-tile windows are at tile `t`,
    the right factor and the bias never move. -/
theorem tileIndex8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- A step of the region as one of the 25 tiles. -/
abbrev tileNo8 (t : Fin cfg8.N) : Fin 25 := Fin.cast N_8 t

/-- One step's result on tile `n` of the left factor, with the right factor and the bias as the region found them. -/
abbrev tileG8 (c : Dev nD) (n : Fin 25) : (⟨2, ![2000, 64]⟩ : Shape).Idx → EReal :=
  k8_pay1 (F := Ideal) (tileAt (K := 128) (V c (Pipeline.arrRef spec8 0)) n) (V c (Pipeline.arrRef spec8 1)) (V c (Pipeline.arrRef spec8 2))

/-- The whole result array the region should leave: tile `n` of it is `tileG8 n`. -/
abbrev wholeG8 (c : Dev nD) : (⟨2, ![50000, 64]⟩ : Shape).Idx → EReal := ofTiles (tileG8 V c)

/-- What step `t` writes back is tile `t` of that array. -/
theorem flushed8_eq (c : Dev nD) (t : Fin cfg8.N) :
    (dat8 (F := Ideal) V c).flushed 3 t = ((cfg8.win 3).blk t).view.read (Elt Ideal) (wholeG8 V c) := by
  show (cfg8.win 3).cut (grid8.coords t) ((dat8 V c).after 3 t) = _
  rw [after8_3]
  unfold tileOut8
  rw [View.canon_unit_zero zeroOff]
  simp only [View.ld_unit_zero (S := S2000x128) zeroOff, View.ld_unit_zero (S := S128x64) zeroOff,
    View.ld_unit_zero (S := S1x64) zeroOff]
  obtain ⟨a0, a1, w0, w1, b0, b1, o0, o1⟩ := tileIndex8 t
  have hA : tileBlock8 V c 0 t = tileAt (K := 128) (V c (Pipeline.arrRef spec8 0)) (tileNo8 t) :=
    read_rows_eq_tileAt (K := 128) (V c (Pipeline.arrRef spec8 0)) (tileNo8 t) (fun j => ((cfg8.win 0).blk t).view.emb j)
      (fun j => by show win8_0.index t (0 : Fin 2) * 2000 + 1 * (j 0).val = _; rw [a0]; rfl)
      (fun j => by show win8_0.index t (1 : Fin 2) * 128 + 1 * (j 1).val = _; rw [a1])
  have hW : tileBlock8 V c 1 t = V c (Pipeline.arrRef spec8 1) :=
    read_whole_eq (A := 128) (B := 64) (V c (Pipeline.arrRef spec8 1)) (fun j => ((cfg8.win 1).blk t).view.emb j)
      (fun j => by show win8_1.index t (0 : Fin 2) * 128 + 1 * (j 0).val = _; rw [w0])
      (fun j => by show win8_1.index t (1 : Fin 2) * 64 + 1 * (j 1).val = _; rw [w1])
  have hB : tileBlock8 V c 2 t = V c (Pipeline.arrRef spec8 2) :=
    read_whole_eq (A := 1) (B := 64) (V c (Pipeline.arrRef spec8 2)) (fun j => ((cfg8.win 2).blk t).view.emb j)
      (fun j => by show win8_2.index t (0 : Fin 2) * 1 + 1 * (j 0).val = _; rw [b0])
      (fun j => by show win8_2.index t (1 : Fin 2) * 64 + 1 * (j 1).val = _; rw [b1])
  have hO : (fun j => ofTiles (tileG8 V c) (((cfg8.win 3).blk t).view.emb j)) = tileG8 V c (tileNo8 t) :=
    read_rows_ofTiles (N := 64) (tileG8 V c) (tileNo8 t) (fun j => ((cfg8.win 3).blk t).view.emb j)
      (fun j => by show win8_3.index t (0 : Fin 2) * 2000 + 1 * (j 0).val = _; rw [o0]; rfl)
      (fun j => by show win8_3.index t (1 : Fin 2) * 64 + 1 * (j 1).val = _; rw [o1])
  rw [hA, hW, hB]
  exact hO.symm

/-- An index of the result array is in step `t`'s block iff each coordinate is in the block's range. -/
theorem mem_tile8 (t : Fin cfg8.N) (i : S50000x64.Idx) :
    i ∈ ((cfg8.win 3).blk t).view.set ↔ ∀ a : Fin 2, win8_3.index t a * S2000x64.size a ≤ (i a).val
      ∧ (i a).val < win8_3.index t a * S2000x64.size a + S2000x64.size a := by
  show i ∈ ((View.whole main_v114).slice (win8_3.rect t)).set ↔ _
  rw [View.set_slice_whole, Rect.mem_set_unit]
  exact Iff.rfl

/-- Every row is in some tile: row `r` is in tile `r / 2000`. -/
theorem covered8 (i : S50000x64.Idx) :
    ∃ t : Fin cfg8.N, (cfg8.win 3).flush t = true ∧ i ∈ ((cfg8.win 3).blk t).view.set := by
  have hi0 : (i 0).val < 50000 := (i 0).isLt
  have hi1 : (i 1).val < 64 := (i 1).isLt
  let t : Fin cfg8.N := Fin.cast N_8.symm ⟨(i 0).val / 2000, by omega⟩
  have htv : t.val = (i 0).val / 2000 := rfl
  obtain ⟨a0, a1, w0, w1, b0, b1, o0, o1⟩ := tileIndex8 t
  refine ⟨t, flush8_3 t, ?_⟩
  rw [mem_tile8]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 64 ≤ (i 1).val ∧ (i 1).val < win8_3.index t (1 : Fin 2) * 64 + 64; omega

/-- After the region the result array is, tile by tile, one step's result on the matching tile of the left factor. -/
theorem wholeOut8 (c : Dev nD) :
    (dat8 (F := Ideal) V c).arrAt 3 cfg8.N = ofTiles (fun n => k8_pay1 (F := Ideal)
      (tileAt (K := 128) (V c (Pipeline.arrRef spec8 0)) n) (V c (Pipeline.arrRef spec8 1)) (V c (Pipeline.arrRef spec8 2))) :=
  (dat8 (F := Ideal) V c).arrAt_eq_of_cover 3 (wholeG8 V c) (fun t _ => flushed8_eq V c t) covered8

end Cert.KernelIdeal.Regions
-- ==== Proof.KernelIdealPoolWhole.lean ====
/-
  The row-maximum regions, from their 25 points to the output row.

  The row-tile window of such a region is at tile `t` at point `t` (block index `(t, 0)`, blocks of 2000 rows), so
  what the body is handed there is tile `t` of the array the region reads. The running maximum the scratch row
  carries is therefore the plain recursion over the tiles of that array: the row of minus infinity, then one join per
  tile. The output window sits on the whole [1,128] row at every point (block index `(0, 0)`) and is written back at
  the last point only, with the running maximum of all 25 tiles; that single block covers the row, so the row ends
  holding exactly that.
-/
import proofs.«115727_j48790828483060_1_alg».proof.Proof.KernelIdealPool1
import proofs.«115727_j48790828483060_1_alg».proof.Proof.KernelIdealPool4
import proofs.«115727_j48790828483060_1_alg».proof.Proof.KernelIdealPool7
import proofs.«115727_j48790828483060_1_alg».proof.Proof.WholeArray
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx Cert.Dense Cert.Bridge

/-! ## Two readings of an array, as index arithmetic -/

/-- An array of 50000 rows read at row `2000 t + p` and column `k`, `(p, k)` over a tile, is its tile `t`: for any
    reading map with those coordinates (written as block index times block size plus the place in the block). -/
theorem poolRows_eq_tileAt (x : (⟨2, ![50000, 128]⟩ : Shape).Idx → EReal) (t : Fin 25)
    (e : (⟨2, ![2000, 128]⟩ : Shape).Idx → (⟨2, ![50000, 128]⟩ : Shape).Idx)
    (h0 : ∀ j, (e j 0).val = t.val * 2000 + 1 * (j 0).val) (h1 : ∀ j, (e j 1).val = 0 * 128 + 1 * (j 1).val) :
    (fun j => x (e j)) = tileAt x t := by
  funext j
  show x (e j) = x (ix2 (rowOf t (c0 j)) (c1 j))
  congr 1
  funext a; apply Fin.ext
  match a with
  | ⟨0, _⟩ => show (e j 0).val = 2000 * t.val + (j 0).val; rw [h0]; omega
  | ⟨1, _⟩ => show (e j 1).val = (j 1).val; rw [h1]; omega

/-- A one-row array read through a map that moves nothing is itself. -/
theorem poolRow_read_self (x : (⟨2, ![1, 128]⟩ : Shape).Idx → EReal)
    (e : (⟨2, ![1, 128]⟩ : Shape).Idx → (⟨2, ![1, 128]⟩ : Shape).Idx)
    (h0 : ∀ j, (e j 0).val = 0 * 1 + 1 * (j 0).val) (h1 : ∀ j, (e j 1).val = 0 * 128 + 1 * (j 1).val) :
    (fun j => x (e j)) = x := by
  funext j
  congr 1
  funext a; apply Fin.ext
  match a with
  | ⟨0, _⟩ => show (e j 0).val = (j 0).val; rw [h0]; omega
  | ⟨1, _⟩ => show (e j 1).val = (j 1).val; rw [h1]; omega

variable (V : (c : Dev nD) → (b : Ref sig .tc) → Buf (Elt Ideal) ((c : Thread nD τ).loc b))

/-! # Region 1 -/

/-- Where the two windows sit at each point, decided over the grid: the row tiles at tile `t`, the output row fixed. -/
theorem poolIndex1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The block the body is handed at point `t` is tile `t` of the array the region reads. -/
theorem poolBlock1_eq_tileAt (c : Dev nD) (t : Fin cfg1.N) :
    poolBlock1 (F := Ideal) V c 0 t = tileAt (K := 128) (V c (Pipeline.arrRef spec1 0)) (Fin.cast N_1 t) := by
  obtain ⟨a0, a1, -, -⟩ := poolIndex1 t
  exact poolRows_eq_tileAt (V c (Pipeline.arrRef spec1 0)) (Fin.cast N_1 t) (fun j => ((cfg1.win 0).blk t).view.emb j)
    (fun j => by show win1_0.index t (0 : Fin 2) * 2000 + 1 * (j 0).val = _; rw [a0]; rfl)
    (fun j => by show win1_0.index t (1 : Fin 2) * 128 + 1 * (j 1).val = _; rw [a1])

/-- The running maximum is the recursion over the tiles of that array. -/
theorem runMax1_eq_poolRun (c : Dev nD) : ∀ (n : ℕ) (h : n ≤ 25),
    runMax1 (F := Ideal) V c n
      = poolRun (k1_pay2 (F := Ideal)) (k1_pay1 (F := Ideal)) (V c (Pipeline.arrRef spec1 0)) n h
  | 0, _ => rfl
  | n + 1, h => by
    have hn : n < cfg1.N := lt_of_lt_of_eq (Nat.lt_of_succ_le h) N_1.symm
    rw [runMax1_succ V c n hn, poolBlock1_eq_tileAt, runMax1_eq_poolRun c n (Nat.le_of_succ_le h)]
    rfl

/-- The last point's block of the output window is the whole row. -/
theorem poolCovered1 (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  let t : Fin cfg1.N := Fin.cast N_1.symm ⟨24, by decide⟩
  obtain ⟨-, -, o0, o1⟩ := poolIndex1 t
  refine ⟨t, (flush1_1 t).mpr rfl, ?_⟩
  show i ∈ ((View.whole main_v50).slice (win1_1.rect t)).set
  rw [View.set_slice_whole, Rect.mem_set_unit]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 128 ≤ (i 1).val ∧ (i 1).val < win1_1.index t (1 : Fin 2) * 128 + 128; omega

/-- After the region the output row holds the running maximum of all 25 tiles of the array it read. -/
theorem poolWhole1 (c : Dev nD) :
    (dat1 (F := Ideal) V c).arrAt 1 cfg1.N
      = poolRun (k1_pay2 (F := Ideal)) (k1_pay1 (F := Ideal)) (V c (Pipeline.arrRef spec1 0)) 25 le_rfl := by
  refine (dat1 (F := Ideal) V c).arrAt_eq_of_cover 1 _ (fun t hf => ?_) poolCovered1
  have ht : t.val = 24 := by
    have h1 := (flush1_1 t).mp hf
    have h2 : t.val < 25 := lt_of_lt_of_eq t.isLt N_1
    omega
  have hrun : runMax1 (F := Ideal) V c (t.val + 1)
      = poolRun (k1_pay2 (F := Ideal)) (k1_pay1 (F := Ideal)) (V c (Pipeline.arrRef spec1 0)) 25 le_rfl := by
    rw [ht]; exact runMax1_eq_poolRun V c 25 le_rfl
  show (cfg1.win 1).cut (grid1.coords t) ((dat1 V c).after 1 t) = _
  rw [after1_1, hrun]
  obtain ⟨-, -, o0, o1⟩ := poolIndex1 t
  exact (poolRow_read_self _ (fun j => ((cfg1.win 1).blk t).view.emb j)
    (fun j => by show win1_1.index t (0 : Fin 2) * 1 + 1 * (j 0).val = _; rw [o0])
    (fun j => by show win1_1.index t (1 : Fin 2) * 128 + 1 * (j 1).val = _; rw [o1])).symm

/-! # Region 4 -/

/-- Where the two windows sit at each point, decided over the grid: the row tiles at tile `t`, the output row fixed. -/
theorem poolIndex4 : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- The block the body is handed at point `t` is tile `t` of the array the region reads. -/
theorem poolBlock4_eq_tileAt (c : Dev nD) (t : Fin cfg4.N) :
    poolBlock4 (F := Ideal) V c 0 t = tileAt (K := 128) (V c (Pipeline.arrRef spec4 0)) (Fin.cast N_4 t) := by
  obtain ⟨a0, a1, -, -⟩ := poolIndex4 t
  exact poolRows_eq_tileAt (V c (Pipeline.arrRef spec4 0)) (Fin.cast N_4 t) (fun j => ((cfg4.win 0).blk t).view.emb j)
    (fun j => by show win4_0.index t (0 : Fin 2) * 2000 + 1 * (j 0).val = _; rw [a0]; rfl)
    (fun j => by show win4_0.index t (1 : Fin 2) * 128 + 1 * (j 1).val = _; rw [a1])

/-- The running maximum is the recursion over the tiles of that array. -/
theorem runMax4_eq_poolRun (c : Dev nD) : ∀ (n : ℕ) (h : n ≤ 25),
    runMax4 (F := Ideal) V c n
      = poolRun (k4_pay2 (F := Ideal)) (k4_pay1 (F := Ideal)) (V c (Pipeline.arrRef spec4 0)) n h
  | 0, _ => rfl
  | n + 1, h => by
    have hn : n < cfg4.N := lt_of_lt_of_eq (Nat.lt_of_succ_le h) N_4.symm
    rw [runMax4_succ V c n hn, poolBlock4_eq_tileAt, runMax4_eq_poolRun c n (Nat.le_of_succ_le h)]
    rfl

/-- The last point's block of the output window is the whole row. -/
theorem poolCovered4 (i : S1x128.Idx) :
    ∃ t : Fin cfg4.N, (cfg4.win 1).flush t = true ∧ i ∈ ((cfg4.win 1).blk t).view.set := by
  have hi0 : (i 0).val < 1 := (i 0).isLt
  have hi1 : (i 1).val < 128 := (i 1).isLt
  let t : Fin cfg4.N := Fin.cast N_4.symm ⟨24, by decide⟩
  obtain ⟨-, -, o0, o1⟩ := poolIndex4 t
  refine ⟨t, (flush4_1 t).mpr rfl, ?_⟩
  show i ∈ ((View.whole main_v79).slice (win4_1.rect t)).set
  rw [View.set_slice_whole, Rect.mem_set_unit]
  intro a
  match a with
  | ⟨0, _⟩ => show win4_1.index t (0 : Fin 2) * 1 ≤ (i 0).val ∧ (i 0).val < win4_1.index t (0 : Fin 2) * 1 + 1; omega
  | ⟨1, _⟩ => show win4_1.index t (1 : Fin 2) * 128 ≤ (i 1).val ∧ (i 1).val < win4_1.index t (1 : Fin 2) * 128 + 128; omega

/-- After the region the output row holds the running maximum of all 25 tiles of the array it read. -/
theorem poolWhole4 (c : Dev nD) :
    (dat4 (F := Ideal) V c).arrAt 1 cfg4.N
      = poolRun (k4_pay2 (F := Ideal)) (k4_pay1 (F := Ideal)) (V c (Pipeline.arrRef spec4 0)) 25 le_rfl := by
  refine (dat4 (F := Ideal) V c).arrAt_eq_of_cover 1 _ (fun t hf => ?_) poolCovered4
  have ht : t.val = 24 := by
    have h1 := (flush4_1 t).mp hf
    have h2 : t.val < 25 := lt_of_lt_of_eq t.isLt N_4
    omega
  have hrun : runMax4 (F := Ideal) V c (t.val + 1)
      = poolRun (k4_pay2 (F := Ideal)) (k4_pay1 (F := Ideal)) (V c (Pipeline.arrRef spec4 0)) 25 le_rfl := by
    rw [ht]; exact runMax4_eq_poolRun V c 25 le_rfl
  show (cfg4.win 1).cut (grid4.coords t) ((dat4 V c).after 1 t) = _
  rw [after4_1, hrun]
  obtain ⟨-, -, o0, o1⟩ := poolIndex4 t
  exact (poolRow_read_self _ (fun j => ((cfg4.win 1).blk t).view.emb j)
    (fun j => by show win4_1.index t (0 : Fin 2) * 1 + 1 * (j 0).val = _; rw [o0])
    (fun j => by show win4_1.index t (1 : Fin 2) * 128 + 1 * (j 1).val = _; rw [o1])).symm

/-! # Region 7 -/

/-- Where the two windows sit at each point, decided over the grid: the row tiles at tile `t`, the output row fixed. -/
theorem poolIndex7 : ∀ t : Fin cfg7.N, win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)

/-- The block the body is handed at point `t` is tile `t` of the array the region reads. -/
theorem poolBlock7_eq_tileAt (c : Dev nD) (t : Fin cfg7.N) :
    poolBlock7 (F := Ideal) V c 0 t = tileAt (K := 128) (V c (Pipeline.arrRef spec7 0)) (Fin.cast N_7 t) := by
  obtain ⟨a0, a1, -, -⟩ := poolIndex7 t
  exact poolRows_eq_tileAt (V c (Pipeline.arrRef spec7 0)) (Fin.cast N_7 t) (fun j => ((cfg7.win 0).blk t).view.emb j)
    (fun j => by show win7_0.index t (0 : Fin 2) * 2000 + 1 * (j 0).val = _; rw [a0]; rfl)
    (fun j => by show win7_0.index t (1 : Fin 2) * 128 + 1 * (j 1).val = _; rw [a1])

/-- The running maximum is the recursion over the tiles of that array. -/
theorem runMax7_eq_poolRun (c : Dev nD) : ∀ (n : ℕ) (h : n ≤ 25),
    runMax7 (F := Ideal) V c n
      = poolRun (k7_pay2 (F := Ideal)) (k7_pay1 (F := Ideal)) (V c (Pipeline.arrRef spec7 0)) n h
  | 0, _ => rfl
  | n + 1, h => by
    have hn : n < cfg7.N := lt_of_lt_of_eq (Nat.lt_of_succ_le h) N_7.symm
    rw [runMax7_succ V c n hn, poolBlock7_eq_tileAt, runMax7_eq_poolRun c n (Nat.le_of_succ_le h)]
    rfl

/-- The last point's block of the output window is the whole row. -/
theorem poolCovered7 (i : S1x128.Idx) :
    ∃ t : Fin cfg7.N, (cfg7.win 1).flush t = true ∧ i ∈ ((cfg7.win 1).blk t).view.set := by
  have hi0 : (i 0).val < 1 := (i 0).isLt
  have hi1 : (i 1).val < 128 := (i 1).isLt
  let t : Fin cfg7.N := Fin.cast N_7.symm ⟨24, by decide⟩
  obtain ⟨-, -, o0, o1⟩ := poolIndex7 t
  refine ⟨t, (flush7_1 t).mpr rfl, ?_⟩
  show i ∈ ((View.whole main_v108).slice (win7_1.rect t)).set
  rw [View.set_slice_whole, Rect.mem_set_unit]
  intro a
  match a with
  | ⟨0, _⟩ => show win7_1.index t (0 : Fin 2) * 1 ≤ (i 0).val ∧ (i 0).val < win7_1.index t (0 : Fin 2) * 1 + 1; omega
  | ⟨1, _⟩ => show win7_1.index t (1 : Fin 2) * 128 ≤ (i 1).val ∧ (i 1).val < win7_1.index t (1 : Fin 2) * 128 + 128; omega

/-- After the region the output row holds the running maximum of all 25 tiles of the array it read. -/
theorem poolWhole7 (c : Dev nD) :
    (dat7 (F := Ideal) V c).arrAt 1 cfg7.N
      = poolRun (k7_pay2 (F := Ideal)) (k7_pay1 (F := Ideal)) (V c (Pipeline.arrRef spec7 0)) 25 le_rfl := by
  refine (dat7 (F := Ideal) V c).arrAt_eq_of_cover 1 _ (fun t hf => ?_) poolCovered7
  have ht : t.val = 24 := by
    have h1 := (flush7_1 t).mp hf
    have h2 : t.val < 25 := lt_of_lt_of_eq t.isLt N_7
    omega
  have hrun : runMax7 (F := Ideal) V c (t.val + 1)
      = poolRun (k7_pay2 (F := Ideal)) (k7_pay1 (F := Ideal)) (V c (Pipeline.arrRef spec7 0)) 25 le_rfl := by
    rw [ht]; exact runMax7_eq_poolRun V c 25 le_rfl
  show (cfg7.win 1).cut (grid7.coords t) ((dat7 V c).after 1 t) = _
  rw [after7_1, hrun]
  obtain ⟨-, -, o0, o1⟩ := poolIndex7 t
  exact (poolRow_read_self _ (fun j => ((cfg7.win 1).blk t).view.emb j)
    (fun j => by show win7_1.index t (0 : Fin 2) * 1 + 1 * (j 0).val = _; rw [o0])
    (fun j => by show win7_1.index t (1 : Fin 2) * 128 + 1 * (j 1).val = _; rw [o1])).symm

end Cert.KernelIdeal.Regions

end
-- ==== Proof.LayerJoin.lean ====
/-
  One layer of the network, as the reference computes it on the host and as the kernel program arranges it, over the
  extended reals.

  The reference multiplies the features by the layer's weight with a host dot product; the kernel program computes the
  same product tile by tile and adds a row of zeros: `x + 0 = x`.

  The reference takes the maximum over all rows of each column with one host reduction from `-∞`; the kernel program
  keeps a running maximum over 25 row tiles. Both are the supremum of the column.

-/
import proofs.«115727_j48790828483060_1_alg».proof.Proof.WholeArray
import proofs.«115727_j48790828483060_1_alg».proof.Proof.Gen.ReferenceIdeal

noncomputable section

open scoped BigOperators

namespace Cert.Bridge

open Idealize.ShloMosaic Idealize.ShloMosaic.ValueIdx Cert.KernelIdeal Cert.KernelIdeal.Gen Cert.Dense

/-! ## The host's broadcasts read at an index -/

section Layout

variable {α : Type}

/-- A vector laid out as one row reads, at `(u, q)`, the vector at `q`. -/
theorem bcast_vec_row {N : ℕ} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun a => by
    match a with
    | ⟨0, _⟩ =>
      show q.val = if N = 1 then 0 else q.val
      split
      · have := q.isLt; omega
      · rfl

/-- One row repeated on every row reads, at `(p, q)`, the row at `q`. -/
theorem bcast_row_mat {M N : ℕ} (v : (⟨2, ![1, N]⟩ : Shape).Idx → α)
    (h : (⟨2, ![1, N]⟩ : Shape).BroadcastsInDim ⟨2, ![M, N]⟩ ![0, 1]) (p : Fin M) (q : Fin N) :
    broadcastInDim ⟨2, ![M, N]⟩ ![0, 1] h v (ix2 p q) = v (ix2 (0 : Fin 1) q) :=
  broadcastInDim_apply ![0, 1] h v (ix2 p q) (ix2 (0 : Fin 1) q) fun a => by
    match a with
    | ⟨0, _⟩ => rfl
    | ⟨1, _⟩ =>
      show q.val = if N = 1 then 0 else q.val
      split
      · have := q.isLt; omega
      · rfl

/-- A scalar repeated everywhere reads the scalar. -/
theorem bcast_scalar {t : Shape} (x : (⟨0, ![]⟩ : Shape).Idx → α) (h : (⟨0, ![]⟩ : Shape).BroadcastsInDim t ![])
    (j : t.Idx) : broadcastInDim t ![] h x j = x ix0 :=
  broadcastInDim_apply ![] h x j ix0 fun a => a.elim0

end Layout

/-- The scalar zero repeated everywhere is zero. -/
theorem bcast_zero_apply {t : Shape} (h : (⟨0, ![]⟩ : Shape).BroadcastsInDim t ![]) (j : t.Idx) :
    broadcastInDim t ![] h (constant (F := Ideal) ⟨0, ![]⟩ .f32 0x00000000#32) j = (0 : EReal) := by
  rw [bcast_scalar, constant_apply, Ideal.ofBits_zero_f32]

/-! ## The product with the layer's weight -/

/-- A host dot product is the affine map with any row of zeros for its bias. -/
theorem hostDot_affine_zero {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (a : FVec Ideal ⟨2, ![M, K]⟩ .f32) (w : FVec Ideal ⟨2, ![K, N]⟩ .f32) (z : FVec Ideal ⟨2, ![1, N]⟩ .f32)
    (hz : ∀ q : Fin N, z (ix2 (0 : Fin 1) q) = 0) :
    Host.dotGeneral (F := Ideal) D none a w = affine a w z := by
  rw [hostDot_eq_mm D h1 h2 h3 h4 h5 h6]
  funext i
  obtain ⟨r, q, rfl⟩ : ∃ (r : Fin M) (q : Fin N), i = ix2 r q := ⟨i 0, i 1, eq_ix2 i⟩
  rw [mm_apply, affine_at, hz, add_zero]

/-- The first layer's product: the reference's dot product is the affine map with the kernel program's zero row. -/
theorem ref_conv144_eq (a : FVec Ideal S50000x144 .f32) (w : FVec Ideal S144x128 .f32) :
    Host.dotGeneral (F := Ideal) Cert.ReferenceIdeal.dot_S50000x144_S144x128_S50000x128_1_0_0_1_n_n none a w
      = affine a w (broadcastInDim S1x128 ![] bcast_S_S1x128 (constant (F := Ideal) S_ .f32 0x00000000#32)) :=
  hostDot_affine_zero _ rfl rfl rfl rfl rfl rfl a w _ (fun q => bcast_zero_apply _ _)

/-- The later layers' product. -/
theorem ref_conv128_eq (a : FVec Ideal S50000x128 .f32) (w : FVec Ideal S128x128 .f32) :
    Host.dotGeneral (F := Ideal) Cert.ReferenceIdeal.dot_S50000x128_S128x128_S50000x128_1_0_0_1_n_n none a w
      = affine a w (broadcastInDim S1x128 ![] bcast_S_S1x128 (constant (F := Ideal) S_ .f32 0x00000000#32)) :=
  hostDot_affine_zero _ rfl rfl rfl rfl rfl rfl a w _ (fun q => bcast_zero_apply _ _)

/-! ## The maximum over the rows -/

/-- The source index of a reduction over the rows, above column `q` with row `r`. -/
theorem lift_col {n c : ℕ} (h : (⟨2, ![n, c]⟩ : Shape).Reduces [0] ⟨1, ![c]⟩) (q : Fin c) (r : Fin n) :
    h.lift (ix1 q) r = ix2 r q :=
  funext fun a => Fin.ext (by
    show h.liftVal (ix1 q) r.val a = (ix2 r q a).val
    match a with
    | ⟨0, _⟩ => rfl
    | ⟨1, _⟩ => rfl)

/-- The host's maximum over the rows from `-∞` is the supremum of the column. -/
theorem hostColMax {n c : ℕ} (x : FVec Ideal ⟨2, ![n, c]⟩ .f32)
    (h' : (⟨2, ![n, c]⟩ : Shape).ReducesTo [0] ⟨1, ![c]⟩) (h : (⟨2, ![n, c]⟩ : Shape).Reduces [0] ⟨1, ![c]⟩)
    (hu : 0 < (⟨0, ![]⟩ : Shape).numel) (q : Fin c) :
    Host.reduce (FloatOps.maximumf (F := Ideal) (φ := .f32)) x (constant (F := Ideal) ⟨0, ![]⟩ .f32 0xFF800000#32) h' hu (ix1 q)
      = Finset.univ.sup fun r : Fin n => x (ix2 r q) := by
  refine (Host.reduce_eq_fold_single (FloatOps.maximumf (F := Ideal) (φ := .f32)) x _ h' h hu (ix1 q)).trans ?_
  have e : (fun r : Fin n => x (h.lift (ix1 q) r)) = fun r : Fin n => x (ix2 r q) :=
    funext fun r => congrArg x (lift_col h q r)
  have e0 : (Finset.univ : Finset (Fin n)).fold max (Ideal.ofBits .f32 0xFF800000#32) (fun r : Fin n => x (h.lift (ix1 q) r))
      = (Finset.univ : Finset (Fin n)).sup (fun r : Fin n => x (h.lift (ix1 q) r)) := by
    rw [ofBits_negInf_f32, fold_max_bot_eq_sup]
  exact e0.trans (congrArg (Finset.univ : Finset (Fin n)).sup e)

/-- The reference's row of column maxima at `(u, q)`. -/
theorem ref_maxRow_apply (g : FVec Ideal S50000x128 .f32) (hb : S128.BroadcastsInDim S1x128 ![1])
    (hr : S50000x128.ReducesTo [0] S128) (hu : 0 < S_.numel) (u : Fin 1) (q : Fin 128) :
    broadcastInDim S1x128 ![1] hb
        (Host.reduce (FloatOps.maximumf (F := Ideal) (φ := .f32)) g (constant (F := Ideal) S_ .f32 0xFF800000#32) hr hu) (ix2 u q)
      = Finset.univ.sup fun r : Fin 50000 => g (ix2 r q) := by
  rw [bcast_vec_row]
  exact hostColMax g hr (by decide) hu q

/-- The reference's row of column maxima is the kernel program's running maximum after all 25 tiles. -/
theorem ref_maxRow_eq_poolRun (step : FVec Ideal S2000x128 .f32 → FVec Ideal S1x128 .f32 → FVec Ideal S1x128 .f32)
    (hstep : ∀ (tile : FVec Ideal S2000x128 .f32) (acc : FVec Ideal S1x128 .f32) (u : Fin 1) (q : Fin 128),
      step tile acc (ix2 u q) = max (acc (ix2 u q)) (Finset.univ.sup fun p : Fin 2000 => tile (ix2 p q)))
    (init : FVec Ideal S1x128 .f32) (hinit : ∀ j, init j = ⊥)
    (g : FVec Ideal S50000x128 .f32) (hb : S128.BroadcastsInDim S1x128 ![1])
    (hr : S50000x128.ReducesTo [0] S128) (hu : 0 < S_.numel) :
    broadcastInDim S1x128 ![1] hb
        (Host.reduce (FloatOps.maximumf (F := Ideal) (φ := .f32)) g (constant (F := Ideal) S_ .f32 0xFF800000#32) hr hu)
      = poolRun step init g 25 le_rfl := by
  funext j
  obtain ⟨u, q, rfl⟩ : ∃ (u : Fin 1) (q : Fin 128), j = ix2 u q := ⟨j 0, j 1, eq_ix2 j⟩
  rw [ref_maxRow_apply, poolRun_all step hstep init hinit]

theorem ref_maxRow_eq_k1 (g : FVec Ideal S50000x128 .f32) (hb : S128.BroadcastsInDim S1x128 ![1])
    (hr : S50000x128.ReducesTo [0] S128) (hu : 0 < S_.numel) :
    broadcastInDim S1x128 ![1] hb
        (Host.reduce (FloatOps.maximumf (F := Ideal) (φ := .f32)) g (constant (F := Ideal) S_ .f32 0xFF800000#32) hr hu)
      = poolRun (k1_pay2 (F := Ideal)) (k1_pay1 (F := Ideal)) g 25 le_rfl :=
  ref_maxRow_eq_poolRun _ k1_pay2_apply _ k1_pay1_apply g hb hr hu

theorem ref_maxRow_eq_k4 (g : FVec Ideal S50000x128 .f32) (hb : S128.BroadcastsInDim S1x128 ![1])
    (hr : S50000x128.ReducesTo [0] S128) (hu : 0 < S_.numel) :
    broadcastInDim S1x128 ![1] hb
        (Host.reduce (FloatOps.maximumf (F := Ideal) (φ := .f32)) g (constant (F := Ideal) S_ .f32 0xFF800000#32) hr hu)
      = poolRun (k4_pay2 (F := Ideal)) (k4_pay1 (F := Ideal)) g 25 le_rfl :=
  ref_maxRow_eq_poolRun _ k4_pay2_apply _ k4_pay1_apply g hb hr hu

theorem ref_maxRow_eq_k7 (g : FVec Ideal S50000x128 .f32) (hb : S128.BroadcastsInDim S1x128 ![1])
    (hr : S50000x128.ReducesTo [0] S128) (hu : 0 < S_.numel) :
    broadcastInDim S1x128 ![1] hb
        (Host.reduce (FloatOps.maximumf (F := Ideal) (φ := .f32)) g (constant (F := Ideal) S_ .f32 0xFF800000#32) hr hu)
      = poolRun (k7_pay2 (F := Ideal)) (k7_pay1 (F := Ideal)) g 25 le_rfl :=
  ref_maxRow_eq_poolRun _ k7_pay2_apply _ k7_pay1_apply g hb hr hu

end Cert.Bridge

end
-- ==== Proof.LayerMerge.lean ====
/-
  The merge of a layer, as the reference computes it on the host and as the kernel program arranges it, over the
  extended reals.

  The reference joins every row `g(r, ·)` with the row of column maxima `mp` into a row of 256 entries, contracts it
  with the 256-row weight `M` and adds the bias `mb`. The kernel program contracts `g(r, ·)` with the first 128 rows
  of `M` and adds, to every row, the one row `mp · M[128:] + mb`. A sum over `128 + 128` indices is the sum of its
  halves, and `+` is associative: the two agree entry by entry, with no appeal to distributivity or finiteness. The
  maximum with zero, where the layer rectifies, is taken of equal arguments.
-/
import proofs.«115727_j48790828483060_1_alg».proof.Proof.LayerJoin

noncomputable section

open scoped BigOperators

namespace Cert.Bridge

open Idealize.ShloMosaic Idealize.ShloMosaic.ValueIdx Cert.KernelIdeal Cert.KernelIdeal.Gen Cert.Dense

/-! ## Two arrays joined along their columns -/

section Concat

variable {α : Type}

/-- Two `[R, 128]` arrays joined along the columns read, at column `k < 128`, the first at `k`. -/
theorem concat_cols_left {R : ℕ} (x₁ x₂ : (⟨2, ![R, 128]⟩ : Shape).Idx → α)
    (hc : Shape.Concatenates [⟨2, ![R, 128]⟩, ⟨2, ![R, 128]⟩] ⟨2, ![R, 256]⟩ 1) (r : Fin R) (k : Fin 128) :
    concatenate ⟨2, ![R, 256]⟩ 1 [⟨⟨2, ![R, 128]⟩, x₁⟩, ⟨⟨2, ![R, 128]⟩, x₂⟩] hc (ix2 r (⟨k.val, by omega⟩ : Fin 256)) = x₁ (ix2 r k) :=
  concatenate_pair_apply_left (1 : Fin 2) x₁ x₂ hc (ix2 r (⟨k.val, by omega⟩ : Fin 256)) rfl (ix2 r k) (fun b => by
    match b with
    | ⟨0, _⟩ => rfl
    | ⟨1, _⟩ => rfl)

/-- … and at column `128 + k` the second at `k`. -/
theorem concat_cols_right {R : ℕ} (x₁ x₂ : (⟨2, ![R, 128]⟩ : Shape).Idx → α)
    (hc : Shape.Concatenates [⟨2, ![R, 128]⟩, ⟨2, ![R, 128]⟩] ⟨2, ![R, 256]⟩ 1) (r : Fin R) (k : Fin 128) :
    concatenate ⟨2, ![R, 256]⟩ 1 [⟨⟨2, ![R, 128]⟩, x₁⟩, ⟨⟨2, ![R, 128]⟩, x₂⟩] hc (ix2 r (⟨128 + k.val, by omega⟩ : Fin 256)) = x₂ (ix2 r k) :=
  concatenate_pair_apply_right (1 : Fin 2) x₁ x₂ hc (ix2 r (⟨128 + k.val, by omega⟩ : Fin 256)) rfl rfl (ix2 r k) (fun b hb => by
    match b with
    | ⟨0, _⟩ => rfl
    | ⟨1, _⟩ => exact absurd rfl hb) (by show k.val + 128 = 128 + k.val; omega)

end Concat

/-! ## The merge -/

/-- The reference's merge `concat(g, rows of mp) · M + mb` is the affine map of `g` with the first half of `M` and
    the bias row `mp · M[128:] + mb`. -/
theorem hostMerge_eq {R N : ℕ}
    (D : DotDims ⟨2, ![R, 256]⟩ ⟨2, ![256, N]⟩ ⟨2, ![R, N]⟩)
    (h1 : D.lhsContracting = [1]) (h2 : D.rhsContracting = [0]) (h3 : D.lhsNonContracting = [0])
    (h4 : D.rhsNonContracting = [1]) (h5 : D.lhsBatch = []) (h6 : D.rhsBatch = [])
    (D' : DotDims ⟨2, ![1, 128]⟩ ⟨2, ![128, N]⟩ ⟨2, ![1, N]⟩)
    (h1' : D'.lhsContracting = [1]) (h2' : D'.rhsContracting = [0]) (h3' : D'.lhsNonContracting = [0])
    (h4' : D'.rhsNonContracting = [1]) (h5' : D'.lhsBatch = []) (h6' : D'.rhsBatch = [])
    (g : FVec Ideal ⟨2, ![R, 128]⟩ .f32) (mpRow : FVec Ideal ⟨2, ![1, 128]⟩ .f32)
    (Mw : FVec Ideal ⟨2, ![256, N]⟩ .f32) (mb : FVec Ideal ⟨1, ![N]⟩ .f32)
    (hc : Shape.Concatenates [⟨2, ![R, 128]⟩, ⟨2, ![R, 128]⟩] ⟨2, ![R, 256]⟩ 1)
    (hbm : (⟨2, ![1, 128]⟩ : Shape).BroadcastsInDim ⟨2, ![R, 128]⟩ ![0, 1])
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![256, N]⟩ : Shape).Slices ![0, 0] ⟨2, ![128, N]⟩)
    (hs1 : (⟨2, ![256, N]⟩ : Shape).Slices ![128, 0] ⟨2, ![128, N]⟩) :
    addf (Host.dotGeneral (F := Ideal) D none
            (concatenate ⟨2, ![R, 256]⟩ 1 [⟨⟨2, ![R, 128]⟩, g⟩, ⟨⟨2, ![R, 128]⟩, broadcastInDim ⟨2, ![R, 128]⟩ ![0, 1] hbm mpRow⟩] hc) Mw)
        (broadcastInDim ⟨2, ![R, N]⟩ ![0, 1] hb2 (broadcastInDim ⟨2, ![1, N]⟩ ![1] hb1 mb))
      = affine g (extractStridedSlice ⟨2, ![128, N]⟩ ![0, 0] Mw hs0)
          (addf (Host.dotGeneral (F := Ideal) D' none mpRow (extractStridedSlice ⟨2, ![128, N]⟩ ![128, 0] Mw hs1))
            (broadcastInDim ⟨2, ![1, N]⟩ ![1] hb1 mb)) := by
  funext i
  obtain ⟨r, q, rfl⟩ : ∃ (r : Fin R) (q : Fin N), i = ix2 r q := ⟨i 0, i 1, eq_ix2 i⟩
  rw [addf_apply, hostDot_eq_mm D h1 h2 h3 h4 h5 h6, mm_apply, bcast_row_mat, bcast_vec_row,
    affine_at, addf_apply, hostDot_eq_mm D' h1' h2' h3' h4' h5' h6', mm_apply, bcast_vec_row]
  refine merge_256 _ _ _ _ _ _ _ ?_ ?_ ?_ ?_
  · intro k
    exact concat_cols_left g _ hc r k
  · intro k
    exact (concat_cols_right g _ hc r k).trans (bcast_row_mat mpRow hbm r k)
  · intro k
    exact (slice2_axis0_apply 0 Mw hs0 k q ⟨k.val, by omega⟩ (Nat.zero_add _).symm).symm
  · intro k
    exact (slice2_axis0_apply 128 Mw hs1 k q ⟨128 + k.val, by omega⟩ rfl).symm

/-- The same under the maximum with a broadcast scalar zero. -/
theorem hostMergeRelu_eq {R N : ℕ}
    (D : DotDims ⟨2, ![R, 256]⟩ ⟨2, ![256, N]⟩ ⟨2, ![R, N]⟩)
    (h1 : D.lhsContracting = [1]) (h2 : D.rhsContracting = [0]) (h3 : D.lhsNonContracting = [0])
    (h4 : D.rhsNonContracting = [1]) (h5 : D.lhsBatch = []) (h6 : D.rhsBatch = [])
    (D' : DotDims ⟨2, ![1, 128]⟩ ⟨2, ![128, N]⟩ ⟨2, ![1, N]⟩)
    (h1' : D'.lhsContracting = [1]) (h2' : D'.rhsContracting = [0]) (h3' : D'.lhsNonContracting = [0])
    (h4' : D'.rhsNonContracting = [1]) (h5' : D'.lhsBatch = []) (h6' : D'.rhsBatch = [])
    (g : FVec Ideal ⟨2, ![R, 128]⟩ .f32) (mpRow : FVec Ideal ⟨2, ![1, 128]⟩ .f32)
    (Mw : FVec Ideal ⟨2, ![256, N]⟩ .f32) (mb : FVec Ideal ⟨1, ![N]⟩ .f32)
    (hc : Shape.Concatenates [⟨2, ![R, 128]⟩, ⟨2, ![R, 128]⟩] ⟨2, ![R, 256]⟩ 1)
    (hbm : (⟨2, ![1, 128]⟩ : Shape).BroadcastsInDim ⟨2, ![R, 128]⟩ ![0, 1])
    (hb1 : (⟨1, ![N]⟩ : Shape).BroadcastsInDim ⟨2, ![1, N]⟩ ![1])
    (hb2 : (⟨2, ![1, N]⟩ : Shape).BroadcastsInDim ⟨2, ![R, N]⟩ ![0, 1])
    (hs0 : (⟨2, ![256, N]⟩ : Shape).Slices ![0, 0] ⟨2, ![128, N]⟩)
    (hs1 : (⟨2, ![256, N]⟩ : Shape).Slices ![128, 0] ⟨2, ![128, N]⟩)
    (h0 : (⟨0, ![]⟩ : Shape).BroadcastsInDim ⟨2, ![R, N]⟩ ![]) :
    maximumf
        (addf (Host.dotGeneral (F := Ideal) D none
            (concatenate ⟨2, ![R, 256]⟩ 1 [⟨⟨2, ![R, 128]⟩, g⟩, ⟨⟨2, ![R, 128]⟩, broadcastInDim ⟨2, ![R, 128]⟩ ![0, 1] hbm mpRow⟩] hc) Mw)
          (broadcastInDim ⟨2, ![R, N]⟩ ![0, 1] hb2 (broadcastInDim ⟨2, ![1, N]⟩ ![1] hb1 mb)))
        (broadcastInDim ⟨2, ![R, N]⟩ ![] h0 (constant (F := Ideal) ⟨0, ![]⟩ .f32 0x00000000#32))
      = reluAffine g (extractStridedSlice ⟨2, ![128, N]⟩ ![0, 0] Mw hs0)
          (addf (Host.dotGeneral (F := Ideal) D' none mpRow (extractStridedSlice ⟨2, ![128, N]⟩ ![128, 0] Mw hs1))
            (broadcastInDim ⟨2, ![1, N]⟩ ![1] hb1 mb)) := by
  rw [hostMerge_eq D h1 h2 h3 h4 h5 h6 D' h1' h2' h3' h4' h5' h6' g mpRow Mw mb hc hbm hb1 hb2 hs0 hs1]
  funext i
  rw [maximumf_apply, bcast_zero_apply]
  rfl

/-- Layers 0 and 1: the reference's merge and rectification against the kernel program's third region of the layer,
    whose bias row the host computes as `mp · M[128:] + mb`. -/
theorem ref_merge128_relu_eq (g : FVec Ideal S50000x128 .f32) (mpRow : FVec Ideal S1x128 .f32)
    (Mw : FVec Ideal S256x128 .f32) (mb : FVec Ideal S128 .f32)
    (hc : Shape.Concatenates [S50000x128, S50000x128] Cert.ReferenceIdeal.S50000x256 1)
    (hbm : S1x128.BroadcastsInDim S50000x128 ![0, 1]) (hb1 : S128.BroadcastsInDim S1x128 ![1])
    (h0 : S_.BroadcastsInDim S50000x128 ![])
    (hs0 : S256x128.Slices ![0, 0] S128x128) (hs1 : S256x128.Slices ![128, 0] S128x128) :
    maximumf
        (addf (Host.dotGeneral (F := Ideal) Cert.ReferenceIdeal.dot_S50000x256_S256x128_S50000x128_1_0_0_1_n_n none
            (concatenate Cert.ReferenceIdeal.S50000x256 1 [⟨S50000x128, g⟩, ⟨S50000x128, broadcastInDim S50000x128 ![0, 1] hbm mpRow⟩] hc) Mw)
          (broadcastInDim S50000x128 ![0, 1] hbm (broadcastInDim S1x128 ![1] hb1 mb)))
        (broadcastInDim S50000x128 ![] h0 (constant (F := Ideal) S_ .f32 0x00000000#32))
      = reluAffine g (extractStridedSlice S128x128 ![0, 0] Mw hs0)
          (addf (Host.dotGeneral (F := Ideal) dot_S1x128_S128x128_S1x128_1_0_0_1_n_n none mpRow (extractStridedSlice S128x128 ![128, 0] Mw hs1))
            (broadcastInDim S1x128 ![1] hb1 mb)) :=
  hostMergeRelu_eq _ rfl rfl rfl rfl rfl rfl _ rfl rfl rfl rfl rfl rfl g mpRow Mw mb hc hbm hb1 hbm hs0 hs1 h0

/-- The last layer: 64 columns, no rectification. -/
theorem ref_merge64_eq (g : FVec Ideal S50000x128 .f32) (mpRow : FVec Ideal S1x128 .f32)
    (Mw : FVec Ideal S256x64 .f32) (mb : FVec Ideal S64 .f32)
    (hc : Shape.Concatenates [S50000x128, S50000x128] Cert.ReferenceIdeal.S50000x256 1)
    (hbm : S1x128.BroadcastsInDim S50000x128 ![0, 1]) (hb1 : S64.BroadcastsInDim S1x64 ![1])
    (hb2 : S1x64.BroadcastsInDim S50000x64 ![0, 1])
    (hs0 : S256x64.Slices ![0, 0] S128x64) (hs1 : S256x64.Slices ![128, 0] S128x64) :
    addf (Host.dotGeneral (F := Ideal) Cert.ReferenceIdeal.dot_S50000x256_S256x64_S50000x64_1_0_0_1_n_n none
            (concatenate Cert.ReferenceIdeal.S50000x256 1 [⟨S50000x128, g⟩, ⟨S50000x128, broadcastInDim S50000x128 ![0, 1] hbm mpRow⟩] hc) Mw)
        (broadcastInDim S50000x64 ![0, 1] hb2 (broadcastInDim S1x64 ![1] hb1 mb))
      = affine g (extractStridedSlice S128x64 ![0, 0] Mw hs0)
          (addf (Host.dotGeneral (F := Ideal) dot_S1x128_S128x64_S1x64_1_0_0_1_n_n none mpRow (extractStridedSlice S128x64 ![128, 0] Mw hs1))
            (broadcastInDim S1x64 ![1] hb1 mb)) :=
  hostMerge_eq _ rfl rfl rfl rfl rfl rfl _ rfl rfl rfl rfl rfl rfl g mpRow Mw mb hc hbm hb1 hb2 hs0 hs1

end Cert.Bridge

end
-- ==== Proof.LayerEq.lean ====
/-
  One whole layer: the kernel program's arrangement against the reference's, over the extended reals.

  Both sides multiply the layer's input by its weight, aggregate the product over the graph and add the bias (the same
  function `aggregate` on both sides, never opened), take the column maxima of the result `g`, and merge `g` with
  them through the 256-row weight. The kernel program's product plus a row of zeros is the reference's dot product
  (`x + 0 = x`), so both sides aggregate the same array; its running maximum over the 25 row tiles is the reference's
  reduction over all rows; and its merge with the bias row `mp · M[128:] + mb` is the reference's
  concatenate-and-contract, by splitting the sum over `128 + 128` and regrouping the three terms.
-/
import proofs.«115727_j48790828483060_1_alg».proof.Proof.LayerMerge
import proofs.«115727_j48790828483060_1_alg».proof.Proof.NetSpec

noncomputable section

open scoped BigOperators

namespace Cert.Bridge

open Idealize.ShloMosaic Idealize.ShloMosaic.ValueIdx Cert.KernelIdeal Cert.KernelIdeal.Gen Cert.Dense

/-- The first layer: 144 input features, rectified. -/
theorem layer0_eq (h : FVec Ideal S50000x144 .f32) (W : FVec Ideal S144x128 .f32) (b : FVec Ideal S128 .f32)
    (M : FVec Ideal S256x128 .f32) (mb : FVec Ideal S128 .f32) (ei : Vec Ideal S2x800000 .i32) :
    reluAffine (aggregate (F := Ideal) (affine h W (broadcastInDim S1x128 ![] bcast_S_S1x128 (constant (F := Ideal) S_ .f32 0x00000000#32))) ei b)
        (extractStridedSlice S128x128 ![0, 0] M slices_S256x128_S128x128_0_0)
        (addf (Host.dotGeneral (F := Ideal) dot_S1x128_S128x128_S1x128_1_0_0_1_n_n none
            (poolRun (k1_pay2 (F := Ideal)) (k1_pay1 (F := Ideal)) (aggregate (F := Ideal) (affine h W (broadcastInDim S1x128 ![] bcast_S_S1x128 (constant (F := Ideal) S_ .f32 0x00000000#32))) ei b) 25 le_rfl)
            (extractStridedSlice S128x128 ![128, 0] M slices_S256x128_S128x128_128_0))
          (broadcastInDim S1x128 ![1] bcast_S128_S1x128_1 mb))
      = reluRef (F := Ideal) (mergeRef (F := Ideal) (aggregate (F := Ideal) (xwRef144 (F := Ideal) h W) ei b) M mb) := by
  rw [← ref_conv144_eq h W,
    ← ref_maxRow_eq_k1 _ Cert.ReferenceIdeal.Gen.bcast_S128_S1x128_1 Cert.ReferenceIdeal.Gen.reducesTo_S50000x128_S128_d0 Cert.ReferenceIdeal.Gen.h_S_]
  exact (ref_merge128_relu_eq _ _ M mb _ _ _ _ _ _).symm

/-- The second layer: 128 input features, rectified. -/
theorem layer1_eq (h : FVec Ideal S50000x128 .f32) (W : FVec Ideal S128x128 .f32) (b : FVec Ideal S128 .f32)
    (M : FVec Ideal S256x128 .f32) (mb : FVec Ideal S128 .f32) (ei : Vec Ideal S2x800000 .i32) :
    reluAffine (aggregate (F := Ideal) (affine h W (broadcastInDim S1x128 ![] bcast_S_S1x128 (constant (F := Ideal) S_ .f32 0x00000000#32))) ei b)
        (extractStridedSlice S128x128 ![0, 0] M slices_S256x128_S128x128_0_0)
        (addf (Host.dotGeneral (F := Ideal) dot_S1x128_S128x128_S1x128_1_0_0_1_n_n none
            (poolRun (k4_pay2 (F := Ideal)) (k4_pay1 (F := Ideal)) (aggregate (F := Ideal) (affine h W (broadcastInDim S1x128 ![] bcast_S_S1x128 (constant (F := Ideal) S_ .f32 0x00000000#32))) ei b) 25 le_rfl)
            (extractStridedSlice S128x128 ![128, 0] M slices_S256x128_S128x128_128_0))
          (broadcastInDim S1x128 ![1] bcast_S128_S1x128_1 mb))
      = reluRef (F := Ideal) (mergeRef (F := Ideal) (aggregate (F := Ideal) (xwRef128 (F := Ideal) h W) ei b) M mb) := by
  rw [← ref_conv128_eq h W,
    ← ref_maxRow_eq_k4 _ Cert.ReferenceIdeal.Gen.bcast_S128_S1x128_1 Cert.ReferenceIdeal.Gen.reducesTo_S50000x128_S128_d0 Cert.ReferenceIdeal.Gen.h_S_]
  exact (ref_merge128_relu_eq _ _ M mb _ _ _ _ _ _).symm

/-- The last layer: 128 input features, 64 outputs, not rectified. -/
theorem layer2_eq (h : FVec Ideal S50000x128 .f32) (W : FVec Ideal S128x128 .f32) (b : FVec Ideal S128 .f32)
    (M : FVec Ideal S256x64 .f32) (mb : FVec Ideal S64 .f32) (ei : Vec Ideal S2x800000 .i32) :
    affine (aggregate (F := Ideal) (affine h W (broadcastInDim S1x128 ![] bcast_S_S1x128 (constant (F := Ideal) S_ .f32 0x00000000#32))) ei b)
        (extractStridedSlice S128x64 ![0, 0] M slices_S256x64_S128x64_0_0)
        (addf (Host.dotGeneral (F := Ideal) dot_S1x128_S128x64_S1x64_1_0_0_1_n_n none
            (poolRun (k7_pay2 (F := Ideal)) (k7_pay1 (F := Ideal)) (aggregate (F := Ideal) (affine h W (broadcastInDim S1x128 ![] bcast_S_S1x128 (constant (F := Ideal) S_ .f32 0x00000000#32))) ei b) 25 le_rfl)
            (extractStridedSlice S128x64 ![128, 0] M slices_S256x64_S128x64_128_0))
          (broadcastInDim S1x64 ![1] bcast_S64_S1x64_1 mb))
      = mergeRef64 (F := Ideal) (aggregate (F := Ideal) (xwRef128 (F := Ideal) h W) ei b) M mb := by
  rw [← ref_conv128_eq h W,
    ← ref_maxRow_eq_k7 _ Cert.ReferenceIdeal.Gen.bcast_S128_S1x128_1 Cert.ReferenceIdeal.Gen.reducesTo_S50000x128_S128_d0 Cert.ReferenceIdeal.Gen.h_S_]
  exact (ref_merge64_eq _ _ M mb _ _ _ _ _ _).symm

end Cert.Bridge

end
-- ==== Proof.NetEq.lean ====
/-
  The whole network: the kernel program's arrangement of the three layers against the reference's.

  A layer of the kernel program takes its input `h`, forms `h · W` plus a row of zeros, aggregates it over the graph
  and adds the bias, keeps the running column maximum of the result over the 25 row tiles, and merges the result with
  the first half of the merge weight and the bias row `mp · M[128:] + mb` (rectified in the first two layers). Each
  such layer is the reference's layer on the same input, so the composite of the three on the input features with the
  random features appended is the reference network.
-/
import proofs.«115727_j48790828483060_1_alg».proof.Proof.LayerEq

noncomputable section

open scoped BigOperators

namespace Cert.Bridge

open Idealize.ShloMosaic Idealize.ShloMosaic.ValueIdx Cert.KernelIdeal Cert.KernelIdeal.Gen Cert.Dense

/-- The kernel program's first layer: 144 input features, rectified. -/
def kerLayer0 (h : FVec Ideal S50000x144 .f32) (W : FVec Ideal S144x128 .f32) (b : FVec Ideal S128 .f32)
    (M : FVec Ideal S256x128 .f32) (mb : FVec Ideal S128 .f32) (ei : Vec Ideal S2x800000 .i32) : FVec Ideal S50000x128 .f32 :=
  reluAffine (aggregate (F := Ideal) (affine h W (broadcastInDim S1x128 ![] bcast_S_S1x128 (constant (F := Ideal) S_ .f32 0x00000000#32))) ei b)
    (extractStridedSlice S128x128 ![0, 0] M slices_S256x128_S128x128_0_0)
    (addf (Host.dotGeneral (F := Ideal) dot_S1x128_S128x128_S1x128_1_0_0_1_n_n none
        (poolRun (k1_pay2 (F := Ideal)) (k1_pay1 (F := Ideal)) (aggregate (F := Ideal) (affine h W (broadcastInDim S1x128 ![] bcast_S_S1x128 (constant (F := Ideal) S_ .f32 0x00000000#32))) ei b) 25 le_rfl)
        (extractStridedSlice S128x128 ![128, 0] M slices_S256x128_S128x128_128_0))
      (broadcastInDim S1x128 ![1] bcast_S128_S1x128_1 mb))

/-- The kernel program's second layer: 128 input features, rectified. -/
def kerLayer1 (h : FVec Ideal S50000x128 .f32) (W : FVec Ideal S128x128 .f32) (b : FVec Ideal S128 .f32)
    (M : FVec Ideal S256x128 .f32) (mb : FVec Ideal S128 .f32) (ei : Vec Ideal S2x800000 .i32) : FVec Ideal S50000x128 .f32 :=
  reluAffine (aggregate (F := Ideal) (affine h W (broadcastInDim S1x128 ![] bcast_S_S1x128 (constant (F := Ideal) S_ .f32 0x00000000#32))) ei b)
    (extractStridedSlice S128x128 ![0, 0] M slices_S256x128_S128x128_0_0)
    (addf (Host.dotGeneral (F := Ideal) dot_S1x128_S128x128_S1x128_1_0_0_1_n_n none
        (poolRun (k4_pay2 (F := Ideal)) (k4_pay1 (F := Ideal)) (aggregate (F := Ideal) (affine h W (broadcastInDim S1x128 ![] bcast_S_S1x128 (constant (F := Ideal) S_ .f32 0x00000000#32))) ei b) 25 le_rfl)
        (extractStridedSlice S128x128 ![128, 0] M slices_S256x128_S128x128_128_0))
      (broadcastInDim S1x128 ![1] bcast_S128_S1x128_1 mb))

/-- The kernel program's last layer: 128 input features, 64 outputs, not rectified. -/
def kerLayer2 (h : FVec Ideal S50000x128 .f32) (W : FVec Ideal S128x128 .f32) (b : FVec Ideal S128 .f32)
    (M : FVec Ideal S256x64 .f32) (mb : FVec Ideal S64 .f32) (ei : Vec Ideal S2x800000 .i32) : FVec Ideal S50000x64 .f32 :=
  affine (aggregate (F := Ideal) (affine h W (broadcastInDim S1x128 ![] bcast_S_S1x128 (constant (F := Ideal) S_ .f32 0x00000000#32))) ei b)
    (extractStridedSlice S128x64 ![0, 0] M slices_S256x64_S128x64_0_0)
    (addf (Host.dotGeneral (F := Ideal) dot_S1x128_S128x64_S1x64_1_0_0_1_n_n none
        (poolRun (k7_pay2 (F := Ideal)) (k7_pay1 (F := Ideal)) (aggregate (F := Ideal) (affine h W (broadcastInDim S1x128 ![] bcast_S_S1x128 (constant (F := Ideal) S_ .f32 0x00000000#32))) ei b) 25 le_rfl)
        (extractStridedSlice S128x64 ![128, 0] M slices_S256x64_S128x64_128_0))
      (broadcastInDim S1x64 ![1] bcast_S64_S1x64_1 mb))

theorem kerLayer0_eq (h : FVec Ideal S50000x144 .f32) (W : FVec Ideal S144x128 .f32) (b : FVec Ideal S128 .f32)
    (M : FVec Ideal S256x128 .f32) (mb : FVec Ideal S128 .f32) (ei : Vec Ideal S2x800000 .i32) :
    kerLayer0 h W b M mb ei
      = reluRef (F := Ideal) (mergeRef (F := Ideal) (aggregate (F := Ideal) (xwRef144 (F := Ideal) h W) ei b) M mb) :=
  layer0_eq h W b M mb ei

theorem kerLayer1_eq (h : FVec Ideal S50000x128 .f32) (W : FVec Ideal S128x128 .f32) (b : FVec Ideal S128 .f32)
    (M : FVec Ideal S256x128 .f32) (mb : FVec Ideal S128 .f32) (ei : Vec Ideal S2x800000 .i32) :
    kerLayer1 h W b M mb ei
      = reluRef (F := Ideal) (mergeRef (F := Ideal) (aggregate (F := Ideal) (xwRef128 (F := Ideal) h W) ei b) M mb) :=
  layer1_eq h W b M mb ei

theorem kerLayer2_eq (h : FVec Ideal S50000x128 .f32) (W : FVec Ideal S128x128 .f32) (b : FVec Ideal S128 .f32)
    (M : FVec Ideal S256x64 .f32) (mb : FVec Ideal S64 .f32) (ei : Vec Ideal S2x800000 .i32) :
    kerLayer2 h W b M mb ei
      = mergeRef64 (F := Ideal) (aggregate (F := Ideal) (xwRef128 (F := Ideal) h W) ei b) M mb :=
  layer2_eq h W b M mb ei

/-- The three layers of the kernel program in order, on the input features with the random features appended. -/
def kerNet (x : FVec Ideal S50000x128 .f32) (ei : Vec Ideal S2x800000 .i32) (noise : FVec Ideal S50000x16 .f32)
    (W0 : FVec Ideal S144x128 .f32) (b0 : FVec Ideal S128 .f32) (W1 : FVec Ideal S128x128 .f32) (b1 : FVec Ideal S128 .f32)
    (W2 : FVec Ideal S128x128 .f32) (b2 : FVec Ideal S128 .f32)
    (M0 : FVec Ideal S256x128 .f32) (mb0 : FVec Ideal S128 .f32) (M1 : FVec Ideal S256x128 .f32) (mb1 : FVec Ideal S128 .f32)
    (M2 : FVec Ideal S256x64 .f32) (mb2 : FVec Ideal S64 .f32) : FVec Ideal S50000x64 .f32 :=
  kerLayer2 (kerLayer1 (kerLayer0 (catIn (F := Ideal) x noise) W0 b0 M0 mb0 ei) W1 b1 M1 mb1 ei) W2 b2 M2 mb2 ei

/-- The kernel program's network is the reference network. -/
theorem kerNet_eq_refNet (x : FVec Ideal S50000x128 .f32) (ei : Vec Ideal S2x800000 .i32) (noise : FVec Ideal S50000x16 .f32)
    (W0 : FVec Ideal S144x128 .f32) (b0 : FVec Ideal S128 .f32) (W1 : FVec Ideal S128x128 .f32) (b1 : FVec Ideal S128 .f32)
    (W2 : FVec Ideal S128x128 .f32) (b2 : FVec Ideal S128 .f32)
    (M0 : FVec Ideal S256x128 .f32) (mb0 : FVec Ideal S128 .f32) (M1 : FVec Ideal S256x128 .f32) (mb1 : FVec Ideal S128 .f32)
    (M2 : FVec Ideal S256x64 .f32) (mb2 : FVec Ideal S64 .f32) :
    kerNet x ei noise W0 b0 W1 b1 W2 b2 M0 mb0 M1 mb1 M2 mb2
      = refNet (F := Ideal) x ei noise W0 b0 W1 b1 W2 b2 M0 mb0 M1 mb1 M2 mb2 := by
  unfold kerNet refNet
  rw [kerLayer0_eq, kerLayer1_eq, kerLayer2_eq]

end Cert.Bridge

end
-- ==== Proof.KernelIdealChain.lean ====
import proofs.«115727_j48790828483060_1_alg».proof.Proof.KernelIdealValueRun
import proofs.«115727_j48790828483060_1_alg».proof.Proof.KernelIdealStretches
import proofs.«115727_j48790828483060_1_alg».proof.Proof.KernelIdealLinearWhole
import proofs.«115727_j48790828483060_1_alg».proof.Proof.KernelIdealPoolWhole
import proofs.«115727_j48790828483060_1_alg».proof.Proof.NetEq

/-!
# The idealized kernel's result, stage by stage

Over the extended reals the kernel program's buffers at the boundaries between its regions and its stretches of array
operations are followed from the arguments to the result. Each dense region leaves the affine map of the whole array it
reads (its 25 tiles put together); each pooling region leaves the running maximum over all 25 tiles; each stretch leaves
fixed expressions of what it read; an argument, and each of the graph's quantities once the first stretch has written it,
is never written again. Layer by layer this names the result array as three nested "layers as the kernel computes them"
applied to the input with the random features appended.
-/

set_option maxRecDepth 16384

noncomputable section

namespace Cert.KernelIdeal.Regions

open Cert.KernelIdeal Cert.KernelIdeal.Gen
open Idealize.ShloMosaic Idealize.ShloMosaic.TcCoe
open Idealize.SL Idealize.SL.Sem
open Cert.Bridge

variable (m : (ℓ : Loc nD τ sig) → Buf (Elt Ideal) ℓ) (c : Dev nD)

/-! ## The arguments, as arrays -/
abbrev in_x : FVec Ideal S50000x128 .f32 := m ((c : Thread nD τ).loc main_arg0)
abbrev in_ei : Vec Ideal S2x800000 .i32 := m ((c : Thread nD τ).loc main_arg1)
abbrev in_noise : FVec Ideal S50000x16 .f32 := m ((c : Thread nD τ).loc main_arg3)
abbrev in_W0 : FVec Ideal S144x128 .f32 := m ((c : Thread nD τ).loc main_arg4)
abbrev in_b0 : FVec Ideal S128 .f32 := m ((c : Thread nD τ).loc main_arg5)
abbrev in_W1 : FVec Ideal S128x128 .f32 := m ((c : Thread nD τ).loc main_arg6)
abbrev in_b1 : FVec Ideal S128 .f32 := m ((c : Thread nD τ).loc main_arg7)
abbrev in_W2 : FVec Ideal S128x128 .f32 := m ((c : Thread nD τ).loc main_arg8)
abbrev in_b2 : FVec Ideal S128 .f32 := m ((c : Thread nD τ).loc main_arg9)
abbrev in_M0 : FVec Ideal S256x128 .f32 := m ((c : Thread nD τ).loc main_arg10)
abbrev in_mb0 : FVec Ideal S128 .f32 := m ((c : Thread nD τ).loc main_arg11)
abbrev in_M1 : FVec Ideal S256x128 .f32 := m ((c : Thread nD τ).loc main_arg12)
abbrev in_mb1 : FVec Ideal S128 .f32 := m ((c : Thread nD τ).loc main_arg13)
abbrev in_M2 : FVec Ideal S256x64 .f32 := m ((c : Thread nD τ).loc main_arg14)
abbrev in_mb2 : FVec Ideal S64 .f32 := m ((c : Thread nD τ).loc main_arg15)

/-! ## The stages -/

/-- The input with the random features appended. -/
def act0 : FVec Ideal S50000x144 .f32 := catIn (F := Ideal) (in_x m c) (in_noise m c)

/-- Layer 0: the dense product with the row of zeros added, -/
def prod0 : FVec Ideal S50000x128 .f32 := affine (act0 m c) (in_W0 m c) zeroRow
/-- its aggregation along the edges, -/
def agg0 : FVec Ideal S50000x128 .f32 := aggregate (F := Ideal) (prod0 m c) (in_ei m c) (in_b0 m c)
/-- the running maximum of that over all 25 tiles, -/
def pool0 : FVec Ideal S1x128 .f32 := poolRun (k1_pay2 (F := Ideal)) (k1_pay1 (F := Ideal)) (agg0 m c) 25 le_rfl
/-- and the merge, rectified. -/
def act1 : FVec Ideal S50000x128 .f32 :=
  reluAffine (agg0 m c) (upper128 (in_M0 m c)) (biasRow128 (pool0 m c) (in_M0 m c) (in_mb0 m c))

/-- Layer 1: the dense product with the row of zeros added, -/
def prod1 : FVec Ideal S50000x128 .f32 := affine (act1 m c) (in_W1 m c) zeroRow
/-- its aggregation along the edges, -/
def agg1 : FVec Ideal S50000x128 .f32 := aggregate (F := Ideal) (prod1 m c) (in_ei m c) (in_b1 m c)
/-- the running maximum of that over all 25 tiles, -/
def pool1 : FVec Ideal S1x128 .f32 := poolRun (k4_pay2 (F := Ideal)) (k4_pay1 (F := Ideal)) (agg1 m c) 25 le_rfl
/-- and the merge, rectified. -/
def act2 : FVec Ideal S50000x128 .f32 :=
  reluAffine (agg1 m c) (upper128 (in_M1 m c)) (biasRow128 (pool1 m c) (in_M1 m c) (in_mb1 m c))

/-- Layer 2: the dense product with the row of zeros added, -/
def prod2 : FVec Ideal S50000x128 .f32 := affine (act2 m c) (in_W2 m c) zeroRow
/-- its aggregation along the edges, -/
def agg2 : FVec Ideal S50000x128 .f32 := aggregate (F := Ideal) (prod2 m c) (in_ei m c) (in_b2 m c)
/-- the running maximum of that over all 25 tiles, -/
def pool2 : FVec Ideal S1x128 .f32 := poolRun (k7_pay2 (F := Ideal)) (k7_pay1 (F := Ideal)) (agg2 m c) 25 le_rfl
/-- and the merge. -/
def netOut : FVec Ideal S50000x64 .f32 :=
  affine (agg2 m c) (upper64 (in_M2 m c)) (biasRow64 (pool2 m c) (in_M2 m c) (in_mb2 m c))

/-! ## Layer 0 -/

theorem B1_in0 : B1 m c main_v4 = act0 m c := stretch0_cat (B0 m c)
theorem B1_zero0 : B1 m c main_v28 = zeroRow := stretch0_zero (B0 m c)
theorem B1_arg4 : B1 m c main_arg4 = in_W0 m c := by
  rw [B1_carry m c main_arg4 (by decide)]

/-- The dense region leaves the affine map of the whole array. -/
theorem res0_eq : res0 m c = prod0 m c := by
  unfold res0
  rw [wholeOut0]
  show ofTiles (fun n => k0_pay1 (F := Ideal) (tileAt (K := 144) (B1 m c main_v4) n) (B1 m c main_arg4) (B1 m c main_v28)) = _
  rw [B1_in0, B1_arg4, B1_zero0, ofTiles_k0]
  rfl
theorem B2_src : B2 m c main_v1 = edgeSrc (in_ei m c) := by
  rw [B2_of_ne m c main_v1 (by decide)]
  exact stretch0_src (B0 m c)
theorem B2_dst : B2 m c main_v3 = edgeDst (in_ei m c) := by
  rw [B2_of_ne m c main_v3 (by decide)]
  exact stretch0_dst (B0 m c)
theorem B2_norm : B2 m c main_v26 = edgeNorm (in_ei m c) := by
  rw [B2_of_ne m c main_v26 (by decide)]
  exact stretch0_norm (B0 m c)
theorem B2_selfw : B2 m c main_v27 = selfW (in_ei m c) := by
  rw [B2_of_ne m c main_v27 (by decide)]
  exact stretch0_selfw (B0 m c)
theorem B2_arg5 : B2 m c main_arg5 = in_b0 m c := by
  rw [B2_of_ne m c main_arg5 (by decide),
    B1_carry m c main_arg5 (by decide)]

/-- The stretch after it leaves the aggregation. -/
theorem B3_agg0 : B3 m c main_v49 = agg0 m c := by
  unfold B3
  rw [stretch1_agg, B2_res, res0_eq, B2_src, B2_dst, B2_norm, B2_selfw, B2_arg5]
  rfl

/-- The pooling region leaves the running maximum over all the tiles. -/
theorem res1_eq : res1 m c = pool0 m c := by
  unfold res1
  rw [poolWhole1]
  show poolRun (k1_pay2 (F := Ideal)) (k1_pay1 (F := Ideal)) (B3 m c main_v49) 25 le_rfl = _
  rw [B3_agg0]
  rfl
theorem B4_arg10 : B4 m c main_arg10 = in_M0 m c := by
  rw [B4_of_ne m c main_arg10 (by decide),
    B3_carry m c main_arg10 (by decide),
    B2_of_ne m c main_arg10 (by decide),
    B1_carry m c main_arg10 (by decide)]
theorem B4_arg11 : B4 m c main_arg11 = in_mb0 m c := by
  rw [B4_of_ne m c main_arg11 (by decide),
    B3_carry m c main_arg11 (by decide),
    B2_of_ne m c main_arg11 (by decide),
    B1_carry m c main_arg11 (by decide)]

theorem B5_upper0 : B5 m c main_v51 = upper128 (in_M0 m c) := by
  unfold B5
  rw [stretch2_upper, B4_arg10]
theorem B5_bias0 : B5 m c main_v55 = biasRow128 (pool0 m c) (in_M0 m c) (in_mb0 m c) := by
  unfold B5
  rw [stretch2_bias, B4_res, res1_eq, B4_arg10, B4_arg11]
theorem B5_agg0 : B5 m c main_v49 = agg0 m c := by
  rw [B5_carry m c main_v49 (by decide), B4_of_ne m c main_v49 (by decide), B3_agg0]

/-- The merging region leaves the merge of the whole array. -/
theorem res2_eq : res2 m c = act1 m c := by
  unfold res2
  rw [wholeOut2]
  show ofTiles (fun n => k2_pay1 (F := Ideal) (tileAt (K := 128) (B5 m c main_v49) n) (B5 m c main_v51) (B5 m c main_v55)) = _
  rw [B5_agg0, B5_upper0, B5_bias0, ofTiles_k2]
  rfl

/-! ## Layer 1 -/

theorem B7_in1 : B7 m c main_v56 = act1 m c := by
  rw [B7_carry m c main_v56 (by decide), B6_res, res2_eq]
theorem B7_zero1 : B7 m c main_v57 = zeroRow := by
  unfold B7; exact stretch3_zero (B6 m c)
theorem B7_arg6 : B7 m c main_arg6 = in_W1 m c := by
  rw [B7_carry m c main_arg6 (by decide),
    B6_of_ne m c main_arg6 (by decide),
    B5_carry m c main_arg6 (by decide),
    B4_of_ne m c main_arg6 (by decide),
    B3_carry m c main_arg6 (by decide),
    B2_of_ne m c main_arg6 (by decide),
    B1_carry m c main_arg6 (by decide)]

/-- The dense region leaves the affine map of the whole array. -/
theorem res3_eq : res3 m c = prod1 m c := by
  unfold res3
  rw [wholeOut3]
  show ofTiles (fun n => k3_pay1 (F := Ideal) (tileAt (K := 128) (B7 m c main_v56) n) (B7 m c main_arg6) (B7 m c main_v57)) = _
  rw [B7_in1, B7_arg6, B7_zero1, ofTiles_k3]
  rfl
theorem B8_src : B8 m c main_v1 = edgeSrc (in_ei m c) := by
  rw [B8_of_ne m c main_v1 (by decide),
    B7_carry m c main_v1 (by decide),
    B6_of_ne m c main_v1 (by decide),
    B5_carry m c main_v1 (by decide),
    B4_of_ne m c main_v1 (by decide),
    B3_carry m c main_v1 (by decide),
    B2_of_ne m c main_v1 (by decide)]
  exact stretch0_src (B0 m c)
theorem B8_dst : B8 m c main_v3 = edgeDst (in_ei m c) := by
  rw [B8_of_ne m c main_v3 (by decide),
    B7_carry m c main_v3 (by decide),
    B6_of_ne m c main_v3 (by decide),
    B5_carry m c main_v3 (by decide),
    B4_of_ne m c main_v3 (by decide),
    B3_carry m c main_v3 (by decide),
    B2_of_ne m c main_v3 (by decide)]
  exact stretch0_dst (B0 m c)
theorem B8_norm : B8 m c main_v26 = edgeNorm (in_ei m c) := by
  rw [B8_of_ne m c main_v26 (by decide),
    B7_carry m c main_v26 (by decide),
    B6_of_ne m c main_v26 (by decide),
    B5_carry m c main_v26 (by decide),
    B4_of_ne m c main_v26 (by decide),
    B3_carry m c main_v26 (by decide),
    B2_of_ne m c main_v26 (by decide)]
  exact stretch0_norm (B0 m c)
theorem B8_selfw : B8 m c main_v27 = selfW (in_ei m c) := by
  rw [B8_of_ne m c main_v27 (by decide),
    B7_carry m c main_v27 (by decide),
    B6_of_ne m c main_v27 (by decide),
    B5_carry m c main_v27 (by decide),
    B4_of_ne m c main_v27 (by decide),
    B3_carry m c main_v27 (by decide),
    B2_of_ne m c main_v27 (by decide)]
  exact stretch0_selfw (B0 m c)
theorem B8_arg7 : B8 m c main_arg7 = in_b1 m c := by
  rw [B8_of_ne m c main_arg7 (by decide),
    B7_carry m c main_arg7 (by decide),
    B6_of_ne m c main_arg7 (by decide),
    B5_carry m c main_arg7 (by decide),
    B4_of_ne m c main_arg7 (by decide),
    B3_carry m c main_arg7 (by decide),
    B2_of_ne m c main_arg7 (by decide),
    B1_carry m c main_arg7 (by decide)]

/-- The stretch after it leaves the aggregation. -/
theorem B9_agg1 : B9 m c main_v78 = agg1 m c := by
  unfold B9
  rw [stretch4_agg, B8_res, res3_eq, B8_src, B8_dst, B8_norm, B8_selfw, B8_arg7]
  rfl

/-- The pooling region leaves the running maximum over all the tiles. -/
theorem res4_eq : res4 m c = pool1 m c := by
  unfold res4
  rw [poolWhole4]
  show poolRun (k4_pay2 (F := Ideal)) (k4_pay1 (F := Ideal)) (B9 m c main_v78) 25 le_rfl = _
  rw [B9_agg1]
  rfl
theorem B10_arg12 : B10 m c main_arg12 = in_M1 m c := by
  rw [B10_of_ne m c main_arg12 (by decide),
    B9_carry m c main_arg12 (by decide),
    B8_of_ne m c main_arg12 (by decide),
    B7_carry m c main_arg12 (by decide),
    B6_of_ne m c main_arg12 (by decide),
    B5_carry m c main_arg12 (by decide),
    B4_of_ne m c main_arg12 (by decide),
    B3_carry m c main_arg12 (by decide),
    B2_of_ne m c main_arg12 (by decide),
    B1_carry m c main_arg12 (by decide)]
theorem B10_arg13 : B10 m c main_arg13 = in_mb1 m c := by
  rw [B10_of_ne m c main_arg13 (by decide),
    B9_carry m c main_arg13 (by decide),
    B8_of_ne m c main_arg13 (by decide),
    B7_carry m c main_arg13 (by decide),
    B6_of_ne m c main_arg13 (by decide),
    B5_carry m c main_arg13 (by decide),
    B4_of_ne m c main_arg13 (by decide),
    B3_carry m c main_arg13 (by decide),
    B2_of_ne m c main_arg13 (by decide),
    B1_carry m c main_arg13 (by decide)]

theorem B11_upper1 : B11 m c main_v80 = upper128 (in_M1 m c) := by
  unfold B11
  rw [stretch5_upper, B10_arg12]
theorem B11_bias1 : B11 m c main_v84 = biasRow128 (pool1 m c) (in_M1 m c) (in_mb1 m c) := by
  unfold B11
  rw [stretch5_bias, B10_res, res4_eq, B10_arg12, B10_arg13]
theorem B11_agg1 : B11 m c main_v78 = agg1 m c := by
  rw [B11_carry m c main_v78 (by decide), B10_of_ne m c main_v78 (by decide), B9_agg1]

/-- The merging region leaves the merge of the whole array. -/
theorem res5_eq : res5 m c = act2 m c := by
  unfold res5
  rw [wholeOut5]
  show ofTiles (fun n => k5_pay1 (F := Ideal) (tileAt (K := 128) (B11 m c main_v78) n) (B11 m c main_v80) (B11 m c main_v84)) = _
  rw [B11_agg1, B11_upper1, B11_bias1, ofTiles_k5]
  rfl

/-! ## Layer 2 -/

theorem B13_in2 : B13 m c main_v85 = act2 m c := by
  rw [B13_carry m c main_v85 (by decide), B12_res, res5_eq]
theorem B13_zero2 : B13 m c main_v86 = zeroRow := by
  unfold B13; exact stretch6_zero (B12 m c)
theorem B13_arg8 : B13 m c main_arg8 = in_W2 m c := by
  rw [B13_carry m c main_arg8 (by decide),
    B12_of_ne m c main_arg8 (by decide),
    B11_carry m c main_arg8 (by decide),
    B10_of_ne m c main_arg8 (by decide),
    B9_carry m c main_arg8 (by decide),
    B8_of_ne m c main_arg8 (by decide),
    B7_carry m c main_arg8 (by decide),
    B6_of_ne m c main_arg8 (by decide),
    B5_carry m c main_arg8 (by decide),
    B4_of_ne m c main_arg8 (by decide),
    B3_carry m c main_arg8 (by decide),
    B2_of_ne m c main_arg8 (by decide),
    B1_carry m c main_arg8 (by decide)]

/-- The dense region leaves the affine map of the whole array. -/
theorem res6_eq : res6 m c = prod2 m c := by
  unfold res6
  rw [wholeOut6]
  show ofTiles (fun n => k6_pay1 (F := Ideal) (tileAt (K := 128) (B13 m c main_v85) n) (B13 m c main_arg8) (B13 m c main_v86)) = _
  rw [B13_in2, B13_arg8, B13_zero2, ofTiles_k6]
  rfl
theorem B14_src : B14 m c main_v1 = edgeSrc (in_ei m c) := by
  rw [B14_of_ne m c main_v1 (by decide),
    B13_carry m c main_v1 (by decide),
    B12_of_ne m c main_v1 (by decide),
    B11_carry m c main_v1 (by decide),
    B10_of_ne m c main_v1 (by decide),
    B9_carry m c main_v1 (by decide),
    B8_of_ne m c main_v1 (by decide),
    B7_carry m c main_v1 (by decide),
    B6_of_ne m c main_v1 (by decide),
    B5_carry m c main_v1 (by decide),
    B4_of_ne m c main_v1 (by decide),
    B3_carry m c main_v1 (by decide),
    B2_of_ne m c main_v1 (by decide)]
  exact stretch0_src (B0 m c)
theorem B14_dst : B14 m c main_v3 = edgeDst (in_ei m c) := by
  rw [B14_of_ne m c main_v3 (by decide),
    B13_carry m c main_v3 (by decide),
    B12_of_ne m c main_v3 (by decide),
    B11_carry m c main_v3 (by decide),
    B10_of_ne m c main_v3 (by decide),
    B9_carry m c main_v3 (by decide),
    B8_of_ne m c main_v3 (by decide),
    B7_carry m c main_v3 (by decide),
    B6_of_ne m c main_v3 (by decide),
    B5_carry m c main_v3 (by decide),
    B4_of_ne m c main_v3 (by decide),
    B3_carry m c main_v3 (by decide),
    B2_of_ne m c main_v3 (by decide)]
  exact stretch0_dst (B0 m c)
theorem B14_norm : B14 m c main_v26 = edgeNorm (in_ei m c) := by
  rw [B14_of_ne m c main_v26 (by decide),
    B13_carry m c main_v26 (by decide),
    B12_of_ne m c main_v26 (by decide),
    B11_carry m c main_v26 (by decide),
    B10_of_ne m c main_v26 (by decide),
    B9_carry m c main_v26 (by decide),
    B8_of_ne m c main_v26 (by decide),
    B7_carry m c main_v26 (by decide),
    B6_of_ne m c main_v26 (by decide),
    B5_carry m c main_v26 (by decide),
    B4_of_ne m c main_v26 (by decide),
    B3_carry m c main_v26 (by decide),
    B2_of_ne m c main_v26 (by decide)]
  exact stretch0_norm (B0 m c)
theorem B14_selfw : B14 m c main_v27 = selfW (in_ei m c) := by
  rw [B14_of_ne m c main_v27 (by decide),
    B13_carry m c main_v27 (by decide),
    B12_of_ne m c main_v27 (by decide),
    B11_carry m c main_v27 (by decide),
    B10_of_ne m c main_v27 (by decide),
    B9_carry m c main_v27 (by decide),
    B8_of_ne m c main_v27 (by decide),
    B7_carry m c main_v27 (by decide),
    B6_of_ne m c main_v27 (by decide),
    B5_carry m c main_v27 (by decide),
    B4_of_ne m c main_v27 (by decide),
    B3_carry m c main_v27 (by decide),
    B2_of_ne m c main_v27 (by decide)]
  exact stretch0_selfw (B0 m c)
theorem B14_arg9 : B14 m c main_arg9 = in_b2 m c := by
  rw [B14_of_ne m c main_arg9 (by decide),
    B13_carry m c main_arg9 (by decide),
    B12_of_ne m c main_arg9 (by decide),
    B11_carry m c main_arg9 (by decide),
    B10_of_ne m c main_arg9 (by decide),
    B9_carry m c main_arg9 (by decide),
    B8_of_ne m c main_arg9 (by decide),
    B7_carry m c main_arg9 (by decide),
    B6_of_ne m c main_arg9 (by decide),
    B5_carry m c main_arg9 (by decide),
    B4_of_ne m c main_arg9 (by decide),
    B3_carry m c main_arg9 (by decide),
    B2_of_ne m c main_arg9 (by decide),
    B1_carry m c main_arg9 (by decide)]

/-- The stretch after it leaves the aggregation. -/
theorem B15_agg2 : B15 m c main_v107 = agg2 m c := by
  unfold B15
  rw [stretch7_agg, B14_res, res6_eq, B14_src, B14_dst, B14_norm, B14_selfw, B14_arg9]
  rfl

/-- The pooling region leaves the running maximum over all the tiles. -/
theorem res7_eq : res7 m c = pool2 m c := by
  unfold res7
  rw [poolWhole7]
  show poolRun (k7_pay2 (F := Ideal)) (k7_pay1 (F := Ideal)) (B15 m c main_v107) 25 le_rfl = _
  rw [B15_agg2]
  rfl
theorem B16_arg14 : B16 m c main_arg14 = in_M2 m c := by
  rw [B16_of_ne m c main_arg14 (by decide),
    B15_carry m c main_arg14 (by decide),
    B14_of_ne m c main_arg14 (by decide),
    B13_carry m c main_arg14 (by decide),
    B12_of_ne m c main_arg14 (by decide),
    B11_carry m c main_arg14 (by decide),
    B10_of_ne m c main_arg14 (by decide),
    B9_carry m c main_arg14 (by decide),
    B8_of_ne m c main_arg14 (by decide),
    B7_carry m c main_arg14 (by decide),
    B6_of_ne m c main_arg14 (by decide),
    B5_carry m c main_arg14 (by decide),
    B4_of_ne m c main_arg14 (by decide),
    B3_carry m c main_arg14 (by decide),
    B2_of_ne m c main_arg14 (by decide),
    B1_carry m c main_arg14 (by decide)]
theorem B16_arg15 : B16 m c main_arg15 = in_mb2 m c := by
  rw [B16_of_ne m c main_arg15 (by decide),
    B15_carry m c main_arg15 (by decide),
    B14_of_ne m c main_arg15 (by decide),
    B13_carry m c main_arg15 (by decide),
    B12_of_ne m c main_arg15 (by decide),
    B11_carry m c main_arg15 (by decide),
    B10_of_ne m c main_arg15 (by decide),
    B9_carry m c main_arg15 (by decide),
    B8_of_ne m c main_arg15 (by decide),
    B7_carry m c main_arg15 (by decide),
    B6_of_ne m c main_arg15 (by decide),
    B5_carry m c main_arg15 (by decide),
    B4_of_ne m c main_arg15 (by decide),
    B3_carry m c main_arg15 (by decide),
    B2_of_ne m c main_arg15 (by decide),
    B1_carry m c main_arg15 (by decide)]

theorem B17_upper2 : B17 m c main_v109 = upper64 (in_M2 m c) := by
  unfold B17
  rw [stretch8_upper, B16_arg14]
theorem B17_bias2 : B17 m c main_v113 = biasRow64 (pool2 m c) (in_M2 m c) (in_mb2 m c) := by
  unfold B17
  rw [stretch8_bias, B16_res, res7_eq, B16_arg14, B16_arg15]
theorem B17_agg2 : B17 m c main_v107 = agg2 m c := by
  rw [B17_carry m c main_v107 (by decide), B16_of_ne m c main_v107 (by decide), B15_agg2]

/-- The merging region leaves the merge of the whole array. -/
theorem res8_eq : res8 m c = netOut m c := by
  unfold res8
  rw [wholeOut8]
  show ofTiles (fun n => k8_pay1 (F := Ideal) (tileAt (K := 128) (B17 m c main_v107) n) (B17 m c main_v109) (B17 m c main_v113)) = _
  rw [B17_agg2, B17_upper2, B17_bias2, ofTiles_k8]
  rfl

/-! ## The stages are the kernel program's layers -/

theorem act1_eq : act1 m c = kerLayer0 (act0 m c) (in_W0 m c) (in_b0 m c) (in_M0 m c) (in_mb0 m c) (in_ei m c) := rfl
theorem act2_eq : act2 m c = kerLayer1 (act1 m c) (in_W1 m c) (in_b1 m c) (in_M1 m c) (in_mb1 m c) (in_ei m c) := rfl
theorem netOut_eq : netOut m c = kerLayer2 (act2 m c) (in_W2 m c) (in_b2 m c) (in_M2 m c) (in_mb2 m c) (in_ei m c) := rfl

/-- The result array after the program is the three layers, as the kernel computes them, of the arguments. -/
theorem kernel_stages : B18 m c main_v114 = kerNet (in_x m c) (in_ei m c) (in_noise m c) (in_W0 m c) (in_b0 m c) (in_W1 m c) (in_b1 m c)
    (in_W2 m c) (in_b2 m c) (in_M0 m c) (in_mb0 m c) (in_M1 m c) (in_mb1 m c) (in_M2 m c) (in_mb2 m c) := by
  rw [B18_result, res8_eq, netOut_eq, act2_eq, act1_eq]
  rfl

/-- The result array after the program is the reference network of the arguments. -/
theorem kernel_value (m : (ℓ : Loc nD τ sig) → Buf (Elt Ideal) ℓ) (c : Dev nD) :
    B18 m c main_v114 = Cert.Bridge.refNet (F := Ideal) (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) :=
  (kernel_stages m c).trans (kerNet_eq_refNet _ _ _ _ _ _ _ _ _ _ _ _ _ _ _)

end Cert.KernelIdeal.Regions
-- ==== Proof.RefStages.lean ====
/-
  The reference program read in stretches.

  The reference's two hundred operations are cut at the layer boundaries into seven consecutive
  stretches.  Each stretch is read from an arbitrary valuation of the buffers: at its result
  buffer it leaves the matching whole-array function of the network applied to what the
  valuation holds at the stretch's inputs, and it leaves alone every buffer it does not write.
  Composing the seven readings from the launch contents gives the network's value at the result.
-/
import proofs.«115727_j48790828483060_1_alg».proof.Proof.RefRunPatched
import proofs.«115727_j48790828483060_1_alg».proof.Proof.NetSpec

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other from a valuation is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The seven stretches -/

/-- Operations 0 to 5 of the reference, in order. -/
def seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun a b => concatenate S50000x144 1 [⟨S50000x128, a⟩, ⟨S50000x16, b⟩] concatenates_S50000x128_S50000x16_S50000x144_d1) : (⟨S50000x128, .f32⟩ : BufTy).Contents (Elt F) → (⟨S50000x16, .f32⟩ : BufTy).Contents (Elt F) → (⟨S50000x144, .f32⟩ : BufTy).Contents (Elt F)),
    binary main_v4 main_arg4 main_v5 ((fun l r => Host.dotGeneral dot_S50000x144_S144x128_S50000x128_1_0_0_1_n_n none l r) : (⟨S50000x144, .f32⟩ : BufTy).Contents (Elt F) → (⟨S144x128, .f32⟩ : BufTy).Contents (Elt F) → (⟨S50000x128, .f32⟩ : BufTy).Contents (Elt F)) ]

/-- Operations 6 to 58 of the reference, in order. -/
def seg1 : List (HloOp τ sig (Elt F)) :=
  [ nullary main_cst (constant S_ .f32 0x3F800000#32),
    unary main_cst main_v6 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v7 (broadcastInDim S50000 ![] bcast_S_S50000 : (⟨S_, .f32⟩ : BufTy).Contents (Elt F) → (⟨S50000, .f32⟩ : BufTy).Contents (Elt F)),
    unary main_v3 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v10 (broadcastInDim S50000 ![] bcast_S_S50000 : (⟨S_, .f32⟩ : BufTy).Contents (Elt F) → (⟨S50000, .f32⟩ : BufTy).Contents (Elt F)),
    binary main_v9 main_v10 main_v11 (addf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_v12 main_v18 main_v19 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v20 (broadcastInDim S800000 ![] bcast_S_S800000 : (⟨S_, .i32⟩ : BufTy).Contents (Elt F) → (⟨S800000, .i32⟩ : BufTy).Contents (Elt F)),
    binary main_v3 main_v20 main_v21 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v22 (broadcastInDim S800000 ![] bcast_S_S800000 : (⟨S_, .i32⟩ : BufTy).Contents (Elt F) → (⟨S800000, .i32⟩ : BufTy).Contents (Elt F)),
    binary main_v3 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v12 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v19 main_v26 main_v27 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v1 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v1 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v1 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v5 main_v33 main_v34 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v27 main_v35 (broadcastInDim S800000x1 ![0] bcast_S800000_S800000x1_0 : (⟨S800000, .f32⟩ : BufTy).Contents (Elt F) → (⟨S800000x1, .f32⟩ : BufTy).Contents (Elt F)),
    unary main_v35 main_v36 (broadcastInDim S800000x128 ![0, 1] bcast_S800000x1_S800000x128_0_1 : (⟨S800000x1, .f32⟩ : BufTy).Contents (Elt F) → (⟨S800000x128, .f32⟩ : BufTy).Contents (Elt F)),
    binary main_v34 main_v36 main_v37 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v12 main_v12 main_v41 (mulf : (⟨S50000, .f32⟩ : BufTy).Contents (Elt F) → (⟨S50000, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x128 ![0, 1] bcast_S50000x1_S50000x128_0_1 : (⟨S50000x1, .f32⟩ : BufTy).Contents (Elt F) → (⟨S50000x128, .f32⟩ : BufTy).Contents (Elt F)),
    binary main_v5 main_v43 main_v44 (mulf : (⟨S50000x128, .f32⟩ : BufTy).Contents (Elt F) → (⟨S50000x128, .f32⟩ : BufTy).Contents (Elt F) → (⟨S50000x128, .f32⟩ : BufTy).Contents (Elt F)),
    binary main_v40 main_v44 main_v45 (addf : (⟨S50000x128, .f32⟩ : BufTy).Contents (Elt F) → (⟨S50000x128, .f32⟩ : BufTy).Contents (Elt F) → (⟨S50000x128, .f32⟩ : BufTy).Contents (Elt F)),
    unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- Operations 59 to 71 of the reference, in order. -/
def seg2 : List (HloOp τ sig (Elt F)) :=
  [ nullary main_cst_8 (constant S_ .f32 0xFF800000#32),
    binary main_v48 main_cst_8 main_v49 ((fun x v => Host.reduce FloatOps.maximumf x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v48 main_v51 main_v52 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v52 main_arg10 main_v53 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v56) (TRef.of (T := ⟨S50000x128, .f32⟩) main_call0_v0) (TRef.of (T := ⟨S50000x128, .f32⟩) main_v57) maximumf,
    binary main_v57 main_arg6 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 72 to 124 of the reference, in order. -/
def seg3 : List (HloOp τ sig (Elt F)) :=
  [ nullary main_cst_9 (constant S_ .f32 0x3F800000#32),
    unary main_cst_9 main_v59 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v60 (broadcastInDim S50000 ![] bcast_S_S50000 : (⟨S_, .f32⟩ : BufTy).Contents (Elt F) → (⟨S50000, .f32⟩ : BufTy).Contents (Elt F)),
    unary main_v3 main_v61 (broadcastInDim S800000x1 ![0] bcast_S800000_S800000x1_0 : (⟨S800000, .i32⟩ : BufTy).Contents (Elt F) → (⟨S800000x1, .i32⟩ : BufTy).Contents (Elt F)),
    ternary main_v60 main_v61 main_v59 main_v62 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_11 (constant S_ .f32 0x3F800000#32),
    unary main_cst_11 main_v63 (broadcastInDim S50000 ![] bcast_S_S50000 : (⟨S_, .f32⟩ : BufTy).Contents (Elt F) → (⟨S50000, .f32⟩ : BufTy).Contents (Elt F)),
    binary main_v62 main_v63 main_v64 (addf : (⟨S50000, .f32⟩ : BufTy).Contents (Elt F) → (⟨S50000, .f32⟩ : BufTy).Contents (Elt F) → (⟨S50000, .f32⟩ : BufTy).Contents (Elt F)),
    unary main_v64 main_v65 (Host.rsqrt : (⟨S50000, .f32⟩ : BufTy).Contents (Elt F) → (⟨S50000, .f32⟩ : BufTy).Contents (Elt F)),
    nullary main_c_12 (constantI S_ 32 0#32),
    unary main_c_12 main_v66 (broadcastInDim S800000 ![] bcast_S_S800000 : (⟨S_, .i32⟩ : BufTy).Contents (Elt F) → (⟨S800000, .i32⟩ : BufTy).Contents (Elt F)),
    binary main_v1 main_v66 main_v67 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v68 (broadcastInDim S800000 ![] bcast_S_S800000 : (⟨S_, .i32⟩ : BufTy).Contents (Elt F) → (⟨S800000, .i32⟩ : BufTy).Contents (Elt F)),
    binary main_v1 main_v68 main_v69 (addi : (⟨S800000, .i32⟩ : BufTy).Contents (Elt F) → (⟨S800000, .i32⟩ : BufTy).Contents (Elt F) → (⟨S800000, .i32⟩ : BufTy).Contents (Elt F)),
    ternary main_v67 main_v69 main_v1 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v70 main_v71 (broadcastInDim S800000x1 ![0] bcast_S800000_S800000x1_0 : (⟨S800000, .i32⟩ : BufTy).Contents (Elt F) → (⟨S800000x1, .i32⟩ : BufTy).Contents (Elt F)),
    binary main_v65 main_v71 main_v72 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_14 (constantI S_ 32 0#32),
    unary main_c_14 main_v73 (broadcastInDim S800000 ![] bcast_S_S800000 : (⟨S_, .i32⟩ : BufTy).Contents (Elt F) → (⟨S800000, .i32⟩ : BufTy).Contents (Elt F)),
    binary main_v3 main_v73 main_v74 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v75 (broadcastInDim S800000 ![] bcast_S_S800000 : (⟨S_, .i32⟩ : BufTy).Contents (Elt F) → (⟨S800000, .i32⟩ : BufTy).Contents (Elt F)),
    binary main_v3 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v3 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v65 main_v78 main_v79 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v72 main_v79 main_v80 (mulf : (⟨S800000, .f32⟩ : BufTy).Contents (Elt F) → (⟨S800000, .f32⟩ : BufTy).Contents (Elt F) → (⟨S800000, .f32⟩ : BufTy).Contents (Elt F)),
    nullary main_c_16 (constantI S_ 32 0#32),
    unary main_c_16 main_v81 (broadcastInDim S800000 ![] bcast_S_S800000 : (⟨S_, .i32⟩ : BufTy).Contents (Elt F) → (⟨S800000, .i32⟩ : BufTy).Contents (Elt F)),
    binary main_v1 main_v81 main_v82 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v83 (broadcastInDim S800000 ![] bcast_S_S800000 : (⟨S_, .i32⟩ : BufTy).Contents (Elt F) → (⟨S800000, .i32⟩ : BufTy).Contents (Elt F)),
    binary main_v1 main_v83 main_v84 (addi : (⟨S800000, .i32⟩ : BufTy).Contents (Elt F) → (⟨S800000, .i32⟩ : BufTy).Contents (Elt F) → (⟨S800000, .i32⟩ : BufTy).Contents (Elt F)),
    ternary main_v82 main_v84 main_v1 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v85 main_v86 (broadcastInDim S800000x1 ![0] bcast_S800000_S800000x1_0 : (⟨S800000, .i32⟩ : BufTy).Contents (Elt F) → (⟨S800000x1, .i32⟩ : BufTy).Contents (Elt F)),
    binary main_v58 main_v86 main_v87 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v80 main_v88 (broadcastInDim S800000x1 ![0] bcast_S800000_S800000x1_0 : (⟨S800000, .f32⟩ : BufTy).Contents (Elt F) → (⟨S800000x1, .f32⟩ : BufTy).Contents (Elt F)),
    unary main_v88 main_v89 (broadcastInDim S800000x128 ![0, 1] bcast_S800000x1_S800000x128_0_1 : (⟨S800000x1, .f32⟩ : BufTy).Contents (Elt F) → (⟨S800000x128, .f32⟩ : BufTy).Contents (Elt F)),
    binary main_v87 main_v89 main_v90 (mulf : (⟨S800000x128, .f32⟩ : BufTy).Contents (Elt F) → (⟨S800000x128, .f32⟩ : BufTy).Contents (Elt F) → (⟨S800000x128, .f32⟩ : BufTy).Contents (Elt F)),
    nullary main_cst_18 (constant S_ .f32 0x00000000#32),
    unary main_cst_18 main_v91 (broadcastInDim S50000x128 ![] bcast_S_S50000x128 : (⟨S_, .f32⟩ : BufTy).Contents (Elt F) → (⟨S50000x128, .f32⟩ : BufTy).Contents (Elt F)),
    unary main_v3 main_v92 (broadcastInDim S800000x1 ![0] bcast_S800000_S800000x1_0 : (⟨S800000, .i32⟩ : BufTy).Contents (Elt F) → (⟨S800000x1, .i32⟩ : BufTy).Contents (Elt F)),
    ternary main_v91 main_v92 main_v90 main_v93 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v65 main_v65 main_v94 (mulf : (⟨S50000, .f32⟩ : BufTy).Contents (Elt F) → (⟨S50000, .f32⟩ : BufTy).Contents (Elt F) → (⟨S50000, .f32⟩ : BufTy).Contents (Elt F)),
    unary main_v94 main_v95 (broadcastInDim S50000x1 ![0] bcast_S50000_S50000x1_0 : (⟨S50000, .f32⟩ : BufTy).Contents (Elt F) → (⟨S50000x1, .f32⟩ : BufTy).Contents (Elt F)),
    unary main_v95 main_v96 (broadcastInDim S50000x128 ![0, 1] bcast_S50000x1_S50000x128_0_1 : (⟨S50000x1, .f32⟩ : BufTy).Contents (Elt F) → (⟨S50000x128, .f32⟩ : BufTy).Contents (Elt F)),
    binary main_v58 main_v96 main_v97 (mulf : (⟨S50000x128, .f32⟩ : BufTy).Contents (Elt F) → (⟨S50000x128, .f32⟩ : BufTy).Contents (Elt F) → (⟨S50000x128, .f32⟩ : BufTy).Contents (Elt F)),
    binary main_v93 main_v97 main_v98 (addf : (⟨S50000x128, .f32⟩ : BufTy).Contents (Elt F) → (⟨S50000x128, .f32⟩ : BufTy).Contents (Elt F) → (⟨S50000x128, .f32⟩ : BufTy).Contents (Elt F)),
    unary main_arg7 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v98 main_v100 main_v101 (addf : (⟨S50000x128, .f32⟩ : BufTy).Contents (Elt F) → (⟨S50000x128, .f32⟩ : BufTy).Contents (Elt F) → (⟨S50000x128, .f32⟩ : BufTy).Contents (Elt F)) ]

/-- Operations 125 to 137 of the reference, in order. -/
def seg4 : List (HloOp τ sig (Elt F)) :=
  [ nullary main_cst_19 (constant S_ .f32 0xFF800000#32),
    binary main_v101 main_cst_19 main_v102 ((fun x v => Host.reduce FloatOps.maximumf x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v101 main_v104 main_v105 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v105 main_arg12 main_v106 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v109) (TRef.of (T := ⟨S50000x128, .f32⟩) main_call1_v0) (TRef.of (T := ⟨S50000x128, .f32⟩) main_v110) maximumf,
    binary main_v110 main_arg8 main_v111 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 138 to 190 of the reference, in order. -/
def seg5 : List (HloOp τ sig (Elt F)) :=
  [ nullary main_cst_20 (constant S_ .f32 0x3F800000#32),
    unary main_cst_20 main_v112 (broadcastInDim S800000 ![] bcast_S_S800000 : (⟨S_, .f32⟩ : BufTy).Contents (Elt F) → (⟨S800000, .f32⟩ : BufTy).Contents (Elt F)),
    nullary main_cst_21 (constant S_ .f32 0x00000000#32),
    unary main_cst_21 main_v113 (broadcastInDim S50000 ![] bcast_S_S50000 : (⟨S_, .f32⟩ : BufTy).Contents (Elt F) → (⟨S50000, .f32⟩ : BufTy).Contents (Elt F)),
    unary main_v3 main_v114 (broadcastInDim S800000x1 ![0] bcast_S800000_S800000x1_0 : (⟨S800000, .i32⟩ : BufTy).Contents (Elt F) → (⟨S800000x1, .i32⟩ : BufTy).Contents (Elt F)),
    ternary main_v113 main_v114 main_v112 main_v115 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_22 (constant S_ .f32 0x3F800000#32),
    unary main_cst_22 main_v116 (broadcastInDim S50000 ![] bcast_S_S50000 : (⟨S_, .f32⟩ : BufTy).Contents (Elt F) → (⟨S50000, .f32⟩ : BufTy).Contents (Elt F)),
    binary main_v115 main_v116 main_v117 (addf : (⟨S50000, .f32⟩ : BufTy).Contents (Elt F) → (⟨S50000, .f32⟩ : BufTy).Contents (Elt F) → (⟨S50000, .f32⟩ : BufTy).Contents (Elt F)),
    unary main_v117 main_v118 (Host.rsqrt : (⟨S50000, .f32⟩ : BufTy).Contents (Elt F) → (⟨S50000, .f32⟩ : BufTy).Contents (Elt F)),
    nullary main_c_23 (constantI S_ 32 0#32),
    unary main_c_23 main_v119 (broadcastInDim S800000 ![] bcast_S_S800000 : (⟨S_, .i32⟩ : BufTy).Contents (Elt F) → (⟨S800000, .i32⟩ : BufTy).Contents (Elt F)),
    binary main_v1 main_v119 main_v120 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v121 (broadcastInDim S800000 ![] bcast_S_S800000 : (⟨S_, .i32⟩ : BufTy).Contents (Elt F) → (⟨S800000, .i32⟩ : BufTy).Contents (Elt F)),
    binary main_v1 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v1 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v118 main_v124 main_v125 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_25 (constantI S_ 32 0#32),
    unary main_c_25 main_v126 (broadcastInDim S800000 ![] bcast_S_S800000 : (⟨S_, .i32⟩ : BufTy).Contents (Elt F) → (⟨S800000, .i32⟩ : BufTy).Contents (Elt F)),
    binary main_v3 main_v126 main_v127 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v128 (broadcastInDim S800000 ![] bcast_S_S800000 : (⟨S_, .i32⟩ : BufTy).Contents (Elt F) → (⟨S800000, .i32⟩ : BufTy).Contents (Elt F)),
    binary main_v3 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v3 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v118 main_v131 main_v132 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v125 main_v132 main_v133 (mulf : (⟨S800000, .f32⟩ : BufTy).Contents (Elt F) → (⟨S800000, .f32⟩ : BufTy).Contents (Elt F) → (⟨S800000, .f32⟩ : BufTy).Contents (Elt F)),
    nullary main_c_27 (constantI S_ 32 0#32),
    unary main_c_27 main_v134 (broadcastInDim S800000 ![] bcast_S_S800000 : (⟨S_, .i32⟩ : BufTy).Contents (Elt F) → (⟨S800000, .i32⟩ : BufTy).Contents (Elt F)),
    binary main_v1 main_v134 main_v135 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v136 (broadcastInDim S800000 ![] bcast_S_S800000 : (⟨S_, .i32⟩ : BufTy).Contents (Elt F) → (⟨S800000, .i32⟩ : BufTy).Contents (Elt F)),
    binary main_v1 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v1 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v111 main_v139 main_v140 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v133 main_v141 (broadcastInDim S800000x1 ![0] bcast_S800000_S800000x1_0 : (⟨S800000, .f32⟩ : BufTy).Contents (Elt F) → (⟨S800000x1, .f32⟩ : BufTy).Contents (Elt F)),
    unary main_v141 main_v142 (broadcastInDim S800000x128 ![0, 1] bcast_S800000x1_S800000x128_0_1 : (⟨S800000x1, .f32⟩ : BufTy).Contents (Elt F) → (⟨S800000x128, .f32⟩ : BufTy).Contents (Elt F)),
    binary main_v140 main_v142 main_v143 (mulf : (⟨S800000x128, .f32⟩ : BufTy).Contents (Elt F) → (⟨S800000x128, .f32⟩ : BufTy).Contents (Elt F) → (⟨S800000x128, .f32⟩ : BufTy).Contents (Elt F)),
    nullary main_cst_29 (constant S_ .f32 0x00000000#32),
    unary main_cst_29 main_v144 (broadcastInDim S50000x128 ![] bcast_S_S50000x128 : (⟨S_, .f32⟩ : BufTy).Contents (Elt F) → (⟨S50000x128, .f32⟩ : BufTy).Contents (Elt F)),
    unary main_v3 main_v145 (broadcastInDim S800000x1 ![0] bcast_S800000_S800000x1_0 : (⟨S800000, .i32⟩ : BufTy).Contents (Elt F) → (⟨S800000x1, .i32⟩ : BufTy).Contents (Elt F)),
    ternary main_v144 main_v145 main_v143 main_v146 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v118 main_v118 main_v147 (mulf : (⟨S50000, .f32⟩ : BufTy).Contents (Elt F) → (⟨S50000, .f32⟩ : BufTy).Contents (Elt F) → (⟨S50000, .f32⟩ : BufTy).Contents (Elt F)),
    unary main_v147 main_v148 (broadcastInDim S50000x1 ![0] bcast_S50000_S50000x1_0 : (⟨S50000, .f32⟩ : BufTy).Contents (Elt F) → (⟨S50000x1, .f32⟩ : BufTy).Contents (Elt F)),
    unary main_v148 main_v149 (broadcastInDim S50000x128 ![0, 1] bcast_S50000x1_S50000x128_0_1 : (⟨S50000x1, .f32⟩ : BufTy).Contents (Elt F) → (⟨S50000x128, .f32⟩ : BufTy).Contents (Elt F)),
    binary main_v111 main_v149 main_v150 (mulf : (⟨S50000x128, .f32⟩ : BufTy).Contents (Elt F) → (⟨S50000x128, .f32⟩ : BufTy).Contents (Elt F) → (⟨S50000x128, .f32⟩ : BufTy).Contents (Elt F)),
    binary main_v146 main_v150 main_v151 (addf : (⟨S50000x128, .f32⟩ : BufTy).Contents (Elt F) → (⟨S50000x128, .f32⟩ : BufTy).Contents (Elt F) → (⟨S50000x128, .f32⟩ : BufTy).Contents (Elt F)),
    unary main_arg9 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v151 main_v153 main_v154 (addf : (⟨S50000x128, .f32⟩ : BufTy).Contents (Elt F) → (⟨S50000x128, .f32⟩ : BufTy).Contents (Elt F) → (⟨S50000x128, .f32⟩ : BufTy).Contents (Elt F)) ]

/-- Operations 191 to 199 of the reference, in order. -/
def seg6 : List (HloOp τ sig (Elt F)) :=
  [ nullary main_cst_30 (constant S_ .f32 0xFF800000#32),
    binary main_v154 main_cst_30 main_v155 ((fun x v => Host.reduce FloatOps.maximumf x v reducesTo_S50000x128_S128_d0 h_S_) : (⟨S50000x128, .f32⟩ : BufTy).Contents (Elt F) → (⟨S_, .f32⟩ : BufTy).Contents (Elt F) → (⟨S128, .f32⟩ : BufTy).Contents (Elt F)),
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S50000x128 ![0, 1] bcast_S1x128_S50000x128_0_1 : (⟨S1x128, .f32⟩ : BufTy).Contents (Elt F) → (⟨S50000x128, .f32⟩ : BufTy).Contents (Elt F)),
    binary main_v154 main_v157 main_v158 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v158 main_arg14 main_v159 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    unary main_arg15 main_v160 (broadcastInDim S1x64 ![1] bcast_S64_S1x64_1 : (⟨S64, .f32⟩ : BufTy).Contents (Elt F) → (⟨S1x64, .f32⟩ : BufTy).Contents (Elt F)),
    unary main_v160 main_v161 (broadcastInDim S50000x64 ![0, 1] bcast_S1x64_S50000x64_0_1 : (⟨S1x64, .f32⟩ : BufTy).Contents (Elt F) → (⟨S50000x64, .f32⟩ : BufTy).Contents (Elt F)),
    binary main_v159 main_v161 main_v162 (addf : (⟨S50000x64, .f32⟩ : BufTy).Contents (Elt F) → (⟨S50000x64, .f32⟩ : BufTy).Contents (Elt F) → (⟨S50000x64, .f32⟩ : BufTy).Contents (Elt F)) ]

set_option maxRecDepth 16384 in
set_option maxHeartbeats 4000000 in
/-- The reference's operations are the seven stretches in order. -/
theorem ops_split : (ValueP.ops : List (HloOp τ sig (Elt F))) = seg0 ++ (seg1 ++ (seg2 ++ (seg3 ++ (seg4 ++ (seg5 ++ seg6))))) := rfl

/-! ## What each stretch leaves at its result -/

set_option maxRecDepth 16384 in
set_option maxHeartbeats 4000000 in
theorem seg0_main_v1 (W : Valuation τ sig (Elt F)) :
    after seg0 W (Proc.devRef .tc main_v1) = edgeSrc (W (Proc.devRef .tc main_arg1)) := by
  unfold seg0
  after_results
  rfl

set_option maxRecDepth 16384 in
set_option maxHeartbeats 4000000 in
theorem seg0_main_v3 (W : Valuation τ sig (Elt F)) :
    after seg0 W (Proc.devRef .tc main_v3) = edgeDst (W (Proc.devRef .tc main_arg1)) := by
  unfold seg0
  after_results
  rfl

set_option maxRecDepth 16384 in
set_option maxHeartbeats 4000000 in
theorem seg0_main_v5 (W : Valuation τ sig (Elt F)) :
    after seg0 W (Proc.devRef .tc main_v5) = xwRef144 (catIn (W (Proc.devRef .tc main_arg0)) (W (Proc.devRef .tc main_arg3))) (W (Proc.devRef .tc main_arg4)) := by
  unfold seg0
  after_results
  rfl

set_option maxRecDepth 16384 in
set_option maxHeartbeats 4000000 in
theorem seg1_main_v48 (W : Valuation τ sig (Elt F)) :
    after seg1 W (Proc.devRef .tc main_v48) = aggregateOf (W (Proc.devRef .tc main_v5)) (W (Proc.devRef .tc main_v1)) (W (Proc.devRef .tc main_v3)) (W (Proc.devRef .tc main_arg5)) := by
  unfold seg1
  after_results_simp
  rfl

set_option maxRecDepth 16384 in
set_option maxHeartbeats 4000000 in
theorem seg2_main_v58 (W : Valuation τ sig (Elt F)) :
    after seg2 W (Proc.devRef .tc main_v58) = xwRef128 (reluRef (mergeRef (W (Proc.devRef .tc main_v48)) (W (Proc.devRef .tc main_arg10)) (W (Proc.devRef .tc main_arg11)))) (W (Proc.devRef .tc main_arg6)) := by
  unfold seg2
  after_results
  rfl

set_option maxRecDepth 16384 in
set_option maxHeartbeats 4000000 in
theorem seg3_main_v101 (W : Valuation τ sig (Elt F)) :
    after seg3 W (Proc.devRef .tc main_v101) = aggregateOf (W (Proc.devRef .tc main_v58)) (W (Proc.devRef .tc main_v1)) (W (Proc.devRef .tc main_v3)) (W (Proc.devRef .tc main_arg7)) := by
  unfold seg3
  after_results_simp
  rfl

set_option maxRecDepth 16384 in
set_option maxHeartbeats 4000000 in
theorem seg4_main_v111 (W : Valuation τ sig (Elt F)) :
    after seg4 W (Proc.devRef .tc main_v111) = xwRef128 (reluRef (mergeRef (W (Proc.devRef .tc main_v101)) (W (Proc.devRef .tc main_arg12)) (W (Proc.devRef .tc main_arg13)))) (W (Proc.devRef .tc main_arg8)) := by
  unfold seg4
  after_results
  rfl

set_option maxRecDepth 16384 in
set_option maxHeartbeats 4000000 in
theorem seg5_main_v154 (W : Valuation τ sig (Elt F)) :
    after seg5 W (Proc.devRef .tc main_v154) = aggregateOf (W (Proc.devRef .tc main_v111)) (W (Proc.devRef .tc main_v1)) (W (Proc.devRef .tc main_v3)) (W (Proc.devRef .tc main_arg9)) := by
  unfold seg5
  after_results_simp
  rfl

set_option maxRecDepth 16384 in
set_option maxHeartbeats 4000000 in
theorem seg6_main_v162 (W : Valuation τ sig (Elt F)) :
    after seg6 W (Proc.devRef .tc main_v162) = mergeRef64 (W (Proc.devRef .tc main_v154)) (W (Proc.devRef .tc main_arg14)) (W (Proc.devRef .tc main_arg15)) := by
  unfold seg6
  after_results
  rfl

/-! ## What each stretch leaves alone -/

/-- The buffers stretch 0 writes. -/
abbrev seg0_W : List (Ref sig .tc) := [main_v0, main_v1, main_v2, main_v3, main_v4, main_v5]
set_option maxRecDepth 16384 in
set_option maxHeartbeats 4000000 in
theorem seg0_writes : (seg0 : List (HloOp τ sig (Elt F))).Forall fun op => op.writes ⊆ (seg0_W.map (Proc.devRef (τ := τ) .tc)).toFinset := by
  unfold seg0
  simp only [List.Forall, nullary_writes, unary_writes, binary_writes, ternary_writes, reshape_writes, Finset.singleton_subset_iff, List.mem_toFinset]
  and_intros <;> exact List.mem_map_of_mem (by decide)
/-- A buffer stretch 0 does not write holds afterwards what it held before. -/
theorem seg0_keep (W : Valuation τ sig (Elt F)) {r : Ref sig .tc} (h : r ∉ seg0_W) :
    after seg0 W (Proc.devRef .tc r) = W (Proc.devRef .tc r) :=
  after_of_writes_sub seg0 W seg0_writes h

/-- The buffers stretch 1 writes. -/
abbrev seg1_W : List (Ref sig .tc) := [main_cst, main_v6, main_cst_0, main_v7, main_v8, main_v9, main_cst_1, main_v10, main_v11, main_v12, main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_cst_7, main_v38, main_v39, main_v40, main_v41, main_v42, main_v43, main_v44, main_v45, main_v46, main_v47, main_v48]
set_option maxRecDepth 16384 in
set_option maxHeartbeats 4000000 in
theorem seg1_writes : (seg1 : List (HloOp τ sig (Elt F))).Forall fun op => op.writes ⊆ (seg1_W.map (Proc.devRef (τ := τ) .tc)).toFinset := by
  unfold seg1
  simp only [List.Forall, nullary_writes, unary_writes, binary_writes, ternary_writes, reshape_writes, Finset.singleton_subset_iff, List.mem_toFinset]
  and_intros <;> exact List.mem_map_of_mem (by decide)
/-- A buffer stretch 1 does not write holds afterwards what it held before. -/
theorem seg1_keep (W : Valuation τ sig (Elt F)) {r : Ref sig .tc} (h : r ∉ seg1_W) :
    after seg1 W (Proc.devRef .tc r) = W (Proc.devRef .tc r) :=
  after_of_writes_sub seg1 W seg1_writes h

/-- The buffers stretch 2 writes. -/
abbrev seg2_W : List (Ref sig .tc) := [main_cst_8, main_v49, main_v50, main_v51, main_v52, main_v53, main_v54, main_v55, main_v56, main_call0_cst, main_call0_v0, main_v57, main_v58]
set_option maxRecDepth 16384 in
set_option maxHeartbeats 4000000 in
theorem seg2_writes : (seg2 : List (HloOp τ sig (Elt F))).Forall fun op => op.writes ⊆ (seg2_W.map (Proc.devRef (τ := τ) .tc)).toFinset := by
  unfold seg2
  simp only [List.Forall, nullary_writes, unary_writes, binary_writes, ternary_writes, reshape_writes, Finset.singleton_subset_iff, List.mem_toFinset]
  and_intros <;> exact List.mem_map_of_mem (by decide)
/-- A buffer stretch 2 does not write holds afterwards what it held before. -/
theorem seg2_keep (W : Valuation τ sig (Elt F)) {r : Ref sig .tc} (h : r ∉ seg2_W) :
    after seg2 W (Proc.devRef .tc r) = W (Proc.devRef .tc r) :=
  after_of_writes_sub seg2 W seg2_writes h

/-- The buffers stretch 3 writes. -/
abbrev seg3_W : List (Ref sig .tc) := [main_cst_9, main_v59, main_cst_10, main_v60, main_v61, main_v62, main_cst_11, main_v63, main_v64, main_v65, main_c_12, main_v66, main_v67, main_c_13, main_v68, main_v69, main_v70, main_v71, main_v72, main_c_14, main_v73, main_v74, main_c_15, main_v75, main_v76, main_v77, main_v78, main_v79, main_v80, main_c_16, main_v81, main_v82, main_c_17, main_v83, main_v84, main_v85, main_v86, main_v87, main_v88, main_v89, main_v90, main_cst_18, main_v91, main_v92, main_v93, main_v94, main_v95, main_v96, main_v97, main_v98, main_v99, main_v100, main_v101]
set_option maxRecDepth 16384 in
set_option maxHeartbeats 4000000 in
theorem seg3_writes : (seg3 : List (HloOp τ sig (Elt F))).Forall fun op => op.writes ⊆ (seg3_W.map (Proc.devRef (τ := τ) .tc)).toFinset := by
  unfold seg3
  simp only [List.Forall, nullary_writes, unary_writes, binary_writes, ternary_writes, reshape_writes, Finset.singleton_subset_iff, List.mem_toFinset]
  and_intros <;> exact List.mem_map_of_mem (by decide)
/-- A buffer stretch 3 does not write holds afterwards what it held before. -/
theorem seg3_keep (W : Valuation τ sig (Elt F)) {r : Ref sig .tc} (h : r ∉ seg3_W) :
    after seg3 W (Proc.devRef .tc r) = W (Proc.devRef .tc r) :=
  after_of_writes_sub seg3 W seg3_writes h

/-- The buffers stretch 4 writes. -/
abbrev seg4_W : List (Ref sig .tc) := [main_cst_19, main_v102, main_v103, main_v104, main_v105, main_v106, main_v107, main_v108, main_v109, main_call1_cst, main_call1_v0, main_v110, main_v111]
set_option maxRecDepth 16384 in
set_option maxHeartbeats 4000000 in
theorem seg4_writes : (seg4 : List (HloOp τ sig (Elt F))).Forall fun op => op.writes ⊆ (seg4_W.map (Proc.devRef (τ := τ) .tc)).toFinset := by
  unfold seg4
  simp only [List.Forall, nullary_writes, unary_writes, binary_writes, ternary_writes, reshape_writes, Finset.singleton_subset_iff, List.mem_toFinset]
  and_intros <;> exact List.mem_map_of_mem (by decide)
/-- A buffer stretch 4 does not write holds afterwards what it held before. -/
theorem seg4_keep (W : Valuation τ sig (Elt F)) {r : Ref sig .tc} (h : r ∉ seg4_W) :
    after seg4 W (Proc.devRef .tc r) = W (Proc.devRef .tc r) :=
  after_of_writes_sub seg4 W seg4_writes h

/-- The buffers stretch 5 writes. -/
abbrev seg5_W : List (Ref sig .tc) := [main_cst_20, main_v112, main_cst_21, main_v113, main_v114, main_v115, main_cst_22, main_v116, main_v117, main_v118, main_c_23, main_v119, main_v120, main_c_24, main_v121, main_v122, main_v123, main_v124, main_v125, main_c_25, main_v126, main_v127, main_c_26, main_v128, main_v129, main_v130, main_v131, main_v132, main_v133, main_c_27, main_v134, main_v135, main_c_28, main_v136, main_v137, main_v138, main_v139, main_v140, main_v141, main_v142, main_v143, main_cst_29, main_v144, main_v145, main_v146, main_v147, main_v148, main_v149, main_v150, main_v151, main_v152, main_v153, main_v154]
set_option maxRecDepth 16384 in
set_option maxHeartbeats 4000000 in
theorem seg5_writes : (seg5 : List (HloOp τ sig (Elt F))).Forall fun op => op.writes ⊆ (seg5_W.map (Proc.devRef (τ := τ) .tc)).toFinset := by
  unfold seg5
  simp only [List.Forall, nullary_writes, unary_writes, binary_writes, ternary_writes, reshape_writes, Finset.singleton_subset_iff, List.mem_toFinset]
  and_intros <;> exact List.mem_map_of_mem (by decide)
/-- A buffer stretch 5 does not write holds afterwards what it held before. -/
theorem seg5_keep (W : Valuation τ sig (Elt F)) {r : Ref sig .tc} (h : r ∉ seg5_W) :
    after seg5 W (Proc.devRef .tc r) = W (Proc.devRef .tc r) :=
  after_of_writes_sub seg5 W seg5_writes h

/-- The buffers stretch 6 writes. -/
abbrev seg6_W : List (Ref sig .tc) := [main_cst_30, main_v155, main_v156, main_v157, main_v158, main_v159, main_v160, main_v161, main_v162]
set_option maxRecDepth 16384 in
set_option maxHeartbeats 4000000 in
theorem seg6_writes : (seg6 : List (HloOp τ sig (Elt F))).Forall fun op => op.writes ⊆ (seg6_W.map (Proc.devRef (τ := τ) .tc)).toFinset := by
  unfold seg6
  simp only [List.Forall, nullary_writes, unary_writes, binary_writes, ternary_writes, reshape_writes, Finset.singleton_subset_iff, List.mem_toFinset]
  and_intros <;> exact List.mem_map_of_mem (by decide)
/-- A buffer stretch 6 does not write holds afterwards what it held before. -/
theorem seg6_keep (W : Valuation τ sig (Elt F)) {r : Ref sig .tc} (h : r ∉ seg6_W) :
    after seg6 W (Proc.devRef .tc r) = W (Proc.devRef .tc r) :=
  after_of_writes_sub seg6 W seg6_writes h

/-! ## The whole reference -/

set_option maxRecDepth 16384 in
set_option maxHeartbeats 4000000 in
/-- From the launch contents the reference leaves at its result buffer the network's value of the
    fifteen arguments it reads (the third argument is read by no operation). -/
theorem refValue (m : (ℓ : Loc nD τ sig) → Buf (Elt F) ℓ) (c : Dev nD) :
    after (ValueP.ops : List (HloOp τ sig (Elt F))) (launchContents m c) (Proc.devRef .tc main_v162)
      = refNet (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [ops_split]
  simp only [after_append]
  rw [seg6_main_v162]
  rw [seg5_main_v154,
    seg5_keep _ (r := main_arg14) (by decide),
    seg5_keep _ (r := main_arg15) (by decide)]
  rw [seg4_main_v111,
    seg4_keep _ (r := main_v1) (by decide),
    seg4_keep _ (r := main_v3) (by decide),
    seg4_keep _ (r := main_arg9) (by decide),
    seg4_keep _ (r := main_arg14) (by decide),
    seg4_keep _ (r := main_arg15) (by decide)]
  rw [seg3_main_v101,
    seg3_keep _ (r := main_v1) (by decide),
    seg3_keep _ (r := main_v3) (by decide),
    seg3_keep _ (r := main_arg12) (by decide),
    seg3_keep _ (r := main_arg13) (by decide),
    seg3_keep _ (r := main_arg8) (by decide),
    seg3_keep _ (r := main_arg9) (by decide),
    seg3_keep _ (r := main_arg14) (by decide),
    seg3_keep _ (r := main_arg15) (by decide)]
  rw [seg2_main_v58,
    seg2_keep _ (r := main_v1) (by decide),
    seg2_keep _ (r := main_v3) (by decide),
    seg2_keep _ (r := main_arg7) (by decide),
    seg2_keep _ (r := main_arg12) (by decide),
    seg2_keep _ (r := main_arg13) (by decide),
    seg2_keep _ (r := main_arg8) (by decide),
    seg2_keep _ (r := main_arg9) (by decide),
    seg2_keep _ (r := main_arg14) (by decide),
    seg2_keep _ (r := main_arg15) (by decide)]
  rw [seg1_main_v48,
    seg1_keep _ (r := main_v1) (by decide),
    seg1_keep _ (r := main_v3) (by decide),
    seg1_keep _ (r := main_arg10) (by decide),
    seg1_keep _ (r := main_arg11) (by decide),
    seg1_keep _ (r := main_arg6) (by decide),
    seg1_keep _ (r := main_arg7) (by decide),
    seg1_keep _ (r := main_arg12) (by decide),
    seg1_keep _ (r := main_arg13) (by decide),
    seg1_keep _ (r := main_arg8) (by decide),
    seg1_keep _ (r := main_arg9) (by decide),
    seg1_keep _ (r := main_arg14) (by decide),
    seg1_keep _ (r := main_arg15) (by decide)]
  rw [seg0_main_v5, seg0_main_v1, seg0_main_v3,
    seg0_keep _ (r := main_arg5) (by decide),
    seg0_keep _ (r := main_arg10) (by decide),
    seg0_keep _ (r := main_arg11) (by decide),
    seg0_keep _ (r := main_arg6) (by decide),
    seg0_keep _ (r := main_arg7) (by decide),
    seg0_keep _ (r := main_arg12) (by decide),
    seg0_keep _ (r := main_arg13) (by decide),
    seg0_keep _ (r := main_arg8) (by decide),
    seg0_keep _ (r := main_arg9) (by decide),
    seg0_keep _ (r := main_arg14) (by decide),
    seg0_keep _ (r := main_arg15) (by decide)]
  simp only [← aggregate_eq_of]
  rfl

end Cert.Bridge

end
-- ==== Proof.lean ====
/-
  A three-layer graph network on 50000 nodes and 800000 edges, computed two ways.

  Each layer multiplies the node features by a weight, aggregates along the edges with the symmetric degree normalisation
  (gather, scale, scatter-add, a self term, a bias), takes the maximum of every feature over all nodes, and merges each
  node's features with that maximum row through a second weight (followed by a maximum against zero in the first two
  layers). The reference does all of it with whole-array operations; its merge multiplies the concatenation
  [features, maximum row] by the merge weight M. The kernel computes the two dense products tile by tile (25 tiles of 2000
  rows: a matrix product into a zero accumulator plus a one-row bias), the maximum as a running maximum over the 25 tiles
  from -inf, and the merge as features · M[:128] + (maximum row · M[128:] + bias), the bracket a one-row bias.

  On the extended reals the two agree, index by index: a product plus a zero row is the product; a maximum over 50000
  rows is the maximum of the 25 tile maxima; and a sum over the 256 columns of the concatenation splits into its two
  halves of 128, so that (Σ h·M_lo + Σ mp·M_hi) + b = Σ h·M_lo + (Σ mp·M_hi + b) — only associativity and commutativity of
  addition, which hold at the infinities too. The edge stages are spelt alike in both programs and are carried as one
  function, never opened. The frames: the kernel program is nine kernel regions among nine stretches of host operations;
  each region is a segment record over the buffers' contents between the items (the regions' own modules), and no argument
  array is written anywhere. The idealization rewrote nothing, so `preserves` is trivial.
-/
import proofs.«115727_j48790828483060_1_alg».proof.Defs
import proofs.«115727_j48790828483060_1_alg».proof.Proof.Gen.Kernel
import proofs.«115727_j48790828483060_1_alg».proof.Proof.Gen.KernelIdeal
import proofs.«115727_j48790828483060_1_alg».proof.Proof.Gen.ReferenceIdeal
import proofs.«115727_j48790828483060_1_alg».proof.Proof.Gen.Pre_finite_inputs
import proofs.«115727_j48790828483060_1_alg».proof.Proof.KernelRun
import proofs.«115727_j48790828483060_1_alg».proof.Proof.KernelIdealValueRun
import proofs.«115727_j48790828483060_1_alg».proof.Proof.KernelIdealChain
import proofs.«115727_j48790828483060_1_alg».proof.Proof.RefRunPatched
import proofs.«115727_j48790828483060_1_alg».proof.Proof.RefStages
import Idealize.ShloMosaic.Adequacy
import Idealize.ShloMosaic.Init

noncomputable section

namespace Cert.Proof

open Idealize.ShloMosaic Idealize.ShloMosaic.TcCoe Idealize.SL.Sem

/-- The word-level program runs to the end, faults nowhere, and leaves its arguments as launched. -/
theorem frame_kernel : Cert.frame_Kernel (hKernel := Cert.Kernel.Gen.facts) (hPre_finite_inputs := Cert.Pre_finite_inputs.Gen.facts) :=
  fun m ρ _ => Cert.Kernel.Regions.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Regions.frame m ρ

/-- The reference is a straight line of host operations: its run leaves the arguments untouched. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the network's value of the arguments in their result arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Bridge.refNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Regions.run_boundaries (F := Ideal) m ρ)
    exact ⟨(h c _ (Cert.KernelIdeal.Regions.mem_ucRefs Cert.KernelIdeal.main_v114 (by decide))).trans (Cert.KernelIdeal.Regions.kernel_value m c),
      (h c _ (Cert.KernelIdeal.Regions.mem_ucRefs Cert.KernelIdeal.main_arg0 (by decide))).trans (Cert.KernelIdeal.Regions.B18_arg0 m c),
      (h c _ (Cert.KernelIdeal.Regions.mem_ucRefs Cert.KernelIdeal.main_arg1 (by decide))).trans (Cert.KernelIdeal.Regions.B18_arg1 m c),
      (h c _ (Cert.KernelIdeal.Regions.mem_ucRefs Cert.KernelIdeal.main_arg2 (by decide))).trans (Cert.KernelIdeal.Regions.B18_arg2 m c),
      (h c _ (Cert.KernelIdeal.Regions.mem_ucRefs Cert.KernelIdeal.main_arg3 (by decide))).trans (Cert.KernelIdeal.Regions.B18_arg3 m c),
      (h c _ (Cert.KernelIdeal.Regions.mem_ucRefs Cert.KernelIdeal.main_arg4 (by decide))).trans (Cert.KernelIdeal.Regions.B18_arg4 m c),
      (h c _ (Cert.KernelIdeal.Regions.mem_ucRefs Cert.KernelIdeal.main_arg5 (by decide))).trans (Cert.KernelIdeal.Regions.B18_arg5 m c),
      (h c _ (Cert.KernelIdeal.Regions.mem_ucRefs Cert.KernelIdeal.main_arg6 (by decide))).trans (Cert.KernelIdeal.Regions.B18_arg6 m c),
      (h c _ (Cert.KernelIdeal.Regions.mem_ucRefs Cert.KernelIdeal.main_arg7 (by decide))).trans (Cert.KernelIdeal.Regions.B18_arg7 m c),
      (h c _ (Cert.KernelIdeal.Regions.mem_ucRefs Cert.KernelIdeal.main_arg8 (by decide))).trans (Cert.KernelIdeal.Regions.B18_arg8 m c),
      (h c _ (Cert.KernelIdeal.Regions.mem_ucRefs Cert.KernelIdeal.main_arg9 (by decide))).trans (Cert.KernelIdeal.Regions.B18_arg9 m c),
      (h c _ (Cert.KernelIdeal.Regions.mem_ucRefs Cert.KernelIdeal.main_arg10 (by decide))).trans (Cert.KernelIdeal.Regions.B18_arg10 m c),
      (h c _ (Cert.KernelIdeal.Regions.mem_ucRefs Cert.KernelIdeal.main_arg11 (by decide))).trans (Cert.KernelIdeal.Regions.B18_arg11 m c),
      (h c _ (Cert.KernelIdeal.Regions.mem_ucRefs Cert.KernelIdeal.main_arg12 (by decide))).trans (Cert.KernelIdeal.Regions.B18_arg12 m c),
      (h c _ (Cert.KernelIdeal.Regions.mem_ucRefs Cert.KernelIdeal.main_arg13 (by decide))).trans (Cert.KernelIdeal.Regions.B18_arg13 m c),
      (h c _ (Cert.KernelIdeal.Regions.mem_ucRefs Cert.KernelIdeal.main_arg14 (by decide))).trans (Cert.KernelIdeal.Regions.B18_arg14 m c),
      (h c _ (Cert.KernelIdeal.Regions.mem_ucRefs Cert.KernelIdeal.main_arg15 (by decide))).trans (Cert.KernelIdeal.Regions.B18_arg15 m c)⟩
  · refine (θ_run Cert.ReferenceIdeal.defs _ _).mono (fun r h c => ⟨(h c).1.trans ?_, (h c).2⟩) (Cert.ReferenceIdeal.ValueP.run (F := Ideal) m' ρ')
    rw [Cert.Bridge.refValue m' c]
    rw [(hagree c).1]
    rw [(hagree c).2.1]
    rw [(hagree c).2.2.2.1]
    rw [(hagree c).2.2.2.2.1]
    rw [(hagree c).2.2.2.2.2.1]
    rw [(hagree c).2.2.2.2.2.2.1]
    rw [(hagree c).2.2.2.2.2.2.2.1]
    rw [(hagree c).2.2.2.2.2.2.2.2.1]
    rw [(hagree c).2.2.2.2.2.2.2.2.2.1]
    rw [(hagree c).2.2.2.2.2.2.2.2.2.2.1]
    rw [(hagree c).2.2.2.2.2.2.2.2.2.2.2.1]
    rw [(hagree c).2.2.2.2.2.2.2.2.2.2.2.2.1]
    rw [(hagree c).2.2.2.2.2.2.2.2.2.2.2.2.2.1]
    rw [(hagree c).2.2.2.2.2.2.2.2.2.2.2.2.2.2.1]
    rw [(hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
